-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S8192 : Shape := ⟨1, ![8192]⟩
abbrev S2x128x128 : Shape := ⟨3, ![2, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S8192 : S_.BroadcastsInDim S8192 (![] : Fin 0 → Fin S8192.rank)
  reducesTo_S8192_S_d0 : S8192.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg3 : IVec S131072 32) (main_v100 : IVec S_ 1) (main_v101 : IVec S131072 32) : IVec S_ 1 :=
  let main_v102 : IVec S131072 1 := cmpi .sge main_arg3 main_v101
  let main_c_40 : IVec S_ 32 := constantI S_ 32 8192#32
  let main_v103 : IVec S131072 32 := broadcastInDim S131072 ![] bcast_S_S131072 main_c_40
  let main_v104 : IVec S131072 1 := cmpi .slt main_arg3 main_v103
  let main_v105 : IVec S131072 1 := andi main_v102 main_v104
  let main_c_41 : IVec S_ 1 := constantI S_ 1 1#1
  let main_v106 : IVec S_ 1 := (fun x v => Host.reduce IntOp.andi x v reducesTo_S131072_S_d0 h_S_) main_v105 main_c_41
  let main_v107 : IVec S_ 1 := andi main_v100 main_v106
  main_v107

def fn_part5 {F : FTy → Type} [FloatOps F] (main_arg2 : IVec S131072 32) (main_arg3 : IVec S131072 32) (main_arg20 : FVec F S2 .f32) (main_v83 : IVec S_ 1) (main_v84 : FVec F S128x2 .f32) (main_cst_32 : FVec F S_ .f32) : IVec S_ 1 :=
  let main_v85 : FVec F S128x2 .f32 := broadcastInDim S128x2 ![] bcast_S_S128x2 main_cst_32
  let main_v86 : IVec S128x2 1 := cmpf .olt main_v84 main_v85
  let main_c_33 : IVec S_ 1 := constantI S_ 1 1#1
  let main_v87 : IVec S_ 1 := (fun x v => Host.reduce IntOp.andi x v reducesTo_S128x2_S_d0_1 h_S_) main_v86 main_c_33
  let main_v88 : IVec S_ 1 := andi main_v83 main_v87
  let main_v89 : FVec F S2 .f32 := Host.absf main_arg20
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_c_36 : IVec S_ 32 := constantI S_ 32 0#32
  let main_v94 : IVec S131072 32 := broadcastInDim S131072 ![] bcast_S_S131072 main_c_36
  let main_v95 : IVec S131072 1 := cmpi .sge main_arg2 main_v94
  let main_c_37 : IVec S_ 32 := constantI S_ 32 8192#32
  let main_v96 : IVec S131072 32 := broadcastInDim S131072 ![] bcast_S_S131072 main_c_37
  let main_v97 : IVec S131072 1 := cmpi .slt main_arg2 main_v96
  let main_v98 : IVec S131072 1 := andi main_v95 main_v97
  let main_c_38 : IVec S_ 1 := constantI S_ 1 1#1
  let main_v99 : IVec S_ 1 := (fun x v => Host.reduce IntOp.andi x v reducesTo_S131072_S_d0 h_S_) main_v98 main_c_38
  let main_v100 : IVec S_ 1 := andi main_v93 main_v99
  let main_c_39 : IVec S_ 32 := constantI S_ 32 0#32
  let main_v101 : IVec S131072 32 := broadcastInDim S131072 ![] bcast_S_S131072 main_c_39
  fn_part6 (F := F) main_arg3 main_v100 main_v101

def fn_part4 {F : FTy → Type} [FloatOps F] (main_arg2 : IVec S131072 32) (main_arg3 : IVec S131072 32) (main_arg16 : FVec F S128 .f32) (main_arg17 : FVec F S128x128 .f32) (main_arg18 : FVec F S128 .f32) (main_arg19 : FVec F S128x2 .f32) (main_arg20 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x2 .f32 := Host.absf main_arg19
  let main_cst_32 : FVec F S_ .f32 := constant S_ .f32 0x7F800000#32
  fn_part5 (F := F) main_arg2 main_arg3 main_arg20 main_v83 main_v84 main_cst_32

def fn_part3 {F : FTy → Type} [FloatOps F] (main_arg2 : IVec S131072 32) (main_arg3 : IVec S131072 32) (main_arg13 : FVec F S128x64 .f32) (main_arg14 : FVec F S64 .f32) (main_arg15 : FVec F S64x128 .f32) (main_arg16 : FVec F S128 .f32) (main_arg17 : FVec F S128x128 .f32) (main_arg18 : FVec F S128 .f32) (main_arg19 : FVec F S128x2 .f32) (main_arg20 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg2 main_arg3 main_arg16 main_arg17 main_arg18 main_arg19 main_arg20 main_v63 main_v67

def fn_part2 {F : FTy → Type} [FloatOps F] (main_arg2 : IVec S131072 32) (main_arg3 : IVec S131072 32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128x128 .f32) (main_arg18 : FVec F S128 .f32) (main_arg19 : FVec F S128x2 .f32) (main_arg20 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_arg14 main_arg15 main_arg16 main_arg17 main_arg18 main_arg19 main_arg20 main_v48 main_v49 main_v50

def fn_part1 {F : FTy → Type} [FloatOps F] (main_arg2 : IVec S131072 32) (main_arg3 : IVec S131072 32) (main_arg6 : FVec F S384x128 .f32) (main_arg7 : FVec F S384 .f32) (main_arg8 : FVec F S384 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128x128 .f32) (main_arg18 : FVec F S128 .f32) (main_arg19 : FVec F S128x2 .f32) (main_arg20 : FVec F S2 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg7
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_v33

def fn {F : FTy → Type} [FloatOps F] (main_arg0 : FVec F S131072 .f32) (main_arg1 : FVec F S8192 .f32) (main_arg2 : IVec S131072 32) (main_arg3 : IVec S131072 32) (main_arg4 : FVec F S2x128x128 .f32) (main_arg5 : FVec F S384x128 .f32) (main_arg6 : FVec F S384x128 .f32) (main_arg7 : FVec F S384 .f32) (main_arg8 : FVec F S384 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128x128 .f32) (main_arg18 : FVec F S128 .f32) (main_arg19 : FVec F S128x2 .f32) (main_arg20 : FVec F S2 .f32) : IVec S_ 1 :=
  let main_v0 : FVec F S131072 .f32 := Host.absf main_arg0
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_v13 main_v16
-- ==== Kernel.lean ====
abbrev S131072 : Shape := ⟨1, ![131072]⟩
abbrev S8192 : Shape := ⟨1, ![8192]⟩
abbrev S2x128x128 : Shape := ⟨3, ![2, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S_ : Shape := ⟨0, ![]⟩
abbrev S8192x128 : Shape := ⟨2, ![8192, 128]⟩
abbrev S131072x1 : Shape := ⟨2, ![131072, 1]⟩
abbrev S131072x126 : Shape := ⟨2, ![131072, 126]⟩
abbrev S131072x128 : Shape := ⟨2, ![131072, 128]⟩
abbrev S139264x128 : Shape := ⟨2, ![139264, 128]⟩
abbrev S128x384 : Shape := ⟨2, ![128, 384]⟩
abbrev S1x384 : Shape := ⟨2, ![1, 384]⟩
abbrev S1x128x128 : Shape := ⟨3, ![1, 128, 128]⟩
abbrev S2x128 : Shape := ⟨2, ![2, 128]⟩
abbrev S4096x1 : Shape := ⟨2, ![4096, 1]⟩
abbrev S4096x128 : Shape := ⟨2, ![4096, 128]⟩
abbrev S1x128 : Shape := ⟨2, ![1, 128]⟩
abbrev S2048x128 : Shape := ⟨2, ![2048, 128]⟩
abbrev S2048x384 : Shape := ⟨2, ![2048, 384]⟩
abbrev S1x64 : Shape := ⟨2, ![1, 64]⟩
abbrev S131072x64 : Shape := ⟨2, ![131072, 64]⟩
abbrev S4096x64 : Shape := ⟨2, ![4096, 64]⟩
abbrev S8192x64 : Shape := ⟨2, ![8192, 64]⟩
abbrev S1x2 : Shape := ⟨2, ![1, 2]⟩
abbrev S8192x2 : Shape := ⟨2, ![8192, 2]⟩
abbrev S2048x64 : Shape := ⟨2, ![2048, 64]⟩
abbrev S2048x2 : Shape := ⟨2, ![2048, 2]⟩
abbrev S2048 : Shape := ⟨1, ![2048]⟩
abbrev S2048x1 : Shape := ⟨2, ![2048, 1]⟩

abbrev nBuf : Space → Nat
  | .hbm => 108
  | .vmem => 48
  | .smem => 0
  | _ => 0

abbrev bufTy : (tb : Table) → Fin (tcTables nBuf tb) → BufTy
  | .hbm, ⟨0, _⟩ => ⟨S131072, .f32⟩
  | .hbm, ⟨1, _⟩ => ⟨S8192, .f32⟩
  | .hbm, ⟨2, _⟩ => ⟨S131072, .i32⟩
  | .hbm, ⟨3, _⟩ => ⟨S131072, .i32⟩
  | .hbm, ⟨4, _⟩ => ⟨S2x128x128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x2, .f32⟩
  | .hbm, ⟨20, _⟩ => ⟨S2, .f32⟩
  | .hbm, ⟨21, _⟩ => ⟨S_, .f32⟩
  | .hbm, ⟨22, _⟩ => ⟨S8192x128, .f32⟩
  | .hbm, ⟨23, _⟩ => ⟨S_, .f32⟩
  | .hbm, ⟨24, _⟩ => ⟨S131072x1, .f32⟩
  | .hbm, ⟨25, _⟩ => ⟨S131072x1, .f32⟩
  | .hbm, ⟨26, _⟩ => ⟨S_, .f32⟩
  | .hbm, ⟨27, _⟩ => ⟨S131072x126, .f32⟩
  | .hbm, ⟨28, _⟩ => ⟨S131072x128, .f32⟩
  | .hbm, ⟨29, _⟩ => ⟨S139264x128, .f32⟩
  | .hbm, ⟨30, _⟩ => ⟨S128x384, .f32⟩
  | .hbm, ⟨31, _⟩ => ⟨S128x384, .bf16⟩
  | .hbm, ⟨32, _⟩ => ⟨S128x384, .f32⟩
  | .hbm, ⟨33, _⟩ => ⟨S128x384, .bf16⟩
  | .hbm, ⟨34, _⟩ => ⟨S1x384, .f32⟩
  | .hbm, ⟨35, _⟩ => ⟨S1x384, .f32⟩
  | .hbm, ⟨36, _⟩ => ⟨S1x128x128, .f32⟩
  | .hbm, ⟨37, _⟩ => ⟨S128x128, .f32⟩
  | .hbm, ⟨38, _⟩ => ⟨S128x128, .bf16⟩
  | .hbm, ⟨39, _⟩ => ⟨S1x128x128, .f32⟩
  | .hbm, ⟨40, _⟩ => ⟨S128x128, .f32⟩
  | .hbm, ⟨41, _⟩ => ⟨S2x128, .f32⟩
  | .hbm, ⟨42, _⟩ => ⟨S131072x1, .f32⟩
  | .hbm, ⟨43, _⟩ => ⟨S131072x128, .f32⟩
  | .hbm, ⟨44, _⟩ => ⟨S_, .f32⟩
  | .hbm, ⟨45, _⟩ => ⟨S8192x128, .f32⟩
  | .hbm, ⟨46, _⟩ => ⟨S131072x1, .i32⟩
  | .hbm, ⟨47, _⟩ => ⟨S8192x128, .f32⟩
  | .hbm, ⟨48, _⟩ => ⟨S_, .f32⟩
  | .hbm, ⟨49, _⟩ => ⟨S8192x128, .f32⟩
  | .hbm, ⟨50, _⟩ => ⟨S131072x1, .i32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S131072x128, .f32⟩
  | .hbm, ⟨55, _⟩ => ⟨S139264x128, .f32⟩
  | .hbm, ⟨56, _⟩ => ⟨S139264x128, .f32⟩
  | .hbm, ⟨57, _⟩ => ⟨S139264x128, .f32⟩
  | .hbm, ⟨58, _⟩ => ⟨S8192x128, .f32⟩
  | .hbm, ⟨59, _⟩ => ⟨S131072x128, .f32⟩
  | .hbm, ⟨60, _⟩ => ⟨S_, .f32⟩
  | .hbm, ⟨61, _⟩ => ⟨S8192x128, .f32⟩
  | .hbm, ⟨62, _⟩ => ⟨S131072x1, .i32⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S131072x1, .i32⟩
  | .hbm, ⟨67, _⟩ => ⟨S8192x128, .f32⟩
  | .hbm, ⟨68, _⟩ => ⟨S8192x128, .f32⟩
  | .hbm, ⟨69, _⟩ => ⟨S_, .i32⟩
  | .hbm, ⟨70, _⟩ => ⟨S131072, .i32⟩
  | .hbm, ⟨71, _⟩ => ⟨S131072, .i1⟩
  | .hbm, ⟨72, _⟩ => ⟨S_, .i32⟩
  | .hbm, ⟨73, _⟩ => ⟨S131072, .i32⟩
  | .hbm, ⟨74, _⟩ => ⟨S131072, .i32⟩
  | .hbm, ⟨75, _⟩ => ⟨S131072, .i32⟩
  | .hbm, ⟨76, _⟩ => ⟨S131072x1, .i32⟩
  | .hbm, ⟨77, _⟩ => ⟨S131072x128, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x128, .f32⟩
  | .hbm, ⟨87, _⟩ => ⟨S131072x128, .f32⟩
  | .hbm, ⟨88, _⟩ => ⟨S139264x128, .f32⟩
  | .hbm, ⟨89, _⟩ => ⟨S139264x128, .f32⟩
  | .hbm, ⟨90, _⟩ => ⟨S128x128, .bf16⟩
  | .hbm, ⟨91, _⟩ => ⟨S128x128, .bf16⟩
  | .hbm, ⟨92, _⟩ => ⟨S128x64, .bf16⟩
  | .hbm, ⟨93, _⟩ => ⟨S1x128, .f32⟩
  | .hbm, ⟨94, _⟩ => ⟨S1x128, .f32⟩
  | .hbm, ⟨95, _⟩ => ⟨S1x64, .f32⟩
  | .hbm, ⟨96, _⟩ => ⟨S131072x64, .f32⟩
  | .hbm, ⟨97, _⟩ => ⟨S_, .f32⟩
  | .hbm, ⟨98, _⟩ => ⟨S8192x64, .f32⟩
  | .hbm, ⟨99, _⟩ => ⟨S131072x1, .i32⟩
  | .hbm, ⟨100, _⟩ => ⟨S8192x64, .f32⟩
  | .hbm, ⟨101, _⟩ => ⟨S64x128, .bf16⟩
  | .hbm, ⟨102, _⟩ => ⟨S128x128, .bf16⟩
  | .hbm, ⟨103, _⟩ => ⟨S128x2, .bf16⟩
  | .hbm, ⟨104, _⟩ => ⟨S1x128, .f32⟩
  | .hbm, ⟨105, _⟩ => ⟨S1x128, .f32⟩
  | .hbm, ⟨106, _⟩ => ⟨S1x2, .f32⟩
  | .hbm, ⟨107, _⟩ => ⟨S8192x2, .f32⟩
  | .local _ .vmem, ⟨0, _⟩ => ⟨S4096x1, .f32⟩
  | .local _ .vmem, ⟨1, _⟩ => ⟨S4096x1, .f32⟩
  | .local _ .vmem, ⟨2, _⟩ => ⟨S2x128, .f32⟩
  | .local _ .vmem, ⟨3, _⟩ => ⟨S4096x128, .f32⟩
  | .local _ .vmem, ⟨4, _⟩ => ⟨S4096x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S128x384, .bf16⟩
  | .local _ .vmem, ⟨10, _⟩ => ⟨S1x384, .f32⟩
  | .local _ .vmem, ⟨11, _⟩ => ⟨S128x384, .bf16⟩
  | .local _ .vmem, ⟨12, _⟩ => ⟨S1x384, .f32⟩
  | .local _ .vmem, ⟨13, _⟩ => ⟨S128x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S128x384, .bf16⟩
  | .local _ .vmem, ⟨23, _⟩ => ⟨S1x384, .f32⟩
  | .local _ .vmem, ⟨24, _⟩ => ⟨S128x384, .bf16⟩
  | .local _ .vmem, ⟨25, _⟩ => ⟨S1x384, .f32⟩
  | .local _ .vmem, ⟨26, _⟩ => ⟨S2048x128, .f32⟩
  | .local _ .vmem, ⟨27, _⟩ => ⟨S2048x128, .f32⟩
  | .local _ .vmem, ⟨28, _⟩ => ⟨S4096x128, .f32⟩
  | .local _ .vmem, ⟨29, _⟩ => ⟨S4096x128, .f32⟩
  | .local _ .vmem, ⟨30, _⟩ => ⟨S128x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S128x64, .bf16⟩
  | .local _ .vmem, ⟨35, _⟩ => ⟨S1x64, .f32⟩
  | .local _ .vmem, ⟨36, _⟩ => ⟨S4096x64, .f32⟩
  | .local _ .vmem, ⟨37, _⟩ => ⟨S4096x64, .f32⟩
  | .local _ .vmem, ⟨38, _⟩ => ⟨S2048x64, .f32⟩
  | .local _ .vmem, ⟨39, _⟩ => ⟨S2048x64, .f32⟩
  | .local _ .vmem, ⟨40, _⟩ => ⟨S64x128, .bf16⟩
  | .local _ .vmem, ⟨41, _⟩ => ⟨S1x128, .f32⟩
  | .local _ .vmem, ⟨42, _⟩ => ⟨S128x128, .bf16⟩
  | .local _ .vmem, ⟨43, _⟩ => ⟨S1x128, .f32⟩
  | .local _ .vmem, ⟨44, _⟩ => ⟨S128x2, .bf16⟩
  | .local _ .vmem, ⟨45, _⟩ => ⟨S1x2, .f32⟩
  | .local _ .vmem, ⟨46, _⟩ => ⟨S2048x2, .f32⟩
  | .local _ .vmem, ⟨47, _⟩ => ⟨S2048x2, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_cst_1 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_c_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![68], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S8192x128 : S_.BroadcastsInDim S8192x128 (![] : Fin 0 → Fin S8192x128.rank)
  bcast_S_S131072x1 : S_.BroadcastsInDim S131072x1 (![] : Fin 0 → Fin S131072x1.rank)
  bcast_S131072_S131072x1_0 : S131072.BroadcastsInDim S131072x1 (![0] : Fin 1 → Fin S131072x1.rank)
  bcast_S_S131072x126 : S_.BroadcastsInDim S131072x126 (![] : Fin 0 → Fin S131072x126.rank)
  concatenates_S131072x1_S131072x1_S131072x126_S131072x128_d1 : Shape.Concatenates [S131072x1, S131072x1, S131072x126] S131072x128 1
  concatenates_S8192x128_S131072x128_S139264x128_d0 : Shape.Concatenates [S8192x128, S131072x128] S139264x128 0
  transposes_S384x128_S128x384_1_0 : S384x128.Transposes [1, 0] S128x384
  bitsLt_bf16_f32 : FTy.bits .bf16 < FTy.bits .f32
  shapeCasts_S384_S1x384 : S384.ShapeCasts S1x384
  slices_S2x128x128_S1x128x128_1_0_0 : S2x128x128.Slices ![1, 0, 0] S1x128x128
  shapeCasts_S1x128x128_S128x128 : S1x128x128.ShapeCasts S128x128
  slices_S2x128x128_S1x128x128_0_0_0 : S2x128x128.Slices ![0, 0, 0] S1x128x128
  slices_S128x128_S2x128_0_0 : S128x128.Slices ![0, 0] S2x128
  shapeCasts_S131072_S131072x1 : S131072.ShapeCasts S131072x1
  inb_S2x128_S1x128_0_0 : ∀ a, (![0, 0] : Fin 2 → Nat) a + S1x128.size a ≤ S2x128.size a
  h_S1x128 : 0 < S1x128.numel
  shapeCasts_S1x128_S1x128 : S1x128.ShapeCasts S1x128
  inb_S2x128_S1x128_1_0 : ∀ a, (![1, 0] : Fin 2 → Nat) a + S1x128.size a ≤ S2x128.size a
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  bcast_S_S131072x128 : S_.BroadcastsInDim S131072x128 (![] : Fin 0 → Fin S131072x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S139264x128_S8192x128_0_0 : S139264x128.Slices ![0, 0] S8192x128
  slices_S139264x128_S131072x128_8192_0 : S139264x128.Slices ![8192, 0] S131072x128
  bcast_S_S131072 : S_.BroadcastsInDim S131072 (![] : Fin 0 → Fin S131072.rank)
  shapeCasts_S128_S1x128 : S128.ShapeCasts S1x128
  shapeCasts_S64_S1x64 : S64.ShapeCasts S1x64
  shapeCasts_S4096x128_S4096x128 : S4096x128.ShapeCasts S4096x128
  inb_S1x128_S1x128_0_0 : ∀ a, (![0, 0] : Fin 2 → Nat) a + S1x128.size a ≤ S1x128.size a
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  bcast_S_S8192x64 : S_.BroadcastsInDim S8192x64 (![] : Fin 0 → Fin S8192x64.rank)
  shapeCasts_S2_S1x2 : S2.ShapeCasts S1x2
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2048x128 : S1x128.Broadcasts S2048x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  reduces_S2048x2_S2048 : S2048x2.Reduces [1] S2048
  shapeCasts_S2048_S2048x1 : S2048.ShapeCasts S2048x1
  broadcasts_S2048x1_S2048x2 : S2048x1.Broadcasts S2048x2
  inb_S2048x2_S2048x2_0_0 : ∀ a, (![0, 0] : Fin 2 → Nat) a + S2048x2.size a ≤ S2048x2.size a
  h_S2048x2 : 0 < S2048x2.numel
  scatter_S8192x128_S131072x1_S131072x128_1_0_0_1_wf : ScatterDims.WF S8192x128 S131072x1 S131072x128 [1] [0] [0] 1
  dot_S2048x128_S128x384_S2048x384_1_0_0_1_n_n_wf : DotDims.WF S2048x128 S128x384 S2048x384 [1] [0] [0] [1] [] []
  dot_S2048x128_S128x128_S2048x128_1_0_0_1_n_n_wf : DotDims.WF S2048x128 S128x128 S2048x128 [1] [0] [0] [1] [] []
  gather_S8192x128_S131072x1_S131072x128_1_0_n_n_0_1_1128_wf : GatherDims.WF S8192x128 S131072x1 S131072x128 [1] [0] [] [0] [] 1 ![1, 128]
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  scatter_S8192x64_S131072x1_S131072x64_1_0_0_1_wf : ScatterDims.WF S8192x64 S131072x1 S131072x64 [1] [0] [0] 1
  dot_S2048x64_S64x128_S2048x128_1_0_0_1_n_n_wf : DotDims.WF S2048x64 S64x128 S2048x128 [1] [0] [0] [1] [] []
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .f32 = 32 ∨ (Rect.block (s := S131072x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S139264x128.size a
  hwx1_0 : ∀ i : grid1.Coords, EltTy.bits .f32 = 32 ∨ (Rect.block (s := S139264x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S139264x128.size a
  hwx1_1 : ∀ i : grid1.Coords, EltTy.bits .f32 = 32 ∨ (Rect.block (s := S139264x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .bf16 = 32 ∨ (Rect.block (s := S128x384) S128x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .bf16 = 32 ∨ (Rect.block (s := S128x384) S128x384.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S139264x128.size a
  hwx1_7 : ∀ i : grid1.Coords, EltTy.bits .f32 = 32 ∨ (Rect.block (s := S139264x128) S2048x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S139264x128.size a
  hwx1_8 : ∀ i : grid1.Coords, EltTy.bits .f32 = 32 ∨ (Rect.block (s := S139264x128) S2048x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S139264x128.size a
  hwx2_0 : ∀ i : grid2.Coords, EltTy.bits .f32 = 32 ∨ (Rect.block (s := S139264x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S139264x128.size a
  hwx2_1 : ∀ i : grid2.Coords, EltTy.bits .f32 = 32 ∨ (Rect.block (s := S139264x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .bf16 = 32 ∨ (Rect.block (s := S128x384) S128x384.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x384.size a ≤ S1x384.size a
  hwx2_3 : ∀ i : grid2.Coords, EltTy.bits .f32 = 32 ∨ (Rect.block (s := S1x384) S1x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .bf16 = 32 ∨ (Rect.block (s := S128x384) S128x384.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S139264x128.size a
  hwx2_6 : ∀ i : grid2.Coords, EltTy.bits .f32 = 32 ∨ (Rect.block (s := S139264x128) S2048x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S139264x128.size a
  hwx3_0 : ∀ i : grid3.Coords, EltTy.bits .f32 = 32 ∨ (Rect.block (s := S139264x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .bf16 = 32 ∨ (Rect.block (s := S128x64) S128x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x64.size a ≤ S131072x64.size a
  hwx3_7 : ∀ i : grid3.Coords, EltTy.bits .f32 = 32 ∨ (Rect.block (s := S131072x64) S4096x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S8192x64.size a
  hwx4_0 : ∀ i : grid4.Coords, EltTy.bits .f32 = 32 ∨ (Rect.block (s := S8192x64) S2048x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .bf16 = 32 ∨ (Rect.block (s := S64x128) S64x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .bf16 = 32 ∨ (Rect.block (s := S128x2) S128x2.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x2.size a ≤ S8192x2.size a
  hwx4_7 : ∀ i : grid4.Coords, EltTy.bits .f32 = 32 ∨ (Rect.block (s := S8192x2) S2048x2.size (cc4_transform_7 i) (hinb4_7 i)).WholeWords (EltTy.packing .f32)

variable [Facts₀]

def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S8192x64_S131072x1_S131072x64_1_0_0_1 : ScatterDims S8192x64 S131072x1 S131072x64 where
  updateWindowDims := [1]
  insertedWindowDims := [0]
  scatterDimsToOperandDims := [0]
  indexVectorDim := 1
  wf := scatter_S8192x64_S131072x1_S131072x64_1_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v18) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29_0) S2048x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v29_1) S2048x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v54) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_0) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2048x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S4096x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v65) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S2048x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S131072 : Shape := ⟨1, ![131072]⟩
abbrev S8192 : Shape := ⟨1, ![8192]⟩
abbrev S2x128x128 : Shape := ⟨3, ![2, 128, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S_ : Shape := ⟨0, ![]⟩
abbrev S139264x128 : Shape := ⟨2, ![139264, 128]⟩
abbrev S1 : Shape := ⟨1, ![1]⟩
abbrev S524288 : Shape := ⟨1, ![524288]⟩
abbrev S1x128x128 : Shape := ⟨3, ![1, 128, 128]⟩
abbrev S524288x1 : Shape := ⟨2, ![524288, 1]⟩
abbrev S524288x128 : Shape := ⟨2, ![524288, 128]⟩
abbrev S128x384 : Shape := ⟨2, ![128, 384]⟩
abbrev S139264x384 : Shape := ⟨2, ![139264, 384]⟩
abbrev S1x384 : Shape := ⟨2, ![1, 384]⟩
abbrev S131072x128 : Shape := ⟨2, ![131072, 128]⟩
abbrev S1x128 : Shape := ⟨2, ![1, 128]⟩
abbrev S131072x64 : Shape := ⟨2, ![131072, 64]⟩
abbrev S1x64 : Shape := ⟨2, ![1, 64]⟩
abbrev S8192x64 : Shape := ⟨2, ![8192, 64]⟩
abbrev S131072x1 : Shape := ⟨2, ![131072, 1]⟩
abbrev S8192x128 : Shape := ⟨2, ![8192, 128]⟩
abbrev S8192x2 : Shape := ⟨2, ![8192, 2]⟩
abbrev S1x2 : Shape := ⟨2, ![1, 2]⟩
abbrev S8192x1 : Shape := ⟨2, ![8192, 1]⟩

abbrev nBuf : Space → Nat
  | .hbm => 216
  | .vmem => 0
  | .smem => 0
  | _ => 0

abbrev hbmTy0_0 (i : Nat) : BufTy := match i % 128 with
  | 0 => ⟨S131072, .f32⟩
  | 1 => ⟨S8192, .f32⟩
  | 2 => ⟨S131072, .i32⟩
  | 3 => ⟨S131072, .i32⟩
  | 4 => ⟨S2x128x128, .f32⟩
  | 5 => ⟨S384x128, .f32⟩
  | 6 => ⟨S384x128, .f32⟩
  | 7 => ⟨S384, .f32⟩
  | 8 => ⟨S384, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64, .f32⟩
  | 15 => ⟨S64x128, .f32⟩
  | 16 => ⟨S128, .f32⟩
  | 17 => ⟨S128x128, .f32⟩
  | 18 => ⟨S128, .f32⟩
  | 19 => ⟨S128x2, .f32⟩
  | 20 => ⟨S2, .f32⟩
  | 21 => ⟨S_, .f32⟩
  | 22 => ⟨S139264x128, .f32⟩
  | 23 => ⟨S_, .i32⟩
  | 24 => ⟨S1, .i32⟩
  | 25 => ⟨S_, .i32⟩
  | 26 => ⟨S1, .i32⟩
  | 27 => ⟨S2, .i32⟩
  | 28 => ⟨S_, .f32⟩
  | 29 => ⟨S131072, .f32⟩
  | 30 => ⟨S139264x128, .f32⟩
  | 31 => ⟨S_, .i32⟩
  | 32 => ⟨S1, .i32⟩
  | 33 => ⟨S_, .i32⟩
  | 34 => ⟨S1, .i32⟩
  | 35 => ⟨S2, .i32⟩
  | 36 => ⟨S139264x128, .f32⟩
  | 37 => ⟨S131072, .i32⟩
  | 38 => ⟨S_, .i32⟩
  | 39 => ⟨S131072, .i32⟩
  | 40 => ⟨S131072, .i32⟩
  | 41 => ⟨S524288, .i32⟩
  | 42 => ⟨S524288, .i32⟩
  | 43 => ⟨S1x128x128, .f32⟩
  | 44 => ⟨S128x128, .f32⟩
  | 45 => ⟨S139264x128, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S524288x1, .i32⟩
  | 54 => ⟨S524288x128, .f32⟩
  | 55 => ⟨S_, .f32⟩
  | 56 => ⟨S139264x128, .f32⟩
  | 57 => ⟨S524288x1, .i32⟩
  | 58 => ⟨S139264x128, .f32⟩
  | 59 => ⟨S128x384, .f32⟩
  | 60 => ⟨S139264x384, .f32⟩
  | 61 => ⟨S1x384, .f32⟩
  | 62 => ⟨S139264x384, .f32⟩
  | 63 => ⟨S139264x384, .f32⟩
  | 64 => ⟨S128x384, .f32⟩
  | 65 => ⟨S139264x384, .f32⟩
  | 66 => ⟨S1x384, .f32⟩
  | 67 => ⟨S139264x384, .f32⟩
  | 68 => ⟨S139264x384, .f32⟩
  | 69 => ⟨S139264x128, .f32⟩
  | 70 => ⟨S139264x128, .f32⟩
  | 71 => ⟨S139264x128, .f32⟩
  | 72 => ⟨S139264x128, .f32⟩
  | 73 => ⟨S139264x128, .f32⟩
  | 74 => ⟨S139264x128, .f32⟩
  | 75 => ⟨S139264x128, .f32⟩
  | 76 => ⟨S139264x128, .f32⟩
  | 77 => ⟨S139264x128, .f32⟩
  | 78 => ⟨S_, .f32⟩
  | 79 => ⟨S139264x128, .f32⟩
  | 80 => ⟨S139264x128, .f32⟩
  | 81 => ⟨S_, .f32⟩
  | 82 => ⟨S139264x128, .f32⟩
  | 83 => ⟨S139264x128, .f32⟩
  | 84 => ⟨S139264x128, .f32⟩
  | 85 => ⟨S139264x128, .f32⟩
  | 86 => ⟨S139264x128, .f32⟩
  | 87 => ⟨S_, .f32⟩
  | 88 => ⟨S139264x128, .f32⟩
  | 89 => ⟨S139264x128, .f32⟩
  | 90 => ⟨S_, .f32⟩
  | 91 => ⟨S139264x128, .f32⟩
  | 92 => ⟨S139264x128, .f32⟩
  | 93 => ⟨S139264x128, .f32⟩
  | 94 => ⟨S139264x128, .f32⟩
  | 95 => ⟨S139264x128, .f32⟩
  | 96 => ⟨S_, .f32⟩
  | 97 => ⟨S139264x128, .f32⟩
  | 98 => ⟨S139264x128, .f32⟩
  | 99 => ⟨S139264x128, .f32⟩
  | 100 => ⟨S139264x128, .f32⟩
  | 101 => ⟨S139264x128, .f32⟩
  | 102 => ⟨S1x128x128, .f32⟩
  | 103 => ⟨S128x128, .f32⟩
  | 104 => ⟨S139264x128, .f32⟩
  | 105 => ⟨S_, .i32⟩
  | 106 => ⟨S524288, .i32⟩
  | 107 => ⟨S524288, .i1⟩
  | 108 => ⟨S_, .i32⟩
  | 109 => ⟨S524288, .i32⟩
  | 110 => ⟨S524288, .i32⟩
  | 111 => ⟨S524288, .i32⟩
  | 112 => ⟨S524288x1, .i32⟩
  | 113 => ⟨S524288x128, .f32⟩
  | 114 => ⟨S_, .f32⟩
  | 115 => ⟨S139264x128, .f32⟩
  | 116 => ⟨S524288x1, .i32⟩
  | 117 => ⟨S139264x128, .f32⟩
  | 118 => ⟨S128x384, .f32⟩
  | 119 => ⟨S139264x384, .f32⟩
  | 120 => ⟨S1x384, .f32⟩
  | 121 => ⟨S139264x384, .f32⟩
  | 122 => ⟨S139264x384, .f32⟩
  | 123 => ⟨S128x384, .f32⟩
  | 124 => ⟨S139264x384, .f32⟩
  | 125 => ⟨S1x384, .f32⟩
  | 126 => ⟨S139264x384, .f32⟩
  | 127 => ⟨S139264x384, .f32⟩
  | _ => ⟨S131072, .f32⟩

abbrev hbmTy0_1 (i : Nat) : BufTy := match i % 128 with
  | 0 => ⟨S139264x128, .f32⟩
  | 1 => ⟨S139264x128, .f32⟩
  | 2 => ⟨S139264x128, .f32⟩
  | 3 => ⟨S139264x128, .f32⟩
  | 4 => ⟨S139264x128, .f32⟩
  | 5 => ⟨S139264x128, .f32⟩
  | 6 => ⟨S139264x128, .f32⟩
  | 7 => ⟨S139264x128, .f32⟩
  | 8 => ⟨S139264x128, .f32⟩
  | 9 => ⟨S_, .f32⟩
  | 10 => ⟨S139264x128, .f32⟩
  | 11 => ⟨S139264x128, .f32⟩
  | 12 => ⟨S_, .f32⟩
  | 13 => ⟨S139264x128, .f32⟩
  | 14 => ⟨S139264x128, .f32⟩
  | 15 => ⟨S139264x128, .f32⟩
  | 16 => ⟨S139264x128, .f32⟩
  | 17 => ⟨S139264x128, .f32⟩
  | 18 => ⟨S_, .f32⟩
  | 19 => ⟨S139264x128, .f32⟩
  | 20 => ⟨S139264x128, .f32⟩
  | 21 => ⟨S_, .f32⟩
  | 22 => ⟨S139264x128, .f32⟩
  | 23 => ⟨S139264x128, .f32⟩
  | 24 => ⟨S139264x128, .f32⟩
  | 25 => ⟨S139264x128, .f32⟩
  | 26 => ⟨S139264x128, .f32⟩
  | 27 => ⟨S_, .f32⟩
  | 28 => ⟨S139264x128, .f32⟩
  | 29 => ⟨S139264x128, .f32⟩
  | 30 => ⟨S139264x128, .f32⟩
  | 31 => ⟨S139264x128, .f32⟩
  | 32 => ⟨S139264x128, .f32⟩
  | 33 => ⟨S131072x128, .f32⟩
  | 34 => ⟨S131072x128, .f32⟩
  | 35 => ⟨S1x128, .f32⟩
  | 36 => ⟨S131072x128, .f32⟩
  | 37 => ⟨S131072x128, .f32⟩
  | 38 => ⟨S_, .f32⟩
  | 39 => ⟨S131072x128, .f32⟩
  | 40 => ⟨S131072x128, .f32⟩
  | 41 => ⟨S131072x128, .f32⟩
  | 42 => ⟨S1x128, .f32⟩
  | 43 => ⟨S131072x128, .f32⟩
  | 44 => ⟨S131072x128, .f32⟩
  | 45 => ⟨S_, .f32⟩
  | 46 => ⟨S131072x128, .f32⟩
  | 47 => ⟨S131072x128, .f32⟩
  | 48 => ⟨S131072x64, .f32⟩
  | 49 => ⟨S1x64, .f32⟩
  | 50 => ⟨S131072x64, .f32⟩
  | 51 => ⟨S131072x64, .f32⟩
  | 52 => ⟨S_, .f32⟩
  | 53 => ⟨S8192x64, .f32⟩
  | 54 => ⟨S131072x1, .i32⟩
  | 55 => ⟨S8192x64, .f32⟩
  | 56 => ⟨S8192x128, .f32⟩
  | 57 => ⟨S1x128, .f32⟩
  | 58 => ⟨S8192x128, .f32⟩
  | 59 => ⟨S8192x128, .f32⟩
  | 60 => ⟨S_, .f32⟩
  | 61 => ⟨S8192x128, .f32⟩
  | 62 => ⟨S8192x128, .f32⟩
  | 63 => ⟨S8192x128, .f32⟩
  | 64 => ⟨S1x128, .f32⟩
  | 65 => ⟨S8192x128, .f32⟩
  | 66 => ⟨S8192x128, .f32⟩
  | 67 => ⟨S_, .f32⟩
  | 68 => ⟨S8192x128, .f32⟩
  | 69 => ⟨S8192x128, .f32⟩
  | 70 => ⟨S8192x2, .f32⟩
  | 71 => ⟨S1x2, .f32⟩
  | 72 => ⟨S8192x2, .f32⟩
  | 73 => ⟨S8192x2, .f32⟩
  | 74 => ⟨S_, .f32⟩
  | 75 => ⟨S8192, .f32⟩
  | 76 => ⟨S_, .f32⟩
  | 77 => ⟨S8192, .f32⟩
  | 78 => ⟨S8192, .f32⟩
  | 79 => ⟨S8192x1, .f32⟩
  | 80 => ⟨S8192x2, .f32⟩
  | 81 => ⟨S8192x2, .f32⟩
  | 82 => ⟨S8192x2, .f32⟩
  | 83 => ⟨S_, .f32⟩
  | 84 => ⟨S8192, .f32⟩
  | 85 => ⟨S8192x1, .f32⟩
  | 86 => ⟨S8192x2, .f32⟩
  | 87 => ⟨S8192x2, .f32⟩
  | _ => ⟨S131072, .f32⟩

abbrev hbmTy (i : Nat) : BufTy := match i / 128 with
  | 0 => hbmTy0_0 i
  | 1 => hbmTy0_1 i
  | _ => ⟨S131072, .f32⟩

abbrev bufTy : (tb : Table) → Fin (tcTables nBuf tb) → BufTy
  | .hbm, ⟨i, _⟩ => hbmTy i
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_c_3 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_4 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_c_6 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_7 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_cst_17 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_v105 : Ref sig .tc := ⟨.hbm, 147, rfl⟩
abbrev main_v106 : Ref sig .tc := ⟨.hbm, 148, rfl⟩
abbrev main_cst_19 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_20 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_call0_cst : Ref sig .tc := ⟨.hbm, 166, rfl⟩
abbrev main_call0_v0 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_call1_cst : Ref sig .tc := ⟨.hbm, 173, rfl⟩
abbrev main_call1_v0 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_21 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_call2_cst : Ref sig .tc := ⟨.hbm, 188, rfl⟩
abbrev main_call2_v0 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_call3_cst : Ref sig .tc := ⟨.hbm, 195, rfl⟩
abbrev main_call3_v0 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_22 : Ref sig .tc := ⟨.hbm, 202, rfl⟩
abbrev main_v149 : Ref sig .tc := ⟨.hbm, 203, rfl⟩
abbrev main_cst_23 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_24 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]

class Facts₀ : Prop where
  bcast_S_S139264x128 : S_.BroadcastsInDim S139264x128 (![] : Fin 0 → Fin S139264x128.rank)
  bcast_S_S1 : S_.BroadcastsInDim S1 (![] : Fin 0 → Fin S1.rank)
  concatenates_S1_S1_S2_d0 : Shape.Concatenates [S1, S1] S2 0
  bcast_S_S131072 : S_.BroadcastsInDim S131072 (![] : Fin 0 → Fin S131072.rank)
  concatenates_S131072_S131072_S131072_S131072_S524288_d0 : Shape.Concatenates [S131072, S131072, S131072, S131072] S524288 0
  slices_S2x128x128_S1x128x128_0_0_0 : S2x128x128.Slices ![0, 0, 0] S1x128x128
  shapeCasts_S1x128x128_S128x128 : S1x128x128.ShapeCasts S128x128
  bcast_S_S524288 : S_.BroadcastsInDim S524288 (![] : Fin 0 → Fin S524288.rank)
  bcast_S524288_S524288x1_0 : S524288.BroadcastsInDim S524288x1 (![0] : Fin 1 → Fin S524288x1.rank)
  transposes_S384x128_S128x384_1_0 : S384x128.Transposes [1, 0] S128x384
  bcast_S384_S1x384_1 : S384.BroadcastsInDim S1x384 (![1] : Fin 1 → Fin S1x384.rank)
  bcast_S1x384_S139264x384_0_1 : S1x384.BroadcastsInDim S139264x384 (![0, 1] : Fin 2 → Fin S139264x384.rank)
  slices_S139264x384_S139264x128_0_0 : S139264x384.Slices ![0, 0] S139264x128
  slices_S139264x384_S139264x128_0_128 : S139264x384.Slices ![0, 128] S139264x128
  slices_S139264x384_S139264x128_0_256 : S139264x384.Slices ![0, 256] S139264x128
  slices_S2x128x128_S1x128x128_1_0_0 : S2x128x128.Slices ![1, 0, 0] S1x128x128
  slices_S139264x128_S131072x128_8192_0 : S139264x128.Slices ![8192, 0] S131072x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S8192x64 : S_.BroadcastsInDim S8192x64 (![] : Fin 0 → Fin S8192x64.rank)
  bcast_S131072_S131072x1_0 : S131072.BroadcastsInDim S131072x1 (![0] : Fin 1 → Fin S131072x1.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  scatter_S139264x128_S2_S131072_0_1_01_0_wf : ScatterDims.WF S139264x128 S2 S131072 [0] [1] [0, 1] 0
  dot_S139264x128_S128x128_S139264x128_1_0_0_1_n_n_wf : DotDims.WF S139264x128 S128x128 S139264x128 [1] [0] [0] [1] [] []
  gather_S139264x128_S524288x1_S524288x128_1_0_n_n_0_1_1128_wf : GatherDims.WF S139264x128 S524288x1 S524288x128 [1] [0] [] [0] [] 1 ![1, 128]
  scatter_S139264x128_S524288x1_S524288x128_1_0_0_1_wf : ScatterDims.WF S139264x128 S524288x1 S524288x128 [1] [0] [0] 1
  dot_S139264x128_S128x384_S139264x384_1_0_0_1_n_n_wf : DotDims.WF S139264x128 S128x384 S139264x384 [1] [0] [0] [1] [] []
  dot_S131072x128_S128x128_S131072x128_1_0_0_1_n_n_wf : DotDims.WF S131072x128 S128x128 S131072x128 [1] [0] [0] [1] [] []
  dot_S131072x128_S128x64_S131072x64_1_0_0_1_n_n_wf : DotDims.WF S131072x128 S128x64 S131072x64 [1] [0] [0] [1] [] []
  scatter_S8192x64_S131072x1_S131072x64_1_0_0_1_wf : ScatterDims.WF S8192x64 S131072x1 S131072x64 [1] [0] [0] 1
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x128_S128x2_S8192x2_1_0_0_1_n_n_wf : DotDims.WF S8192x128 S128x2 S8192x2 [1] [0] [0] [1] [] []

variable [Facts₀]

def scatter_S139264x128_S2_S131072_0_1_01_0 : ScatterDims S139264x128 S2 S131072 where
  updateWindowDims := [0]
  insertedWindowDims := [1]
  scatterDimsToOperandDims := [0, 1]
  indexVectorDim := 0
  wf := scatter_S139264x128_S2_S131072_0_1_01_0_wf
def dot_S139264x128_S128x128_S139264x128_1_0_0_1_n_n : DotDims S139264x128 S128x128 S139264x128 where
  lhsContracting := [1]
  rhsContracting := [0]
  lhsNonContracting := [0]
  rhsNonContracting := [1]
  lhsBatch := []
  rhsBatch := []
  wf := dot_S139264x128_S128x128_S139264x128_1_0_0_1_n_n_wf
def gather_S139264x128_S524288x1_S524288x128_1_0_n_n_0_1_1128 : GatherDims S139264x128 S524288x1 S524288x128 where
  offsetDims := [1]
  collapsedSliceDims := [0]
  operandBatchingDims := []
  startIndicesBatchingDims := []
  startIndexMap := [0]
  indexVectorDim := 1
  sliceSizes := ![1, 128]
  wf := gather_S139264x128_S524288x1_S524288x128_1_0_n_n_0_1_1128_wf
def scatter_S139264x128_S524288x1_S524288x128_1_0_0_1 : ScatterDims S139264x128 S524288x1 S524288x128 where
  updateWindowDims := [1]
  insertedWindowDims := [0]
  scatterDimsToOperandDims := [0]
  indexVectorDim := 1
  wf := scatter_S139264x128_S524288x1_S524288x128_1_0_0_1_wf
def dot_S139264x128_S128x384_S139264x384_1_0_0_1_n_n : DotDims S139264x128 S128x384 S139264x384 where
  lhsContracting := [1]
  rhsContracting := [0]
  lhsNonContracting := [0]
  rhsNonContracting := [1]
  lhsBatch := []
  rhsBatch := []
  wf := dot_S139264x128_S128x384_S139264x384_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def scatter_S8192x64_S131072x1_S131072x64_1_0_0_1 : ScatterDims S8192x64 S131072x1 S131072x64 where
  updateWindowDims := [1]
  insertedWindowDims := [0]
  scatterDimsToOperandDims := [0]
  indexVectorDim := 1
  wf := scatter_S8192x64_S131072x1_S131072x64_1_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

class Facts : Prop extends Facts₀ where

variable [Facts]
-- ==== Proof.K.Body0.lean ====
import proofs.«136422_j72232759984373_2_alg».proof.Proof.Gen.Kernel.Launch
import proofs.«136422_j72232759984373_2_alg».proof.Proof.Gen.Kernel.Skeleton
import proofs.«136422_j72232759984373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the rank-one factor kernel, at the contents its region is entered with

Window 0 is the column of coefficients (blocks of 4096 rows), window 1 the two weight rows (one block, never moved),
window 2 the result (blocks of 4096 rows by 128 lanes). At a point the body reads the two rows and the column block and
stores, whole, row 0 plus the column times row 1. This module states what each window's staging buffer holds before
and after the body at every point, runs the body, and closes the pipeline's body obligation, for any float
interpretation `F`. -/

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Row 0 of the weight block. -/
abbrev r0_0 : Rect S2x128 := Rect.unit (s := S2x128) ![0, 0] S1x128.size inb_S2x128_S1x128_0_0
/-- Row 1 of the weight block. -/
abbrev r0_1 : Rect S2x128 := Rect.unit (s := S2x128) ![1, 0] S1x128.size inb_S2x128_S1x128_1_0
/-- The whole column block. -/
abbrev r0_2 : Rect S4096x1 := Rect.unit (s := S4096x1) ![0, 0] S4096x1.size inb_S4096x1_S4096x1_0_0
/-- The whole result block. -/
abbrev r0_3 : Rect S4096x128 := Rect.unit (s := S4096x128) ![0, 0] S4096x128.size inb_S4096x128_S4096x128_0_0

/-! ## What the body leaves in the output window's buffer -/

/-- Window 2's staging buffer after the body, from the input windows' blocks: its one store, whole, of the payload
    over the two weight rows and the column block. -/
def out0_2 (x0 : Vec F S4096x1 .f32) (x1 : Vec F S2x128 .f32) : Vec F S4096x128 .f32 :=
  View.canon [⟨r0_3, k0_pay1 (View.ld x1 r0_0) (View.ld x1 r0_1) (View.ld x0 r0_2)⟩]

/-- The store tiles the buffer, so it covers it. -/
theorem cover0_2 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S4096x1 .f32) (harg1 : arg1.IsWhole) (arg2 : Memref sig .tc .vmem S2x128 .f32) (harg2 : arg2.IsWhole) (arg3 : Memref sig .tc .vmem S4096x128 .f32) (harg3 : arg3.IsWhole)
    (x0 : Vec F S4096x1 .f32) (x1 : Vec F S2x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_m_fac0_kernel i arg1 harg1 arg2 harg2 arg3 harg3) K := by
  simp only [cc0_m_fac0_kernel_eq_skeleton]; unfold cc0_m_fac0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/- Region 1 of @main (the fused state update): the body half of its frame, at a parameter `V`, the buffer
   contents when the region is entered. Each window's block at a grid point; what the body leaves in the two
   output buffers as a function of the seven input blocks; the body's triple; the proof data; the body obligation.
   Generic in the float instance, so that the same text is read at both printed programs. -/
import proofs.«136422_j72232759984373_2_alg».proof.Proof.Gen.Kernel.Launch
import proofs.«136422_j72232759984373_2_alg».proof.Proof.Gen.Kernel.Skeleton
import proofs.«136422_j72232759984373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the buffer contents when region 1 is entered: a parameter, instantiated by the run
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the block index moves with the point and the block is fetched at each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the block index moves with the point and the block is fetched at each. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the block index never moves, so the block fetched at the first point is the block of every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the block index never moves, so the block fetched at the first point is the block of every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: the block index never moves, so the block fetched at the first point is the block of every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: the block index never moves, so the block fetched at the first point is the block of every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: the block index never moves, so the block fetched at the first point is the block of every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S2048x128 := Rect.unit (s := S2048x128) ![0, 0] S2048x128.size inb_S2048x128_S2048x128_0_0
abbrev r1_1 : Rect S128x384 := Rect.unit (s := S128x384) ![0, 0] S128x384.size inb_S128x384_S128x384_0_0
abbrev r1_2 : Rect S1x384 := Rect.unit (s := S1x384) ![0, 0] S1x384.size inb_S1x384_S1x384_0_0
abbrev r1_3 : Rect S128x128 := Rect.unit (s := S128x128) ![0, 0] S128x128.size inb_S128x128_S128x128_0_0

/-! ## What the body leaves in each output window's buffer -/

/-- Window 7's staging buffer after the body, from the input windows' blocks: one store of the whole buffer, the
    new state — the gated update of the old state block `x1` by the aggregate block `x0` through the two weight
    matrices and the two bias rows. -/
def out1_7 (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) : Vec F S2048x128 .f32 :=
  View.canon [⟨r1_0, k1_pay2 (View.ld x1 r1_0) (View.ld x0 r1_0) (View.ld x2 r1_1) (View.ld x3 r1_2) (View.ld x4 r1_1) (View.ld x5 r1_2)⟩]

/-- Its one store is of the whole buffer, so it covers it. -/
theorem cover1_7 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-- Window 8's staging buffer after the body: one store of the whole buffer, the product of the new state narrowed
    to bf16 (the first part's returned value) with the 128×128 matrix block `x6`. -/
def out1_8 (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) : Vec F S2048x128 .f32 :=
  View.canon [⟨r1_0, k1_pay1 (k1_pay3 (View.ld x1 r1_0) (View.ld x0 r1_0) (View.ld x2 r1_1) (View.ld x3 r1_2) (View.ld x4 r1_1) (View.ld x5 r1_2)) (View.ld x6 r1_3)⟩]

/-- Its one store is of the whole buffer, so it covers it. -/
theorem cover1_8 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-! ## The body's triple -/

set_option maxHeartbeats 1000000 in
/-- The kernel body on whole staging memrefs, the inputs' at contents `xW` and the outputs' at anything, runs to the
    continuation holding the inputs' as they were and each output's at `out1_W` of the inputs': the printed function
    and its first part are their skeletons, run through the part's call; the returned narrowed state feeds the
    second store. -/
theorem sound_kernel1 (c : Dev nD) (E : Set ℕ) (i : grid1.Coords) (arg1 : Memref sig .tc .vmem S2048x128 .f32) (harg1 : arg1.IsWhole) (arg2 : Memref sig .tc .vmem S2048x128 .f32) (harg2 : arg2.IsWhole) (arg3 : Memref sig .tc .vmem S128x384 .bf16) (harg3 : arg3.IsWhole) (arg4 : Memref sig .tc .vmem S1x384 .f32) (harg4 : arg4.IsWhole) (arg5 : Memref sig .tc .vmem S128x384 .bf16) (harg5 : arg5.IsWhole) (arg6 : Memref sig .tc .vmem S1x384 .f32) (harg6 : arg6.IsWhole) (arg7 : Memref sig .tc .vmem S128x128 .bf16) (harg7 : arg7.IsWhole) (arg8 : Memref sig .tc .vmem S2048x128 .f32) (harg8 : arg8.IsWhole) (arg9 : Memref sig .tc .vmem S2048x128 .f32) (harg9 : arg9.IsWhole)
    (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1_gru_update_fused_kernel i arg1 harg1 arg2 harg2 arg3 harg3 arg4 harg4 arg5 harg5 arg6 harg6 arg7 harg7 arg8 harg8 arg9 harg9) K := by
  simp only [cc1_gru_update_fused_kernel_eq_skeleton]; unfold cc1_gru_update_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of pipeline 1 on core `c`: the arrays as the region finds them (`V`); after the body at point `t`
    each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Body2.lean ====
/- Region 2 of @main (custom_call 2, `cc2_gru_update_kernel`, pipeline 2), at a parameter `V` — the
   TensorCore's buffer contents when the region is entered —: each window's block at a point (`iblk2`), what the
   body leaves in the output window's buffer (`out2_6`: the one store's payload over the six loads), the body's
   triple (`sound_kernel2`), the pipeline's proof data (`dat2`) and the body obligation (`body_obligation2`).
   Generic in the float instance `F`. -/
import proofs.«136422_j72232759984373_2_alg».proof.Proof.Gen.Kernel.Launch
import proofs.«136422_j72232759984373_2_alg».proof.Proof.Gen.Kernel.Skeleton
import proofs.«136422_j72232759984373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where it is not fetched
    its block index has not moved since the point before. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where it is not fetched
    its block index has not moved since the point before. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where it is not fetched
    its block index has not moved since the point before. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where it is not fetched
    its block index has not moved since the point before. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where it is not fetched
    its block index has not moved since the point before. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): where it is not fetched
    its block index has not moved since the point before. The window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x128 := Rect.unit (s := S2048x128) ![0, 0] S2048x128.size inb_S2048x128_S2048x128_0_0
abbrev r2_1 : Rect S128x384 := Rect.unit (s := S128x384) ![0, 0] S128x384.size inb_S128x384_S128x384_0_0
abbrev r2_2 : Rect S1x384 := Rect.unit (s := S1x384) ![0, 0] S1x384.size inb_S1x384_S1x384_0_0

/-! ## What the body leaves in the output window's buffer -/

/-- Window 6's staging buffer after the body, from the input windows' blocks: its one store as a piece, the
    payload (the GRU cell) over the six whole-block loads. -/
def out2_6 (x0 : Vec F S2048x128 .f32) (x1 : Vec F S2048x128 .f32) (x2 : Vec F S128x384 .bf16) (x3 : Vec F S1x384 .f32) (x4 : Vec F S128x384 .bf16) (x5 : Vec F S1x384 .f32) : Vec F S2048x128 .f32 :=
  View.canon [⟨r2_0, k2_pay1 (View.ld x1 r2_0) (View.ld x0 r2_0) (View.ld x2 r2_1) (View.ld x3 r2_2) (View.ld x4 r2_1) (View.ld x5 r2_2)⟩]

/-- Its store tiles the buffer (checked by evaluation), so it covers it. -/
theorem cover2_6 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S128x384 .bf16) (harg3 : arg3.IsWhole) (arg4 : Memref sig .tc .vmem S1x384 .f32) (harg4 : arg4.IsWhole) (arg5 : Memref sig .tc .vmem S128x384 .bf16) (harg5 : arg5.IsWhole) (arg6 : Memref sig .tc .vmem S1x384 .f32) (harg6 : arg6.IsWhole) (arg7 : Memref sig .tc .vmem S2048x128 .f32) (harg7 : arg7.IsWhole)
    (x0 : Vec F S2048x128 .f32) (x1 : Vec F S2048x128 .f32) (x2 : Vec F S128x384 .bf16) (x3 : Vec F S1x384 .f32) (x4 : Vec F S128x384 .bf16) (x5 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2_gru_update_kernel i arg1 harg1 arg2 harg2 arg3 harg3 arg4 harg4 arg5 harg5 arg6 harg6 arg7 harg7) K := by
  simp only [cc2_gru_update_kernel_eq_skeleton]; unfold cc2_gru_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected, by `dsimp`). -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Body3.lean ====
/- Region 3 of @main (the message network, three dense layers with two rectifications) at the contents `V`
   the region is entered with: each window's block at a grid point, what the body leaves in the output
   window's buffer as a function of the input blocks, the body's triple, the pipeline's proof data and the
   body obligation at every grid point. Everything is stated at any float interpretation `F`. -/
import proofs.«136422_j72232759984373_2_alg».proof.Proof.Gen.Kernel.Launch
import proofs.«136422_j72232759984373_2_alg».proof.Proof.Gen.Kernel.Skeleton
import proofs.«136422_j72232759984373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block of the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block of the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block of the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, so the block of the point before is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, so the block of the point before is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): where the window is not
    fetched its block index has not moved, so the block of the point before is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): where the window is not
    fetched its block index has not moved, so the block of the point before is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S4096x128 := Rect.unit (s := S4096x128) ![0, 0] S4096x128.size inb_S4096x128_S4096x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S128x64 := Rect.unit (s := S128x64) ![0, 0] S128x64.size inb_S128x64_S128x64_0_0
abbrev r3_4 : Rect S1x64 := Rect.unit (s := S1x64) ![0, 0] S1x64.size inb_S1x64_S1x64_0_0
abbrev r3_5 : Rect S4096x64 := Rect.unit (s := S4096x64) ![0, 0] S4096x64.size inb_S4096x64_S4096x64_0_0

/-! ## What the body leaves in the output window's buffer -/

/-- Window 7's staging buffer after the body, from the input windows' blocks: its one store, of the third layer's
    value computed from the seven loads. -/
def out3_7 (x0 : Vec F S4096x128 .f32) (x1 : Vec F S128x128 .bf16) (x2 : Vec F S1x128 .f32) (x3 : Vec F S128x128 .bf16) (x4 : Vec F S1x128 .f32) (x5 : Vec F S128x64 .bf16) (x6 : Vec F S1x64 .f32) : Vec F S4096x64 .f32 :=
  View.canon [⟨r3_5, k3_pay1 (View.ld x0 r3_0) (View.ld x1 r3_1) (View.ld x2 r3_2) (View.ld x3 r3_1) (View.ld x4 r3_2) (View.ld x5 r3_3) (View.ld x6 r3_4)⟩]

/-- The one store takes the whole buffer, so it covers it. -/
theorem cover3_7 (p0 : Vec F S4096x64 .f32) (y : S4096x64.Idx) :
    ∃ pc ∈ ([⟨r3_5, p0⟩] : List (View.Piece (Elt F) S4096x64 .f32)), y ∈ pc.1.set :=
  View.cover_of_tiled [⟨r3_5, p0⟩] S4096x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S4096x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x64 .bf16) (harg6 : arg6.IsWhole) (arg7 : Memref sig .tc .vmem S1x64 .f32) (harg7 : arg7.IsWhole) (arg8 : Memref sig .tc .vmem S4096x64 .f32) (harg8 : arg8.IsWhole)
    (x0 : Vec F S4096x128 .f32) (x1 : Vec F S128x128 .bf16) (x2 : Vec F S1x128 .f32) (x3 : Vec F S128x128 .bf16) (x4 : Vec F S1x128 .f32) (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_msg_mlp_kernel i arg1 harg1 arg2 harg2 arg3 harg3 arg4 harg4 arg5 harg5 arg6 harg6 arg7 harg7 arg8 harg8) K := by
  simp only [cc3_msg_mlp_kernel_eq_skeleton]; unfold cc3_msg_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant
    that the scoped rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Body4.lean ====
/-
  Region 4 of @main (the readout kernel: three dense layers with two rectifications, then a row softmax over two
  columns), at a parameter `V` — the TensorCore's buffer contents when the region is entered —, at any `F`:
  each window's block at a point, what the body leaves in the output window's buffer as a pure function of the
  input blocks (the stored value over the loaded ones), the body's triple, the pipeline's proof data and the
  library's body obligation at every point of the grid.
-/
import proofs.«136422_j72232759984373_2_alg».proof.Proof.Gen.Kernel.Launch
import proofs.«136422_j72232759984373_2_alg».proof.Proof.Gen.Kernel.Skeleton
import proofs.«136422_j72232759984373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a point that
    does not fetch it has the block index of the point before), for any proof data whose array is `V`'s and whose
    body leaves the block in place; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a point that
    does not fetch it has the block index of the point before), for any proof data whose array is `V`'s and whose
    body leaves the block in place; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a point that
    does not fetch it has the block index of the point before), for any proof data whose array is `V`'s and whose
    body leaves the block in place; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a point that
    does not fetch it has the block index of the point before), for any proof data whose array is `V`'s and whose
    body leaves the block in place; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a point that
    does not fetch it has the block index of the point before), for any proof data whose array is `V`'s and whose
    body leaves the block in place; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (a point that
    does not fetch it has the block index of the point before), for any proof data whose array is `V`'s and whose
    body leaves the block in place; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (a point that
    does not fetch it has the block index of the point before), for any proof data whose array is `V`'s and whose
    body leaves the block in place; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole buffer -/

abbrev r4_0 : Rect S2048x64 := Rect.unit (s := S2048x64) ![0, 0] S2048x64.size inb_S2048x64_S2048x64_0_0
abbrev r4_1 : Rect S64x128 := Rect.unit (s := S64x128) ![0, 0] S64x128.size inb_S64x128_S64x128_0_0
abbrev r4_2 : Rect S1x128 := Rect.unit (s := S1x128) ![0, 0] S1x128.size inb_S1x128_S1x128_0_0
abbrev r4_3 : Rect S128x128 := Rect.unit (s := S128x128) ![0, 0] S128x128.size inb_S128x128_S128x128_0_0
abbrev r4_4 : Rect S1x128 := Rect.unit (s := S1x128) ![0, 0] S1x128.size inb_S1x128_S1x128_0_0
abbrev r4_5 : Rect S128x2 := Rect.unit (s := S128x2) ![0, 0] S128x2.size inb_S128x2_S128x2_0_0
abbrev r4_6 : Rect S1x2 := Rect.unit (s := S1x2) ![0, 0] S1x2.size inb_S1x2_S1x2_0_0
abbrev r4_7 : Rect S2048x2 := Rect.unit (s := S2048x2) ![0, 0] S2048x2.size inb_S2048x2_S2048x2_0_0

/-! ## What the body leaves in the output window's buffer -/

/-- Window 7's staging buffer after the body, from the input windows' blocks: its one store, whose value is the
    row-normalised exponentials (`k4_pay1`) of the exponentials (`k4_pay2`) the first part hands on, themselves a
    function of the seven loaded blocks. -/
def out4_7 (x0 : Vec F S2048x64 .f32) (x1 : Vec F S64x128 .bf16) (x2 : Vec F S1x128 .f32) (x3 : Vec F S128x128 .bf16) (x4 : Vec F S1x128 .f32) (x5 : Vec F S128x2 .bf16) (x6 : Vec F S1x2 .f32) : Vec F S2048x2 .f32 :=
  View.canon [⟨r4_7, k4_pay1 (k4_pay2 (View.ld x0 r4_0) (View.ld x1 r4_1) (View.ld x2 r4_2) (View.ld x3 r4_3) (View.ld x4 r4_4) (View.ld x5 r4_5) (View.ld x6 r4_6))⟩]

/-- The store takes the whole buffer, so it covers it. -/
theorem cover4_7 (p0 : Vec F S2048x2 .f32) (y : S2048x2.Idx) :
    ∃ pc ∈ ([⟨r4_7, p0⟩] : List (View.Piece (Elt F) S2048x2 .f32)), y ∈ pc.1.set :=
  View.cover_of_tiled [⟨r4_7, p0⟩] S2048x2.size (by rfl) y

/-! ## The body's triple -/

set_option maxHeartbeats 1000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg1 : Memref sig .tc .vmem S2048x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x2 .bf16) (harg6 : arg6.IsWhole) (arg7 : Memref sig .tc .vmem S1x2 .f32) (harg7 : arg7.IsWhole) (arg8 : Memref sig .tc .vmem S2048x2 .f32) (harg8 : arg8.IsWhole)
    (x0 : Vec F S2048x64 .f32) (x1 : Vec F S64x128 .bf16) (x2 : Vec F S1x128 .f32) (x3 : Vec F S128x128 .bf16) (x4 : Vec F S1x128 .f32) (x5 : Vec F S128x2 .bf16) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_readout_kernel i arg1 harg1 arg2 harg2 arg3 harg3 arg4 harg4 arg5 harg5 arg6 harg6 arg7 harg7 arg8 harg8) K := by
  simp only [cc4_readout_kernel_eq_skeleton]; unfold cc4_readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.Run.lean ====
/- The buffer contents at every segment boundary of @main of `Kernel` — five stretches of host operations and five
   kernel regions — a fold from the launch memory, at any float instance `F`, for ANY per-region proof data:
   `W0` … `W10` (a stretch's contents after its operations; a region's arrays at what its write-backs leave, every
   other buffer as entered), `V1` … `V10` the same read at the TensorCore's references; what each segment keeps; a
   buffer no segment touches ends as launched; the result buffer at the end. -/
import proofs.«136422_j72232759984373_2_alg».proof.Proof.Gen.Kernel.Launch
import proofs.«136422_j72232759984373_2_alg».proof.Proof.Gen.Kernel.Points
import proofs.«136422_j72232759984373_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝒱₀" => Variants.none

section Run

/-! # The regions' proof data: any family per region, stated at the region-entry contents (the TensorCore's buffer
    contents on every core, reference by reference); an input window's array is read off those contents -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)
  (dat4 : ((c : Dev nD) → (b : Ref sig .tc) → Buf (Elt F) ((c : Thread nD τ).loc b)) → (c : Dev nD) → Dat τ (Elt F) Unit ℕ (UR sig nD τ) ℕ cfg4 c)

variable
  (hA0 : ∀ (V : ((c : Dev nD) → (b : Ref sig .tc) → Buf (Elt F) ((c : Thread nD τ).loc b))) (c : Dev nD) (w : Fin cfg0.W), (dat0 V c).A w = V c (Pipeline.arrRef spec0 w))
  (hA1 : ∀ (V : ((c : Dev nD) → (b : Ref sig .tc) → Buf (Elt F) ((c : Thread nD τ).loc b))) (c : Dev nD) (w : Fin cfg1.W), (dat1 V c).A w = V c (Pipeline.arrRef spec1 w))
  (hA2 : ∀ (V : ((c : Dev nD) → (b : Ref sig .tc) → Buf (Elt F) ((c : Thread nD τ).loc b))) (c : Dev nD) (w : Fin cfg2.W), (dat2 V c).A w = V c (Pipeline.arrRef spec2 w))
  (hA3 : ∀ (V : ((c : Dev nD) → (b : Ref sig .tc) → Buf (Elt F) ((c : Thread nD τ).loc b))) (c : Dev nD) (w : Fin cfg3.W), (dat3 V c).A w = V c (Pipeline.arrRef spec3 w))
  (hA4 : ∀ (V : ((c : Dev nD) → (b : Ref sig .tc) → Buf (Elt F) ((c : Thread nD τ).loc b))) (c : Dev nD) (w : Fin cfg4.W), (dat4 V c).A w = V c (Pipeline.arrRef spec4 w))

variable (m : (ℓ : Loc nD τ sig) → Buf (Elt F) ℓ)

/-! # The buffer contents at each segment boundary: a fold through @main -/

/-- Core `c`'s buffers at launch. -/
abbrev W0 : Dev nD → Valuation τ sig (Elt F) := fun c b => m (c, b)

/-- After `hostOps0` (region 0's entry). -/
abbrev W1 : Dev nD → Valuation τ sig (Elt F) := fun c => StableHlo.after hostOps0 (W0 m c)
/-- A buffer the stretch does not write keeps its contents. -/
theorem W1_of (c : Dev nD) (b : Ref sig .tc) (h : b ∉ hostOps0_W) :
    W1 m c (Proc.devRef .tc b) = W0 m c (Proc.devRef .tc b) :=
  StableHlo.after_of_writes_sub hostOps0 _ hostOps0_writes h
/-- The same read at the TensorCore's references (what region 0's proof data take). -/
abbrev V1 : ((c : Dev nD) → (b : Ref sig .tc) → Buf (Elt F) ((c : Thread nD τ).loc b)) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 dat0 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
include hA0 in
/-- An input window's array leaves the region as it entered it. -/
theorem W2_in (c : Dev nD) (w : Fin cfg0.W) (hin : (cfg0.win w).isOut = false) :
    W2 dat0 m c (Proc.devRef .tc (Pipeline.arrRef spec0 w)) = W1 m c (Proc.devRef .tc (Pipeline.arrRef spec0 w)) :=
  (W2_arr dat0 m c w).trans (((dat0 (V1 m) c).arrAt_in w hin _).trans (hA0 (V1 m) c w))
/-- The same read at the TensorCore's references (region 0's exit contents). -/
abbrev V2 : ((c : Dev nD) → (b : Ref sig .tc) → Buf (Elt F) ((c : Thread nD τ).loc b)) := fun c b => W2 dat0 m c b
/-- At region 0's exit each of its arrays holds what the pipeline leaves (`hF0`) and every other buffer what it
    held at entry (`hrest0`). -/
theorem hF0 (c : Dev nD) (w : Fin cfg0.W) : (dat0 (V1 m) c).arrAt w cfg0.N = V2 dat0 m c (Pipeline.arrRef spec0 w) :=
  (W2_arr dat0 m c w).symm
theorem hrest0 (c : Dev nD) : ∀ b, b ∉ Finset.univ.image (Pipeline.arrRef spec0) → V2 dat0 m c b = V1 m c b :=
  fun b hb => W2_of_ne dat0 m c b fun w e => hb (Finset.mem_image.mpr ⟨w, Finset.mem_univ _, e⟩)

/-- After `hostOps1` (region 1's entry). -/
abbrev W3 : Dev nD → Valuation τ sig (Elt F) := fun c => StableHlo.after hostOps1 (W2 dat0 m c)
/-- A buffer the stretch does not write keeps its contents. -/
theorem W3_of (c : Dev nD) (b : Ref sig .tc) (h : b ∉ hostOps1_W) :
    W3 dat0 m c (Proc.devRef .tc b) = W2 dat0 m c (Proc.devRef .tc b) :=
  StableHlo.after_of_writes_sub hostOps1 _ hostOps1_writes h
/-- The same read at the TensorCore's references (what region 1's proof data take). -/
abbrev V3 : ((c : Dev nD) → (b : Ref sig .tc) → Buf (Elt F) ((c : Thread nD τ).loc b)) := fun c b => W3 dat0 m c b
/-- At region 1's exit: its arrays at what the pipeline leaves (the inputs as entered, each output's write-backs
    folded), every other buffer as entered. -/
def W4 (c : Dev nD) : Valuation τ sig (Elt F) :=
  Pipeline.withArrays spec1 c (W3 dat0 m c) fun w => (dat1 (V3 dat0 m) c).arrAt w cfg1.N
theorem W4_arr (c : Dev nD) (w : Fin cfg1.W) :
    W4 dat0 dat1 m c (Proc.devRef .tc (Pipeline.arrRef spec1 w)) = (dat1 (V3 dat0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m c (Proc.devRef .tc b) = W3 dat0 m c (Proc.devRef .tc b) := by
  unfold W4; exact Pipeline.withArrays_of_ne spec1 c _ _ b hb
include hA1 in
/-- An input window's array leaves the region as it entered it. -/
theorem W4_in (c : Dev nD) (w : Fin cfg1.W) (hin : (cfg1.win w).isOut = false) :
    W4 dat0 dat1 m c (Proc.devRef .tc (Pipeline.arrRef spec1 w)) = W3 dat0 m c (Proc.devRef .tc (Pipeline.arrRef spec1 w)) :=
  (W4_arr dat0 dat1 m c w).trans (((dat1 (V3 dat0 m) c).arrAt_in w hin _).trans (hA1 (V3 dat0 m) c w))
/-- The same read at the TensorCore's references (region 1's exit contents). -/
abbrev V4 : ((c : Dev nD) → (b : Ref sig .tc) → Buf (Elt F) ((c : Thread nD τ).loc b)) := fun c b => W4 dat0 dat1 m c b
/-- At region 1's exit each of its arrays holds what the pipeline leaves (`hF1`) and every other buffer what it
    held at entry (`hrest1`). -/
theorem hF1 (c : Dev nD) (w : Fin cfg1.W) : (dat1 (V3 dat0 m) c).arrAt w cfg1.N = V4 dat0 dat1 m c (Pipeline.arrRef spec1 w) :=
  (W4_arr dat0 dat1 m c w).symm
theorem hrest1 (c : Dev nD) : ∀ b, b ∉ Finset.univ.image (Pipeline.arrRef spec1) → V4 dat0 dat1 m c b = V3 dat0 m c b :=
  fun b hb => W4_of_ne dat0 dat1 m c b fun w e => hb (Finset.mem_image.mpr ⟨w, Finset.mem_univ _, e⟩)

/-- After `hostOps2` (region 2's entry). -/
abbrev W5 : Dev nD → Valuation τ sig (Elt F) := fun c => StableHlo.after hostOps2 (W4 dat0 dat1 m c)
/-- A buffer the stretch does not write keeps its contents. -/
theorem W5_of (c : Dev nD) (b : Ref sig .tc) (h : b ∉ hostOps2_W) :
    W5 dat0 dat1 m c (Proc.devRef .tc b) = W4 dat0 dat1 m c (Proc.devRef .tc b) :=
  StableHlo.after_of_writes_sub hostOps2 _ hostOps2_writes h
/-- The same read at the TensorCore's references (what region 2's proof data take). -/
abbrev V5 : ((c : Dev nD) → (b : Ref sig .tc) → Buf (Elt F) ((c : Thread nD τ).loc b)) := fun c b => W5 dat0 dat1 m c b
/-- At region 2's exit: its arrays at what the pipeline leaves (the inputs as entered, each output's write-backs
    folded), every other buffer as entered. -/
def W6 (c : Dev nD) : Valuation τ sig (Elt F) :=
  Pipeline.withArrays spec2 c (W5 dat0 dat1 m c) fun w => (dat2 (V5 dat0 dat1 m) c).arrAt w cfg2.N
theorem W6_arr (c : Dev nD) (w : Fin cfg2.W) :
    W6 dat0 dat1 dat2 m c (Proc.devRef .tc (Pipeline.arrRef spec2 w)) = (dat2 (V5 dat0 dat1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 dat0 dat1 dat2 m c (Proc.devRef .tc b) = W5 dat0 dat1 m c (Proc.devRef .tc b) := by
  unfold W6; exact Pipeline.withArrays_of_ne spec2 c _ _ b hb
include hA2 in
/-- An input window's array leaves the region as it entered it. -/
theorem W6_in (c : Dev nD) (w : Fin cfg2.W) (hin : (cfg2.win w).isOut = false) :
    W6 dat0 dat1 dat2 m c (Proc.devRef .tc (Pipeline.arrRef spec2 w)) = W5 dat0 dat1 m c (Proc.devRef .tc (Pipeline.arrRef spec2 w)) :=
  (W6_arr dat0 dat1 dat2 m c w).trans (((dat2 (V5 dat0 dat1 m) c).arrAt_in w hin _).trans (hA2 (V5 dat0 dat1 m) c w))
/-- The same read at the TensorCore's references (region 2's exit contents). -/
abbrev V6 : ((c : Dev nD) → (b : Ref sig .tc) → Buf (Elt F) ((c : Thread nD τ).loc b)) := fun c b => W6 dat0 dat1 dat2 m c b
/-- At region 2's exit each of its arrays holds what the pipeline leaves (`hF2`) and every other buffer what it
    held at entry (`hrest2`). -/
theorem hF2 (c : Dev nD) (w : Fin cfg2.W) : (dat2 (V5 dat0 dat1 m) c).arrAt w cfg2.N = V6 dat0 dat1 dat2 m c (Pipeline.arrRef spec2 w) :=
  (W6_arr dat0 dat1 dat2 m c w).symm
theorem hrest2 (c : Dev nD) : ∀ b, b ∉ Finset.univ.image (Pipeline.arrRef spec2) → V6 dat0 dat1 dat2 m c b = V5 dat0 dat1 m c b :=
  fun b hb => W6_of_ne dat0 dat1 dat2 m c b fun w e => hb (Finset.mem_image.mpr ⟨w, Finset.mem_univ _, e⟩)

/-- After `hostOps3` (region 3's entry). -/
abbrev W7 : Dev nD → Valuation τ sig (Elt F) := fun c => StableHlo.after hostOps3 (W6 dat0 dat1 dat2 m c)
/-- A buffer the stretch does not write keeps its contents. -/
theorem W7_of (c : Dev nD) (b : Ref sig .tc) (h : b ∉ hostOps3_W) :
    W7 dat0 dat1 dat2 m c (Proc.devRef .tc b) = W6 dat0 dat1 dat2 m c (Proc.devRef .tc b) :=
  StableHlo.after_of_writes_sub hostOps3 _ hostOps3_writes h
/-- The same read at the TensorCore's references (what region 3's proof data take). -/
abbrev V7 : ((c : Dev nD) → (b : Ref sig .tc) → Buf (Elt F) ((c : Thread nD τ).loc b)) := fun c b => W7 dat0 dat1 dat2 m c b
/-- At region 3's exit: its arrays at what the pipeline leaves (the inputs as entered, each output's write-backs
    folded), every other buffer as entered. -/
def W8 (c : Dev nD) : Valuation τ sig (Elt F) :=
  Pipeline.withArrays spec3 c (W7 dat0 dat1 dat2 m c) fun w => (dat3 (V7 dat0 dat1 dat2 m) c).arrAt w cfg3.N
theorem W8_arr (c : Dev nD) (w : Fin cfg3.W) :
    W8 dat0 dat1 dat2 dat3 m c (Proc.devRef .tc (Pipeline.arrRef spec3 w)) = (dat3 (V7 dat0 dat1 dat2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 dat0 dat1 dat2 dat3 m c (Proc.devRef .tc b) = W7 dat0 dat1 dat2 m c (Proc.devRef .tc b) := by
  unfold W8; exact Pipeline.withArrays_of_ne spec3 c _ _ b hb
include hA3 in
/-- An input window's array leaves the region as it entered it. -/
theorem W8_in (c : Dev nD) (w : Fin cfg3.W) (hin : (cfg3.win w).isOut = false) :
    W8 dat0 dat1 dat2 dat3 m c (Proc.devRef .tc (Pipeline.arrRef spec3 w)) = W7 dat0 dat1 dat2 m c (Proc.devRef .tc (Pipeline.arrRef spec3 w)) :=
  (W8_arr dat0 dat1 dat2 dat3 m c w).trans (((dat3 (V7 dat0 dat1 dat2 m) c).arrAt_in w hin _).trans (hA3 (V7 dat0 dat1 dat2 m) c w))
/-- The same read at the TensorCore's references (region 3's exit contents). -/
abbrev V8 : ((c : Dev nD) → (b : Ref sig .tc) → Buf (Elt F) ((c : Thread nD τ).loc b)) := fun c b => W8 dat0 dat1 dat2 dat3 m c b
/-- At region 3's exit each of its arrays holds what the pipeline leaves (`hF3`) and every other buffer what it
    held at entry (`hrest3`). -/
theorem hF3 (c : Dev nD) (w : Fin cfg3.W) : (dat3 (V7 dat0 dat1 dat2 m) c).arrAt w cfg3.N = V8 dat0 dat1 dat2 dat3 m c (Pipeline.arrRef spec3 w) :=
  (W8_arr dat0 dat1 dat2 dat3 m c w).symm
theorem hrest3 (c : Dev nD) : ∀ b, b ∉ Finset.univ.image (Pipeline.arrRef spec3) → V8 dat0 dat1 dat2 dat3 m c b = V7 dat0 dat1 dat2 m c b :=
  fun b hb => W8_of_ne dat0 dat1 dat2 dat3 m c b fun w e => hb (Finset.mem_image.mpr ⟨w, Finset.mem_univ _, e⟩)

/-- After `hostOps4` (region 4's entry). -/
abbrev W9 : Dev nD → Valuation τ sig (Elt F) := fun c => StableHlo.after hostOps4 (W8 dat0 dat1 dat2 dat3 m c)
/-- A buffer the stretch does not write keeps its contents. -/
theorem W9_of (c : Dev nD) (b : Ref sig .tc) (h : b ∉ hostOps4_W) :
    W9 dat0 dat1 dat2 dat3 m c (Proc.devRef .tc b) = W8 dat0 dat1 dat2 dat3 m c (Proc.devRef .tc b) :=
  StableHlo.after_of_writes_sub hostOps4 _ hostOps4_writes h
/-- The same read at the TensorCore's references (what region 4's proof data take). -/
abbrev V9 : ((c : Dev nD) → (b : Ref sig .tc) → Buf (Elt F) ((c : Thread nD τ).loc b)) := fun c b => W9 dat0 dat1 dat2 dat3 m c b
/-- At region 4's exit: its arrays at what the pipeline leaves (the inputs as entered, each output's write-backs
    folded), every other buffer as entered. -/
def W10 (c : Dev nD) : Valuation τ sig (Elt F) :=
  Pipeline.withArrays spec4 c (W9 dat0 dat1 dat2 dat3 m c) fun w => (dat4 (V9 dat0 dat1 dat2 dat3 m) c).arrAt w cfg4.N
theorem W10_arr (c : Dev nD) (w : Fin cfg4.W) :
    W10 dat0 dat1 dat2 dat3 dat4 m c (Proc.devRef .tc (Pipeline.arrRef spec4 w)) = (dat4 (V9 dat0 dat1 dat2 dat3 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 dat0 dat1 dat2 dat3 dat4 m c (Proc.devRef .tc b) = W9 dat0 dat1 dat2 dat3 m c (Proc.devRef .tc b) := by
  unfold W10; exact Pipeline.withArrays_of_ne spec4 c _ _ b hb
include hA4 in
/-- An input window's array leaves the region as it entered it. -/
theorem W10_in (c : Dev nD) (w : Fin cfg4.W) (hin : (cfg4.win w).isOut = false) :
    W10 dat0 dat1 dat2 dat3 dat4 m c (Proc.devRef .tc (Pipeline.arrRef spec4 w)) = W9 dat0 dat1 dat2 dat3 m c (Proc.devRef .tc (Pipeline.arrRef spec4 w)) :=
  (W10_arr dat0 dat1 dat2 dat3 dat4 m c w).trans (((dat4 (V9 dat0 dat1 dat2 dat3 m) c).arrAt_in w hin _).trans (hA4 (V9 dat0 dat1 dat2 dat3 m) c w))
/-- The same read at the TensorCore's references (region 4's exit contents). -/
abbrev V10 : ((c : Dev nD) → (b : Ref sig .tc) → Buf (Elt F) ((c : Thread nD τ).loc b)) := fun c b => W10 dat0 dat1 dat2 dat3 dat4 m c b
/-- At region 4's exit each of its arrays holds what the pipeline leaves (`hF4`) and every other buffer what it
    held at entry (`hrest4`). -/
theorem hF4 (c : Dev nD) (w : Fin cfg4.W) : (dat4 (V9 dat0 dat1 dat2 dat3 m) c).arrAt w cfg4.N = V10 dat0 dat1 dat2 dat3 dat4 m c (Pipeline.arrRef spec4 w) :=
  (W10_arr dat0 dat1 dat2 dat3 dat4 m c w).symm
theorem hrest4 (c : Dev nD) : ∀ b, b ∉ Finset.univ.image (Pipeline.arrRef spec4) → V10 dat0 dat1 dat2 dat3 dat4 m c b = V9 dat0 dat1 dat2 dat3 m c b :=
  fun b hb => W10_of_ne dat0 dat1 dat2 dat3 dat4 m c b fun w e => hb (Finset.mem_image.mpr ⟨w, Finset.mem_univ _, e⟩)

/-! ### A buffer no host stretch writes and no region stages keeps its launch contents through the whole fold -/

theorem W10_of_untouched (c : Dev nD) (b : Ref sig .tc)
    (h0 : b ∉ hostOps0_W) (h1 : b ∉ hostOps1_W) (h2 : b ∉ hostOps2_W) (h3 : b ∉ hostOps3_W) (h4 : b ∉ hostOps4_W)
    (k0 : ∀ w, Pipeline.arrRef spec0 w ≠ b) (k1 : ∀ w, Pipeline.arrRef spec1 w ≠ b) (k2 : ∀ w, Pipeline.arrRef spec2 w ≠ b)
    (k3 : ∀ w, Pipeline.arrRef spec3 w ≠ b) (k4 : ∀ w, Pipeline.arrRef spec4 w ≠ b) :
    W10 dat0 dat1 dat2 dat3 dat4 m c (Proc.devRef .tc b) = m ((c : Thread nD τ).loc b) :=
  calc W10 dat0 dat1 dat2 dat3 dat4 m c (Proc.devRef .tc b)
    _ = W9 dat0 dat1 dat2 dat3 m c (Proc.devRef .tc b) := W10_of_ne dat0 dat1 dat2 dat3 dat4 m c b k4
    _ = W8 dat0 dat1 dat2 dat3 m c (Proc.devRef .tc b) := W9_of dat0 dat1 dat2 dat3 m c b h4
    _ = W7 dat0 dat1 dat2 m c (Proc.devRef .tc b) := W8_of_ne dat0 dat1 dat2 dat3 m c b k3
    _ = W6 dat0 dat1 dat2 m c (Proc.devRef .tc b) := W7_of dat0 dat1 dat2 m c b h3
    _ = W5 dat0 dat1 m c (Proc.devRef .tc b) := W6_of_ne dat0 dat1 dat2 m c b k2
    _ = W4 dat0 dat1 m c (Proc.devRef .tc b) := W5_of dat0 dat1 m c b h2
    _ = W3 dat0 m c (Proc.devRef .tc b) := W4_of_ne dat0 dat1 m c b k1
    _ = W2 dat0 m c (Proc.devRef .tc b) := W3_of dat0 m c b h1
    _ = W1 m c (Proc.devRef .tc b) := W2_of_ne dat0 m c b k0
    _ = W0 m c (Proc.devRef .tc b) := W1_of m c b h0
    _ = m ((c : Thread nD τ).loc b) := rfl

/-- The result buffer at the end is what region 4's pipeline leaves in its output window's array. -/
theorem W10_result (c : Dev nD) :
    W10 dat0 dat1 dat2 dat3 dat4 m c (Proc.devRef .tc main_v72) = (dat4 (V9 dat0 dat1 dat2 dat3 m) c).arrAt (7 : Fin cfg4.W) cfg4.N :=
  W10_arr dat0 dat1 dat2 dat3 dat4 m c 7

end Run

end Cert.Kernel.Hand

end
-- ==== Proof.K.RunFrame.lean ====
/- The run of @main of `Kernel` over its ten segments from the launch to the return, at any float instance `F`, for
   ANY per-region proof data whose arrays are the region-entry contents, whose invariant is the class invariant, which
   hold full shares, owe nothing, record no bound, and meet the body obligation: each region as a segment record over
   the thread state "every unscoped buffer at the boundary's contents", @main as the segments' run, the frame (every
   argument array ends as launched) and the result buffer read off the last boundary's contents. -/
import proofs.«136422_j72232759984373_2_alg».proof.Proof.K.Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝒱₀" => Variants.none

section Run

/-! # The regions' proof data and what the run takes of each -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)
  (dat4 : ((c : Dev nD) → (b : Ref sig .tc) → Buf (Elt F) ((c : Thread nD τ).loc b)) → (c : Dev nD) → Dat τ (Elt F) Unit ℕ (UR sig nD τ) ℕ cfg4 c)

variable
  (hA0 : ∀ (V : ((c : Dev nD) → (b : Ref sig .tc) → Buf (Elt F) ((c : Thread nD τ).loc b))) (c : Dev nD) (w : Fin cfg0.W), (dat0 V c).A w = V c (Pipeline.arrRef spec0 w))
  (hΦ0 : ∀ (V : ((c : Dev nD) → (b : Ref sig .tc) → Buf (Elt F) ((c : Thread nD τ).loc b))) (c : Dev nD) (i : Fin (cfg0.N + 1)), (dat0 V c).Φ i = Pipeline.ΦA spec0 c)
  (hq0 : ∀ (V : ((c : Dev nD) → (b : Ref sig .tc) → Buf (Elt F) ((c : Thread nD τ).loc b))) (c : Dev nD) (w : Fin cfg0.W), (dat0 V c).q w = fullShare)
  (ho0 : ∀ (V : ((c : Dev nD) → (b : Ref sig .tc) → Buf (Elt F) ((c : Thread nD τ).loc b))) (c : Dev nD) (t : Fin (cfg0.N + 1)), (dat0 V c).owed t = 0)
  (hrec0 : ∀ (V : ((c : Dev nD) → (b : Ref sig .tc) → Buf (Elt F) ((c : Thread nD τ).loc b))) (c : Dev nD) (t : Fin (cfg0.N + 1)), (dat0 V c).recorded t = Set.univ)
  (hbody0 : ∀ (V : ((c : Dev nD) → (b : Ref sig .tc) → Buf (Elt F) ((c : Thread nD τ).loc b))) (c : Dev nD), BodyObligation (dat0 V c) (defs₀ (F := F)) 𝒱₀ () Set.univ)
  (hA1 : ∀ (V : ((c : Dev nD) → (b : Ref sig .tc) → Buf (Elt F) ((c : Thread nD τ).loc b))) (c : Dev nD) (w : Fin cfg1.W), (dat1 V c).A w = V c (Pipeline.arrRef spec1 w))
  (hΦ1 : ∀ (V : ((c : Dev nD) → (b : Ref sig .tc) → Buf (Elt F) ((c : Thread nD τ).loc b))) (c : Dev nD) (i : Fin (cfg1.N + 1)), (dat1 V c).Φ i = Pipeline.ΦA spec1 c)
  (hq1 : ∀ (V : ((c : Dev nD) → (b : Ref sig .tc) → Buf (Elt F) ((c : Thread nD τ).loc b))) (c : Dev nD) (w : Fin cfg1.W), (dat1 V c).q w = fullShare)
  (ho1 : ∀ (V : ((c : Dev nD) → (b : Ref sig .tc) → Buf (Elt F) ((c : Thread nD τ).loc b))) (c : Dev nD) (t : Fin (cfg1.N + 1)), (dat1 V c).owed t = 0)
  (hrec1 : ∀ (V : ((c : Dev nD) → (b : Ref sig .tc) → Buf (Elt F) ((c : Thread nD τ).loc b))) (c : Dev nD) (t : Fin (cfg1.N + 1)), (dat1 V c).recorded t = Set.univ)
  (hbody1 : ∀ (V : ((c : Dev nD) → (b : Ref sig .tc) → Buf (Elt F) ((c : Thread nD τ).loc b))) (c : Dev nD), BodyObligation (dat1 V c) (defs₀ (F := F)) 𝒱₀ () Set.univ)
  (hA2 : ∀ (V : ((c : Dev nD) → (b : Ref sig .tc) → Buf (Elt F) ((c : Thread nD τ).loc b))) (c : Dev nD) (w : Fin cfg2.W), (dat2 V c).A w = V c (Pipeline.arrRef spec2 w))
  (hΦ2 : ∀ (V : ((c : Dev nD) → (b : Ref sig .tc) → Buf (Elt F) ((c : Thread nD τ).loc b))) (c : Dev nD) (i : Fin (cfg2.N + 1)), (dat2 V c).Φ i = Pipeline.ΦA spec2 c)
  (hq2 : ∀ (V : ((c : Dev nD) → (b : Ref sig .tc) → Buf (Elt F) ((c : Thread nD τ).loc b))) (c : Dev nD) (w : Fin cfg2.W), (dat2 V c).q w = fullShare)
  (ho2 : ∀ (V : ((c : Dev nD) → (b : Ref sig .tc) → Buf (Elt F) ((c : Thread nD τ).loc b))) (c : Dev nD) (t : Fin (cfg2.N + 1)), (dat2 V c).owed t = 0)
  (hrec2 : ∀ (V : ((c : Dev nD) → (b : Ref sig .tc) → Buf (Elt F) ((c : Thread nD τ).loc b))) (c : Dev nD) (t : Fin (cfg2.N + 1)), (dat2 V c).recorded t = Set.univ)
  (hbody2 : ∀ (V : ((c : Dev nD) → (b : Ref sig .tc) → Buf (Elt F) ((c : Thread nD τ).loc b))) (c : Dev nD), BodyObligation (dat2 V c) (defs₀ (F := F)) 𝒱₀ () Set.univ)
  (hA3 : ∀ (V : ((c : Dev nD) → (b : Ref sig .tc) → Buf (Elt F) ((c : Thread nD τ).loc b))) (c : Dev nD) (w : Fin cfg3.W), (dat3 V c).A w = V c (Pipeline.arrRef spec3 w))
  (hΦ3 : ∀ (V : ((c : Dev nD) → (b : Ref sig .tc) → Buf (Elt F) ((c : Thread nD τ).loc b))) (c : Dev nD) (i : Fin (cfg3.N + 1)), (dat3 V c).Φ i = Pipeline.ΦA spec3 c)
  (hq3 : ∀ (V : ((c : Dev nD) → (b : Ref sig .tc) → Buf (Elt F) ((c : Thread nD τ).loc b))) (c : Dev nD) (w : Fin cfg3.W), (dat3 V c).q w = fullShare)
  (ho3 : ∀ (V : ((c : Dev nD) → (b : Ref sig .tc) → Buf (Elt F) ((c : Thread nD τ).loc b))) (c : Dev nD) (t : Fin (cfg3.N + 1)), (dat3 V c).owed t = 0)
  (hrec3 : ∀ (V : ((c : Dev nD) → (b : Ref sig .tc) → Buf (Elt F) ((c : Thread nD τ).loc b))) (c : Dev nD) (t : Fin (cfg3.N + 1)), (dat3 V c).recorded t = Set.univ)
  (hbody3 : ∀ (V : ((c : Dev nD) → (b : Ref sig .tc) → Buf (Elt F) ((c : Thread nD τ).loc b))) (c : Dev nD), BodyObligation (dat3 V c) (defs₀ (F := F)) 𝒱₀ () Set.univ)
  (hA4 : ∀ (V : ((c : Dev nD) → (b : Ref sig .tc) → Buf (Elt F) ((c : Thread nD τ).loc b))) (c : Dev nD) (w : Fin cfg4.W), (dat4 V c).A w = V c (Pipeline.arrRef spec4 w))
  (hΦ4 : ∀ (V : ((c : Dev nD) → (b : Ref sig .tc) → Buf (Elt F) ((c : Thread nD τ).loc b))) (c : Dev nD) (i : Fin (cfg4.N + 1)), (dat4 V c).Φ i = Pipeline.ΦA spec4 c)
  (hq4 : ∀ (V : ((c : Dev nD) → (b : Ref sig .tc) → Buf (Elt F) ((c : Thread nD τ).loc b))) (c : Dev nD) (w : Fin cfg4.W), (dat4 V c).q w = fullShare)
  (ho4 : ∀ (V : ((c : Dev nD) → (b : Ref sig .tc) → Buf (Elt F) ((c : Thread nD τ).loc b))) (c : Dev nD) (t : Fin (cfg4.N + 1)), (dat4 V c).owed t = 0)
  (hrec4 : ∀ (V : ((c : Dev nD) → (b : Ref sig .tc) → Buf (Elt F) ((c : Thread nD τ).loc b))) (c : Dev nD) (t : Fin (cfg4.N + 1)), (dat4 V c).recorded t = Set.univ)
  (hbody4 : ∀ (V : ((c : Dev nD) → (b : Ref sig .tc) → Buf (Elt F) ((c : Thread nD τ).loc b))) (c : Dev nD), BodyObligation (dat4 V c) (defs₀ (F := F)) 𝒱₀ () Set.univ)

variable (m : (ℓ : Loc nD τ sig) → Buf (Elt F) ℓ)

/-! # The proof data family and the thread state -/

/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 dat0 m) c
  | ⟨2, _⟩ => fun c => dat2 (V5 dat0 dat1 m) c
  | ⟨3, _⟩ => fun c => dat3 (V7 dat0 dat1 dat2 m) c
  | ⟨4, _⟩ => fun c => dat4 (V9 dat0 dat1 dat2 dat3 m) c
/-- No core owes another anything: no level is assigned. -/
abbrev run_L : GSem nD τ sig → Finset Unit := fun _ => ∅
abbrev run_lv : GSem nD τ sig → Unit → ℕ := fun _ _ => 0
/-- What rides beside the buffers through every segment: the core's generator register at some state and its
    `owes`, at nothing. -/
abbrev run_R (c : Dev nD) : sProp 𝕄 := iprop((∃ r, prngReg c r) ∗ ∃ W, owes (c : Thread nD τ) (0 : CellTallies nD τ sig Unit) W)
/-- A host stretch as a segment over the unscoped references from the contents `W`, `run_R` riding along. -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ run_L run_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W run_R
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the
    generator register at some state. -/
abbrev run_Tn (c : Dev nD) : sProp 𝕄 := iprop(StableHlo.held (c : Thread nD τ) (Pipeline.ucRefs τ sig) (W10 dat0 dat1 dat2 dat3 dat4 m c) ∗ ∃ r, prngReg c r)

section Segs

include hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4

/-! # The regions as segments -/

set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats dat0 dat1 dat2 dat3 dat4 m) () defs₀ 𝒱₀ run_L run_lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ (pdats dat0 dat1 dat2 dat3 dat4 m) _ run_L run_lv 0 fun c t => ho0 (V1 m) c t
  pre c := iprop(StableHlo.held (c : Thread nD τ) (Pipeline.ucRefs τ sig) (W1 m c) ∗ run_R c)
  post c := iprop(StableHlo.held (c : Thread nD τ) (Pipeline.ucRefs τ sig) (W2 dat0 m c) ∗ run_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats dat0 dat1 dat2 dat3 dat4 m) launch0.win launch0.arr_whole c
      ((pdats dat0 dat1 dat2 dat3 dat4 m 0 c).share_full fun w => hq0 (V1 m) c w) (V1 m c) fun w => hA0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 0 c).owed 0 = 0 from ho0 (V1 m) c 0]
      icases HO with ⟨%W, HO⟩; iexists W; isplitr; · ipureintro; exact fun _ _ => Or.inl ((Set.ext_iff.mp (hrec0 (V1 m) c 0) _).mpr (Set.mem_univ _))
      iexact HO
    isplitl [Hp]; · iexact Hp
    iexact Hrest
  hin c := by
    rw [show (pdats dat0 dat1 dat2 dat3 dat4 m 0 c).Φ 0 = Pipeline.ΦA spec0 c from hΦ0 (V1 m) c 0]; unfold Pipeline.ΦA
    iintro ⟨Hp, -, Hr⟩
    isplitl [Hr]; · iexact Hr
    iexact Hp
  hout c := by
    rw [Pipeline.ownSems0_none, show (pdats dat0 dat1 dat2 dat3 dat4 m 0 c).Φ (Fin.last _) = Pipeline.ΦA spec0 c from hΦ0 (V1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 dat4 m) ((pdats dat0 dat1 dat2 dat3 dat4 m 0 c).share_full fun w => hq0 (V1 m) c w)
      (V1 m c) (V2 dat0 m c) ((pdats dat0 dat1 dat2 dat3 dat4 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 0 c).owed (Fin.last _) = 0 from ho0 (V1 m) c (Fin.last _)]
    icases HO with ⟨%W, -, HO⟩; iexists W; iexact HO

set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats dat0 dat1 dat2 dat3 dat4 m) () defs₀ 𝒱₀ run_L run_lv 1 where
  win := launch1.win.to₀
  block_pos := launch1.block_pos
  stage_whole := launch1.stage_whole
  K := PEmpty
  osem k := k.elim
  ho := Pipeline.OwnSemFacts.none _
  hbody c := (hbody1 (V3 dat0 m) c).loose
  hwaits := Pipeline.hwaits_of_owed_zero _ _ (pdats dat0 dat1 dat2 dat3 dat4 m) _ run_L run_lv 1 fun c t => ho1 (V3 dat0 m) c t
  pre c := iprop(StableHlo.held (c : Thread nD τ) (Pipeline.ucRefs τ sig) (W3 dat0 m c) ∗ run_R c)
  post c := iprop(StableHlo.held (c : Thread nD τ) (Pipeline.ucRefs τ sig) (W4 dat0 dat1 m c) ∗ run_R c)
  X c := iprop(∃ r, prngReg c r)
  Y c := iprop(∃ r, prngReg c r)
  Z c := Pipeline.unscopedRest (Ix := Unit) (Name := ℕ) (U := UR sig nD τ) (Lvl := ℕ) spec1 c (V3 dat0 m c)
  hentry c := by
    rw [Pipeline.ownSems0_none]
    have hsplit := Pipeline.arrays_of_unscopedBufs (p := 1) (pcfgs (F := F)) adm (pdats dat0 dat1 dat2 dat3 dat4 m) launch1.win launch1.arr_whole c
      ((pdats dat0 dat1 dat2 dat3 dat4 m 1 c).share_full fun w => hq1 (V3 dat0 m) c w) (V3 dat0 m c) fun w => hA1 (V3 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 1 c).owed 0 = 0 from ho1 (V3 dat0 m) c 0]
      icases HO with ⟨%W, HO⟩; iexists W; isplitr; · ipureintro; exact fun _ _ => Or.inl ((Set.ext_iff.mp (hrec1 (V3 dat0 m) c 0) _).mpr (Set.mem_univ _))
      iexact HO
    isplitl [Hp]; · iexact Hp
    iexact Hrest
  hin c := by
    rw [show (pdats dat0 dat1 dat2 dat3 dat4 m 1 c).Φ 0 = Pipeline.ΦA spec1 c from hΦ1 (V3 dat0 m) c 0]; unfold Pipeline.ΦA
    iintro ⟨Hp, -, Hr⟩
    isplitl [Hr]; · iexact Hr
    iexact Hp
  hout c := by
    rw [Pipeline.ownSems0_none, show (pdats dat0 dat1 dat2 dat3 dat4 m 1 c).Φ (Fin.last _) = Pipeline.ΦA spec1 c from hΦ1 (V3 dat0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 dat4 m) ((pdats dat0 dat1 dat2 dat3 dat4 m 1 c).share_full fun w => hq1 (V3 dat0 m) c w)
      (V3 dat0 m c) (V4 dat0 dat1 m c) ((pdats dat0 dat1 dat2 dat3 dat4 m 1 c).arrAt · cfg1.N) (hF1 dat0 dat1 m c) (hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 1 c).owed (Fin.last _) = 0 from ho1 (V3 dat0 m) c (Fin.last _)]
    icases HO with ⟨%W, -, HO⟩; iexists W; iexact HO

set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats dat0 dat1 dat2 dat3 dat4 m) () defs₀ 𝒱₀ run_L run_lv 2 where
  win := launch2.win.to₀
  block_pos := launch2.block_pos
  stage_whole := launch2.stage_whole
  K := PEmpty
  osem k := k.elim
  ho := Pipeline.OwnSemFacts.none _
  hbody c := (hbody2 (V5 dat0 dat1 m) c).loose
  hwaits := Pipeline.hwaits_of_owed_zero _ _ (pdats dat0 dat1 dat2 dat3 dat4 m) _ run_L run_lv 2 fun c t => ho2 (V5 dat0 dat1 m) c t
  pre c := iprop(StableHlo.held (c : Thread nD τ) (Pipeline.ucRefs τ sig) (W5 dat0 dat1 m c) ∗ run_R c)
  post c := iprop(StableHlo.held (c : Thread nD τ) (Pipeline.ucRefs τ sig) (W6 dat0 dat1 dat2 m c) ∗ run_R c)
  X c := iprop(∃ r, prngReg c r)
  Y c := iprop(∃ r, prngReg c r)
  Z c := Pipeline.unscopedRest (Ix := Unit) (Name := ℕ) (U := UR sig nD τ) (Lvl := ℕ) spec2 c (V5 dat0 dat1 m c)
  hentry c := by
    rw [Pipeline.ownSems0_none]
    have hsplit := Pipeline.arrays_of_unscopedBufs (p := 2) (pcfgs (F := F)) adm (pdats dat0 dat1 dat2 dat3 dat4 m) launch2.win launch2.arr_whole c
      ((pdats dat0 dat1 dat2 dat3 dat4 m 2 c).share_full fun w => hq2 (V5 dat0 dat1 m) c w) (V5 dat0 dat1 m c) fun w => hA2 (V5 dat0 dat1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 2 c).owed 0 = 0 from ho2 (V5 dat0 dat1 m) c 0]
      icases HO with ⟨%W, HO⟩; iexists W; isplitr; · ipureintro; exact fun _ _ => Or.inl ((Set.ext_iff.mp (hrec2 (V5 dat0 dat1 m) c 0) _).mpr (Set.mem_univ _))
      iexact HO
    isplitl [Hp]; · iexact Hp
    iexact Hrest
  hin c := by
    rw [show (pdats dat0 dat1 dat2 dat3 dat4 m 2 c).Φ 0 = Pipeline.ΦA spec2 c from hΦ2 (V5 dat0 dat1 m) c 0]; unfold Pipeline.ΦA
    iintro ⟨Hp, -, Hr⟩
    isplitl [Hr]; · iexact Hr
    iexact Hp
  hout c := by
    rw [Pipeline.ownSems0_none, show (pdats dat0 dat1 dat2 dat3 dat4 m 2 c).Φ (Fin.last _) = Pipeline.ΦA spec2 c from hΦ2 (V5 dat0 dat1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 dat4 m) ((pdats dat0 dat1 dat2 dat3 dat4 m 2 c).share_full fun w => hq2 (V5 dat0 dat1 m) c w)
      (V5 dat0 dat1 m c) (V6 dat0 dat1 dat2 m c) ((pdats dat0 dat1 dat2 dat3 dat4 m 2 c).arrAt · cfg2.N) (hF2 dat0 dat1 dat2 m c) (hrest2 dat0 dat1 dat2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 2 c).owed (Fin.last _) = 0 from ho2 (V5 dat0 dat1 m) c (Fin.last _)]
    icases HO with ⟨%W, -, HO⟩; iexists W; iexact HO

set_option backward.isDefEq.respectTransparency.types false in
/-- REGION 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats dat0 dat1 dat2 dat3 dat4 m) () defs₀ 𝒱₀ run_L run_lv 3 where
  win := launch3.win.to₀
  block_pos := launch3.block_pos
  stage_whole := launch3.stage_whole
  K := PEmpty
  osem k := k.elim
  ho := Pipeline.OwnSemFacts.none _
  hbody c := (hbody3 (V7 dat0 dat1 dat2 m) c).loose
  hwaits := Pipeline.hwaits_of_owed_zero _ _ (pdats dat0 dat1 dat2 dat3 dat4 m) _ run_L run_lv 3 fun c t => ho3 (V7 dat0 dat1 dat2 m) c t
  pre c := iprop(StableHlo.held (c : Thread nD τ) (Pipeline.ucRefs τ sig) (W7 dat0 dat1 dat2 m c) ∗ run_R c)
  post c := iprop(StableHlo.held (c : Thread nD τ) (Pipeline.ucRefs τ sig) (W8 dat0 dat1 dat2 dat3 m c) ∗ run_R c)
  X c := iprop(∃ r, prngReg c r)
  Y c := iprop(∃ r, prngReg c r)
  Z c := Pipeline.unscopedRest (Ix := Unit) (Name := ℕ) (U := UR sig nD τ) (Lvl := ℕ) spec3 c (V7 dat0 dat1 dat2 m c)
  hentry c := by
    rw [Pipeline.ownSems0_none]
    have hsplit := Pipeline.arrays_of_unscopedBufs (p := 3) (pcfgs (F := F)) adm (pdats dat0 dat1 dat2 dat3 dat4 m) launch3.win launch3.arr_whole c
      ((pdats dat0 dat1 dat2 dat3 dat4 m 3 c).share_full fun w => hq3 (V7 dat0 dat1 dat2 m) c w) (V7 dat0 dat1 dat2 m c) fun w => hA3 (V7 dat0 dat1 dat2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 3 c).owed 0 = 0 from ho3 (V7 dat0 dat1 dat2 m) c 0]
      icases HO with ⟨%W, HO⟩; iexists W; isplitr; · ipureintro; exact fun _ _ => Or.inl ((Set.ext_iff.mp (hrec3 (V7 dat0 dat1 dat2 m) c 0) _).mpr (Set.mem_univ _))
      iexact HO
    isplitl [Hp]; · iexact Hp
    iexact Hrest
  hin c := by
    rw [show (pdats dat0 dat1 dat2 dat3 dat4 m 3 c).Φ 0 = Pipeline.ΦA spec3 c from hΦ3 (V7 dat0 dat1 dat2 m) c 0]; unfold Pipeline.ΦA
    iintro ⟨Hp, -, Hr⟩
    isplitl [Hr]; · iexact Hr
    iexact Hp
  hout c := by
    rw [Pipeline.ownSems0_none, show (pdats dat0 dat1 dat2 dat3 dat4 m 3 c).Φ (Fin.last _) = Pipeline.ΦA spec3 c from hΦ3 (V7 dat0 dat1 dat2 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 dat4 m) ((pdats dat0 dat1 dat2 dat3 dat4 m 3 c).share_full fun w => hq3 (V7 dat0 dat1 dat2 m) c w)
      (V7 dat0 dat1 dat2 m c) (V8 dat0 dat1 dat2 dat3 m c) ((pdats dat0 dat1 dat2 dat3 dat4 m 3 c).arrAt · cfg3.N) (hF3 dat0 dat1 dat2 dat3 m c) (hrest3 dat0 dat1 dat2 dat3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 3 c).owed (Fin.last _) = 0 from ho3 (V7 dat0 dat1 dat2 m) c (Fin.last _)]
    icases HO with ⟨%W, -, HO⟩; iexists W; iexact HO

set_option backward.isDefEq.respectTransparency.types false in
/-- REGION 4 (custom_call 4) over the thread state: entered from every unscoped buffer at `W9`, left at `W10`.
    Its arrays split out of the unscoped buffers and put back at the exit contents; the generator register into the
    class invariant and out; nothing owed; no semaphore of the kernel's own. -/
def reg4 : Pipeline.RegionSeg (pcfgs (F := F)) adm (pdats dat0 dat1 dat2 dat3 dat4 m) () defs₀ 𝒱₀ run_L run_lv 4 where
  win := launch4.win.to₀
  block_pos := launch4.block_pos
  stage_whole := launch4.stage_whole
  K := PEmpty
  osem k := k.elim
  ho := Pipeline.OwnSemFacts.none _
  hbody c := (hbody4 (V9 dat0 dat1 dat2 dat3 m) c).loose
  hwaits := Pipeline.hwaits_of_owed_zero _ _ (pdats dat0 dat1 dat2 dat3 dat4 m) _ run_L run_lv 4 fun c t => ho4 (V9 dat0 dat1 dat2 dat3 m) c t
  pre c := iprop(StableHlo.held (c : Thread nD τ) (Pipeline.ucRefs τ sig) (W9 dat0 dat1 dat2 dat3 m c) ∗ run_R c)
  post c := iprop(run_Tn dat0 dat1 dat2 dat3 dat4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 dat0 dat1 dat2 dat3 m c)
  hentry c := by
    rw [Pipeline.ownSems0_none]
    have hsplit := Pipeline.arrays_of_unscopedBufs (p := 4) (pcfgs (F := F)) adm (pdats dat0 dat1 dat2 dat3 dat4 m) launch4.win launch4.arr_whole c
      ((pdats dat0 dat1 dat2 dat3 dat4 m 4 c).share_full fun w => hq4 (V9 dat0 dat1 dat2 dat3 m) c w) (V9 dat0 dat1 dat2 dat3 m c) fun w => hA4 (V9 dat0 dat1 dat2 dat3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 4 c).owed 0 = 0 from ho4 (V9 dat0 dat1 dat2 dat3 m) c 0]
      icases HO with ⟨%W, HO⟩; iexists W; isplitr; · ipureintro; exact fun _ _ => Or.inl ((Set.ext_iff.mp (hrec4 (V9 dat0 dat1 dat2 dat3 m) c 0) _).mpr (Set.mem_univ _))
      iexact HO
    isplitl [Hp]; · iexact Hp
    iexact Hrest
  hin c := by
    rw [show (pdats dat0 dat1 dat2 dat3 dat4 m 4 c).Φ 0 = Pipeline.ΦA spec4 c from hΦ4 (V9 dat0 dat1 dat2 dat3 m) c 0]; unfold Pipeline.ΦA
    iintro ⟨Hp, -, Hr⟩
    isplitl [Hr]; · iexact Hr
    iexact Hp
  hout c := by
    rw [Pipeline.ownSems0_none, show (pdats dat0 dat1 dat2 dat3 dat4 m 4 c).Φ (Fin.last _) = Pipeline.ΦA spec4 c from hΦ4 (V9 dat0 dat1 dat2 dat3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats dat0 dat1 dat2 dat3 dat4 m) ((pdats dat0 dat1 dat2 dat3 dat4 m 4 c).share_full fun w => hq4 (V9 dat0 dat1 dat2 dat3 m) c w)
      (V9 dat0 dat1 dat2 dat3 m c) (V10 dat0 dat1 dat2 dat3 dat4 m c) ((pdats dat0 dat1 dat2 dat3 dat4 m 4 c).arrAt · cfg4.N) (hF4 dat0 dat1 dat2 dat3 dat4 m c) (hrest4 dat0 dat1 dat2 dat3 dat4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 dat2 dat3 dat4 m 4 c).owed (Fin.last _) = 0 from ho4 (V9 dat0 dat1 dat2 dat3 m) c (Fin.last _)]
    icases HO with ⟨%W, -, HO⟩; iexists W; iexact HO

/-! # @main as segments, and the launch -/

/-- @main's 10 segments in order: a host segment per stretch from its boundary's contents, a region per pallas_call. -/
abbrev segs : List (Pipeline.Seg (pcfgs (F := F)) adm (pdats dat0 dat1 dat2 dat3 dat4 m) () defs₀ 𝒱₀ run_L run_lv) :=
  [ .host (run_hseg hostOps0 hostOps0_sub hostOps0_fresh (W0 m)),
    .region (reg0 dat0 dat1 dat2 dat3 dat4 hA0 hΦ0 hq0 ho0 hrec0 hbody0 m),
    .host (run_hseg hostOps1 hostOps1_sub hostOps1_fresh (W2 dat0 m)),
    .region (reg1 dat0 dat1 dat2 dat3 dat4 hA1 hΦ1 hq1 ho1 hrec1 hbody1 m),
    .host (run_hseg hostOps2 hostOps2_sub hostOps2_fresh (W4 dat0 dat1 m)),
    .region (reg2 dat0 dat1 dat2 dat3 dat4 hA2 hΦ2 hq2 ho2 hrec2 hbody2 m),
    .host (run_hseg hostOps3 hostOps3_sub hostOps3_fresh (W6 dat0 dat1 dat2 m)),
    .region (reg3 dat0 dat1 dat2 dat3 dat4 hA3 hΦ3 hq3 ho3 hrec3 hbody3 m),
    .host (run_hseg hostOps4 hostOps4_sub hostOps4_fresh (W8 dat0 dat1 dat2 dat3 m)),
    .region (reg4 dat0 dat1 dat2 dat3 dat4 hA4 hΦ4 hq4 ho4 hrec4 hbody4 m) ]

/-- @main IS the run of the segments: @main is the chain of its items, and the segments' run is the chain of
    their fragments, the same list. -/
theorem main_run (c : Dev nD) : main (F := F) c = Pipeline.Seg.run (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m) := by
  rewrite [main_chain c, Pipeline.Seg.run_eq_chain,
    show (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: at the compiled mesh, from any memory with zero counters, every weakly fair execution of @main on the
    TensorCores terminates, nothing faulting, and every final memory holds every unscoped buffer at the last
    boundary's contents `W10` — stated for any post `Q` that follows from those readings. -/
theorem run_post (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W10 dat0 dat1 dat2 dat3 dat4 m c b) → Q (⟨⟩, s)) :
    θ_run defs (onTc (τ := τ) (main (F := F))) ⟨m, fun _ => 0, ρ⟩ Q :=
  Pipeline.θ_run_regions_kit (pcfgs (F := F)) adm (pdats dat0 dat1 dat2 dat3 dat4 m) () cellOf_inj emb₁ defs₀ 𝒱₀ run_L run_lv m ρ main (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m)
    (fun c Q => by rw [main_run dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ run_R c)) (Tₙ := run_Tn dat0 dat1 dat2 dat3 dat4 m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach run_L run_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 dat0 dat1 dat2 dat3 dat4 m c b)
    (hfin := fun c s' => by
      iintro ⟨⟨Hh, -⟩, HSI⟩
      unfold StableHlo.held
      imodintro
      iapply (pointsTo_read_all (Pipeline.ucRefs τ sig) (fun b => (((c : Thread nD τ)).1, b)) (W10 dat0 dat1 dat2 dat3 dat4 m c) s')
      isplitl [Hh] <;> iassumption)
    (hQ := hQ)

/-- THE FRAME: every weakly fair execution of @main terminates, nothing faulting, and every final memory has the
    argument arrays as launched: no host stretch writes an argument and no region stages one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_post dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m ρ fun s h c =>
    ⟨(h c _ (run_mem_uc main_arg0 (by decide))).trans (W10_of_untouched dat0 dat1 dat2 dat3 dat4 m c main_arg0 (by decide) (by decide) (by decide) (by decide) (by decide) (by decide) (by decide) (by decide) (by decide) (by decide)),
     (h c _ (run_mem_uc main_arg1 (by decide))).trans (W10_of_untouched dat0 dat1 dat2 dat3 dat4 m c main_arg1 (by decide) (by decide) (by decide) (by decide) (by decide) (by decide) (by decide) (by decide) (by decide) (by decide)),
     (h c _ (run_mem_uc main_arg2 (by decide))).trans (W10_of_untouched dat0 dat1 dat2 dat3 dat4 m c main_arg2 (by decide) (by decide) (by decide) (by decide) (by decide) (by decide) (by decide) (by decide) (by decide) (by decide)),
     (h c _ (run_mem_uc main_arg3 (by decide))).trans (W10_of_untouched dat0 dat1 dat2 dat3 dat4 m c main_arg3 (by decide) (by decide) (by decide) (by decide) (by decide) (by decide) (by decide) (by decide) (by decide) (by decide)),
     (h c _ (run_mem_uc main_arg4 (by decide))).trans (W10_of_untouched dat0 dat1 dat2 dat3 dat4 m c main_arg4 (by decide) (by decide) (by decide) (by decide) (by decide) (by decide) (by decide) (by decide) (by decide) (by decide)),
     (h c _ (run_mem_uc main_arg5 (by decide))).trans (W10_of_untouched dat0 dat1 dat2 dat3 dat4 m c main_arg5 (by decide) (by decide) (by decide) (by decide) (by decide) (by decide) (by decide) (by decide) (by decide) (by decide)),
     (h c _ (run_mem_uc main_arg6 (by decide))).trans (W10_of_untouched dat0 dat1 dat2 dat3 dat4 m c main_arg6 (by decide) (by decide) (by decide) (by decide) (by decide) (by decide) (by decide) (by decide) (by decide) (by decide)),
     (h c _ (run_mem_uc main_arg7 (by decide))).trans (W10_of_untouched dat0 dat1 dat2 dat3 dat4 m c main_arg7 (by decide) (by decide) (by decide) (by decide) (by decide) (by decide) (by decide) (by decide) (by decide) (by decide)),
     (h c _ (run_mem_uc main_arg8 (by decide))).trans (W10_of_untouched dat0 dat1 dat2 dat3 dat4 m c main_arg8 (by decide) (by decide) (by decide) (by decide) (by decide) (by decide) (by decide) (by decide) (by decide) (by decide)),
     (h c _ (run_mem_uc main_arg9 (by decide))).trans (W10_of_untouched dat0 dat1 dat2 dat3 dat4 m c main_arg9 (by decide) (by decide) (by decide) (by decide) (by decide) (by decide) (by decide) (by decide) (by decide) (by decide)),
     (h c _ (run_mem_uc main_arg10 (by decide))).trans (W10_of_untouched dat0 dat1 dat2 dat3 dat4 m c main_arg10 (by decide) (by decide) (by decide) (by decide) (by decide) (by decide) (by decide) (by decide) (by decide) (by decide)),
     (h c _ (run_mem_uc main_arg11 (by decide))).trans (W10_of_untouched dat0 dat1 dat2 dat3 dat4 m c main_arg11 (by decide) (by decide) (by decide) (by decide) (by decide) (by decide) (by decide) (by decide) (by decide) (by decide)),
     (h c _ (run_mem_uc main_arg12 (by decide))).trans (W10_of_untouched dat0 dat1 dat2 dat3 dat4 m c main_arg12 (by decide) (by decide) (by decide) (by decide) (by decide) (by decide) (by decide) (by decide) (by decide) (by decide)),
     (h c _ (run_mem_uc main_arg13 (by decide))).trans (W10_of_untouched dat0 dat1 dat2 dat3 dat4 m c main_arg13 (by decide) (by decide) (by decide) (by decide) (by decide) (by decide) (by decide) (by decide) (by decide) (by decide)),
     (h c _ (run_mem_uc main_arg14 (by decide))).trans (W10_of_untouched dat0 dat1 dat2 dat3 dat4 m c main_arg14 (by decide) (by decide) (by decide) (by decide) (by decide) (by decide) (by decide) (by decide) (by decide) (by decide)),
     (h c _ (run_mem_uc main_arg15 (by decide))).trans (W10_of_untouched dat0 dat1 dat2 dat3 dat4 m c main_arg15 (by decide) (by decide) (by decide) (by decide) (by decide) (by decide) (by decide) (by decide) (by decide) (by decide)),
     (h c _ (run_mem_uc main_arg16 (by decide))).trans (W10_of_untouched dat0 dat1 dat2 dat3 dat4 m c main_arg16 (by decide) (by decide) (by decide) (by decide) (by decide) (by decide) (by decide) (by decide) (by decide) (by decide)),
     (h c _ (run_mem_uc main_arg17 (by decide))).trans (W10_of_untouched dat0 dat1 dat2 dat3 dat4 m c main_arg17 (by decide) (by decide) (by decide) (by decide) (by decide) (by decide) (by decide) (by decide) (by decide) (by decide)),
     (h c _ (run_mem_uc main_arg18 (by decide))).trans (W10_of_untouched dat0 dat1 dat2 dat3 dat4 m c main_arg18 (by decide) (by decide) (by decide) (by decide) (by decide) (by decide) (by decide) (by decide) (by decide) (by decide)),
     (h c _ (run_mem_uc main_arg19 (by decide))).trans (W10_of_untouched dat0 dat1 dat2 dat3 dat4 m c main_arg19 (by decide) (by decide) (by decide) (by decide) (by decide) (by decide) (by decide) (by decide) (by decide) (by decide)),
     (h c _ (run_mem_uc main_arg20 (by decide))).trans (W10_of_untouched dat0 dat1 dat2 dat3 dat4 m c main_arg20 (by decide) (by decide) (by decide) (by decide) (by decide) (by decide) (by decide) (by decide) (by decide) (by decide))⟩

/-- THE RUN'S RESULT: as the frame, and the result buffer at the end holds the last boundary's contents of it. -/
theorem run_result (ρ : Dev nD → PrngReg) : θ_run defs (onTc (τ := τ) (main (F := F))) ⟨m, fun _ => 0, ρ⟩ (fun r => ∀ c : Dev nD,
      r.2.mem ((c.tc : Thread nD τ).loc main_v72) = W10 dat0 dat1 dat2 dat3 dat4 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_post dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m ρ fun s h c =>
    ⟨h c _ (run_mem_uc main_v72 (by decide)),
     (h c _ (run_mem_uc main_arg0 (by decide))).trans (W10_of_untouched dat0 dat1 dat2 dat3 dat4 m c main_arg0 (by decide) (by decide) (by decide) (by decide) (by decide) (by decide) (by decide) (by decide) (by decide) (by decide)),
     (h c _ (run_mem_uc main_arg1 (by decide))).trans (W10_of_untouched dat0 dat1 dat2 dat3 dat4 m c main_arg1 (by decide) (by decide) (by decide) (by decide) (by decide) (by decide) (by decide) (by decide) (by decide) (by decide)),
     (h c _ (run_mem_uc main_arg2 (by decide))).trans (W10_of_untouched dat0 dat1 dat2 dat3 dat4 m c main_arg2 (by decide) (by decide) (by decide) (by decide) (by decide) (by decide) (by decide) (by decide) (by decide) (by decide)),
     (h c _ (run_mem_uc main_arg3 (by decide))).trans (W10_of_untouched dat0 dat1 dat2 dat3 dat4 m c main_arg3 (by decide) (by decide) (by decide) (by decide) (by decide) (by decide) (by decide) (by decide) (by decide) (by decide)),
     (h c _ (run_mem_uc main_arg4 (by decide))).trans (W10_of_untouched dat0 dat1 dat2 dat3 dat4 m c main_arg4 (by decide) (by decide) (by decide) (by decide) (by decide) (by decide) (by decide) (by decide) (by decide) (by decide)),
     (h c _ (run_mem_uc main_arg5 (by decide))).trans (W10_of_untouched dat0 dat1 dat2 dat3 dat4 m c main_arg5 (by decide) (by decide) (by decide) (by decide) (by decide) (by decide) (by decide) (by decide) (by decide) (by decide)),
     (h c _ (run_mem_uc main_arg6 (by decide))).trans (W10_of_untouched dat0 dat1 dat2 dat3 dat4 m c main_arg6 (by decide) (by decide) (by decide) (by decide) (by decide) (by decide) (by decide) (by decide) (by decide) (by decide)),
     (h c _ (run_mem_uc main_arg7 (by decide))).trans (W10_of_untouched dat0 dat1 dat2 dat3 dat4 m c main_arg7 (by decide) (by decide) (by decide) (by decide) (by decide) (by decide) (by decide) (by decide) (by decide) (by decide)),
     (h c _ (run_mem_uc main_arg8 (by decide))).trans (W10_of_untouched dat0 dat1 dat2 dat3 dat4 m c main_arg8 (by decide) (by decide) (by decide) (by decide) (by decide) (by decide) (by decide) (by decide) (by decide) (by decide)),
     (h c _ (run_mem_uc main_arg9 (by decide))).trans (W10_of_untouched dat0 dat1 dat2 dat3 dat4 m c main_arg9 (by decide) (by decide) (by decide) (by decide) (by decide) (by decide) (by decide) (by decide) (by decide) (by decide)),
     (h c _ (run_mem_uc main_arg10 (by decide))).trans (W10_of_untouched dat0 dat1 dat2 dat3 dat4 m c main_arg10 (by decide) (by decide) (by decide) (by decide) (by decide) (by decide) (by decide) (by decide) (by decide) (by decide)),
     (h c _ (run_mem_uc main_arg11 (by decide))).trans (W10_of_untouched dat0 dat1 dat2 dat3 dat4 m c main_arg11 (by decide) (by decide) (by decide) (by decide) (by decide) (by decide) (by decide) (by decide) (by decide) (by decide)),
     (h c _ (run_mem_uc main_arg12 (by decide))).trans (W10_of_untouched dat0 dat1 dat2 dat3 dat4 m c main_arg12 (by decide) (by decide) (by decide) (by decide) (by decide) (by decide) (by decide) (by decide) (by decide) (by decide)),
     (h c _ (run_mem_uc main_arg13 (by decide))).trans (W10_of_untouched dat0 dat1 dat2 dat3 dat4 m c main_arg13 (by decide) (by decide) (by decide) (by decide) (by decide) (by decide) (by decide) (by decide) (by decide) (by decide)),
     (h c _ (run_mem_uc main_arg14 (by decide))).trans (W10_of_untouched dat0 dat1 dat2 dat3 dat4 m c main_arg14 (by decide) (by decide) (by decide) (by decide) (by decide) (by decide) (by decide) (by decide) (by decide) (by decide)),
     (h c _ (run_mem_uc main_arg15 (by decide))).trans (W10_of_untouched dat0 dat1 dat2 dat3 dat4 m c main_arg15 (by decide) (by decide) (by decide) (by decide) (by decide) (by decide) (by decide) (by decide) (by decide) (by decide)),
     (h c _ (run_mem_uc main_arg16 (by decide))).trans (W10_of_untouched dat0 dat1 dat2 dat3 dat4 m c main_arg16 (by decide) (by decide) (by decide) (by decide) (by decide) (by decide) (by decide) (by decide) (by decide) (by decide)),
     (h c _ (run_mem_uc main_arg17 (by decide))).trans (W10_of_untouched dat0 dat1 dat2 dat3 dat4 m c main_arg17 (by decide) (by decide) (by decide) (by decide) (by decide) (by decide) (by decide) (by decide) (by decide) (by decide)),
     (h c _ (run_mem_uc main_arg18 (by decide))).trans (W10_of_untouched dat0 dat1 dat2 dat3 dat4 m c main_arg18 (by decide) (by decide) (by decide) (by decide) (by decide) (by decide) (by decide) (by decide) (by decide) (by decide)),
     (h c _ (run_mem_uc main_arg19 (by decide))).trans (W10_of_untouched dat0 dat1 dat2 dat3 dat4 m c main_arg19 (by decide) (by decide) (by decide) (by decide) (by decide) (by decide) (by decide) (by decide) (by decide) (by decide)),
     (h c _ (run_mem_uc main_arg20 (by decide))).trans (W10_of_untouched dat0 dat1 dat2 dat3 dat4 m c main_arg20 (by decide) (by decide) (by decide) (by decide) (by decide) (by decide) (by decide) (by decide) (by decide) (by decide))⟩

end Segs

end Run

end Cert.Kernel.Hand

end
-- ==== Proof.K.Assemble.lean ====
/- The run of @main of `Kernel` at its five regions' proof data: the frame, the
   general run's at the regions' `dat0` … `dat4`. -/
import proofs.«136422_j72232759984373_2_alg».proof.Proof.K.Body0
import proofs.«136422_j72232759984373_2_alg».proof.Proof.K.Body1
import proofs.«136422_j72232759984373_2_alg».proof.Proof.K.Body2
import proofs.«136422_j72232759984373_2_alg».proof.Proof.K.Body3
import proofs.«136422_j72232759984373_2_alg».proof.Proof.K.Body4
import proofs.«136422_j72232759984373_2_alg».proof.Proof.K.Run
import proofs.«136422_j72232759984373_2_alg».proof.Proof.K.RunFrame

set_option maxRecDepth 16384

noncomputable section

namespace Cert.Kernel.Hand.Asm

open Cert.Kernel.Gen
open Idealize.ShloMosaic Idealize.ShloMosaic.TcCoe
open Idealize.SL Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Hand.frame dat0 dat1 dat2 dat3 dat4
    A_eq0 (fun _ _ _ => rfl) (fun _ _ _ => rfl) (fun _ _ _ => rfl) (fun _ _ _ => rfl) body_obligation0
    A_eq1 (fun _ _ _ => rfl) (fun _ _ _ => rfl) (fun _ _ _ => rfl) (fun _ _ _ => rfl) body_obligation1
    A_eq2 (fun _ _ _ => rfl) (fun _ _ _ => rfl) (fun _ _ _ => rfl) (fun _ _ _ => rfl) body_obligation2
    A_eq3 (fun _ _ _ => rfl) (fun _ _ _ => rfl) (fun _ _ _ => rfl) (fun _ _ _ => rfl) body_obligation3
    A_eq4 (fun _ _ _ => rfl) (fun _ _ _ => rfl) (fun _ _ _ => rfl) (fun _ _ _ => rfl) body_obligation4 m ρ

end Cert.Kernel.Hand.Asm

end
-- ==== Proof.KI.Body0.lean ====
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the rank-one factor kernel, at the contents its region is entered with

Window 0 is the column of coefficients (blocks of 4096 rows), window 1 the two weight rows (one block, never moved),
window 2 the result (blocks of 4096 rows by 128 lanes). At a point the body reads the two rows and the column block and
stores, whole, row 0 plus the column times row 1. This module states what each window's staging buffer holds before
and after the body at every point, runs the body, and closes the pipeline's body obligation, for any float
interpretation `F`. -/

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Row 0 of the weight block. -/
abbrev r0_0 : Rect S2x128 := Rect.unit (s := S2x128) ![0, 0] S1x128.size inb_S2x128_S1x128_0_0
/-- Row 1 of the weight block. -/
abbrev r0_1 : Rect S2x128 := Rect.unit (s := S2x128) ![1, 0] S1x128.size inb_S2x128_S1x128_1_0
/-- The whole column block. -/
abbrev r0_2 : Rect S4096x1 := Rect.unit (s := S4096x1) ![0, 0] S4096x1.size inb_S4096x1_S4096x1_0_0
/-- The whole result block. -/
abbrev r0_3 : Rect S4096x128 := Rect.unit (s := S4096x128) ![0, 0] S4096x128.size inb_S4096x128_S4096x128_0_0

/-! ## What the body leaves in the output window's buffer -/

/-- Window 2's staging buffer after the body, from the input windows' blocks: its one store, whole, of the payload
    over the two weight rows and the column block. -/
def out0_2 (x0 : Vec F S4096x1 .f32) (x1 : Vec F S2x128 .f32) : Vec F S4096x128 .f32 :=
  View.canon [⟨r0_3, k0_pay1 (View.ld x1 r0_0) (View.ld x1 r0_1) (View.ld x0 r0_2)⟩]

/-- The store tiles the buffer, so it covers it. -/
theorem cover0_2 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S4096x1 .f32) (harg1 : arg1.IsWhole) (arg2 : Memref sig .tc .vmem S2x128 .f32) (harg2 : arg2.IsWhole) (arg3 : Memref sig .tc .vmem S4096x128 .f32) (harg3 : arg3.IsWhole)
    (x0 : Vec F S4096x1 .f32) (x1 : Vec F S2x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_m_fac0_kernel i arg1 harg1 arg2 harg2 arg3 harg3) K := by
  simp only [cc0_m_fac0_kernel_eq_skeleton]; unfold cc0_m_fac0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/- Region 1 of @main (the fused state update): the body half of its frame, at a parameter `V`, the buffer
   contents when the region is entered. Each window's block at a grid point; what the body leaves in the two
   output buffers as a function of the seven input blocks; the body's triple; the proof data; the body obligation.
   Generic in the float instance, so that the same text is read at both printed programs. -/
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the buffer contents when region 1 is entered: a parameter, instantiated by the run
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the block index moves with the point and the block is fetched at each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the block index moves with the point and the block is fetched at each. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the block index never moves, so the block fetched at the first point is the block of every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the block index never moves, so the block fetched at the first point is the block of every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: the block index never moves, so the block fetched at the first point is the block of every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: the block index never moves, so the block fetched at the first point is the block of every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: the block index never moves, so the block fetched at the first point is the block of every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S2048x128 := Rect.unit (s := S2048x128) ![0, 0] S2048x128.size inb_S2048x128_S2048x128_0_0
abbrev r1_1 : Rect S128x384 := Rect.unit (s := S128x384) ![0, 0] S128x384.size inb_S128x384_S128x384_0_0
abbrev r1_2 : Rect S1x384 := Rect.unit (s := S1x384) ![0, 0] S1x384.size inb_S1x384_S1x384_0_0
abbrev r1_3 : Rect S128x128 := Rect.unit (s := S128x128) ![0, 0] S128x128.size inb_S128x128_S128x128_0_0

/-! ## What the body leaves in each output window's buffer -/

/-- Window 7's staging buffer after the body, from the input windows' blocks: one store of the whole buffer, the
    new state — the gated update of the old state block `x1` by the aggregate block `x0` through the two weight
    matrices and the two bias rows. -/
def out1_7 (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) : Vec F S2048x128 .f32 :=
  View.canon [⟨r1_0, k1_pay2 (View.ld x1 r1_0) (View.ld x0 r1_0) (View.ld x2 r1_1) (View.ld x3 r1_2) (View.ld x4 r1_1) (View.ld x5 r1_2)⟩]

/-- Its one store is of the whole buffer, so it covers it. -/
theorem cover1_7 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-- Window 8's staging buffer after the body: one store of the whole buffer, the product of the new state narrowed
    to bf16 (the first part's returned value) with the 128×128 matrix block `x6`. -/
def out1_8 (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) : Vec F S2048x128 .f32 :=
  View.canon [⟨r1_0, k1_pay1 (k1_pay3 (View.ld x1 r1_0) (View.ld x0 r1_0) (View.ld x2 r1_1) (View.ld x3 r1_2) (View.ld x4 r1_1) (View.ld x5 r1_2)) (View.ld x6 r1_3)⟩]

/-- Its one store is of the whole buffer, so it covers it. -/
theorem cover1_8 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-! ## The body's triple -/

set_option maxHeartbeats 1000000 in
/-- The kernel body on whole staging memrefs, the inputs' at contents `xW` and the outputs' at anything, runs to the
    continuation holding the inputs' as they were and each output's at `out1_W` of the inputs': the printed function
    and its first part are their skeletons, run through the part's call; the returned narrowed state feeds the
    second store. -/
theorem sound_kernel1 (c : Dev nD) (E : Set ℕ) (i : grid1.Coords) (arg1 : Memref sig .tc .vmem S2048x128 .f32) (harg1 : arg1.IsWhole) (arg2 : Memref sig .tc .vmem S2048x128 .f32) (harg2 : arg2.IsWhole) (arg3 : Memref sig .tc .vmem S128x384 .bf16) (harg3 : arg3.IsWhole) (arg4 : Memref sig .tc .vmem S1x384 .f32) (harg4 : arg4.IsWhole) (arg5 : Memref sig .tc .vmem S128x384 .bf16) (harg5 : arg5.IsWhole) (arg6 : Memref sig .tc .vmem S1x384 .f32) (harg6 : arg6.IsWhole) (arg7 : Memref sig .tc .vmem S128x128 .bf16) (harg7 : arg7.IsWhole) (arg8 : Memref sig .tc .vmem S2048x128 .f32) (harg8 : arg8.IsWhole) (arg9 : Memref sig .tc .vmem S2048x128 .f32) (harg9 : arg9.IsWhole)
    (x0 : Vec F S2048x128 .f32) (x1 : Vec F S2048x128 .f32) (x2 : Vec F S128x384 .bf16) (x3 : Vec F S1x384 .f32) (x4 : Vec F S128x384 .bf16) (x5 : Vec F S1x384 .f32) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1_gru_update_fused_kernel i arg1 harg1 arg2 harg2 arg3 harg3 arg4 harg4 arg5 harg5 arg6 harg6 arg7 harg7 arg8 harg8 arg9 harg9) K := by
  simp only [cc1_gru_update_fused_kernel_eq_skeleton]; unfold cc1_gru_update_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of pipeline 1 on core `c`: the arrays as the region finds them (`V`); after the body at point `t`
    each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Body2.lean ====
/- Region 2 of @main (custom_call 2, `cc2_gru_update_kernel`, pipeline 2), at a parameter `V` — the
   TensorCore's buffer contents when the region is entered —: each window's block at a point (`iblk2`), what the
   body leaves in the output window's buffer (`out2_6`: the one store's payload over the six loads), the body's
   triple (`sound_kernel2`), the pipeline's proof data (`dat2`) and the body obligation (`body_obligation2`).
   Generic in the float instance `F`. -/
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where it is not fetched
    its block index has not moved since the point before. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where it is not fetched
    its block index has not moved since the point before. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where it is not fetched
    its block index has not moved since the point before. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where it is not fetched
    its block index has not moved since the point before. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where it is not fetched
    its block index has not moved since the point before. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): where it is not fetched
    its block index has not moved since the point before. The window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x128 := Rect.unit (s := S2048x128) ![0, 0] S2048x128.size inb_S2048x128_S2048x128_0_0
abbrev r2_1 : Rect S128x384 := Rect.unit (s := S128x384) ![0, 0] S128x384.size inb_S128x384_S128x384_0_0
abbrev r2_2 : Rect S1x384 := Rect.unit (s := S1x384) ![0, 0] S1x384.size inb_S1x384_S1x384_0_0

/-! ## What the body leaves in the output window's buffer -/

/-- Window 6's staging buffer after the body, from the input windows' blocks: its one store as a piece, the
    payload (the GRU cell) over the six whole-block loads. -/
def out2_6 (x0 : Vec F S2048x128 .f32) (x1 : Vec F S2048x128 .f32) (x2 : Vec F S128x384 .bf16) (x3 : Vec F S1x384 .f32) (x4 : Vec F S128x384 .bf16) (x5 : Vec F S1x384 .f32) : Vec F S2048x128 .f32 :=
  View.canon [⟨r2_0, k2_pay1 (View.ld x1 r2_0) (View.ld x0 r2_0) (View.ld x2 r2_1) (View.ld x3 r2_2) (View.ld x4 r2_1) (View.ld x5 r2_2)⟩]

/-- Its store tiles the buffer (checked by evaluation), so it covers it. -/
theorem cover2_6 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S128x384 .bf16) (harg3 : arg3.IsWhole) (arg4 : Memref sig .tc .vmem S1x384 .f32) (harg4 : arg4.IsWhole) (arg5 : Memref sig .tc .vmem S128x384 .bf16) (harg5 : arg5.IsWhole) (arg6 : Memref sig .tc .vmem S1x384 .f32) (harg6 : arg6.IsWhole) (arg7 : Memref sig .tc .vmem S2048x128 .f32) (harg7 : arg7.IsWhole)
    (x0 : Vec F S2048x128 .f32) (x1 : Vec F S2048x128 .f32) (x2 : Vec F S128x384 .bf16) (x3 : Vec F S1x384 .f32) (x4 : Vec F S128x384 .bf16) (x5 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2_gru_update_kernel i arg1 harg1 arg2 harg2 arg3 harg3 arg4 harg4 arg5 harg5 arg6 harg6 arg7 harg7) K := by
  simp only [cc2_gru_update_kernel_eq_skeleton]; unfold cc2_gru_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected, by `dsimp`). -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Body3.lean ====
/- Region 3 of @main (the message network, three dense layers with two rectifications) at the contents `V`
   the region is entered with: each window's block at a grid point, what the body leaves in the output
   window's buffer as a function of the input blocks, the body's triple, the pipeline's proof data and the
   body obligation at every grid point. Everything is stated at any float interpretation `F`. -/
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block of the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block of the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block of the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, so the block of the point before is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, so the block of the point before is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): where the window is not
    fetched its block index has not moved, so the block of the point before is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): where the window is not
    fetched its block index has not moved, so the block of the point before is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S4096x128 := Rect.unit (s := S4096x128) ![0, 0] S4096x128.size inb_S4096x128_S4096x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S128x64 := Rect.unit (s := S128x64) ![0, 0] S128x64.size inb_S128x64_S128x64_0_0
abbrev r3_4 : Rect S1x64 := Rect.unit (s := S1x64) ![0, 0] S1x64.size inb_S1x64_S1x64_0_0
abbrev r3_5 : Rect S4096x64 := Rect.unit (s := S4096x64) ![0, 0] S4096x64.size inb_S4096x64_S4096x64_0_0

/-! ## What the body leaves in the output window's buffer -/

/-- Window 7's staging buffer after the body, from the input windows' blocks: its one store, of the third layer's
    value computed from the seven loads. -/
def out3_7 (x0 : Vec F S4096x128 .f32) (x1 : Vec F S128x128 .bf16) (x2 : Vec F S1x128 .f32) (x3 : Vec F S128x128 .bf16) (x4 : Vec F S1x128 .f32) (x5 : Vec F S128x64 .bf16) (x6 : Vec F S1x64 .f32) : Vec F S4096x64 .f32 :=
  View.canon [⟨r3_5, k3_pay1 (View.ld x0 r3_0) (View.ld x1 r3_1) (View.ld x2 r3_2) (View.ld x3 r3_1) (View.ld x4 r3_2) (View.ld x5 r3_3) (View.ld x6 r3_4)⟩]

/-- The one store takes the whole buffer, so it covers it. -/
theorem cover3_7 (p0 : Vec F S4096x64 .f32) (y : S4096x64.Idx) :
    ∃ pc ∈ ([⟨r3_5, p0⟩] : List (View.Piece (Elt F) S4096x64 .f32)), y ∈ pc.1.set :=
  View.cover_of_tiled [⟨r3_5, p0⟩] S4096x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S4096x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x64 .bf16) (harg6 : arg6.IsWhole) (arg7 : Memref sig .tc .vmem S1x64 .f32) (harg7 : arg7.IsWhole) (arg8 : Memref sig .tc .vmem S4096x64 .f32) (harg8 : arg8.IsWhole)
    (x0 : Vec F S4096x128 .f32) (x1 : Vec F S128x128 .bf16) (x2 : Vec F S1x128 .f32) (x3 : Vec F S128x128 .bf16) (x4 : Vec F S1x128 .f32) (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_msg_mlp_kernel i arg1 harg1 arg2 harg2 arg3 harg3 arg4 harg4 arg5 harg5 arg6 harg6 arg7 harg7 arg8 harg8) K := by
  simp only [cc3_msg_mlp_kernel_eq_skeleton]; unfold cc3_msg_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant
    that the scoped rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Body4.lean ====
/-
  Region 4 of @main (the readout kernel: three dense layers with two rectifications, then a row softmax over two
  columns), at a parameter `V` — the TensorCore's buffer contents when the region is entered —, at any `F`:
  each window's block at a point, what the body leaves in the output window's buffer as a pure function of the
  input blocks (the stored value over the loaded ones), the body's triple, the pipeline's proof data and the
  library's body obligation at every point of the grid.
-/
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a point that
    does not fetch it has the block index of the point before), for any proof data whose array is `V`'s and whose
    body leaves the block in place; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a point that
    does not fetch it has the block index of the point before), for any proof data whose array is `V`'s and whose
    body leaves the block in place; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a point that
    does not fetch it has the block index of the point before), for any proof data whose array is `V`'s and whose
    body leaves the block in place; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a point that
    does not fetch it has the block index of the point before), for any proof data whose array is `V`'s and whose
    body leaves the block in place; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a point that
    does not fetch it has the block index of the point before), for any proof data whose array is `V`'s and whose
    body leaves the block in place; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (a point that
    does not fetch it has the block index of the point before), for any proof data whose array is `V`'s and whose
    body leaves the block in place; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (a point that
    does not fetch it has the block index of the point before), for any proof data whose array is `V`'s and whose
    body leaves the block in place; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole buffer -/

abbrev r4_0 : Rect S2048x64 := Rect.unit (s := S2048x64) ![0, 0] S2048x64.size inb_S2048x64_S2048x64_0_0
abbrev r4_1 : Rect S64x128 := Rect.unit (s := S64x128) ![0, 0] S64x128.size inb_S64x128_S64x128_0_0
abbrev r4_2 : Rect S1x128 := Rect.unit (s := S1x128) ![0, 0] S1x128.size inb_S1x128_S1x128_0_0
abbrev r4_3 : Rect S128x128 := Rect.unit (s := S128x128) ![0, 0] S128x128.size inb_S128x128_S128x128_0_0
abbrev r4_4 : Rect S1x128 := Rect.unit (s := S1x128) ![0, 0] S1x128.size inb_S1x128_S1x128_0_0
abbrev r4_5 : Rect S128x2 := Rect.unit (s := S128x2) ![0, 0] S128x2.size inb_S128x2_S128x2_0_0
abbrev r4_6 : Rect S1x2 := Rect.unit (s := S1x2) ![0, 0] S1x2.size inb_S1x2_S1x2_0_0
abbrev r4_7 : Rect S2048x2 := Rect.unit (s := S2048x2) ![0, 0] S2048x2.size inb_S2048x2_S2048x2_0_0

/-! ## What the body leaves in the output window's buffer -/

/-- Window 7's staging buffer after the body, from the input windows' blocks: its one store, whose value is the
    row-normalised exponentials (`k4_pay1`) of the exponentials (`k4_pay2`) the first part hands on, themselves a
    function of the seven loaded blocks. -/
def out4_7 (x0 : Vec F S2048x64 .f32) (x1 : Vec F S64x128 .bf16) (x2 : Vec F S1x128 .f32) (x3 : Vec F S128x128 .bf16) (x4 : Vec F S1x128 .f32) (x5 : Vec F S128x2 .bf16) (x6 : Vec F S1x2 .f32) : Vec F S2048x2 .f32 :=
  View.canon [⟨r4_7, k4_pay1 (k4_pay2 (View.ld x0 r4_0) (View.ld x1 r4_1) (View.ld x2 r4_2) (View.ld x3 r4_3) (View.ld x4 r4_4) (View.ld x5 r4_5) (View.ld x6 r4_6))⟩]

/-- The store takes the whole buffer, so it covers it. -/
theorem cover4_7 (p0 : Vec F S2048x2 .f32) (y : S2048x2.Idx) :
    ∃ pc ∈ ([⟨r4_7, p0⟩] : List (View.Piece (Elt F) S2048x2 .f32)), y ∈ pc.1.set :=
  View.cover_of_tiled [⟨r4_7, p0⟩] S2048x2.size (by rfl) y

/-! ## The body's triple -/

set_option maxHeartbeats 1000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg1 : Memref sig .tc .vmem S2048x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x2 .bf16) (harg6 : arg6.IsWhole) (arg7 : Memref sig .tc .vmem S1x2 .f32) (harg7 : arg7.IsWhole) (arg8 : Memref sig .tc .vmem S2048x2 .f32) (harg8 : arg8.IsWhole)
    (x0 : Vec F S2048x64 .f32) (x1 : Vec F S64x128 .bf16) (x2 : Vec F S1x128 .f32) (x3 : Vec F S128x128 .bf16) (x4 : Vec F S1x128 .f32) (x5 : Vec F S128x2 .bf16) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_readout_kernel i arg1 harg1 arg2 harg2 arg3 harg3 arg4 harg4 arg5 harg5 arg6 harg6 arg7 harg7 arg8 harg8) K := by
  simp only [cc4_readout_kernel_eq_skeleton]; unfold cc4_readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Run.lean ====
/- The buffer contents at every segment boundary of @main of `KernelIdeal` — five stretches of host operations and five
   kernel regions — a fold from the launch memory, at any float instance `F`, for ANY per-region proof data:
   `W0` … `W10` (a stretch's contents after its operations; a region's arrays at what its write-backs leave, every
   other buffer as entered), `V1` … `V10` the same read at the TensorCore's references; what each segment keeps; a
   buffer no segment touches ends as launched; the result buffer at the end. -/
import proofs.«136422_j72232759984373_2_alg».proof.Proof.Gen.KernelIdeal.Launch
import proofs.«136422_j72232759984373_2_alg».proof.Proof.Gen.KernelIdeal.Points
import proofs.«136422_j72232759984373_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝒱₀" => Variants.none

section Run

/-! # The regions' proof data: any family per region, stated at the region-entry contents (the TensorCore's buffer
    contents on every core, reference by reference); an input window's array is read off those contents -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)
  (dat4 : ((c : Dev nD) → (b : Ref sig .tc) → Buf (Elt F) ((c : Thread nD τ).loc b)) → (c : Dev nD) → Dat τ (Elt F) Unit ℕ (UR sig nD τ) ℕ cfg4 c)

variable
  (hA0 : ∀ (V : ((c : Dev nD) → (b : Ref sig .tc) → Buf (Elt F) ((c : Thread nD τ).loc b))) (c : Dev nD) (w : Fin cfg0.W), (dat0 V c).A w = V c (Pipeline.arrRef spec0 w))
  (hA1 : ∀ (V : ((c : Dev nD) → (b : Ref sig .tc) → Buf (Elt F) ((c : Thread nD τ).loc b))) (c : Dev nD) (w : Fin cfg1.W), (dat1 V c).A w = V c (Pipeline.arrRef spec1 w))
  (hA2 : ∀ (V : ((c : Dev nD) → (b : Ref sig .tc) → Buf (Elt F) ((c : Thread nD τ).loc b))) (c : Dev nD) (w : Fin cfg2.W), (dat2 V c).A w = V c (Pipeline.arrRef spec2 w))
  (hA3 : ∀ (V : ((c : Dev nD) → (b : Ref sig .tc) → Buf (Elt F) ((c : Thread nD τ).loc b))) (c : Dev nD) (w : Fin cfg3.W), (dat3 V c).A w = V c (Pipeline.arrRef spec3 w))
  (hA4 : ∀ (V : ((c : Dev nD) → (b : Ref sig .tc) → Buf (Elt F) ((c : Thread nD τ).loc b))) (c : Dev nD) (w : Fin cfg4.W), (dat4 V c).A w = V c (Pipeline.arrRef spec4 w))

variable (m : (ℓ : Loc nD τ sig) → Buf (Elt F) ℓ)

/-! # The buffer contents at each segment boundary: a fold through @main -/

/-- Core `c`'s buffers at launch. -/
abbrev W0 : Dev nD → Valuation τ sig (Elt F) := fun c b => m (c, b)

/-- After `hostOps0` (region 0's entry). -/
abbrev W1 : Dev nD → Valuation τ sig (Elt F) := fun c => StableHlo.after hostOps0 (W0 m c)
/-- A buffer the stretch does not write keeps its contents. -/
theorem W1_of (c : Dev nD) (b : Ref sig .tc) (h : b ∉ hostOps0_W) :
    W1 m c (Proc.devRef .tc b) = W0 m c (Proc.devRef .tc b) :=
  StableHlo.after_of_writes_sub hostOps0 _ hostOps0_writes h
/-- The same read at the TensorCore's references (what region 0's proof data take). -/
abbrev V1 : ((c : Dev nD) → (b : Ref sig .tc) → Buf (Elt F) ((c : Thread nD τ).loc b)) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 dat0 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
include hA0 in
/-- An input window's array leaves the region as it entered it. -/
theorem W2_in (c : Dev nD) (w : Fin cfg0.W) (hin : (cfg0.win w).isOut = false) :
    W2 dat0 m c (Proc.devRef .tc (Pipeline.arrRef spec0 w)) = W1 m c (Proc.devRef .tc (Pipeline.arrRef spec0 w)) :=
  (W2_arr dat0 m c w).trans (((dat0 (V1 m) c).arrAt_in w hin _).trans (hA0 (V1 m) c w))
/-- The same read at the TensorCore's references (region 0's exit contents). -/
abbrev V2 : ((c : Dev nD) → (b : Ref sig .tc) → Buf (Elt F) ((c : Thread nD τ).loc b)) := fun c b => W2 dat0 m c b
/-- At region 0's exit each of its arrays holds what the pipeline leaves (`hF0`) and every other buffer what it
    held at entry (`hrest0`). -/
theorem hF0 (c : Dev nD) (w : Fin cfg0.W) : (dat0 (V1 m) c).arrAt w cfg0.N = V2 dat0 m c (Pipeline.arrRef spec0 w) :=
  (W2_arr dat0 m c w).symm
theorem hrest0 (c : Dev nD) : ∀ b, b ∉ Finset.univ.image (Pipeline.arrRef spec0) → V2 dat0 m c b = V1 m c b :=
  fun b hb => W2_of_ne dat0 m c b fun w e => hb (Finset.mem_image.mpr ⟨w, Finset.mem_univ _, e⟩)

/-- After `hostOps1` (region 1's entry). -/
abbrev W3 : Dev nD → Valuation τ sig (Elt F) := fun c => StableHlo.after hostOps1 (W2 dat0 m c)
/-- A buffer the stretch does not write keeps its contents. -/
theorem W3_of (c : Dev nD) (b : Ref sig .tc) (h : b ∉ hostOps1_W) :
    W3 dat0 m c (Proc.devRef .tc b) = W2 dat0 m c (Proc.devRef .tc b) :=
  StableHlo.after_of_writes_sub hostOps1 _ hostOps1_writes h
/-- The same read at the TensorCore's references (what region 1's proof data take). -/
abbrev V3 : ((c : Dev nD) → (b : Ref sig .tc) → Buf (Elt F) ((c : Thread nD τ).loc b)) := fun c b => W3 dat0 m c b
/-- At region 1's exit: its arrays at what the pipeline leaves (the inputs as entered, each output's write-backs
    folded), every other buffer as entered. -/
def W4 (c : Dev nD) : Valuation τ sig (Elt F) :=
  Pipeline.withArrays spec1 c (W3 dat0 m c) fun w => (dat1 (V3 dat0 m) c).arrAt w cfg1.N
theorem W4_arr (c : Dev nD) (w : Fin cfg1.W) :
    W4 dat0 dat1 m c (Proc.devRef .tc (Pipeline.arrRef spec1 w)) = (dat1 (V3 dat0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m c (Proc.devRef .tc b) = W3 dat0 m c (Proc.devRef .tc b) := by
  unfold W4; exact Pipeline.withArrays_of_ne spec1 c _ _ b hb
include hA1 in
/-- An input window's array leaves the region as it entered it. -/
theorem W4_in (c : Dev nD) (w : Fin cfg1.W) (hin : (cfg1.win w).isOut = false) :
    W4 dat0 dat1 m c (Proc.devRef .tc (Pipeline.arrRef spec1 w)) = W3 dat0 m c (Proc.devRef .tc (Pipeline.arrRef spec1 w)) :=
  (W4_arr dat0 dat1 m c w).trans (((dat1 (V3 dat0 m) c).arrAt_in w hin _).trans (hA1 (V3 dat0 m) c w))
/-- The same read at the TensorCore's references (region 1's exit contents). -/
abbrev V4 : ((c : Dev nD) → (b : Ref sig .tc) → Buf (Elt F) ((c : Thread nD τ).loc b)) := fun c b => W4 dat0 dat1 m c b
/-- At region 1's exit each of its arrays holds what the pipeline leaves (`hF1`) and every other buffer what it
    held at entry (`hrest1`). -/
theorem hF1 (c : Dev nD) (w : Fin cfg1.W) : (dat1 (V3 dat0 m) c).arrAt w cfg1.N = V4 dat0 dat1 m c (Pipeline.arrRef spec1 w) :=
  (W4_arr dat0 dat1 m c w).symm
theorem hrest1 (c : Dev nD) : ∀ b, b ∉ Finset.univ.image (Pipeline.arrRef spec1) → V4 dat0 dat1 m c b = V3 dat0 m c b :=
  fun b hb => W4_of_ne dat0 dat1 m c b fun w e => hb (Finset.mem_image.mpr ⟨w, Finset.mem_univ _, e⟩)

/-- After `hostOps2` (region 2's entry). -/
abbrev W5 : Dev nD → Valuation τ sig (Elt F) := fun c => StableHlo.after hostOps2 (W4 dat0 dat1 m c)
/-- A buffer the stretch does not write keeps its contents. -/
theorem W5_of (c : Dev nD) (b : Ref sig .tc) (h : b ∉ hostOps2_W) :
    W5 dat0 dat1 m c (Proc.devRef .tc b) = W4 dat0 dat1 m c (Proc.devRef .tc b) :=
  StableHlo.after_of_writes_sub hostOps2 _ hostOps2_writes h
/-- The same read at the TensorCore's references (what region 2's proof data take). -/
abbrev V5 : ((c : Dev nD) → (b : Ref sig .tc) → Buf (Elt F) ((c : Thread nD τ).loc b)) := fun c b => W5 dat0 dat1 m c b
/-- At region 2's exit: its arrays at what the pipeline leaves (the inputs as entered, each output's write-backs
    folded), every other buffer as entered. -/
def W6 (c : Dev nD) : Valuation τ sig (Elt F) :=
  Pipeline.withArrays spec2 c (W5 dat0 dat1 m c) fun w => (dat2 (V5 dat0 dat1 m) c).arrAt w cfg2.N
theorem W6_arr (c : Dev nD) (w : Fin cfg2.W) :
    W6 dat0 dat1 dat2 m c (Proc.devRef .tc (Pipeline.arrRef spec2 w)) = (dat2 (V5 dat0 dat1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 dat0 dat1 dat2 m c (Proc.devRef .tc b) = W5 dat0 dat1 m c (Proc.devRef .tc b) := by
  unfold W6; exact Pipeline.withArrays_of_ne spec2 c _ _ b hb
include hA2 in
/-- An input window's array leaves the region as it entered it. -/
theorem W6_in (c : Dev nD) (w : Fin cfg2.W) (hin : (cfg2.win w).isOut = false) :
    W6 dat0 dat1 dat2 m c (Proc.devRef .tc (Pipeline.arrRef spec2 w)) = W5 dat0 dat1 m c (Proc.devRef .tc (Pipeline.arrRef spec2 w)) :=
  (W6_arr dat0 dat1 dat2 m c w).trans (((dat2 (V5 dat0 dat1 m) c).arrAt_in w hin _).trans (hA2 (V5 dat0 dat1 m) c w))
/-- The same read at the TensorCore's references (region 2's exit contents). -/
abbrev V6 : ((c : Dev nD) → (b : Ref sig .tc) → Buf (Elt F) ((c : Thread nD τ).loc b)) := fun c b => W6 dat0 dat1 dat2 m c b
/-- At region 2's exit each of its arrays holds what the pipeline leaves (`hF2`) and every other buffer what it
    held at entry (`hrest2`). -/
theorem hF2 (c : Dev nD) (w : Fin cfg2.W) : (dat2 (V5 dat0 dat1 m) c).arrAt w cfg2.N = V6 dat0 dat1 dat2 m c (Pipeline.arrRef spec2 w) :=
  (W6_arr dat0 dat1 dat2 m c w).symm
theorem hrest2 (c : Dev nD) : ∀ b, b ∉ Finset.univ.image (Pipeline.arrRef spec2) → V6 dat0 dat1 dat2 m c b = V5 dat0 dat1 m c b :=
  fun b hb => W6_of_ne dat0 dat1 dat2 m c b fun w e => hb (Finset.mem_image.mpr ⟨w, Finset.mem_univ _, e⟩)

/-- After `hostOps3` (region 3's entry). -/
abbrev W7 : Dev nD → Valuation τ sig (Elt F) := fun c => StableHlo.after hostOps3 (W6 dat0 dat1 dat2 m c)
/-- A buffer the stretch does not write keeps its contents. -/
theorem W7_of (c : Dev nD) (b : Ref sig .tc) (h : b ∉ hostOps3_W) :
    W7 dat0 dat1 dat2 m c (Proc.devRef .tc b) = W6 dat0 dat1 dat2 m c (Proc.devRef .tc b) :=
  StableHlo.after_of_writes_sub hostOps3 _ hostOps3_writes h
/-- The same read at the TensorCore's references (what region 3's proof data take). -/
abbrev V7 : ((c : Dev nD) → (b : Ref sig .tc) → Buf (Elt F) ((c : Thread nD τ).loc b)) := fun c b => W7 dat0 dat1 dat2 m c b
/-- At region 3's exit: its arrays at what the pipeline leaves (the inputs as entered, each output's write-backs
    folded), every other buffer as entered. -/
def W8 (c : Dev nD) : Valuation τ sig (Elt F) :=
  Pipeline.withArrays spec3 c (W7 dat0 dat1 dat2 m c) fun w => (dat3 (V7 dat0 dat1 dat2 m) c).arrAt w cfg3.N
theorem W8_arr (c : Dev nD) (w : Fin cfg3.W) :
    W8 dat0 dat1 dat2 dat3 m c (Proc.devRef .tc (Pipeline.arrRef spec3 w)) = (dat3 (V7 dat0 dat1 dat2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 dat0 dat1 dat2 dat3 m c (Proc.devRef .tc b) = W7 dat0 dat1 dat2 m c (Proc.devRef .tc b) := by
  unfold W8; exact Pipeline.withArrays_of_ne spec3 c _ _ b hb
include hA3 in
/-- An input window's array leaves the region as it entered it. -/
theorem W8_in (c : Dev nD) (w : Fin cfg3.W) (hin : (cfg3.win w).isOut = false) :
    W8 dat0 dat1 dat2 dat3 m c (Proc.devRef .tc (Pipeline.arrRef spec3 w)) = W7 dat0 dat1 dat2 m c (Proc.devRef .tc (Pipeline.arrRef spec3 w)) :=
  (W8_arr dat0 dat1 dat2 dat3 m c w).trans (((dat3 (V7 dat0 dat1 dat2 m) c).arrAt_in w hin _).trans (hA3 (V7 dat0 dat1 dat2 m) c w))
/-- The same read at the TensorCore's references (region 3's exit contents). -/
abbrev V8 : ((c : Dev nD) → (b : Ref sig .tc) → Buf (Elt F) ((c : Thread nD τ).loc b)) := fun c b => W8 dat0 dat1 dat2 dat3 m c b
/-- At region 3's exit each of its arrays holds what the pipeline leaves (`hF3`) and every other buffer what it
    held at entry (`hrest3`). -/
theorem hF3 (c : Dev nD) (w : Fin cfg3.W) : (dat3 (V7 dat0 dat1 dat2 m) c).arrAt w cfg3.N = V8 dat0 dat1 dat2 dat3 m c (Pipeline.arrRef spec3 w) :=
  (W8_arr dat0 dat1 dat2 dat3 m c w).symm
theorem hrest3 (c : Dev nD) : ∀ b, b ∉ Finset.univ.image (Pipeline.arrRef spec3) → V8 dat0 dat1 dat2 dat3 m c b = V7 dat0 dat1 dat2 m c b :=
  fun b hb => W8_of_ne dat0 dat1 dat2 dat3 m c b fun w e => hb (Finset.mem_image.mpr ⟨w, Finset.mem_univ _, e⟩)

/-- After `hostOps4` (region 4's entry). -/
abbrev W9 : Dev nD → Valuation τ sig (Elt F) := fun c => StableHlo.after hostOps4 (W8 dat0 dat1 dat2 dat3 m c)
/-- A buffer the stretch does not write keeps its contents. -/
theorem W9_of (c : Dev nD) (b : Ref sig .tc) (h : b ∉ hostOps4_W) :
    W9 dat0 dat1 dat2 dat3 m c (Proc.devRef .tc b) = W8 dat0 dat1 dat2 dat3 m c (Proc.devRef .tc b) :=
  StableHlo.after_of_writes_sub hostOps4 _ hostOps4_writes h
/-- The same read at the TensorCore's references (what region 4's proof data take). -/
abbrev V9 : ((c : Dev nD) → (b : Ref sig .tc) → Buf (Elt F) ((c : Thread nD τ).loc b)) := fun c b => W9 dat0 dat1 dat2 dat3 m c b
/-- At region 4's exit: its arrays at what the pipeline leaves (the inputs as entered, each output's write-backs
    folded), every other buffer as entered. -/
def W10 (c : Dev nD) : Valuation τ sig (Elt F) :=
  Pipeline.withArrays spec4 c (W9 dat0 dat1 dat2 dat3 m c) fun w => (dat4 (V9 dat0 dat1 dat2 dat3 m) c).arrAt w cfg4.N
theorem W10_arr (c : Dev nD) (w : Fin cfg4.W) :
    W10 dat0 dat1 dat2 dat3 dat4 m c (Proc.devRef .tc (Pipeline.arrRef spec4 w)) = (dat4 (V9 dat0 dat1 dat2 dat3 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 dat0 dat1 dat2 dat3 dat4 m c (Proc.devRef .tc b) = W9 dat0 dat1 dat2 dat3 m c (Proc.devRef .tc b) := by
  unfold W10; exact Pipeline.withArrays_of_ne spec4 c _ _ b hb
include hA4 in
/-- An input window's array leaves the region as it entered it. -/
theorem W10_in (c : Dev nD) (w : Fin cfg4.W) (hin : (cfg4.win w).isOut = false) :
    W10 dat0 dat1 dat2 dat3 dat4 m c (Proc.devRef .tc (Pipeline.arrRef spec4 w)) = W9 dat0 dat1 dat2 dat3 m c (Proc.devRef .tc (Pipeline.arrRef spec4 w)) :=
  (W10_arr dat0 dat1 dat2 dat3 dat4 m c w).trans (((dat4 (V9 dat0 dat1 dat2 dat3 m) c).arrAt_in w hin _).trans (hA4 (V9 dat0 dat1 dat2 dat3 m) c w))
/-- The same read at the TensorCore's references (region 4's exit contents). -/
abbrev V10 : ((c : Dev nD) → (b : Ref sig .tc) → Buf (Elt F) ((c : Thread nD τ).loc b)) := fun c b => W10 dat0 dat1 dat2 dat3 dat4 m c b
/-- At region 4's exit each of its arrays holds what the pipeline leaves (`hF4`) and every other buffer what it
    held at entry (`hrest4`). -/
theorem hF4 (c : Dev nD) (w : Fin cfg4.W) : (dat4 (V9 dat0 dat1 dat2 dat3 m) c).arrAt w cfg4.N = V10 dat0 dat1 dat2 dat3 dat4 m c (Pipeline.arrRef spec4 w) :=
  (W10_arr dat0 dat1 dat2 dat3 dat4 m c w).symm
theorem hrest4 (c : Dev nD) : ∀ b, b ∉ Finset.univ.image (Pipeline.arrRef spec4) → V10 dat0 dat1 dat2 dat3 dat4 m c b = V9 dat0 dat1 dat2 dat3 m c b :=
  fun b hb => W10_of_ne dat0 dat1 dat2 dat3 dat4 m c b fun w e => hb (Finset.mem_image.mpr ⟨w, Finset.mem_univ _, e⟩)

/-! ### A buffer no host stretch writes and no region stages keeps its launch contents through the whole fold -/

theorem W10_of_untouched (c : Dev nD) (b : Ref sig .tc)
    (h0 : b ∉ hostOps0_W) (h1 : b ∉ hostOps1_W) (h2 : b ∉ hostOps2_W) (h3 : b ∉ hostOps3_W) (h4 : b ∉ hostOps4_W)
    (k0 : ∀ w, Pipeline.arrRef spec0 w ≠ b) (k1 : ∀ w, Pipeline.arrRef spec1 w ≠ b) (k2 : ∀ w, Pipeline.arrRef spec2 w ≠ b)
    (k3 : ∀ w, Pipeline.arrRef spec3 w ≠ b) (k4 : ∀ w, Pipeline.arrRef spec4 w ≠ b) :
    W10 dat0 dat1 dat2 dat3 dat4 m c (Proc.devRef .tc b) = m ((c : Thread nD τ).loc b) :=
  calc W10 dat0 dat1 dat2 dat3 dat4 m c (Proc.devRef .tc b)
    _ = W9 dat0 dat1 dat2 dat3 m c (Proc.devRef .tc b) := W10_of_ne dat0 dat1 dat2 dat3 dat4 m c b k4
    _ = W8 dat0 dat1 dat2 dat3 m c (Proc.devRef .tc b) := W9_of dat0 dat1 dat2 dat3 m c b h4
    _ = W7 dat0 dat1 dat2 m c (Proc.devRef .tc b) := W8_of_ne dat0 dat1 dat2 dat3 m c b k3
    _ = W6 dat0 dat1 dat2 m c (Proc.devRef .tc b) := W7_of dat0 dat1 dat2 m c b h3
    _ = W5 dat0 dat1 m c (Proc.devRef .tc b) := W6_of_ne dat0 dat1 dat2 m c b k2
    _ = W4 dat0 dat1 m c (Proc.devRef .tc b) := W5_of dat0 dat1 m c b h2
    _ = W3 dat0 m c (Proc.devRef .tc b) := W4_of_ne dat0 dat1 m c b k1
    _ = W2 dat0 m c (Proc.devRef .tc b) := W3_of dat0 m c b h1
    _ = W1 m c (Proc.devRef .tc b) := W2_of_ne dat0 m c b k0
    _ = W0 m c (Proc.devRef .tc b) := W1_of m c b h0
    _ = m ((c : Thread nD τ).loc b) := rfl

/-- The result buffer at the end is what region 4's pipeline leaves in its output window's array. -/
theorem W10_result (c : Dev nD) :
    W10 dat0 dat1 dat2 dat3 dat4 m c (Proc.devRef .tc main_v72) = (dat4 (V9 dat0 dat1 dat2 dat3 m) c).arrAt (7 : Fin cfg4.W) cfg4.N :=
  W10_arr dat0 dat1 dat2 dat3 dat4 m c 7

end Run

end Cert.KernelIdeal.Hand

end
-- ==== Proof.KI.Bounds.lean ====
/- The buffer contents at each segment boundary of @main of `KernelIdeal`, at the five regions' proof data: the
   general run's boundary contents at `dat0` … `dat4`, with what each segment changes and keeps, and the result
   buffer's contents at the end. -/
import proofs.«136422_j72232759984373_2_alg».proof.Proof.KI.Body0
import proofs.«136422_j72232759984373_2_alg».proof.Proof.KI.Body1
import proofs.«136422_j72232759984373_2_alg».proof.Proof.KI.Body2
import proofs.«136422_j72232759984373_2_alg».proof.Proof.KI.Body3
import proofs.«136422_j72232759984373_2_alg».proof.Proof.KI.Body4
import proofs.«136422_j72232759984373_2_alg».proof.Proof.KI.Run

set_option maxRecDepth 16384

noncomputable section

namespace Cert.KernelIdeal.Hand.Asm

open Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # The buffer contents at each segment boundary -/

/-- Core `c`'s buffers at launch. -/
abbrev W0 : Dev nD → Valuation τ sig (Elt F) := Hand.W0 m

/-- After `hostOps0` (region 0's entry): `StableHlo.after hostOps0 (W0 m c)`. -/
abbrev W1 : Dev nD → Valuation τ sig (Elt F) := Hand.W1 m
theorem W1_of (c : Dev nD) (b : Ref sig .tc) (h : b ∉ hostOps0_W) :
    W1 m c (Proc.devRef .tc b) = W0 m c (Proc.devRef .tc b) := Hand.W1_of m c b h
/-- The same read at the TensorCore's references (what region 0's proof data take). -/
abbrev V1 : ((c : Dev nD) → (b : Ref sig .tc) → Buf (Elt F) ((c : Thread nD τ).loc b)) := Hand.V1 m
/-- At region 0's exit. -/
abbrev W2 : Dev nD → Valuation τ sig (Elt F) := Hand.W2 dat0 m
theorem W2_arr (c : Dev nD) (w : Fin cfg0.W) :
    W2 m c (Proc.devRef .tc (Pipeline.arrRef spec0 w)) = (dat0 (V1 m) c).arrAt w cfg0.N := Hand.W2_arr dat0 m c w
theorem W2_of_ne (c : Dev nD) (b : Ref sig .tc) (hb : ∀ w, Pipeline.arrRef spec0 w ≠ b) :
    W2 m c (Proc.devRef .tc b) = W1 m c (Proc.devRef .tc b) := Hand.W2_of_ne dat0 m c b hb
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  Hand.W2_in dat0 A_eq0 m c w hin
/-- The same read at the TensorCore's references (region 0's exit contents). -/
abbrev V2 : ((c : Dev nD) → (b : Ref sig .tc) → Buf (Elt F) ((c : Thread nD τ).loc b)) := Hand.V2 dat0 m

/-- After `hostOps1` (region 1's entry): `StableHlo.after hostOps1 (W2 m c)`. -/
abbrev W3 : Dev nD → Valuation τ sig (Elt F) := Hand.W3 dat0 m
theorem W3_of (c : Dev nD) (b : Ref sig .tc) (h : b ∉ hostOps1_W) :
    W3 m c (Proc.devRef .tc b) = W2 m c (Proc.devRef .tc b) := Hand.W3_of dat0 m c b h
/-- The same read at the TensorCore's references (what region 1's proof data take). -/
abbrev V3 : ((c : Dev nD) → (b : Ref sig .tc) → Buf (Elt F) ((c : Thread nD τ).loc b)) := Hand.V3 dat0 m
/-- At region 1's exit. -/
abbrev W4 : Dev nD → Valuation τ sig (Elt F) := Hand.W4 dat0 dat1 m
theorem W4_arr (c : Dev nD) (w : Fin cfg1.W) :
    W4 m c (Proc.devRef .tc (Pipeline.arrRef spec1 w)) = (dat1 (V3 m) c).arrAt w cfg1.N := Hand.W4_arr dat0 dat1 m c w
theorem W4_of_ne (c : Dev nD) (b : Ref sig .tc) (hb : ∀ w, Pipeline.arrRef spec1 w ≠ b) :
    W4 m c (Proc.devRef .tc b) = W3 m c (Proc.devRef .tc b) := Hand.W4_of_ne dat0 dat1 m c b hb
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  Hand.W4_in dat0 dat1 A_eq1 m c w hin
/-- The same read at the TensorCore's references (region 1's exit contents). -/
abbrev V4 : ((c : Dev nD) → (b : Ref sig .tc) → Buf (Elt F) ((c : Thread nD τ).loc b)) := Hand.V4 dat0 dat1 m

/-- After `hostOps2` (region 2's entry): `StableHlo.after hostOps2 (W4 m c)`. -/
abbrev W5 : Dev nD → Valuation τ sig (Elt F) := Hand.W5 dat0 dat1 m
theorem W5_of (c : Dev nD) (b : Ref sig .tc) (h : b ∉ hostOps2_W) :
    W5 m c (Proc.devRef .tc b) = W4 m c (Proc.devRef .tc b) := Hand.W5_of dat0 dat1 m c b h
/-- The same read at the TensorCore's references (what region 2's proof data take). -/
abbrev V5 : ((c : Dev nD) → (b : Ref sig .tc) → Buf (Elt F) ((c : Thread nD τ).loc b)) := Hand.V5 dat0 dat1 m
/-- At region 2's exit. -/
abbrev W6 : Dev nD → Valuation τ sig (Elt F) := Hand.W6 dat0 dat1 dat2 m
theorem W6_arr (c : Dev nD) (w : Fin cfg2.W) :
    W6 m c (Proc.devRef .tc (Pipeline.arrRef spec2 w)) = (dat2 (V5 m) c).arrAt w cfg2.N := Hand.W6_arr dat0 dat1 dat2 m c w
theorem W6_of_ne (c : Dev nD) (b : Ref sig .tc) (hb : ∀ w, Pipeline.arrRef spec2 w ≠ b) :
    W6 m c (Proc.devRef .tc b) = W5 m c (Proc.devRef .tc b) := Hand.W6_of_ne dat0 dat1 dat2 m c b hb
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  Hand.W6_in dat0 dat1 dat2 A_eq2 m c w hin
/-- The same read at the TensorCore's references (region 2's exit contents). -/
abbrev V6 : ((c : Dev nD) → (b : Ref sig .tc) → Buf (Elt F) ((c : Thread nD τ).loc b)) := Hand.V6 dat0 dat1 dat2 m

/-- After `hostOps3` (region 3's entry): `StableHlo.after hostOps3 (W6 m c)`. -/
abbrev W7 : Dev nD → Valuation τ sig (Elt F) := Hand.W7 dat0 dat1 dat2 m
theorem W7_of (c : Dev nD) (b : Ref sig .tc) (h : b ∉ hostOps3_W) :
    W7 m c (Proc.devRef .tc b) = W6 m c (Proc.devRef .tc b) := Hand.W7_of dat0 dat1 dat2 m c b h
/-- The same read at the TensorCore's references (what region 3's proof data take). -/
abbrev V7 : ((c : Dev nD) → (b : Ref sig .tc) → Buf (Elt F) ((c : Thread nD τ).loc b)) := Hand.V7 dat0 dat1 dat2 m
/-- At region 3's exit. -/
abbrev W8 : Dev nD → Valuation τ sig (Elt F) := Hand.W8 dat0 dat1 dat2 dat3 m
theorem W8_arr (c : Dev nD) (w : Fin cfg3.W) :
    W8 m c (Proc.devRef .tc (Pipeline.arrRef spec3 w)) = (dat3 (V7 m) c).arrAt w cfg3.N := Hand.W8_arr dat0 dat1 dat2 dat3 m c w
theorem W8_of_ne (c : Dev nD) (b : Ref sig .tc) (hb : ∀ w, Pipeline.arrRef spec3 w ≠ b) :
    W8 m c (Proc.devRef .tc b) = W7 m c (Proc.devRef .tc b) := Hand.W8_of_ne dat0 dat1 dat2 dat3 m c b hb
theorem W8_in (c : Dev nD) (w : Fin cfg3.W) (hin : (cfg3.win w).isOut = false) :
    W8 m c (Proc.devRef .tc (Pipeline.arrRef spec3 w)) = W7 m c (Proc.devRef .tc (Pipeline.arrRef spec3 w)) :=
  Hand.W8_in dat0 dat1 dat2 dat3 A_eq3 m c w hin
/-- The same read at the TensorCore's references (region 3's exit contents). -/
abbrev V8 : ((c : Dev nD) → (b : Ref sig .tc) → Buf (Elt F) ((c : Thread nD τ).loc b)) := Hand.V8 dat0 dat1 dat2 dat3 m

/-- After `hostOps4` (region 4's entry): `StableHlo.after hostOps4 (W8 m c)`. -/
abbrev W9 : Dev nD → Valuation τ sig (Elt F) := Hand.W9 dat0 dat1 dat2 dat3 m
theorem W9_of (c : Dev nD) (b : Ref sig .tc) (h : b ∉ hostOps4_W) :
    W9 m c (Proc.devRef .tc b) = W8 m c (Proc.devRef .tc b) := Hand.W9_of dat0 dat1 dat2 dat3 m c b h
/-- The same read at the TensorCore's references (what region 4's proof data take). -/
abbrev V9 : ((c : Dev nD) → (b : Ref sig .tc) → Buf (Elt F) ((c : Thread nD τ).loc b)) := Hand.V9 dat0 dat1 dat2 dat3 m
/-- At region 4's exit. -/
abbrev W10 : Dev nD → Valuation τ sig (Elt F) := Hand.W10 dat0 dat1 dat2 dat3 dat4 m
theorem W10_arr (c : Dev nD) (w : Fin cfg4.W) :
    W10 m c (Proc.devRef .tc (Pipeline.arrRef spec4 w)) = (dat4 (V9 m) c).arrAt w cfg4.N := Hand.W10_arr dat0 dat1 dat2 dat3 dat4 m c w
theorem W10_of_ne (c : Dev nD) (b : Ref sig .tc) (hb : ∀ w, Pipeline.arrRef spec4 w ≠ b) :
    W10 m c (Proc.devRef .tc b) = W9 m c (Proc.devRef .tc b) := Hand.W10_of_ne dat0 dat1 dat2 dat3 dat4 m c b hb
theorem W10_in (c : Dev nD) (w : Fin cfg4.W) (hin : (cfg4.win w).isOut = false) :
    W10 m c (Proc.devRef .tc (Pipeline.arrRef spec4 w)) = W9 m c (Proc.devRef .tc (Pipeline.arrRef spec4 w)) :=
  Hand.W10_in dat0 dat1 dat2 dat3 dat4 A_eq4 m c w hin
/-- The same read at the TensorCore's references (region 4's exit contents). -/
abbrev V10 : ((c : Dev nD) → (b : Ref sig .tc) → Buf (Elt F) ((c : Thread nD τ).loc b)) := Hand.V10 dat0 dat1 dat2 dat3 dat4 m

/-- The result buffer at the end is what region 4's pipeline leaves in its output window's array. -/
theorem W10_result (c : Dev nD) :
    W10 m c (Proc.devRef .tc main_v72) = (dat4 (V9 m) c).arrAt (7 : Fin cfg4.W) cfg4.N :=
  Hand.W10_result dat0 dat1 dat2 dat3 dat4 m c

end Cert.KernelIdeal.Hand.Asm

end
-- ==== Proof.KI.RunFrame.lean ====
/- The run of @main of `KernelIdeal` over its ten segments from the launch to the return, at any float instance `F`, for
   ANY per-region proof data whose arrays are the region-entry contents, whose invariant is the class invariant, which
   hold full shares, owe nothing, record no bound, and meet the body obligation: each region as a segment record over
   the thread state "every unscoped buffer at the boundary's contents", @main as the segments' run, the frame (every
   argument array ends as launched) and the result buffer read off the last boundary's contents. -/
import proofs.«136422_j72232759984373_2_alg».proof.Proof.KI.Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝒱₀" => Variants.none

section Run

/-! # The regions' proof data and what the run takes of each -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)
  (dat4 : ((c : Dev nD) → (b : Ref sig .tc) → Buf (Elt F) ((c : Thread nD τ).loc b)) → (c : Dev nD) → Dat τ (Elt F) Unit ℕ (UR sig nD τ) ℕ cfg4 c)

variable
  (hA0 : ∀ (V : ((c : Dev nD) → (b : Ref sig .tc) → Buf (Elt F) ((c : Thread nD τ).loc b))) (c : Dev nD) (w : Fin cfg0.W), (dat0 V c).A w = V c (Pipeline.arrRef spec0 w))
  (hΦ0 : ∀ (V : ((c : Dev nD) → (b : Ref sig .tc) → Buf (Elt F) ((c : Thread nD τ).loc b))) (c : Dev nD) (i : Fin (cfg0.N + 1)), (dat0 V c).Φ i = Pipeline.ΦA spec0 c)
  (hq0 : ∀ (V : ((c : Dev nD) → (b : Ref sig .tc) → Buf (Elt F) ((c : Thread nD τ).loc b))) (c : Dev nD) (w : Fin cfg0.W), (dat0 V c).q w = fullShare)
  (ho0 : ∀ (V : ((c : Dev nD) → (b : Ref sig .tc) → Buf (Elt F) ((c : Thread nD τ).loc b))) (c : Dev nD) (t : Fin (cfg0.N + 1)), (dat0 V c).owed t = 0)
  (hrec0 : ∀ (V : ((c : Dev nD) → (b : Ref sig .tc) → Buf (Elt F) ((c : Thread nD τ).loc b))) (c : Dev nD) (t : Fin (cfg0.N + 1)), (dat0 V c).recorded t = Set.univ)
  (hbody0 : ∀ (V : ((c : Dev nD) → (b : Ref sig .tc) → Buf (Elt F) ((c : Thread nD τ).loc b))) (c : Dev nD), BodyObligation (dat0 V c) (defs₀ (F := F)) 𝒱₀ () Set.univ)
  (hA1 : ∀ (V : ((c : Dev nD) → (b : Ref sig .tc) → Buf (Elt F) ((c : Thread nD τ).loc b))) (c : Dev nD) (w : Fin cfg1.W), (dat1 V c).A w = V c (Pipeline.arrRef spec1 w))
  (hΦ1 : ∀ (V : ((c : Dev nD) → (b : Ref sig .tc) → Buf (Elt F) ((c : Thread nD τ).loc b))) (c : Dev nD) (i : Fin (cfg1.N + 1)), (dat1 V c).Φ i = Pipeline.ΦA spec1 c)
  (hq1 : ∀ (V : ((c : Dev nD) → (b : Ref sig .tc) → Buf (Elt F) ((c : Thread nD τ).loc b))) (c : Dev nD) (w : Fin cfg1.W), (dat1 V c).q w = fullShare)
  (ho1 : ∀ (V : ((c : Dev nD) → (b : Ref sig .tc) → Buf (Elt F) ((c : Thread nD τ).loc b))) (c : Dev nD) (t : Fin (cfg1.N + 1)), (dat1 V c).owed t = 0)
  (hrec1 : ∀ (V : ((c : Dev nD) → (b : Ref sig .tc) → Buf (Elt F) ((c : Thread nD τ).loc b))) (c : Dev nD) (t : Fin (cfg1.N + 1)), (dat1 V c).recorded t = Set.univ)
  (hbody1 : ∀ (V : ((c : Dev nD) → (b : Ref sig .tc) → Buf (Elt F) ((c : Thread nD τ).loc b))) (c : Dev nD), BodyObligation (dat1 V c) (defs₀ (F := F)) 𝒱₀ () Set.univ)
  (hA2 : ∀ (V : ((c : Dev nD) → (b : Ref sig .tc) → Buf (Elt F) ((c : Thread nD τ).loc b))) (c : Dev nD) (w : Fin cfg2.W), (dat2 V c).A w = V c (Pipeline.arrRef spec2 w))
  (hΦ2 : ∀ (V : ((c : Dev nD) → (b : Ref sig .tc) → Buf (Elt F) ((c : Thread nD τ).loc b))) (c : Dev nD) (i : Fin (cfg2.N + 1)), (dat2 V c).Φ i = Pipeline.ΦA spec2 c)
  (hq2 : ∀ (V : ((c : Dev nD) → (b : Ref sig .tc) → Buf (Elt F) ((c : Thread nD τ).loc b))) (c : Dev nD) (w : Fin cfg2.W), (dat2 V c).q w = fullShare)
  (ho2 : ∀ (V : ((c : Dev nD) → (b : Ref sig .tc) → Buf (Elt F) ((c : Thread nD τ).loc b))) (c : Dev nD) (t : Fin (cfg2.N + 1)), (dat2 V c).owed t = 0)
  (hrec2 : ∀ (V : ((c : Dev nD) → (b : Ref sig .tc) → Buf (Elt F) ((c : Thread nD τ).loc b))) (c : Dev nD) (t : Fin (cfg2.N + 1)), (dat2 V c).recorded t = Set.univ)
  (hbody2 : ∀ (V : ((c : Dev nD) → (b : Ref sig .tc) → Buf (Elt F) ((c : Thread nD τ).loc b))) (c : Dev nD), BodyObligation (dat2 V c) (defs₀ (F := F)) 𝒱₀ () Set.univ)
  (hA3 : ∀ (V : ((c : Dev nD) → (b : Ref sig .tc) → Buf (Elt F) ((c : Thread nD τ).loc b))) (c : Dev nD) (w : Fin cfg3.W), (dat3 V c).A w = V c (Pipeline.arrRef spec3 w))
  (hΦ3 : ∀ (V : ((c : Dev nD) → (b : Ref sig .tc) → Buf (Elt F) ((c : Thread nD τ).loc b))) (c : Dev nD) (i : Fin (cfg3.N + 1)), (dat3 V c).Φ i = Pipeline.ΦA spec3 c)
  (hq3 : ∀ (V : ((c : Dev nD) → (b : Ref sig .tc) → Buf (Elt F) ((c : Thread nD τ).loc b))) (c : Dev nD) (w : Fin cfg3.W), (dat3 V c).q w = fullShare)
  (ho3 : ∀ (V : ((c : Dev nD) → (b : Ref sig .tc) → Buf (Elt F) ((c : Thread nD τ).loc b))) (c : Dev nD) (t : Fin (cfg3.N + 1)), (dat3 V c).owed t = 0)
  (hrec3 : ∀ (V : ((c : Dev nD) → (b : Ref sig .tc) → Buf (Elt F) ((c : Thread nD τ).loc b))) (c : Dev nD) (t : Fin (cfg3.N + 1)), (dat3 V c).recorded t = Set.univ)
  (hbody3 : ∀ (V : ((c : Dev nD) → (b : Ref sig .tc) → Buf (Elt F) ((c : Thread nD τ).loc b))) (c : Dev nD), BodyObligation (dat3 V c) (defs₀ (F := F)) 𝒱₀ () Set.univ)
  (hA4 : ∀ (V : ((c : Dev nD) → (b : Ref sig .tc) → Buf (Elt F) ((c : Thread nD τ).loc b))) (c : Dev nD) (w : Fin cfg4.W), (dat4 V c).A w = V c (Pipeline.arrRef spec4 w))
  (hΦ4 : ∀ (V : ((c : Dev nD) → (b : Ref sig .tc) → Buf (Elt F) ((c : Thread nD τ).loc b))) (c : Dev nD) (i : Fin (cfg4.N + 1)), (dat4 V c).Φ i = Pipeline.ΦA spec4 c)
  (hq4 : ∀ (V : ((c : Dev nD) → (b : Ref sig .tc) → Buf (Elt F) ((c : Thread nD τ).loc b))) (c : Dev nD) (w : Fin cfg4.W), (dat4 V c).q w = fullShare)
  (ho4 : ∀ (V : ((c : Dev nD) → (b : Ref sig .tc) → Buf (Elt F) ((c : Thread nD τ).loc b))) (c : Dev nD) (t : Fin (cfg4.N + 1)), (dat4 V c).owed t = 0)
  (hrec4 : ∀ (V : ((c : Dev nD) → (b : Ref sig .tc) → Buf (Elt F) ((c : Thread nD τ).loc b))) (c : Dev nD) (t : Fin (cfg4.N + 1)), (dat4 V c).recorded t = Set.univ)
  (hbody4 : ∀ (V : ((c : Dev nD) → (b : Ref sig .tc) → Buf (Elt F) ((c : Thread nD τ).loc b))) (c : Dev nD), BodyObligation (dat4 V c) (defs₀ (F := F)) 𝒱₀ () Set.univ)

variable (m : (ℓ : Loc nD τ sig) → Buf (Elt F) ℓ)

/-! # The proof data family and the thread state -/

/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 dat0 m) c
  | ⟨2, _⟩ => fun c => dat2 (V5 dat0 dat1 m) c
  | ⟨3, _⟩ => fun c => dat3 (V7 dat0 dat1 dat2 m) c
  | ⟨4, _⟩ => fun c => dat4 (V9 dat0 dat1 dat2 dat3 m) c
/-- No core owes another anything: no level is assigned. -/
abbrev run_L : GSem nD τ sig → Finset Unit := fun _ => ∅
abbrev run_lv : GSem nD τ sig → Unit → ℕ := fun _ _ => 0
/-- What rides beside the buffers through every segment: the core's generator register at some state and its
    `owes`, at nothing. -/
abbrev run_R (c : Dev nD) : sProp 𝕄 := iprop((∃ r, prngReg c r) ∗ ∃ W, owes (c : Thread nD τ) (0 : CellTallies nD τ sig Unit) W)
/-- A host stretch as a segment over the unscoped references from the contents `W`, `run_R` riding along. -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ run_L run_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W run_R
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the
    generator register at some state. -/
abbrev run_Tn (c : Dev nD) : sProp 𝕄 := iprop(StableHlo.held (c : Thread nD τ) (Pipeline.ucRefs τ sig) (W10 dat0 dat1 dat2 dat3 dat4 m c) ∗ ∃ r, prngReg c r)

section Segs

include hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4

/-! # The regions as segments -/

set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats dat0 dat1 dat2 dat3 dat4 m) () defs₀ 𝒱₀ run_L run_lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ (pdats dat0 dat1 dat2 dat3 dat4 m) _ run_L run_lv 0 fun c t => ho0 (V1 m) c t
  pre c := iprop(StableHlo.held (c : Thread nD τ) (Pipeline.ucRefs τ sig) (W1 m c) ∗ run_R c)
  post c := iprop(StableHlo.held (c : Thread nD τ) (Pipeline.ucRefs τ sig) (W2 dat0 m c) ∗ run_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats dat0 dat1 dat2 dat3 dat4 m) launch0.win launch0.arr_whole c
      ((pdats dat0 dat1 dat2 dat3 dat4 m 0 c).share_full fun w => hq0 (V1 m) c w) (V1 m c) fun w => hA0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 0 c).owed 0 = 0 from ho0 (V1 m) c 0]
      icases HO with ⟨%W, HO⟩; iexists W; isplitr; · ipureintro; exact fun _ _ => Or.inl ((Set.ext_iff.mp (hrec0 (V1 m) c 0) _).mpr (Set.mem_univ _))
      iexact HO
    isplitl [Hp]; · iexact Hp
    iexact Hrest
  hin c := by
    rw [show (pdats dat0 dat1 dat2 dat3 dat4 m 0 c).Φ 0 = Pipeline.ΦA spec0 c from hΦ0 (V1 m) c 0]; unfold Pipeline.ΦA
    iintro ⟨Hp, -, Hr⟩
    isplitl [Hr]; · iexact Hr
    iexact Hp
  hout c := by
    rw [Pipeline.ownSems0_none, show (pdats dat0 dat1 dat2 dat3 dat4 m 0 c).Φ (Fin.last _) = Pipeline.ΦA spec0 c from hΦ0 (V1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 dat4 m) ((pdats dat0 dat1 dat2 dat3 dat4 m 0 c).share_full fun w => hq0 (V1 m) c w)
      (V1 m c) (V2 dat0 m c) ((pdats dat0 dat1 dat2 dat3 dat4 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 0 c).owed (Fin.last _) = 0 from ho0 (V1 m) c (Fin.last _)]
    icases HO with ⟨%W, -, HO⟩; iexists W; iexact HO

set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats dat0 dat1 dat2 dat3 dat4 m) () defs₀ 𝒱₀ run_L run_lv 1 where
  win := launch1.win.to₀
  block_pos := launch1.block_pos
  stage_whole := launch1.stage_whole
  K := PEmpty
  osem k := k.elim
  ho := Pipeline.OwnSemFacts.none _
  hbody c := (hbody1 (V3 dat0 m) c).loose
  hwaits := Pipeline.hwaits_of_owed_zero _ _ (pdats dat0 dat1 dat2 dat3 dat4 m) _ run_L run_lv 1 fun c t => ho1 (V3 dat0 m) c t
  pre c := iprop(StableHlo.held (c : Thread nD τ) (Pipeline.ucRefs τ sig) (W3 dat0 m c) ∗ run_R c)
  post c := iprop(StableHlo.held (c : Thread nD τ) (Pipeline.ucRefs τ sig) (W4 dat0 dat1 m c) ∗ run_R c)
  X c := iprop(∃ r, prngReg c r)
  Y c := iprop(∃ r, prngReg c r)
  Z c := Pipeline.unscopedRest (Ix := Unit) (Name := ℕ) (U := UR sig nD τ) (Lvl := ℕ) spec1 c (V3 dat0 m c)
  hentry c := by
    rw [Pipeline.ownSems0_none]
    have hsplit := Pipeline.arrays_of_unscopedBufs (p := 1) (pcfgs (F := F)) adm (pdats dat0 dat1 dat2 dat3 dat4 m) launch1.win launch1.arr_whole c
      ((pdats dat0 dat1 dat2 dat3 dat4 m 1 c).share_full fun w => hq1 (V3 dat0 m) c w) (V3 dat0 m c) fun w => hA1 (V3 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 1 c).owed 0 = 0 from ho1 (V3 dat0 m) c 0]
      icases HO with ⟨%W, HO⟩; iexists W; isplitr; · ipureintro; exact fun _ _ => Or.inl ((Set.ext_iff.mp (hrec1 (V3 dat0 m) c 0) _).mpr (Set.mem_univ _))
      iexact HO
    isplitl [Hp]; · iexact Hp
    iexact Hrest
  hin c := by
    rw [show (pdats dat0 dat1 dat2 dat3 dat4 m 1 c).Φ 0 = Pipeline.ΦA spec1 c from hΦ1 (V3 dat0 m) c 0]; unfold Pipeline.ΦA
    iintro ⟨Hp, -, Hr⟩
    isplitl [Hr]; · iexact Hr
    iexact Hp
  hout c := by
    rw [Pipeline.ownSems0_none, show (pdats dat0 dat1 dat2 dat3 dat4 m 1 c).Φ (Fin.last _) = Pipeline.ΦA spec1 c from hΦ1 (V3 dat0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 dat4 m) ((pdats dat0 dat1 dat2 dat3 dat4 m 1 c).share_full fun w => hq1 (V3 dat0 m) c w)
      (V3 dat0 m c) (V4 dat0 dat1 m c) ((pdats dat0 dat1 dat2 dat3 dat4 m 1 c).arrAt · cfg1.N) (hF1 dat0 dat1 m c) (hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 1 c).owed (Fin.last _) = 0 from ho1 (V3 dat0 m) c (Fin.last _)]
    icases HO with ⟨%W, -, HO⟩; iexists W; iexact HO

set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats dat0 dat1 dat2 dat3 dat4 m) () defs₀ 𝒱₀ run_L run_lv 2 where
  win := launch2.win.to₀
  block_pos := launch2.block_pos
  stage_whole := launch2.stage_whole
  K := PEmpty
  osem k := k.elim
  ho := Pipeline.OwnSemFacts.none _
  hbody c := (hbody2 (V5 dat0 dat1 m) c).loose
  hwaits := Pipeline.hwaits_of_owed_zero _ _ (pdats dat0 dat1 dat2 dat3 dat4 m) _ run_L run_lv 2 fun c t => ho2 (V5 dat0 dat1 m) c t
  pre c := iprop(StableHlo.held (c : Thread nD τ) (Pipeline.ucRefs τ sig) (W5 dat0 dat1 m c) ∗ run_R c)
  post c := iprop(StableHlo.held (c : Thread nD τ) (Pipeline.ucRefs τ sig) (W6 dat0 dat1 dat2 m c) ∗ run_R c)
  X c := iprop(∃ r, prngReg c r)
  Y c := iprop(∃ r, prngReg c r)
  Z c := Pipeline.unscopedRest (Ix := Unit) (Name := ℕ) (U := UR sig nD τ) (Lvl := ℕ) spec2 c (V5 dat0 dat1 m c)
  hentry c := by
    rw [Pipeline.ownSems0_none]
    have hsplit := Pipeline.arrays_of_unscopedBufs (p := 2) (pcfgs (F := F)) adm (pdats dat0 dat1 dat2 dat3 dat4 m) launch2.win launch2.arr_whole c
      ((pdats dat0 dat1 dat2 dat3 dat4 m 2 c).share_full fun w => hq2 (V5 dat0 dat1 m) c w) (V5 dat0 dat1 m c) fun w => hA2 (V5 dat0 dat1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 2 c).owed 0 = 0 from ho2 (V5 dat0 dat1 m) c 0]
      icases HO with ⟨%W, HO⟩; iexists W; isplitr; · ipureintro; exact fun _ _ => Or.inl ((Set.ext_iff.mp (hrec2 (V5 dat0 dat1 m) c 0) _).mpr (Set.mem_univ _))
      iexact HO
    isplitl [Hp]; · iexact Hp
    iexact Hrest
  hin c := by
    rw [show (pdats dat0 dat1 dat2 dat3 dat4 m 2 c).Φ 0 = Pipeline.ΦA spec2 c from hΦ2 (V5 dat0 dat1 m) c 0]; unfold Pipeline.ΦA
    iintro ⟨Hp, -, Hr⟩
    isplitl [Hr]; · iexact Hr
    iexact Hp
  hout c := by
    rw [Pipeline.ownSems0_none, show (pdats dat0 dat1 dat2 dat3 dat4 m 2 c).Φ (Fin.last _) = Pipeline.ΦA spec2 c from hΦ2 (V5 dat0 dat1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 dat4 m) ((pdats dat0 dat1 dat2 dat3 dat4 m 2 c).share_full fun w => hq2 (V5 dat0 dat1 m) c w)
      (V5 dat0 dat1 m c) (V6 dat0 dat1 dat2 m c) ((pdats dat0 dat1 dat2 dat3 dat4 m 2 c).arrAt · cfg2.N) (hF2 dat0 dat1 dat2 m c) (hrest2 dat0 dat1 dat2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 2 c).owed (Fin.last _) = 0 from ho2 (V5 dat0 dat1 m) c (Fin.last _)]
    icases HO with ⟨%W, -, HO⟩; iexists W; iexact HO

set_option backward.isDefEq.respectTransparency.types false in
/-- REGION 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats dat0 dat1 dat2 dat3 dat4 m) () defs₀ 𝒱₀ run_L run_lv 3 where
  win := launch3.win.to₀
  block_pos := launch3.block_pos
  stage_whole := launch3.stage_whole
  K := PEmpty
  osem k := k.elim
  ho := Pipeline.OwnSemFacts.none _
  hbody c := (hbody3 (V7 dat0 dat1 dat2 m) c).loose
  hwaits := Pipeline.hwaits_of_owed_zero _ _ (pdats dat0 dat1 dat2 dat3 dat4 m) _ run_L run_lv 3 fun c t => ho3 (V7 dat0 dat1 dat2 m) c t
  pre c := iprop(StableHlo.held (c : Thread nD τ) (Pipeline.ucRefs τ sig) (W7 dat0 dat1 dat2 m c) ∗ run_R c)
  post c := iprop(StableHlo.held (c : Thread nD τ) (Pipeline.ucRefs τ sig) (W8 dat0 dat1 dat2 dat3 m c) ∗ run_R c)
  X c := iprop(∃ r, prngReg c r)
  Y c := iprop(∃ r, prngReg c r)
  Z c := Pipeline.unscopedRest (Ix := Unit) (Name := ℕ) (U := UR sig nD τ) (Lvl := ℕ) spec3 c (V7 dat0 dat1 dat2 m c)
  hentry c := by
    rw [Pipeline.ownSems0_none]
    have hsplit := Pipeline.arrays_of_unscopedBufs (p := 3) (pcfgs (F := F)) adm (pdats dat0 dat1 dat2 dat3 dat4 m) launch3.win launch3.arr_whole c
      ((pdats dat0 dat1 dat2 dat3 dat4 m 3 c).share_full fun w => hq3 (V7 dat0 dat1 dat2 m) c w) (V7 dat0 dat1 dat2 m c) fun w => hA3 (V7 dat0 dat1 dat2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 3 c).owed 0 = 0 from ho3 (V7 dat0 dat1 dat2 m) c 0]
      icases HO with ⟨%W, HO⟩; iexists W; isplitr; · ipureintro; exact fun _ _ => Or.inl ((Set.ext_iff.mp (hrec3 (V7 dat0 dat1 dat2 m) c 0) _).mpr (Set.mem_univ _))
      iexact HO
    isplitl [Hp]; · iexact Hp
    iexact Hrest
  hin c := by
    rw [show (pdats dat0 dat1 dat2 dat3 dat4 m 3 c).Φ 0 = Pipeline.ΦA spec3 c from hΦ3 (V7 dat0 dat1 dat2 m) c 0]; unfold Pipeline.ΦA
    iintro ⟨Hp, -, Hr⟩
    isplitl [Hr]; · iexact Hr
    iexact Hp
  hout c := by
    rw [Pipeline.ownSems0_none, show (pdats dat0 dat1 dat2 dat3 dat4 m 3 c).Φ (Fin.last _) = Pipeline.ΦA spec3 c from hΦ3 (V7 dat0 dat1 dat2 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 dat4 m) ((pdats dat0 dat1 dat2 dat3 dat4 m 3 c).share_full fun w => hq3 (V7 dat0 dat1 dat2 m) c w)
      (V7 dat0 dat1 dat2 m c) (V8 dat0 dat1 dat2 dat3 m c) ((pdats dat0 dat1 dat2 dat3 dat4 m 3 c).arrAt · cfg3.N) (hF3 dat0 dat1 dat2 dat3 m c) (hrest3 dat0 dat1 dat2 dat3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 dat3 dat4 m 3 c).owed (Fin.last _) = 0 from ho3 (V7 dat0 dat1 dat2 m) c (Fin.last _)]
    icases HO with ⟨%W, -, HO⟩; iexists W; iexact HO

set_option backward.isDefEq.respectTransparency.types false in
/-- REGION 4 (custom_call 4) over the thread state: entered from every unscoped buffer at `W9`, left at `W10`.
    Its arrays split out of the unscoped buffers and put back at the exit contents; the generator register into the
    class invariant and out; nothing owed; no semaphore of the kernel's own. -/
def reg4 : Pipeline.RegionSeg (pcfgs (F := F)) adm (pdats dat0 dat1 dat2 dat3 dat4 m) () defs₀ 𝒱₀ run_L run_lv 4 where
  win := launch4.win.to₀
  block_pos := launch4.block_pos
  stage_whole := launch4.stage_whole
  K := PEmpty
  osem k := k.elim
  ho := Pipeline.OwnSemFacts.none _
  hbody c := (hbody4 (V9 dat0 dat1 dat2 dat3 m) c).loose
  hwaits := Pipeline.hwaits_of_owed_zero _ _ (pdats dat0 dat1 dat2 dat3 dat4 m) _ run_L run_lv 4 fun c t => ho4 (V9 dat0 dat1 dat2 dat3 m) c t
  pre c := iprop(StableHlo.held (c : Thread nD τ) (Pipeline.ucRefs τ sig) (W9 dat0 dat1 dat2 dat3 m c) ∗ run_R c)
  post c := iprop(run_Tn dat0 dat1 dat2 dat3 dat4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 dat0 dat1 dat2 dat3 m c)
  hentry c := by
    rw [Pipeline.ownSems0_none]
    have hsplit := Pipeline.arrays_of_unscopedBufs (p := 4) (pcfgs (F := F)) adm (pdats dat0 dat1 dat2 dat3 dat4 m) launch4.win launch4.arr_whole c
      ((pdats dat0 dat1 dat2 dat3 dat4 m 4 c).share_full fun w => hq4 (V9 dat0 dat1 dat2 dat3 m) c w) (V9 dat0 dat1 dat2 dat3 m c) fun w => hA4 (V9 dat0 dat1 dat2 dat3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 dat3 dat4 m 4 c).owed 0 = 0 from ho4 (V9 dat0 dat1 dat2 dat3 m) c 0]
      icases HO with ⟨%W, HO⟩; iexists W; isplitr; · ipureintro; exact fun _ _ => Or.inl ((Set.ext_iff.mp (hrec4 (V9 dat0 dat1 dat2 dat3 m) c 0) _).mpr (Set.mem_univ _))
      iexact HO
    isplitl [Hp]; · iexact Hp
    iexact Hrest
  hin c := by
    rw [show (pdats dat0 dat1 dat2 dat3 dat4 m 4 c).Φ 0 = Pipeline.ΦA spec4 c from hΦ4 (V9 dat0 dat1 dat2 dat3 m) c 0]; unfold Pipeline.ΦA
    iintro ⟨Hp, -, Hr⟩
    isplitl [Hr]; · iexact Hr
    iexact Hp
  hout c := by
    rw [Pipeline.ownSems0_none, show (pdats dat0 dat1 dat2 dat3 dat4 m 4 c).Φ (Fin.last _) = Pipeline.ΦA spec4 c from hΦ4 (V9 dat0 dat1 dat2 dat3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats dat0 dat1 dat2 dat3 dat4 m) ((pdats dat0 dat1 dat2 dat3 dat4 m 4 c).share_full fun w => hq4 (V9 dat0 dat1 dat2 dat3 m) c w)
      (V9 dat0 dat1 dat2 dat3 m c) (V10 dat0 dat1 dat2 dat3 dat4 m c) ((pdats dat0 dat1 dat2 dat3 dat4 m 4 c).arrAt · cfg4.N) (hF4 dat0 dat1 dat2 dat3 dat4 m c) (hrest4 dat0 dat1 dat2 dat3 dat4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 dat2 dat3 dat4 m 4 c).owed (Fin.last _) = 0 from ho4 (V9 dat0 dat1 dat2 dat3 m) c (Fin.last _)]
    icases HO with ⟨%W, -, HO⟩; iexists W; iexact HO

/-! # @main as segments, and the launch -/

/-- @main's 10 segments in order: a host segment per stretch from its boundary's contents, a region per pallas_call. -/
abbrev segs : List (Pipeline.Seg (pcfgs (F := F)) adm (pdats dat0 dat1 dat2 dat3 dat4 m) () defs₀ 𝒱₀ run_L run_lv) :=
  [ .host (run_hseg hostOps0 hostOps0_sub hostOps0_fresh (W0 m)),
    .region (reg0 dat0 dat1 dat2 dat3 dat4 hA0 hΦ0 hq0 ho0 hrec0 hbody0 m),
    .host (run_hseg hostOps1 hostOps1_sub hostOps1_fresh (W2 dat0 m)),
    .region (reg1 dat0 dat1 dat2 dat3 dat4 hA1 hΦ1 hq1 ho1 hrec1 hbody1 m),
    .host (run_hseg hostOps2 hostOps2_sub hostOps2_fresh (W4 dat0 dat1 m)),
    .region (reg2 dat0 dat1 dat2 dat3 dat4 hA2 hΦ2 hq2 ho2 hrec2 hbody2 m),
    .host (run_hseg hostOps3 hostOps3_sub hostOps3_fresh (W6 dat0 dat1 dat2 m)),
    .region (reg3 dat0 dat1 dat2 dat3 dat4 hA3 hΦ3 hq3 ho3 hrec3 hbody3 m),
    .host (run_hseg hostOps4 hostOps4_sub hostOps4_fresh (W8 dat0 dat1 dat2 dat3 m)),
    .region (reg4 dat0 dat1 dat2 dat3 dat4 hA4 hΦ4 hq4 ho4 hrec4 hbody4 m) ]

/-- @main IS the run of the segments: @main is the chain of its items, and the segments' run is the chain of
    their fragments, the same list. -/
theorem main_run (c : Dev nD) : main (F := F) c = Pipeline.Seg.run (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m) := by
  rewrite [main_chain c, Pipeline.Seg.run_eq_chain,
    show (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: at the compiled mesh, from any memory with zero counters, every weakly fair execution of @main on the
    TensorCores terminates, nothing faulting, and every final memory holds every unscoped buffer at the last
    boundary's contents `W10` — stated for any post `Q` that follows from those readings. -/
theorem run_post (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W10 dat0 dat1 dat2 dat3 dat4 m c b) → Q (⟨⟩, s)) :
    θ_run defs (onTc (τ := τ) (main (F := F))) ⟨m, fun _ => 0, ρ⟩ Q :=
  Pipeline.θ_run_regions_kit (pcfgs (F := F)) adm (pdats dat0 dat1 dat2 dat3 dat4 m) () cellOf_inj emb₁ defs₀ 𝒱₀ run_L run_lv m ρ main (segs dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m)
    (fun c Q => by rw [main_run dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ run_R c)) (Tₙ := run_Tn dat0 dat1 dat2 dat3 dat4 m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach run_L run_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 dat0 dat1 dat2 dat3 dat4 m c b)
    (hfin := fun c s' => by
      iintro ⟨⟨Hh, -⟩, HSI⟩
      unfold StableHlo.held
      imodintro
      iapply (pointsTo_read_all (Pipeline.ucRefs τ sig) (fun b => (((c : Thread nD τ)).1, b)) (W10 dat0 dat1 dat2 dat3 dat4 m c) s')
      isplitl [Hh] <;> iassumption)
    (hQ := hQ)

/-- THE FRAME: every weakly fair execution of @main terminates, nothing faulting, and every final memory has the
    argument arrays as launched: no host stretch writes an argument and no region stages one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_post dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m ρ fun s h c =>
    ⟨(h c _ (run_mem_uc main_arg0 (by decide))).trans (W10_of_untouched dat0 dat1 dat2 dat3 dat4 m c main_arg0 (by decide) (by decide) (by decide) (by decide) (by decide) (by decide) (by decide) (by decide) (by decide) (by decide)),
     (h c _ (run_mem_uc main_arg1 (by decide))).trans (W10_of_untouched dat0 dat1 dat2 dat3 dat4 m c main_arg1 (by decide) (by decide) (by decide) (by decide) (by decide) (by decide) (by decide) (by decide) (by decide) (by decide)),
     (h c _ (run_mem_uc main_arg2 (by decide))).trans (W10_of_untouched dat0 dat1 dat2 dat3 dat4 m c main_arg2 (by decide) (by decide) (by decide) (by decide) (by decide) (by decide) (by decide) (by decide) (by decide) (by decide)),
     (h c _ (run_mem_uc main_arg3 (by decide))).trans (W10_of_untouched dat0 dat1 dat2 dat3 dat4 m c main_arg3 (by decide) (by decide) (by decide) (by decide) (by decide) (by decide) (by decide) (by decide) (by decide) (by decide)),
     (h c _ (run_mem_uc main_arg4 (by decide))).trans (W10_of_untouched dat0 dat1 dat2 dat3 dat4 m c main_arg4 (by decide) (by decide) (by decide) (by decide) (by decide) (by decide) (by decide) (by decide) (by decide) (by decide)),
     (h c _ (run_mem_uc main_arg5 (by decide))).trans (W10_of_untouched dat0 dat1 dat2 dat3 dat4 m c main_arg5 (by decide) (by decide) (by decide) (by decide) (by decide) (by decide) (by decide) (by decide) (by decide) (by decide)),
     (h c _ (run_mem_uc main_arg6 (by decide))).trans (W10_of_untouched dat0 dat1 dat2 dat3 dat4 m c main_arg6 (by decide) (by decide) (by decide) (by decide) (by decide) (by decide) (by decide) (by decide) (by decide) (by decide)),
     (h c _ (run_mem_uc main_arg7 (by decide))).trans (W10_of_untouched dat0 dat1 dat2 dat3 dat4 m c main_arg7 (by decide) (by decide) (by decide) (by decide) (by decide) (by decide) (by decide) (by decide) (by decide) (by decide)),
     (h c _ (run_mem_uc main_arg8 (by decide))).trans (W10_of_untouched dat0 dat1 dat2 dat3 dat4 m c main_arg8 (by decide) (by decide) (by decide) (by decide) (by decide) (by decide) (by decide) (by decide) (by decide) (by decide)),
     (h c _ (run_mem_uc main_arg9 (by decide))).trans (W10_of_untouched dat0 dat1 dat2 dat3 dat4 m c main_arg9 (by decide) (by decide) (by decide) (by decide) (by decide) (by decide) (by decide) (by decide) (by decide) (by decide)),
     (h c _ (run_mem_uc main_arg10 (by decide))).trans (W10_of_untouched dat0 dat1 dat2 dat3 dat4 m c main_arg10 (by decide) (by decide) (by decide) (by decide) (by decide) (by decide) (by decide) (by decide) (by decide) (by decide)),
     (h c _ (run_mem_uc main_arg11 (by decide))).trans (W10_of_untouched dat0 dat1 dat2 dat3 dat4 m c main_arg11 (by decide) (by decide) (by decide) (by decide) (by decide) (by decide) (by decide) (by decide) (by decide) (by decide)),
     (h c _ (run_mem_uc main_arg12 (by decide))).trans (W10_of_untouched dat0 dat1 dat2 dat3 dat4 m c main_arg12 (by decide) (by decide) (by decide) (by decide) (by decide) (by decide) (by decide) (by decide) (by decide) (by decide)),
     (h c _ (run_mem_uc main_arg13 (by decide))).trans (W10_of_untouched dat0 dat1 dat2 dat3 dat4 m c main_arg13 (by decide) (by decide) (by decide) (by decide) (by decide) (by decide) (by decide) (by decide) (by decide) (by decide)),
     (h c _ (run_mem_uc main_arg14 (by decide))).trans (W10_of_untouched dat0 dat1 dat2 dat3 dat4 m c main_arg14 (by decide) (by decide) (by decide) (by decide) (by decide) (by decide) (by decide) (by decide) (by decide) (by decide)),
     (h c _ (run_mem_uc main_arg15 (by decide))).trans (W10_of_untouched dat0 dat1 dat2 dat3 dat4 m c main_arg15 (by decide) (by decide) (by decide) (by decide) (by decide) (by decide) (by decide) (by decide) (by decide) (by decide)),
     (h c _ (run_mem_uc main_arg16 (by decide))).trans (W10_of_untouched dat0 dat1 dat2 dat3 dat4 m c main_arg16 (by decide) (by decide) (by decide) (by decide) (by decide) (by decide) (by decide) (by decide) (by decide) (by decide)),
     (h c _ (run_mem_uc main_arg17 (by decide))).trans (W10_of_untouched dat0 dat1 dat2 dat3 dat4 m c main_arg17 (by decide) (by decide) (by decide) (by decide) (by decide) (by decide) (by decide) (by decide) (by decide) (by decide)),
     (h c _ (run_mem_uc main_arg18 (by decide))).trans (W10_of_untouched dat0 dat1 dat2 dat3 dat4 m c main_arg18 (by decide) (by decide) (by decide) (by decide) (by decide) (by decide) (by decide) (by decide) (by decide) (by decide)),
     (h c _ (run_mem_uc main_arg19 (by decide))).trans (W10_of_untouched dat0 dat1 dat2 dat3 dat4 m c main_arg19 (by decide) (by decide) (by decide) (by decide) (by decide) (by decide) (by decide) (by decide) (by decide) (by decide)),
     (h c _ (run_mem_uc main_arg20 (by decide))).trans (W10_of_untouched dat0 dat1 dat2 dat3 dat4 m c main_arg20 (by decide) (by decide) (by decide) (by decide) (by decide) (by decide) (by decide) (by decide) (by decide) (by decide))⟩

/-- THE RUN'S RESULT: as the frame, and the result buffer at the end holds the last boundary's contents of it. -/
theorem run_result (ρ : Dev nD → PrngReg) : θ_run defs (onTc (τ := τ) (main (F := F))) ⟨m, fun _ => 0, ρ⟩ (fun r => ∀ c : Dev nD,
      r.2.mem ((c.tc : Thread nD τ).loc main_v72) = W10 dat0 dat1 dat2 dat3 dat4 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_post dat0 dat1 dat2 dat3 dat4 hA0 hΦ0 hq0 ho0 hrec0 hbody0 hA1 hΦ1 hq1 ho1 hrec1 hbody1 hA2 hΦ2 hq2 ho2 hrec2 hbody2 hA3 hΦ3 hq3 ho3 hrec3 hbody3 hA4 hΦ4 hq4 ho4 hrec4 hbody4 m ρ fun s h c =>
    ⟨h c _ (run_mem_uc main_v72 (by decide)),
     (h c _ (run_mem_uc main_arg0 (by decide))).trans (W10_of_untouched dat0 dat1 dat2 dat3 dat4 m c main_arg0 (by decide) (by decide) (by decide) (by decide) (by decide) (by decide) (by decide) (by decide) (by decide) (by decide)),
     (h c _ (run_mem_uc main_arg1 (by decide))).trans (W10_of_untouched dat0 dat1 dat2 dat3 dat4 m c main_arg1 (by decide) (by decide) (by decide) (by decide) (by decide) (by decide) (by decide) (by decide) (by decide) (by decide)),
     (h c _ (run_mem_uc main_arg2 (by decide))).trans (W10_of_untouched dat0 dat1 dat2 dat3 dat4 m c main_arg2 (by decide) (by decide) (by decide) (by decide) (by decide) (by decide) (by decide) (by decide) (by decide) (by decide)),
     (h c _ (run_mem_uc main_arg3 (by decide))).trans (W10_of_untouched dat0 dat1 dat2 dat3 dat4 m c main_arg3 (by decide) (by decide) (by decide) (by decide) (by decide) (by decide) (by decide) (by decide) (by decide) (by decide)),
     (h c _ (run_mem_uc main_arg4 (by decide))).trans (W10_of_untouched dat0 dat1 dat2 dat3 dat4 m c main_arg4 (by decide) (by decide) (by decide) (by decide) (by decide) (by decide) (by decide) (by decide) (by decide) (by decide)),
     (h c _ (run_mem_uc main_arg5 (by decide))).trans (W10_of_untouched dat0 dat1 dat2 dat3 dat4 m c main_arg5 (by decide) (by decide) (by decide) (by decide) (by decide) (by decide) (by decide) (by decide) (by decide) (by decide)),
     (h c _ (run_mem_uc main_arg6 (by decide))).trans (W10_of_untouched dat0 dat1 dat2 dat3 dat4 m c main_arg6 (by decide) (by decide) (by decide) (by decide) (by decide) (by decide) (by decide) (by decide) (by decide) (by decide)),
     (h c _ (run_mem_uc main_arg7 (by decide))).trans (W10_of_untouched dat0 dat1 dat2 dat3 dat4 m c main_arg7 (by decide) (by decide) (by decide) (by decide) (by decide) (by decide) (by decide) (by decide) (by decide) (by decide)),
     (h c _ (run_mem_uc main_arg8 (by decide))).trans (W10_of_untouched dat0 dat1 dat2 dat3 dat4 m c main_arg8 (by decide) (by decide) (by decide) (by decide) (by decide) (by decide) (by decide) (by decide) (by decide) (by decide)),
     (h c _ (run_mem_uc main_arg9 (by decide))).trans (W10_of_untouched dat0 dat1 dat2 dat3 dat4 m c main_arg9 (by decide) (by decide) (by decide) (by decide) (by decide) (by decide) (by decide) (by decide) (by decide) (by decide)),
     (h c _ (run_mem_uc main_arg10 (by decide))).trans (W10_of_untouched dat0 dat1 dat2 dat3 dat4 m c main_arg10 (by decide) (by decide) (by decide) (by decide) (by decide) (by decide) (by decide) (by decide) (by decide) (by decide)),
     (h c _ (run_mem_uc main_arg11 (by decide))).trans (W10_of_untouched dat0 dat1 dat2 dat3 dat4 m c main_arg11 (by decide) (by decide) (by decide) (by decide) (by decide) (by decide) (by decide) (by decide) (by decide) (by decide)),
     (h c _ (run_mem_uc main_arg12 (by decide))).trans (W10_of_untouched dat0 dat1 dat2 dat3 dat4 m c main_arg12 (by decide) (by decide) (by decide) (by decide) (by decide) (by decide) (by decide) (by decide) (by decide) (by decide)),
     (h c _ (run_mem_uc main_arg13 (by decide))).trans (W10_of_untouched dat0 dat1 dat2 dat3 dat4 m c main_arg13 (by decide) (by decide) (by decide) (by decide) (by decide) (by decide) (by decide) (by decide) (by decide) (by decide)),
     (h c _ (run_mem_uc main_arg14 (by decide))).trans (W10_of_untouched dat0 dat1 dat2 dat3 dat4 m c main_arg14 (by decide) (by decide) (by decide) (by decide) (by decide) (by decide) (by decide) (by decide) (by decide) (by decide)),
     (h c _ (run_mem_uc main_arg15 (by decide))).trans (W10_of_untouched dat0 dat1 dat2 dat3 dat4 m c main_arg15 (by decide) (by decide) (by decide) (by decide) (by decide) (by decide) (by decide) (by decide) (by decide) (by decide)),
     (h c _ (run_mem_uc main_arg16 (by decide))).trans (W10_of_untouched dat0 dat1 dat2 dat3 dat4 m c main_arg16 (by decide) (by decide) (by decide) (by decide) (by decide) (by decide) (by decide) (by decide) (by decide) (by decide)),
     (h c _ (run_mem_uc main_arg17 (by decide))).trans (W10_of_untouched dat0 dat1 dat2 dat3 dat4 m c main_arg17 (by decide) (by decide) (by decide) (by decide) (by decide) (by decide) (by decide) (by decide) (by decide) (by decide)),
     (h c _ (run_mem_uc main_arg18 (by decide))).trans (W10_of_untouched dat0 dat1 dat2 dat3 dat4 m c main_arg18 (by decide) (by decide) (by decide) (by decide) (by decide) (by decide) (by decide) (by decide) (by decide) (by decide)),
     (h c _ (run_mem_uc main_arg19 (by decide))).trans (W10_of_untouched dat0 dat1 dat2 dat3 dat4 m c main_arg19 (by decide) (by decide) (by decide) (by decide) (by decide) (by decide) (by decide) (by decide) (by decide) (by decide)),
     (h c _ (run_mem_uc main_arg20 (by decide))).trans (W10_of_untouched dat0 dat1 dat2 dat3 dat4 m c main_arg20 (by decide) (by decide) (by decide) (by decide) (by decide) (by decide) (by decide) (by decide) (by decide) (by decide))⟩

end Segs

end Run

end Cert.KernelIdeal.Hand

end
-- ==== Proof.KI.Assemble.lean ====
/- The run of @main of `KernelIdeal` at its five regions' proof data: the frame and the result buffer's contents, the
   general run's at the regions' `dat0` … `dat4`. -/
import proofs.«136422_j72232759984373_2_alg».proof.Proof.KI.Bounds
import proofs.«136422_j72232759984373_2_alg».proof.Proof.KI.RunFrame

set_option maxRecDepth 16384

noncomputable section

namespace Cert.KernelIdeal.Hand.Asm

open Cert.KernelIdeal.Gen
open Idealize.ShloMosaic Idealize.ShloMosaic.TcCoe
open Idealize.SL Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Hand.frame dat0 dat1 dat2 dat3 dat4
    A_eq0 (fun _ _ _ => rfl) (fun _ _ _ => rfl) (fun _ _ _ => rfl) (fun _ _ _ => rfl) body_obligation0
    A_eq1 (fun _ _ _ => rfl) (fun _ _ _ => rfl) (fun _ _ _ => rfl) (fun _ _ _ => rfl) body_obligation1
    A_eq2 (fun _ _ _ => rfl) (fun _ _ _ => rfl) (fun _ _ _ => rfl) (fun _ _ _ => rfl) body_obligation2
    A_eq3 (fun _ _ _ => rfl) (fun _ _ _ => rfl) (fun _ _ _ => rfl) (fun _ _ _ => rfl) body_obligation3
    A_eq4 (fun _ _ _ => rfl) (fun _ _ _ => rfl) (fun _ _ _ => rfl) (fun _ _ _ => rfl) body_obligation4 m ρ

/-- As the frame, and the result buffer at the end holds the last boundary's contents of it. -/
theorem run_result (ρ : Dev nD → PrngReg) : θ_run defs (onTc (τ := τ) (main (F := F))) ⟨m, fun _ => 0, ρ⟩ (fun r => ∀ c : Dev nD,
      r.2.mem ((c.tc : Thread nD τ).loc main_v72) = W10 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Hand.run_result dat0 dat1 dat2 dat3 dat4
    A_eq0 (fun _ _ _ => rfl) (fun _ _ _ => rfl) (fun _ _ _ => rfl) (fun _ _ _ => rfl) body_obligation0
    A_eq1 (fun _ _ _ => rfl) (fun _ _ _ => rfl) (fun _ _ _ => rfl) (fun _ _ _ => rfl) body_obligation1
    A_eq2 (fun _ _ _ => rfl) (fun _ _ _ => rfl) (fun _ _ _ => rfl) (fun _ _ _ => rfl) body_obligation2
    A_eq3 (fun _ _ _ => rfl) (fun _ _ _ => rfl) (fun _ _ _ => rfl) (fun _ _ _ => rfl) body_obligation3
    A_eq4 (fun _ _ _ => rfl) (fun _ _ _ => rfl) (fun _ _ _ => rfl) (fun _ _ _ => rfl) body_obligation4 m ρ

end Cert.KernelIdeal.Hand.Asm

end
-- ==== Proof.RefFrame.lean ====
/-
  The reference program's frame: its run, read back as a list of host operations, terminates without a fault
  and leaves every argument array as launched; the frame claim is that run with the result dropped.
-/
import proofs.«136422_j72232759984373_2_alg».proof.Defs
import proofs.«136422_j72232759984373_2_alg».proof.Proof.RefRunP
import proofs.«136422_j72232759984373_2_alg».proof.Proof.Gen.Pre_finite_inputs

noncomputable section

open Idealize.ShloMosaic Idealize.ShloMosaic.TcCoe Idealize.SL.Sem

namespace Cert.Proof.RefFrame

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.Val0.lean ====
import proofs.«136422_j72232759984373_2_alg».proof.Proof.KI.Body0
import Idealize.ShloMosaic.Lib.Pipeline.Value
import Idealize.ShloMosaic.Lib.ValueIdx

/-! # The value of region 0 at the exact reals

The result array of the rank-one factor kernel, after its region, is one function of the region's two input
arrays: entry `(e, k)` is row 0 of the weight rows at `k` plus the column's entry `e` times row 1 at `k`. The
steps: the body's payload at an index; what each input block reads of its array; what a point writes back is a
block of that function; the blocks cover the array. -/

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

/-! ## The payload at an index -/

theorem hz0 : (![0, 0] : Fin 2 → Nat) = fun _ => 0 := funext fun a => by fin_cases a <;> rfl

/-- The body's arithmetic at row `p`, lane `q` of the block: row 0 at `q` plus the column at `p` times row 1 at `q`. -/
theorem pay0_apply (w0 w1 : Vec Ideal S1x128 .f32) (x : Vec Ideal S4096x1 .f32) (p : Fin 4096) (q : Fin 128) :
    k0_pay1 (F := Ideal) w0 w1 x (ix2 p q) = w0 (ix2 0 q) + x (ix2 p 0) * w1 (ix2 0 q) := by
  unfold k0_pay1
  simp only [shapeCast_self]
  rw [addf_apply, mulf_apply]
  rw [broadcastTo_apply w0 _ (ix2 p q) (ix2 0 q) (fun a => by match a with | ⟨0, _⟩ => rfl | ⟨1, _⟩ => rfl),
    broadcastTo_apply x _ (ix2 p q) (ix2 p 0) (fun a => by match a with | ⟨0, _⟩ => rfl | ⟨1, _⟩ => rfl),
    broadcastTo_apply w1 _ (ix2 p q) (ix2 0 q) (fun a => by match a with | ⟨0, _⟩ => rfl | ⟨1, _⟩ => rfl)]

/-- Row 0 of the weight block, read through its rectangle, is the block's row 0. -/
theorem r0_0_idx (q : Fin 128) : (r0_0.idx (ix2 0 q) : S2x128.Idx) = ix2 0 q :=
  funext fun a => Fin.ext (by
    match a with
    | ⟨0, _⟩ => rfl
    | ⟨1, _⟩ => show 0 + 1 * q.val = q.val; omega)

/-- Row 0 of the second rectangle is the block's row 1. -/
theorem r0_1_idx (q : Fin 128) : (r0_1.idx (ix2 0 q) : S2x128.Idx) = ix2 1 q :=
  funext fun a => Fin.ext (by
    match a with
    | ⟨0, _⟩ => rfl
    | ⟨1, _⟩ => show 0 + 1 * q.val = q.val; omega)

/-- What the body leaves in the output block, at an index, from the two input blocks. -/
theorem out0_2_apply (x0 : Vec Ideal S4096x1 .f32) (x1 : Vec Ideal S2x128 .f32) (p : Fin 4096) (q : Fin 128) :
    out0_2 (F := Ideal) x0 x1 (ix2 p q) = x1 (ix2 0 q) + x0 (ix2 p 0) * x1 (ix2 1 q) := by
  unfold out0_2
  rw [View.canon_unit_zero hz0]
  simp only [View.ld_unit_zero (S := S4096x1) hz0]
  refine (pay0_apply (View.ld x1 r0_0) (View.ld x1 r0_1) x0 p q).trans ?_
  show x1 (r0_0.idx (ix2 0 q)) + x0 (ix2 p 0) * x1 (r0_1.idx (ix2 0 q)) = _
  rw [r0_0_idx, r0_1_idx]

/-! ## The whole-array function -/

/-- The entry of the weight rows that result index `i` reads on row `r`. -/
abbrev rowIdx0 (r : Fin 2) (i : S131072x128.Idx) : S2x128.Idx := ix2 r (⟨(i 1).val, (i 1).isLt⟩ : Fin 128)
/-- The entry of the column that result index `i` reads. -/
abbrev colIdx0 (i : S131072x128.Idx) : S131072x1.Idx := ix2 (⟨(i 0).val, (i 0).isLt⟩ : Fin 131072) (0 : Fin 1)

/-- The result array as one function of the column `a0` and the weight rows `a1`. -/
def G0_2 (a0 : S131072x1.Idx → EReal) (a1 : S2x128.Idx → EReal) : S131072x128.Idx → EReal :=
  fun i => a1 (rowIdx0 0 i) + a0 (colIdx0 i) * a1 (rowIdx0 1 i)

section Region0
variable (V : (c : Dev nD) → (b : Ref sig .tc) → Buf (Elt Ideal) ((c : Thread nD τ).loc b))

/-- The column of coefficients as the region finds it: window 0's array. -/
abbrev A0_0 (c : Dev nD) : S131072x1.Idx → EReal := V c (Pipeline.arrRef spec0 0)
/-- The two weight rows as the region finds them: window 1's array. -/
abbrev A0_1 (c : Dev nD) : S2x128.Idx → EReal := V c (Pipeline.arrRef spec0 1)

/-! ## From blocks to the array -/

/-- The printed index maps over the grid: the column moves with the result's rows, the weight rows never move, the
    result's lane block is always the first, and its row block stays in range. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row block of the result is some point's. -/
theorem idx_onto0 : ∀ q0 : Fin 32, ∃ t : Fin cfg0.N, win0_2.index t = ![q0.val, 0] :=
  (by decide +kernel : ∀ q0 : Fin 32, ∃ t : Fin grid0.N, win0_2.index t = ![q0.val, 0])

/-- What point `t` writes back is block `t` of `G0_2` of the two input arrays as the region finds them. -/
theorem flushed0_2_eq (c : Dev nD) (t : Fin cfg0.N) :
    (dat0 (F := Ideal) V c).flushed 2 t
      = ((cfg0.win 2).blk t).view.read (Elt Ideal) (G0_2 (A0_0 V c) (A0_1 V c)) := by
  show (cfg0.win 2).cut (grid0.coords t) ((dat0 V c).after 2 t) = _
  rw [after0_2]
  obtain ⟨e0, e1, e2, e3, e4, e5⟩ := idx_facts0 t
  funext j
  obtain ⟨p, q, rfl⟩ : ∃ (p : Fin 4096) (q : Fin 128), j = ix2 p q := ⟨j 0, j 1, eq_ix2 j⟩
  show out0_2 (F := Ideal) (iblk0 V c 0 t) (iblk0 V c 1 t) (ix2 p q) = G0_2 _ _ (((cfg0.win 2).blk t).view.emb (ix2 p q))
  refine (out0_2_apply (iblk0 V c 0 t) (iblk0 V c 1 t) p q).trans ?_
  show A0_1 V c (((cfg0.win 1).blk t).view.emb (ix2 0 q)) + A0_0 V c (((cfg0.win 0).blk t).view.emb (ix2 p 0)) * A0_1 V c (((cfg0.win 1).blk t).view.emb (ix2 1 q))
    = A0_1 V c (rowIdx0 0 (((cfg0.win 2).blk t).view.emb (ix2 p q))) + A0_0 V c (colIdx0 (((cfg0.win 2).blk t).view.emb (ix2 p q))) * A0_1 V c (rowIdx0 1 (((cfg0.win 2).blk t).view.emb (ix2 p q)))
  have h10 : ((cfg0.win 1).blk t).view.emb (ix2 0 q) = rowIdx0 0 (((cfg0.win 2).blk t).view.emb (ix2 p q)) := by
    funext a; apply Fin.ext
    match a with
    | ⟨0, _⟩ => show win0_1.index t (0 : Fin 2) * 2 + 1 * 0 = 0; omega
    | ⟨1, _⟩ => show win0_1.index t (1 : Fin 2) * 128 + 1 * q.val = win0_2.index t (1 : Fin 2) * 128 + 1 * q.val; omega
  have h11 : ((cfg0.win 1).blk t).view.emb (ix2 1 q) = rowIdx0 1 (((cfg0.win 2).blk t).view.emb (ix2 p q)) := by
    funext a; apply Fin.ext
    match a with
    | ⟨0, _⟩ => show win0_1.index t (0 : Fin 2) * 2 + 1 * 1 = 1; omega
    | ⟨1, _⟩ => show win0_1.index t (1 : Fin 2) * 128 + 1 * q.val = win0_2.index t (1 : Fin 2) * 128 + 1 * q.val; omega
  have h0 : ((cfg0.win 0).blk t).view.emb (ix2 p 0) = colIdx0 (((cfg0.win 2).blk t).view.emb (ix2 p q)) := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 1 + 1 * 0 = 0; omega
  rw [h10, h11, h0]

/-- An index of the result array is in point `t`'s block iff each coordinate is in the block's range on its axis. -/
theorem mem_blk0_2 (t : Fin cfg0.N) (i : S131072x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v19).slice (win0_2.rect t)).set ↔ _
  rw [View.set_slice_whole, Rect.mem_set_unit]
  exact Iff.rfl

/-- Every index of the result array is in some point's block: row `r` in that of point `r / 4096`. -/
theorem covered0_2 (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := idx_onto0 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The result array after the region is `G0_2` of the two input arrays. -/
theorem arr0_2 (c : Dev nD) :
    (dat0 (F := Ideal) V c).arrAt 2 cfg0.N = G0_2 (A0_0 V c) (A0_1 V c) :=
  (dat0 (F := Ideal) V c).arrAt_eq_of_cover 2 (G0_2 (A0_0 V c) (A0_1 V c))
    (fun t _ => flushed0_2_eq V c t) covered0_2

/-- Entry `(e, k)` of the result array after the region: row 0 of the weight rows at `k` plus the column's entry
    `e` times row 1 at `k`. -/
theorem final0_2 (c : Dev nD) (e : Fin 131072) (k : Fin 128) :
    (dat0 (F := Ideal) V c).arrAt 2 cfg0.N (ix2 e k)
      = A0_1 V c (ix2 0 k) + A0_0 V c (ix2 e 0) * A0_1 V c (ix2 1 k) := by
  rw [arr0_2]; rfl

end Region0

end Cert.KernelIdeal.Hand

end
-- ==== Proof.KI.Host0.lean ====
/- The host operations before region 0, read at an index: after the stretch has run from arbitrary contents `W`, each
   buffer the regions use that is a re-laying of an argument — a reshape, a slice, a transpose, a change of float
   format (the identity on extended reals) — is that argument at the matching index. -/
import proofs.«136422_j72232759984373_2_alg».proof.Proof.Gen.KernelIdeal.Launch
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

/-! ## Two layout readings by coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

end Layout

variable (W : Valuation τ sig (Elt Ideal))

/-! ## The coefficients as a column -/

/-- `main_v18` is the coefficient vector `main_arg0` as one column. -/
theorem v18_apply (e : Fin 131072) (u : Fin 1) :
    StableHlo.after (hostOps0 (F := Ideal)) W (Proc.devRef .tc main_v18) (ix2 e u) = W (Proc.devRef .tc main_arg0) (ix1 e) := by
  have t : (StableHlo.after (hostOps0 (F := Ideal)) W (Proc.devRef .tc main_v18) : S131072x1.Idx → EReal)
      = shapeCast S131072x1 (W (Proc.devRef .tc main_arg0) : S131072.Idx → EReal) shapeCasts_S131072_S131072x1 := by
    simp only [hostOps0]
    after_results
    rfl
  rw [t]
  exact shapeCast_a_a1_apply _ _ e u

/-! ## The first layer's weight: its first two rows, and the second layer's weight -/

/-- `main_v17` is rows 0 and 1 of the first of the two weight matrices `main_arg4`. -/
theorem v17_apply (q : Fin 2) (k : Fin 128) :
    StableHlo.after (hostOps0 (F := Ideal)) W (Proc.devRef .tc main_v17) (ix2 q k)
      = W (Proc.devRef .tc main_arg4) (ix3 (0 : Fin 2) (⟨q.val, Nat.lt_of_lt_of_le q.isLt (by decide)⟩ : Fin 128) k) := by
  have t : (StableHlo.after (hostOps0 (F := Ideal)) W (Proc.devRef .tc main_v17) : S2x128.Idx → EReal)
      = extractStridedSlice S2x128 ![0, 0]
          (shapeCast S128x128
            (extractStridedSlice (s := S2x128x128) S1x128x128 ![0, 0, 0] (W (Proc.devRef .tc main_arg4) : S2x128x128.Idx → EReal)
              slices_S2x128x128_S1x128x128_0_0_0)
            shapeCasts_S1x128x128_S128x128)
          slices_S128x128_S2x128_0_0 := by
    simp only [hostOps0]
    after_results
    rfl
  rw [t]
  refine (slice2_axis0_apply 0 _ _ q k (⟨q.val, Nat.lt_of_lt_of_le q.isLt (by decide)⟩ : Fin 128) (Nat.zero_add _).symm).trans ?_
  refine (shapeCast_1ab_ab_apply _ _ _ _).trans ?_
  exact slice3_axis0_apply 0 _ _ (0 : Fin 1) _ k (0 : Fin 2) rfl

/-- `main_v14` is the second of the two weight matrices `main_arg4`. -/
theorem v14_apply (k j : Fin 128) :
    StableHlo.after (hostOps0 (F := Ideal)) W (Proc.devRef .tc main_v14) (ix2 k j) = W (Proc.devRef .tc main_arg4) (ix3 (1 : Fin 2) k j) := by
  have t : (StableHlo.after (hostOps0 (F := Ideal)) W (Proc.devRef .tc main_v14) : S128x128.Idx → EReal)
      = truncf (F := Ideal) (s := S128x128) (φ := .f32) .bf16
          (shapeCast S128x128
            (extractStridedSlice (s := S2x128x128) S1x128x128 ![1, 0, 0] (W (Proc.devRef .tc main_arg4) : S2x128x128.Idx → EReal)
              slices_S2x128x128_S1x128x128_1_0_0)
            shapeCasts_S1x128x128_S128x128)
          bitsLt_bf16_f32 := by
    simp only [hostOps0]
    after_results
    rfl
  rw [t]
  refine (truncf_apply (ψ := FTy.bf16) _ bitsLt_bf16_f32 _).trans ?_
  refine (shapeCast_1ab_ab_apply _ _ k j).trans ?_
  exact slice3_axis0_apply 1 _ _ (0 : Fin 1) k j (1 : Fin 2) rfl

/-! ## The recurrent cell's weights transposed, and its bias rows -/

/-- `main_v7` is the input weight `main_arg5` transposed. -/
theorem v7_apply (k : Fin 128) (j : Fin 384) :
    StableHlo.after (hostOps0 (F := Ideal)) W (Proc.devRef .tc main_v7) (ix2 k j) = W (Proc.devRef .tc main_arg5) (ix2 j k) := by
  have t : (StableHlo.after (hostOps0 (F := Ideal)) W (Proc.devRef .tc main_v7) : S128x384.Idx → EReal)
      = truncf (F := Ideal) (s := S128x384) (φ := .f32) .bf16
          (transpose (s := S384x128) S128x384 [1, 0] (W (Proc.devRef .tc main_arg5) : S384x128.Idx → EReal)
            transposes_S384x128_S128x384_1_0)
          bitsLt_bf16_f32 := by
    simp only [hostOps0]
    after_results
  rw [t]
  refine (truncf_apply (ψ := FTy.bf16) _ bitsLt_bf16_f32 _).trans ?_
  exact transpose_ix2_apply _ _ k j

/-- `main_v9` is the state weight `main_arg6` transposed. -/
theorem v9_apply (k : Fin 128) (j : Fin 384) :
    StableHlo.after (hostOps0 (F := Ideal)) W (Proc.devRef .tc main_v9) (ix2 k j) = W (Proc.devRef .tc main_arg6) (ix2 j k) := by
  have t : (StableHlo.after (hostOps0 (F := Ideal)) W (Proc.devRef .tc main_v9) : S128x384.Idx → EReal)
      = truncf (F := Ideal) (s := S128x384) (φ := .f32) .bf16
          (transpose (s := S384x128) S128x384 [1, 0] (W (Proc.devRef .tc main_arg6) : S384x128.Idx → EReal)
            transposes_S384x128_S128x384_1_0)
          bitsLt_bf16_f32 := by
    simp only [hostOps0]
    after_results
  rw [t]
  refine (truncf_apply (ψ := FTy.bf16) _ bitsLt_bf16_f32 _).trans ?_
  exact transpose_ix2_apply _ _ k j

/-- `main_v10` is the input bias `main_arg7` as one row. -/
theorem v10_apply (u : Fin 1) (j : Fin 384) :
    StableHlo.after (hostOps0 (F := Ideal)) W (Proc.devRef .tc main_v10) (ix2 u j) = W (Proc.devRef .tc main_arg7) (ix1 j) := by
  have t : (StableHlo.after (hostOps0 (F := Ideal)) W (Proc.devRef .tc main_v10) : S1x384.Idx → EReal)
      = shapeCast S1x384 (W (Proc.devRef .tc main_arg7) : S384.Idx → EReal) shapeCasts_S384_S1x384 := by
    simp only [hostOps0]
    after_results
    rfl
  rw [t]
  exact shapeCast_a_1a_apply _ _ u j

/-- `main_v11` is the state bias `main_arg8` as one row. -/
theorem v11_apply (u : Fin 1) (j : Fin 384) :
    StableHlo.after (hostOps0 (F := Ideal)) W (Proc.devRef .tc main_v11) (ix2 u j) = W (Proc.devRef .tc main_arg8) (ix1 j) := by
  have t : (StableHlo.after (hostOps0 (F := Ideal)) W (Proc.devRef .tc main_v11) : S1x384.Idx → EReal)
      = shapeCast S1x384 (W (Proc.devRef .tc main_arg8) : S384.Idx → EReal) shapeCasts_S384_S1x384 := by
    simp only [hostOps0]
    after_results
    rfl
  rw [t]
  exact shapeCast_a_1a_apply _ _ u j

end Cert.KernelIdeal.HostVal

end
-- ==== Proof.Spec.lean ====
/-
  The gated graph network both programs compute, as functions on matrices of extended reals, entry by entry.

  A matrix is a function of a row and a column. `dense` is a matrix product plus a bias row; `gru` is the gated
  recurrent cell of a row's aggregate `agg` and state `x` (reset and update gates by the logistic function spelt
  `1 / (1 + e⁻ᵗ)`, the candidate by `tanh`, the three gates' pre-activations the three 128-column thirds of two
  384-column dense layers); `mlp3` is three dense layers with `max · 0` between them; `softmaxRow` is the row
  softmax `exp (l − max) / Σ exp (l − max)`.  The graph: `nV` variable nodes `0 … nV−1`, `nE` factor nodes
  `nV … nV+nE−1`; factor `e` is joined to the variables `row e` and `col e`, each edge in both directions.
  `aggAll` sums, into every node, the messages of its neighbours (the four edge lists of the source program);
  `aggSplit` is the same sum computed separately on the variable rows (two sums over factors) and the factor rows
  (two looked-up variable rows).
-/
import Idealize.ShloMosaic.PureOps.Ideal
import Idealize.ShloMosaic.Lib.ValueIdx

open scoped BigOperators

noncomputable section

namespace GGNN

open Idealize.ShloMosaic

/-- A matrix of extended reals: row, column. -/
abbrev Mat (n k : ℕ) := Fin n → Fin k → EReal

/-- The float words the programs carry: one, zero, minus infinity. -/
def one : EReal := Ideal.ofBits .f32 0x3F800000#32
def zero : EReal := Ideal.ofBits .f32 0x00000000#32
def ninf : EReal := Ideal.ofBits .f32 0xFF800000#32

variable {n K N : ℕ}

/-- The matrix product. -/
def mm (x : Mat n K) (w : Mat K N) : Mat n N := fun r c => ∑ k : Fin K, x r k * w k c

/-- A dense layer: the product plus the bias row. -/
def dense (x : Mat n K) (w : Mat K N) (b : Fin N → EReal) : Mat n N := fun r c => mm x w r c + b c

/-- The logistic function as the programs spell it on the host. -/
def sigm (t : EReal) : EReal := Ideal.div one (one + Ideal.exp (-t))

/-- Column `j` of third `q` of a 384-column row. -/
def third (q : Fin 3) (j : Fin 128) : Fin 384 := ⟨q.val * 128 + j.val, by omega⟩

/-- The gated recurrent cell, row by row. `wi`, `wh` are the TRANSPOSED weights (128 × 384). -/
def gru (agg x : Mat n 128) (wi wh : Mat 128 384) (bi bh : Fin 384 → EReal) : Mat n 128 := fun r j =>
  let gi := dense agg wi bi r
  let gh := dense x wh bh r
  let rr := sigm (gi (third 0 j) + gh (third 0 j))
  let z := sigm (gi (third 1 j) + gh (third 1 j))
  let nn := Ideal.tanh (gi (third 2 j) + rr * gh (third 2 j))
  (one - z) * nn + z * x r j

/-- `max t 0`. -/
def relu (t : EReal) : EReal := max t zero

/-- Three dense layers, `relu` after the first two. -/
def mlp3 {K0 K1 K2 K3 : ℕ} (x : Mat n K0) (w1 : Mat K0 K1) (b1 : Fin K1 → EReal) (w2 : Mat K1 K2) (b2 : Fin K2 → EReal)
    (w3 : Mat K2 K3) (b3 : Fin K3 → EReal) : Mat n K3 :=
  dense (fun r c => relu (dense (fun r c => relu (dense x w1 b1 r c)) w2 b2 r c)) w3 b3

/-- The row softmax of a two-column matrix: the row maximum (joined with minus infinity, as both programs do),
    the exponentials of the differences, their sum from zero, the quotients. -/
def softmaxRow (l : Mat n 2) : Mat n 2 := fun r c =>
  let mx := max ninf (max ninf (Finset.univ.sup (l r)))
  let e : Fin 2 → EReal := fun c => Ideal.exp (l r c - mx)
  Ideal.div (e c) (zero + ∑ c : Fin 2, e c)

/-! ## The graph -/

variable {nV nE : ℕ}

/-- The initial states: variable rows zero; factor row `e` is `1, jv e, 0, 0, …`. -/
def x0 (jv : Fin nE → EReal) : Mat (nV + nE) 128 := fun r k =>
  if h : r.val < nV then zero else
    if k.val = 0 then one else if k.val = 1 then jv ⟨r.val - nV, by omega⟩ else zero

/-- The variable node of index `v`, the factor node of edge `e`, as rows of the node table. -/
def varRow (v : Fin nV) : Fin (nV + nE) := ⟨v.val, by omega⟩
def facRow (e : Fin nE) : Fin (nV + nE) := ⟨nV + e.val, by omega⟩

/-- The aggregate computed separately: a variable row sums the factor messages of the edges whose `row` is it and
    of those whose `col` is it (each sum started from zero); a factor row adds the two variable messages. -/
def aggSplit (row col : Fin nE → Fin nV) (msg : Mat (nV + nE) 128) : Mat (nV + nE) 128 := fun r k =>
  if h : r.val < nV then
    (zero + ∑ e ∈ Finset.univ.filter (fun e : Fin nE => row e = ⟨r.val, h⟩), msg (facRow e) k)
      + (zero + ∑ e ∈ Finset.univ.filter (fun e : Fin nE => col e = ⟨r.val, h⟩), msg (facRow e) k)
  else
    msg (varRow (row ⟨r.val - nV, by omega⟩)) k + msg (varRow (col ⟨r.val - nV, by omega⟩)) k

/-- The four edge lists of the source program, concatenated: position `p < 4·nE` has source `src p` and
    destination `dst p`: factor→row, row→factor, factor→col, col→factor. -/
def src (row col : Fin nE → Fin nV) (p : Fin (4 * nE)) : Fin (nV + nE) :=
  if h0 : p.val < nE then facRow ⟨p.val, h0⟩
  else if h1 : p.val < 2 * nE then varRow (row ⟨p.val - nE, by omega⟩)
  else if h2 : p.val < 3 * nE then facRow ⟨p.val - 2 * nE, by omega⟩
  else varRow (col ⟨p.val - 3 * nE, by omega⟩)
def dst (row col : Fin nE → Fin nV) (p : Fin (4 * nE)) : Fin (nV + nE) :=
  if h0 : p.val < nE then varRow (row ⟨p.val, h0⟩)
  else if h1 : p.val < 2 * nE then facRow ⟨p.val - nE, by omega⟩
  else if h2 : p.val < 3 * nE then varRow (col ⟨p.val - 2 * nE, by omega⟩)
  else facRow ⟨p.val - 3 * nE, by omega⟩

/-- The aggregate over all edges at once: each node sums, from zero, the messages of the sources of the edges
    that end at it. -/
def aggAll (row col : Fin nE → Fin nV) (msg : Mat (nV + nE) 128) : Mat (nV + nE) 128 := fun r k =>
  zero + ∑ p ∈ Finset.univ.filter (fun p : Fin (4 * nE) => dst row col p = r), msg (src row col p) k

/-- The factor rows of a node table. -/
def facRows {C : ℕ} (x : Mat (nV + nE) C) : Mat nE C := fun e k => x (facRow e) k

/-- Messages summed into the variables by `row` (from zero). -/
def segRow {C : ℕ} (row : Fin nE → Fin nV) (msgs : Mat nE C) : Mat nV C := fun v k =>
  zero + ∑ e ∈ Finset.univ.filter (fun e : Fin nE => row e = v), msgs e k

/-! ## The two networks -/

section Nets

variable (jv : Fin nE → EReal) (row col : Fin nE → Fin nV)
  (W0 W1 : Mat 128 128) (wi wh : Mat 128 384) (bi bh : Fin 384 → EReal)
  (mW1 : Mat 128 128) (mb1 : Fin 128 → EReal) (mW2 : Mat 128 128) (mb2 : Fin 128 → EReal) (mW3 : Mat 128 64) (mb3 : Fin 64 → EReal)
  (rW1 : Mat 64 128) (rb1 : Fin 128 → EReal) (rW2 : Mat 128 128) (rb2 : Fin 128 → EReal) (rW3 : Mat 128 2) (rb3 : Fin 2 → EReal)

/-- What follows the two recurrent layers in both programs: the message network on the factor rows, the messages
    summed into the variables by `row`, the readout network, the row softmax. -/
def tail (X2 : Mat (nV + nE) 128) : Mat nV 2 :=
  softmaxRow (mlp3 (segRow row (mlp3 (facRows X2) mW1 mb1 mW2 mb2 mW3 mb3)) rW1 rb1 rW2 rb2 rW3 rb3)

/-- The source program: two layers of "message = state × W, aggregate over all edges, recurrent cell". -/
def netRef : Mat nV 2 :=
  let X0 : Mat (nV + nE) 128 := x0 jv
  let X1 := gru (aggAll row col (mm X0 W0)) X0 wi wh bi bh
  let X2 := gru (aggAll row col (mm X1 W1)) X1 wi wh bi bh
  tail row mW1 mb1 mW2 mb2 mW3 mb3 rW1 rb1 rW2 rb2 rW3 rb3 X2

/-- The first layer's factor messages in closed form: row 0 of `W0` plus `jv e` times row 1. -/
def msg0 : Mat nE 128 := fun e k => W0 ⟨0, by omega⟩ k + jv e * W0 ⟨1, by omega⟩ k

/-- The first layer's aggregate as the kernel program computes it: a variable row sums the closed-form factor
    messages by `row` and by `col`; a factor row is zero. -/
def agg0 : Mat (nV + nE) 128 := fun r k =>
  if h : r.val < nV then
    (zero + ∑ e ∈ Finset.univ.filter (fun e : Fin nE => row e = ⟨r.val, h⟩), msg0 jv W0 e k)
      + (zero + ∑ e ∈ Finset.univ.filter (fun e : Fin nE => col e = ⟨r.val, h⟩), msg0 jv W0 e k)
  else zero

/-- The kernel program: the first aggregate in closed form, the second one split by node kind. -/
def netKer : Mat nV 2 :=
  let X0 : Mat (nV + nE) 128 := x0 jv
  let X1 := gru (agg0 jv row col W0) X0 wi wh bi bh
  let X2 := gru (aggSplit row col (mm X1 W1)) X1 wi wh bi bh
  tail row mW1 mb1 mW2 mb2 mW3 mb3 rW1 rb1 rW2 rb2 rW3 rb3 X2

end Nets

end GGNN

end
-- ==== Proof.KI.Host0x.lean ====
/- The initial node states `main_v5`, read at an index: after the host operations before region 0 have run from
   arbitrary contents `W`, the table of 8192 + 131072 rows by 128 columns is the specification's `GGNN.x0` of the
   coefficient vector `main_arg0`: a variable row is zero; a factor row is one, its coefficient, then zeros. The
   stretch builds it as two concatenations: the zero rows over the factor rows, and a factor row as a column of ones,
   the column of coefficients and 126 columns of zeros side by side. -/
import proofs.«136422_j72232759984373_2_alg».proof.Proof.Gen.KernelIdeal.Launch
import proofs.«136422_j72232759984373_2_alg».proof.Proof.Spec
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

/-! ## A three-operand operation's result -/

section Nary3
variable {τ : Topo} {sig : RefSig} {Val : EltTy → Type} {x a b y : Ref sig .tc}

/-- A three-operand operation leaves, at its result buffer, its function of the three operands' contents, each read
    at its own reference. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Nary3

/-- Unfolds a stretch's fold and reads each operation's result at its own buffer and any other buffer unchanged,
    a three-operand operation by `nary3_result`. -/
local macro "after_results3" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The two axes of a matrix -/

/-- The axis of a matrix that is not axis 0 is axis 1. -/
theorem fin2_eq_one_of_val_ne_zero (b : Fin 2) (h : b.val ≠ 0) : b = ⟨1, by decide⟩ :=
  Fin.ext (by have := b.isLt; show b.val = 1; omega)
/-- The axis of a matrix that is not axis 1 is axis 0. -/
theorem fin2_eq_zero_of_val_ne_one (b : Fin 2) (h : b.val ≠ 1) : b = ⟨0, by decide⟩ :=
  Fin.ext (by have := b.isLt; show b.val = 0; omega)

/-! ## Broadcasts read at an index -/

/-- A scalar constant broadcast to any shape reads the constant's value everywhere. -/
theorem bcast_const_apply {t : Shape} (b : BitVec 32) (h : S_.BroadcastsInDim t ![]) (j : t.Idx) :
    broadcastInDim t ![] h (constant (F := Ideal) S_ .f32 b) j = Ideal.ofBits .f32 b :=
  broadcastInDim_apply _ h _ j (fun a => a.elim0) (fun a => a.elim0)

/-- The coefficient vector broadcast to one column reads, at row `e`, the vector at `e`. -/
theorem bcast_col_apply (x : S131072.Idx → EReal) (e : Fin 131072) (u : Fin 1) :
    broadcastInDim S131072x1 ![0] bcast_S131072_S131072x1_0 x (ix2 e u) = x (ix1 e) :=
  broadcastInDim_apply _ bcast_S131072_S131072x1_0 x (ix2 e u) (ix1 e) (fun a => match a with
    | ⟨0, _⟩ => by show e.val = if (131072 : Nat) = 1 then 0 else e.val; rw [if_neg (by decide)])

/-! ## The specification's initial states, case by case -/

section X0
variable {nV nE : ℕ} (jv : Fin nE → EReal) (r : Fin (nV + nE)) (k : Fin 128)

theorem x0_var (h : r.val < nV) : GGNN.x0 jv r k = GGNN.zero := by
  unfold GGNN.x0
  exact dif_pos h

theorem x0_fac_one (h : ¬ r.val < nV) (hk : k.val = 0) : GGNN.x0 jv r k = GGNN.one := by
  unfold GGNN.x0
  rw [dif_neg h, if_pos hk]

theorem x0_fac_jv (h : ¬ r.val < nV) (hk : k.val = 1) : GGNN.x0 jv r k = jv ⟨r.val - nV, by omega⟩ := by
  unfold GGNN.x0
  rw [dif_neg h, if_neg (show ¬ k.val = 0 by omega), if_pos hk]

theorem x0_fac_zero (h : ¬ r.val < nV) (hk : 2 ≤ k.val) : GGNN.x0 jv r k = GGNN.zero := by
  unfold GGNN.x0
  rw [dif_neg h, if_neg (show ¬ k.val = 0 by omega), if_neg (show ¬ k.val = 1 by omega)]

end X0

variable (W : Valuation τ sig (Elt Ideal))

/-! ## The table as the stretch builds it -/

/-- The variable rows: zeros. -/
abbrev zerosVar : S8192x128.Idx → EReal :=
  broadcastInDim S8192x128 ![] bcast_S_S8192x128 (constant (F := Ideal) S_ .f32 0x00000000#32)
/-- A factor row's first column: ones. -/
abbrev onesCol : S131072x1.Idx → EReal :=
  broadcastInDim S131072x1 ![] bcast_S_S131072x1 (constant (F := Ideal) S_ .f32 0x3F800000#32)
/-- A factor row's second column: its coefficient. -/
abbrev coefCol : S131072x1.Idx → EReal :=
  broadcastInDim S131072x1 ![0] bcast_S131072_S131072x1_0 (W (Proc.devRef .tc main_arg0) : S131072.Idx → EReal)
/-- A factor row's other 126 columns: zeros. -/
abbrev zerosTail : S131072x126.Idx → EReal :=
  broadcastInDim S131072x126 ![] bcast_S_S131072x126 (constant (F := Ideal) S_ .f32 0x00000000#32)
/-- The factor rows: the three column pieces side by side. -/
abbrev facRows : S131072x128.Idx → EReal :=
  concatenate S131072x128 1 [⟨S131072x1, onesCol⟩, ⟨S131072x1, coefCol W⟩, ⟨S131072x126, zerosTail⟩]
    concatenates_S131072x1_S131072x1_S131072x126_S131072x128_d1

/-- `main_v5` after the stretch: the variable rows over the factor rows. -/
theorem v5_term :
    (StableHlo.after (hostOps0 (F := Ideal)) W (Proc.devRef .tc main_v5) : S139264x128.Idx → EReal)
      = concatenate S139264x128 0 [⟨S8192x128, zerosVar⟩, ⟨S131072x128, facRows W⟩]
          concatenates_S8192x128_S131072x128_S139264x128_d0 := by
  simp only [hostOps0]
  after_results3
  rfl

/-! ## The table at an index -/

/-- `main_v5` is the specification's initial node states of the coefficient vector `main_arg0`. -/
theorem v5_apply (r : Fin 139264) (k : Fin 128) :
    StableHlo.after (hostOps0 (F := Ideal)) W (Proc.devRef .tc main_v5) (ix2 r k)
      = GGNN.x0 (nV := 8192) (nE := 131072) (fun e => W (Proc.devRef .tc main_arg0) (ix1 e)) r k := by
  rw [v5_term]
  by_cases h : r.val < 8192
  · -- a variable row lies in the first piece
    refine Eq.trans (concatenate_pair_apply_left (t := S139264x128) (s₁ := S8192x128) (s₂ := S131072x128) 0 zerosVar (facRows W)
      concatenates_S8192x128_S131072x128_S139264x128_d0 (ix2 r k) rfl (ix2 (⟨r.val, h⟩ : Fin 8192) k)
      (fun b => match b with | ⟨0, _⟩ => rfl | ⟨1, _⟩ => rfl)) ?_
    exact (bcast_const_apply _ _ _).trans (x0_var (nV := 8192) (nE := 131072) (fun e => W (Proc.devRef .tc main_arg0) (ix1 e)) r k h).symm
  · -- a factor row lies in the second piece, at its own number
    have hr : r.val - 8192 < 131072 := by have := r.isLt; omega
    refine Eq.trans (concatenate_pair_apply_right (t := S139264x128) (s₁ := S8192x128) (s₂ := S131072x128) 0 zerosVar (facRows W)
      concatenates_S8192x128_S131072x128_S139264x128_d0 (ix2 r k) rfl rfl (ix2 (⟨r.val - 8192, hr⟩ : Fin 131072) k)
      (fun b hb => by
        obtain rfl := fin2_eq_one_of_val_ne_zero b (fun e => hb (Fin.ext e))
        rfl)
      (by show r.val - 8192 + 8192 = r.val; omega)) ?_
    by_cases hk0 : k.val = 0
    · -- column 0: the ones
      refine Eq.trans (concatenate_apply_piece (t := S131072x128) 1
        [⟨S131072x1, onesCol⟩, ⟨S131072x1, coefCol W⟩, ⟨S131072x126, zerosTail⟩]
        concatenates_S131072x1_S131072x1_S131072x126_S131072x128_d1 (ix2 (⟨r.val - 8192, hr⟩ : Fin 131072) k)
        0 (by decide : 0 < 3) S131072x1 onesCol rfl rfl 0 rfl (ix2 (⟨r.val - 8192, hr⟩ : Fin 131072) (0 : Fin 1))
        (fun b hb => by
          obtain rfl := fin2_eq_zero_of_val_ne_one b (fun e => hb (Fin.ext e))
          rfl)
        (by show 0 + 0 = k.val; omega)) ?_
      exact (bcast_const_apply _ _ _).trans (x0_fac_one (nV := 8192) (nE := 131072) (fun e => W (Proc.devRef .tc main_arg0) (ix1 e)) r k h hk0).symm
    · by_cases hk1 : k.val = 1
      · -- column 1: the coefficient
        refine Eq.trans (concatenate_apply_piece (t := S131072x128) 1
          [⟨S131072x1, onesCol⟩, ⟨S131072x1, coefCol W⟩, ⟨S131072x126, zerosTail⟩]
          concatenates_S131072x1_S131072x1_S131072x126_S131072x128_d1 (ix2 (⟨r.val - 8192, hr⟩ : Fin 131072) k)
          1 (by decide : 1 < 3) S131072x1 (coefCol W) rfl rfl 1 rfl (ix2 (⟨r.val - 8192, hr⟩ : Fin 131072) (0 : Fin 1))
          (fun b hb => by
          obtain rfl := fin2_eq_zero_of_val_ne_one b (fun e => hb (Fin.ext e))
          rfl)
          (by show 1 + 0 = k.val; omega)) ?_
        exact (bcast_col_apply _ _ _).trans (x0_fac_jv (nV := 8192) (nE := 131072) (fun e => W (Proc.devRef .tc main_arg0) (ix1 e)) r k h hk1).symm
      · -- columns 2 … 127: zeros
        have hk2 : 2 ≤ k.val := by omega
        have hk' : k.val - 2 < 126 := by have := k.isLt; omega
        refine Eq.trans (concatenate_apply_piece (t := S131072x128) 1
          [⟨S131072x1, onesCol⟩, ⟨S131072x1, coefCol W⟩, ⟨S131072x126, zerosTail⟩]
          concatenates_S131072x1_S131072x1_S131072x126_S131072x128_d1 (ix2 (⟨r.val - 8192, hr⟩ : Fin 131072) k)
          2 (by decide : 2 < 3) S131072x126 zerosTail rfl rfl 2 rfl (ix2 (⟨r.val - 8192, hr⟩ : Fin 131072) (⟨k.val - 2, hk'⟩ : Fin 126))
          (fun b hb => by
          obtain rfl := fin2_eq_zero_of_val_ne_one b (fun e => hb (Fin.ext e))
          rfl)
          (by show 2 + (k.val - 2) = k.val; omega)) ?_
        exact (bcast_const_apply _ _ _).trans (x0_fac_zero (nV := 8192) (nE := 131072) (fun e => W (Proc.devRef .tc main_arg0) (ix1 e)) r k h hk2).symm

end Cert.KernelIdeal.HostVal

end
-- ==== Proof.KI.Host3.lean ====
/- The host operations before region 3 (the message network's weights), read at an index: after the stretch has run
   from arbitrary contents `W`, each weight matrix is the argument it was converted from (a change of float format is
   the identity on extended reals) and each bias row is its argument vector laid out as one row. -/
import proofs.«136422_j72232759984373_2_alg».proof.Proof.Gen.KernelIdeal.Launch
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- `main_v56` is `main_arg9` in another float format: the same extended reals. -/
theorem v56_fun :
    (StableHlo.after (hostOps3 (F := Ideal)) W (Proc.devRef .tc main_v56) : S128x128.Idx → EReal) = W (Proc.devRef .tc main_arg9) := by
  simp only [hostOps3]
  after_results
  rfl
theorem v56_apply (k : Fin 128) (j : Fin 128) :
    StableHlo.after (hostOps3 (F := Ideal)) W (Proc.devRef .tc main_v56) (ix2 k j) = W (Proc.devRef .tc main_arg9) (ix2 k j) :=
  congrFun (v56_fun W) (ix2 k j)

/-- `main_v57` is `main_arg11` in another float format: the same extended reals. -/
theorem v57_fun :
    (StableHlo.after (hostOps3 (F := Ideal)) W (Proc.devRef .tc main_v57) : S128x128.Idx → EReal) = W (Proc.devRef .tc main_arg11) := by
  simp only [hostOps3]
  after_results
  rfl
theorem v57_apply (k : Fin 128) (j : Fin 128) :
    StableHlo.after (hostOps3 (F := Ideal)) W (Proc.devRef .tc main_v57) (ix2 k j) = W (Proc.devRef .tc main_arg11) (ix2 k j) :=
  congrFun (v57_fun W) (ix2 k j)

/-- `main_v58` is `main_arg13` in another float format: the same extended reals. -/
theorem v58_fun :
    (StableHlo.after (hostOps3 (F := Ideal)) W (Proc.devRef .tc main_v58) : S128x64.Idx → EReal) = W (Proc.devRef .tc main_arg13) := by
  simp only [hostOps3]
  after_results
  rfl
theorem v58_apply (k : Fin 128) (j : Fin 64) :
    StableHlo.after (hostOps3 (F := Ideal)) W (Proc.devRef .tc main_v58) (ix2 k j) = W (Proc.devRef .tc main_arg13) (ix2 k j) :=
  congrFun (v58_fun W) (ix2 k j)

/-- `main_v59` is the vector `main_arg10` as one row. -/
theorem v59_apply (u : Fin 1) (j : Fin 128) :
    StableHlo.after (hostOps3 (F := Ideal)) W (Proc.devRef .tc main_v59) (ix2 u j) = W (Proc.devRef .tc main_arg10) (ix1 j) := by
  have e : (StableHlo.after (hostOps3 (F := Ideal)) W (Proc.devRef .tc main_v59) : S1x128.Idx → EReal)
      = shapeCast S1x128 (W (Proc.devRef .tc main_arg10) : S128.Idx → EReal) shapeCasts_S128_S1x128 := by
    simp only [hostOps3]
    after_results
    rfl
  rw [e]
  exact shapeCast_a_1a_apply _ _ u j

/-- `main_v60` is the vector `main_arg12` as one row. -/
theorem v60_apply (u : Fin 1) (j : Fin 128) :
    StableHlo.after (hostOps3 (F := Ideal)) W (Proc.devRef .tc main_v60) (ix2 u j) = W (Proc.devRef .tc main_arg12) (ix1 j) := by
  have e : (StableHlo.after (hostOps3 (F := Ideal)) W (Proc.devRef .tc main_v60) : S1x128.Idx → EReal)
      = shapeCast S1x128 (W (Proc.devRef .tc main_arg12) : S128.Idx → EReal) shapeCasts_S128_S1x128 := by
    simp only [hostOps3]
    after_results
    rfl
  rw [e]
  exact shapeCast_a_1a_apply _ _ u j

/-- `main_v61` is the vector `main_arg14` as one row. -/
theorem v61_apply (u : Fin 1) (j : Fin 64) :
    StableHlo.after (hostOps3 (F := Ideal)) W (Proc.devRef .tc main_v61) (ix2 u j) = W (Proc.devRef .tc main_arg14) (ix1 j) := by
  have e : (StableHlo.after (hostOps3 (F := Ideal)) W (Proc.devRef .tc main_v61) : S1x64.Idx → EReal)
      = shapeCast S1x64 (W (Proc.devRef .tc main_arg14) : S64.Idx → EReal) shapeCasts_S64_S1x64 := by
    simp only [hostOps3]
    after_results
    rfl
  rw [e]
  exact shapeCast_a_1a_apply _ _ u j

end Cert.KernelIdeal.HostVal

end
-- ==== Proof.KI.Host4a.lean ====
/- The layout half of the host operations before region 4 (the readout network's weights), read at an index: after
   the stretch has run from arbitrary contents `W`, each weight matrix is the argument it was converted from (a change
   of float format is the identity on extended reals) and each bias row is its argument vector laid out as one row. -/
import proofs.«136422_j72232759984373_2_alg».proof.Proof.Gen.KernelIdeal.Launch
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- `main_v66` is `main_arg15` in another float format: the same extended reals. -/
theorem v66_fun :
    (StableHlo.after (hostOps4 (F := Ideal)) W (Proc.devRef .tc main_v66) : S64x128.Idx → EReal) = W (Proc.devRef .tc main_arg15) := by
  simp only [hostOps4]
  after_results
  rfl
theorem v66_apply (k : Fin 64) (j : Fin 128) :
    StableHlo.after (hostOps4 (F := Ideal)) W (Proc.devRef .tc main_v66) (ix2 k j) = W (Proc.devRef .tc main_arg15) (ix2 k j) :=
  congrFun (v66_fun W) (ix2 k j)

/-- `main_v67` is `main_arg17` in another float format: the same extended reals. -/
theorem v67_fun :
    (StableHlo.after (hostOps4 (F := Ideal)) W (Proc.devRef .tc main_v67) : S128x128.Idx → EReal) = W (Proc.devRef .tc main_arg17) := by
  simp only [hostOps4]
  after_results
  rfl
theorem v67_apply (k : Fin 128) (j : Fin 128) :
    StableHlo.after (hostOps4 (F := Ideal)) W (Proc.devRef .tc main_v67) (ix2 k j) = W (Proc.devRef .tc main_arg17) (ix2 k j) :=
  congrFun (v67_fun W) (ix2 k j)

/-- `main_v68` is `main_arg19` in another float format: the same extended reals. -/
theorem v68_fun :
    (StableHlo.after (hostOps4 (F := Ideal)) W (Proc.devRef .tc main_v68) : S128x2.Idx → EReal) = W (Proc.devRef .tc main_arg19) := by
  simp only [hostOps4]
  after_results
  rfl
theorem v68_apply (k : Fin 128) (j : Fin 2) :
    StableHlo.after (hostOps4 (F := Ideal)) W (Proc.devRef .tc main_v68) (ix2 k j) = W (Proc.devRef .tc main_arg19) (ix2 k j) :=
  congrFun (v68_fun W) (ix2 k j)

/-- `main_v69` is the vector `main_arg16` as one row. -/
theorem v69_apply (u : Fin 1) (j : Fin 128) :
    StableHlo.after (hostOps4 (F := Ideal)) W (Proc.devRef .tc main_v69) (ix2 u j) = W (Proc.devRef .tc main_arg16) (ix1 j) := by
  have e : (StableHlo.after (hostOps4 (F := Ideal)) W (Proc.devRef .tc main_v69) : S1x128.Idx → EReal)
      = shapeCast S1x128 (W (Proc.devRef .tc main_arg16) : S128.Idx → EReal) shapeCasts_S128_S1x128 := by
    simp only [hostOps4]
    after_results
    rfl
  rw [e]
  exact shapeCast_a_1a_apply _ _ u j

/-- `main_v70` is the vector `main_arg18` as one row. -/
theorem v70_apply (u : Fin 1) (j : Fin 128) :
    StableHlo.after (hostOps4 (F := Ideal)) W (Proc.devRef .tc main_v70) (ix2 u j) = W (Proc.devRef .tc main_arg18) (ix1 j) := by
  have e : (StableHlo.after (hostOps4 (F := Ideal)) W (Proc.devRef .tc main_v70) : S1x128.Idx → EReal)
      = shapeCast S1x128 (W (Proc.devRef .tc main_arg18) : S128.Idx → EReal) shapeCasts_S128_S1x128 := by
    simp only [hostOps4]
    after_results
    rfl
  rw [e]
  exact shapeCast_a_1a_apply _ _ u j

/-- `main_v71` is the vector `main_arg20` as one row. -/
theorem v71_apply (u : Fin 1) (j : Fin 2) :
    StableHlo.after (hostOps4 (F := Ideal)) W (Proc.devRef .tc main_v71) (ix2 u j) = W (Proc.devRef .tc main_arg20) (ix1 j) := by
  have e : (StableHlo.after (hostOps4 (F := Ideal)) W (Proc.devRef .tc main_v71) : S1x2.Idx → EReal)
      = shapeCast S1x2 (W (Proc.devRef .tc main_arg20) : S2.Idx → EReal) shapeCasts_S2_S1x2 := by
    simp only [hostOps4]
    after_results
    rfl
  rw [e]
  exact shapeCast_a_1a_apply _ _ u j

end Cert.KernelIdeal.HostVal

end
-- ==== Proof.KI.KernelCarry.lean ====
import proofs.«136422_j72232759984373_2_alg».proof.Proof.KI.Bounds
import proofs.«136422_j72232759984373_2_alg».proof.Proof.KI.Val0
import proofs.«136422_j72232759984373_2_alg».proof.Proof.KI.Host0
import proofs.«136422_j72232759984373_2_alg».proof.Proof.KI.Host0x
import proofs.«136422_j72232759984373_2_alg».proof.Proof.KI.Host3
import proofs.«136422_j72232759984373_2_alg».proof.Proof.KI.Host4a
import proofs.«136422_j72232759984373_2_alg».proof.Proof.Spec

/-! # What the boundaries of @main hold of the arguments

The argument arrays as the matrices and vectors of the network; every argument array unchanged at every boundary
of @main (no host operation writes one and no region stages one as an output); the buffers the first host stretch
computes from the arguments (the initial node states, the recurrent cell's weights and biases, the two rows of
the first layer's weight) carried to the regions that read them; the first region's result as the closed-form
factor messages; the message and readout networks' weights at the regions that read them. -/

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c : Dev nD)

/-! ## The arguments as the network's matrices and vectors -/

/-- The factors' coefficients. -/
abbrev jv : Fin 131072 → EReal := fun e => (m ((c.tc : Thread nD τ).loc main_arg0) : S131072.Idx → EReal) (ix1 e)
/-- The two layers' message weights. -/
abbrev cW0 : GGNN.Mat 128 128 := fun j k => (m ((c.tc : Thread nD τ).loc main_arg4) : S2x128x128.Idx → EReal) (ix3 0 j k)
abbrev cW1 : GGNN.Mat 128 128 := fun j k => (m ((c.tc : Thread nD τ).loc main_arg4) : S2x128x128.Idx → EReal) (ix3 1 j k)
/-- The recurrent cell's weights, transposed, and its biases. -/
abbrev wi : GGNN.Mat 128 384 := fun k j => (m ((c.tc : Thread nD τ).loc main_arg5) : S384x128.Idx → EReal) (ix2 j k)
abbrev wh : GGNN.Mat 128 384 := fun k j => (m ((c.tc : Thread nD τ).loc main_arg6) : S384x128.Idx → EReal) (ix2 j k)
abbrev bi : Fin 384 → EReal := fun j => (m ((c.tc : Thread nD τ).loc main_arg7) : S384.Idx → EReal) (ix1 j)
abbrev bh : Fin 384 → EReal := fun j => (m ((c.tc : Thread nD τ).loc main_arg8) : S384.Idx → EReal) (ix1 j)
/-- The message network. -/
abbrev mW1 : GGNN.Mat 128 128 := fun j k => (m ((c.tc : Thread nD τ).loc main_arg9) : S128x128.Idx → EReal) (ix2 j k)
abbrev mb1 : Fin 128 → EReal := fun j => (m ((c.tc : Thread nD τ).loc main_arg10) : S128.Idx → EReal) (ix1 j)
abbrev mW2 : GGNN.Mat 128 128 := fun j k => (m ((c.tc : Thread nD τ).loc main_arg11) : S128x128.Idx → EReal) (ix2 j k)
abbrev mb2 : Fin 128 → EReal := fun j => (m ((c.tc : Thread nD τ).loc main_arg12) : S128.Idx → EReal) (ix1 j)
abbrev mW3 : GGNN.Mat 128 64 := fun j k => (m ((c.tc : Thread nD τ).loc main_arg13) : S128x64.Idx → EReal) (ix2 j k)
abbrev mb3 : Fin 64 → EReal := fun j => (m ((c.tc : Thread nD τ).loc main_arg14) : S64.Idx → EReal) (ix1 j)
/-- The readout network. -/
abbrev rW1 : GGNN.Mat 64 128 := fun j k => (m ((c.tc : Thread nD τ).loc main_arg15) : S64x128.Idx → EReal) (ix2 j k)
abbrev rb1 : Fin 128 → EReal := fun j => (m ((c.tc : Thread nD τ).loc main_arg16) : S128.Idx → EReal) (ix1 j)
abbrev rW2 : GGNN.Mat 128 128 := fun j k => (m ((c.tc : Thread nD τ).loc main_arg17) : S128x128.Idx → EReal) (ix2 j k)
abbrev rb2 : Fin 128 → EReal := fun j => (m ((c.tc : Thread nD τ).loc main_arg18) : S128.Idx → EReal) (ix1 j)
abbrev rW3 : GGNN.Mat 128 2 := fun j k => (m ((c.tc : Thread nD τ).loc main_arg19) : S128x2.Idx → EReal) (ix2 j k)
abbrev rb3 : Fin 2 → EReal := fun j => (m ((c.tc : Thread nD τ).loc main_arg20) : S2.Idx → EReal) (ix1 j)

/-! ## A buffer nothing before a boundary touches holds its launch contents there -/

section Keep
variable (b : Ref sig .tc)

theorem W2_keep (h0 : b ∉ hostOps0_W) (k0 : ∀ w, Pipeline.arrRef spec0 w ≠ b) :
    Hand.Asm.W2 m c (Proc.devRef .tc b) = m ((c.tc : Thread nD τ).loc b) :=
  (Hand.Asm.W2_of_ne m c b k0).trans (Hand.Asm.W1_of m c b h0)

theorem W4_keep (h0 : b ∉ hostOps0_W) (k0 : ∀ w, Pipeline.arrRef spec0 w ≠ b)
    (h1 : b ∉ hostOps1_W) (k1 : ∀ w, Pipeline.arrRef spec1 w ≠ b) :
    Hand.Asm.W4 m c (Proc.devRef .tc b) = m ((c.tc : Thread nD τ).loc b) :=
  (Hand.Asm.W4_of_ne m c b k1).trans ((Hand.Asm.W3_of m c b h1).trans (W2_keep m c b h0 k0))

theorem W6_keep (h0 : b ∉ hostOps0_W) (k0 : ∀ w, Pipeline.arrRef spec0 w ≠ b)
    (h1 : b ∉ hostOps1_W) (k1 : ∀ w, Pipeline.arrRef spec1 w ≠ b)
    (h2 : b ∉ hostOps2_W) (k2 : ∀ w, Pipeline.arrRef spec2 w ≠ b) :
    Hand.Asm.W6 m c (Proc.devRef .tc b) = m ((c.tc : Thread nD τ).loc b) :=
  (Hand.Asm.W6_of_ne m c b k2).trans ((Hand.Asm.W5_of m c b h2).trans (W4_keep m c b h0 k0 h1 k1))

theorem W8_keep (h0 : b ∉ hostOps0_W) (k0 : ∀ w, Pipeline.arrRef spec0 w ≠ b)
    (h1 : b ∉ hostOps1_W) (k1 : ∀ w, Pipeline.arrRef spec1 w ≠ b)
    (h2 : b ∉ hostOps2_W) (k2 : ∀ w, Pipeline.arrRef spec2 w ≠ b)
    (h3 : b ∉ hostOps3_W) (k3 : ∀ w, Pipeline.arrRef spec3 w ≠ b) :
    Hand.Asm.W8 m c (Proc.devRef .tc b) = m ((c.tc : Thread nD τ).loc b) :=
  (Hand.Asm.W8_of_ne m c b k3).trans ((Hand.Asm.W7_of m c b h3).trans (W6_keep m c b h0 k0 h1 k1 h2 k2))

end Keep

/-! ## The row and column numbers at the boundaries where a host stretch reads them -/

theorem W2_arg2 : Hand.Asm.W2 m c (Proc.devRef .tc main_arg2) = m ((c.tc : Thread nD τ).loc main_arg2) :=
  W2_keep m c main_arg2 (by decide) (by decide)
theorem W2_arg3 : Hand.Asm.W2 m c (Proc.devRef .tc main_arg3) = m ((c.tc : Thread nD τ).loc main_arg3) :=
  W2_keep m c main_arg3 (by decide) (by decide)
theorem W4_arg2 : Hand.Asm.W4 m c (Proc.devRef .tc main_arg2) = m ((c.tc : Thread nD τ).loc main_arg2) :=
  W4_keep m c main_arg2 (by decide) (by decide) (by decide) (by decide)
theorem W4_arg3 : Hand.Asm.W4 m c (Proc.devRef .tc main_arg3) = m ((c.tc : Thread nD τ).loc main_arg3) :=
  W4_keep m c main_arg3 (by decide) (by decide) (by decide) (by decide)
theorem W8_arg2 : Hand.Asm.W8 m c (Proc.devRef .tc main_arg2) = m ((c.tc : Thread nD τ).loc main_arg2) :=
  W8_keep m c main_arg2 (by decide) (by decide) (by decide) (by decide) (by decide) (by decide) (by decide) (by decide)

/-! ## What the first host stretch computes, where the regions read it -/

/-- The initial node states at region 1's entry. -/
theorem X0_at3 (r : Fin 139264) (k : Fin 128) :
    (Hand.Asm.W3 m c (Proc.devRef .tc main_v5) : S139264x128.Idx → EReal) (ix2 r k)
      = GGNN.x0 (nV := 8192) (nE := 131072) (jv m c) r k := by
  rw [Hand.Asm.W3_of m c main_v5 (by decide), Hand.Asm.W2_of_ne m c main_v5 (by decide)]
  exact HostVal.v5_apply (Hand.Asm.W0 m c) r k

/-- The recurrent cell's weights and biases at region 1's entry. -/
theorem wi_at3 (k : Fin 128) (j : Fin 384) :
    (Hand.Asm.W3 m c (Proc.devRef .tc main_v7) : S128x384.Idx → EReal) (ix2 k j) = wi m c k j := by
  rw [Hand.Asm.W3_of m c main_v7 (by decide), Hand.Asm.W2_of_ne m c main_v7 (by decide)]
  exact HostVal.v7_apply (Hand.Asm.W0 m c) k j
theorem wh_at3 (k : Fin 128) (j : Fin 384) :
    (Hand.Asm.W3 m c (Proc.devRef .tc main_v9) : S128x384.Idx → EReal) (ix2 k j) = wh m c k j := by
  rw [Hand.Asm.W3_of m c main_v9 (by decide), Hand.Asm.W2_of_ne m c main_v9 (by decide)]
  exact HostVal.v9_apply (Hand.Asm.W0 m c) k j
theorem bi_at3 (j : Fin 384) :
    (Hand.Asm.W3 m c (Proc.devRef .tc main_v10) : S1x384.Idx → EReal) (ix2 0 j) = bi m c j := by
  rw [Hand.Asm.W3_of m c main_v10 (by decide), Hand.Asm.W2_of_ne m c main_v10 (by decide)]
  exact HostVal.v10_apply (Hand.Asm.W0 m c) 0 j
theorem bh_at3 (j : Fin 384) :
    (Hand.Asm.W3 m c (Proc.devRef .tc main_v11) : S1x384.Idx → EReal) (ix2 0 j) = bh m c j := by
  rw [Hand.Asm.W3_of m c main_v11 (by decide), Hand.Asm.W2_of_ne m c main_v11 (by decide)]
  exact HostVal.v11_apply (Hand.Asm.W0 m c) 0 j
/-- The second layer's message weight at region 1's entry. -/
theorem cW1_at3 (k j : Fin 128) :
    (Hand.Asm.W3 m c (Proc.devRef .tc main_v14) : S128x128.Idx → EReal) (ix2 k j) = cW1 m c k j := by
  rw [Hand.Asm.W3_of m c main_v14 (by decide), Hand.Asm.W2_of_ne m c main_v14 (by decide)]
  exact HostVal.v14_apply (Hand.Asm.W0 m c) k j

/-- Region 1 reads the cell's weights and biases and leaves them; the third host stretch does not write them: at
    region 2's entry they are as at region 1's. -/
theorem wi_at5 (k : Fin 128) (j : Fin 384) :
    (Hand.Asm.W5 m c (Proc.devRef .tc main_v7) : S128x384.Idx → EReal) (ix2 k j) = wi m c k j := by
  rw [Hand.Asm.W5_of m c main_v7 (by decide)]
  rw [show Hand.Asm.W4 m c (Proc.devRef .tc main_v7) = Hand.Asm.W3 m c (Proc.devRef .tc main_v7) from Hand.Asm.W4_in m c 2 rfl]
  exact wi_at3 m c k j
theorem bi_at5 (j : Fin 384) :
    (Hand.Asm.W5 m c (Proc.devRef .tc main_v10) : S1x384.Idx → EReal) (ix2 0 j) = bi m c j := by
  rw [Hand.Asm.W5_of m c main_v10 (by decide)]
  rw [show Hand.Asm.W4 m c (Proc.devRef .tc main_v10) = Hand.Asm.W3 m c (Proc.devRef .tc main_v10) from Hand.Asm.W4_in m c 3 rfl]
  exact bi_at3 m c j
theorem wh_at5 (k : Fin 128) (j : Fin 384) :
    (Hand.Asm.W5 m c (Proc.devRef .tc main_v9) : S128x384.Idx → EReal) (ix2 k j) = wh m c k j := by
  rw [Hand.Asm.W5_of m c main_v9 (by decide)]
  rw [show Hand.Asm.W4 m c (Proc.devRef .tc main_v9) = Hand.Asm.W3 m c (Proc.devRef .tc main_v9) from Hand.Asm.W4_in m c 4 rfl]
  exact wh_at3 m c k j
theorem bh_at5 (j : Fin 384) :
    (Hand.Asm.W5 m c (Proc.devRef .tc main_v11) : S1x384.Idx → EReal) (ix2 0 j) = bh m c j := by
  rw [Hand.Asm.W5_of m c main_v11 (by decide)]
  rw [show Hand.Asm.W4 m c (Proc.devRef .tc main_v11) = Hand.Asm.W3 m c (Proc.devRef .tc main_v11) from Hand.Asm.W4_in m c 5 rfl]
  exact bh_at3 m c j

/-! ## Region 0's result: the first layer's factor messages in closed form -/

theorem M0_at2 (e : Fin 131072) (k : Fin 128) :
    (Hand.Asm.W2 m c (Proc.devRef .tc main_v19) : S131072x128.Idx → EReal) (ix2 e k)
      = GGNN.msg0 (jv m c) (cW0 m c) e k := by
  rw [show Hand.Asm.W2 m c (Proc.devRef .tc main_v19) = (Hand.dat0 (Hand.Asm.V1 m) c).arrAt 2 cfg0.N from Hand.Asm.W2_arr m c 2]
  refine (Hand.final0_2 (Hand.Asm.V1 m) c e k).trans ?_
  have e17 : ∀ q : Fin 2, Hand.A0_1 (Hand.Asm.V1 m) c (ix2 q k)
      = cW0 m c (⟨q.val, Nat.lt_of_lt_of_le q.isLt (by decide)⟩ : Fin 128) k :=
    fun q => HostVal.v17_apply (Hand.Asm.W0 m c) q k
  have e18 : Hand.A0_0 (Hand.Asm.V1 m) c (ix2 e 0) = jv m c e := HostVal.v18_apply (Hand.Asm.W0 m c) e 0
  rw [e17 0, e17 1, e18]
  rfl

/-! ## The message and readout networks' weights at the regions that read them -/

theorem mW1_at7 (k j : Fin 128) :
    (Hand.Asm.W7 m c (Proc.devRef .tc main_v56) : S128x128.Idx → EReal) (ix2 k j) = mW1 m c k j :=
  (HostVal.v56_apply (Hand.Asm.W6 m c) k j).trans
    (congrArg (fun f : S128x128.Idx → EReal => f (ix2 k j)) (W6_keep m c main_arg9 (by decide) (by decide) (by decide) (by decide) (by decide) (by decide)))
theorem mW2_at7 (k j : Fin 128) :
    (Hand.Asm.W7 m c (Proc.devRef .tc main_v57) : S128x128.Idx → EReal) (ix2 k j) = mW2 m c k j :=
  (HostVal.v57_apply (Hand.Asm.W6 m c) k j).trans
    (congrArg (fun f : S128x128.Idx → EReal => f (ix2 k j)) (W6_keep m c main_arg11 (by decide) (by decide) (by decide) (by decide) (by decide) (by decide)))
theorem mW3_at7 (k : Fin 128) (j : Fin 64) :
    (Hand.Asm.W7 m c (Proc.devRef .tc main_v58) : S128x64.Idx → EReal) (ix2 k j) = mW3 m c k j :=
  (HostVal.v58_apply (Hand.Asm.W6 m c) k j).trans
    (congrArg (fun f : S128x64.Idx → EReal => f (ix2 k j)) (W6_keep m c main_arg13 (by decide) (by decide) (by decide) (by decide) (by decide) (by decide)))
theorem mb1_at7 (j : Fin 128) :
    (Hand.Asm.W7 m c (Proc.devRef .tc main_v59) : S1x128.Idx → EReal) (ix2 0 j) = mb1 m c j :=
  (HostVal.v59_apply (Hand.Asm.W6 m c) 0 j).trans
    (congrArg (fun f : S128.Idx → EReal => f (ix1 j)) (W6_keep m c main_arg10 (by decide) (by decide) (by decide) (by decide) (by decide) (by decide)))
theorem mb2_at7 (j : Fin 128) :
    (Hand.Asm.W7 m c (Proc.devRef .tc main_v60) : S1x128.Idx → EReal) (ix2 0 j) = mb2 m c j :=
  (HostVal.v60_apply (Hand.Asm.W6 m c) 0 j).trans
    (congrArg (fun f : S128.Idx → EReal => f (ix1 j)) (W6_keep m c main_arg12 (by decide) (by decide) (by decide) (by decide) (by decide) (by decide)))
theorem mb3_at7 (j : Fin 64) :
    (Hand.Asm.W7 m c (Proc.devRef .tc main_v61) : S1x64.Idx → EReal) (ix2 0 j) = mb3 m c j :=
  (HostVal.v61_apply (Hand.Asm.W6 m c) 0 j).trans
    (congrArg (fun f : S64.Idx → EReal => f (ix1 j)) (W6_keep m c main_arg14 (by decide) (by decide) (by decide) (by decide) (by decide) (by decide)))

theorem rW1_at9 (k : Fin 64) (j : Fin 128) :
    (Hand.Asm.W9 m c (Proc.devRef .tc main_v66) : S64x128.Idx → EReal) (ix2 k j) = rW1 m c k j :=
  (HostVal.v66_apply (Hand.Asm.W8 m c) k j).trans
    (congrArg (fun f : S64x128.Idx → EReal => f (ix2 k j)) (W8_keep m c main_arg15 (by decide) (by decide) (by decide) (by decide) (by decide) (by decide) (by decide) (by decide)))
theorem rW2_at9 (k j : Fin 128) :
    (Hand.Asm.W9 m c (Proc.devRef .tc main_v67) : S128x128.Idx → EReal) (ix2 k j) = rW2 m c k j :=
  (HostVal.v67_apply (Hand.Asm.W8 m c) k j).trans
    (congrArg (fun f : S128x128.Idx → EReal => f (ix2 k j)) (W8_keep m c main_arg17 (by decide) (by decide) (by decide) (by decide) (by decide) (by decide) (by decide) (by decide)))
theorem rW3_at9 (k : Fin 128) (j : Fin 2) :
    (Hand.Asm.W9 m c (Proc.devRef .tc main_v68) : S128x2.Idx → EReal) (ix2 k j) = rW3 m c k j :=
  (HostVal.v68_apply (Hand.Asm.W8 m c) k j).trans
    (congrArg (fun f : S128x2.Idx → EReal => f (ix2 k j)) (W8_keep m c main_arg19 (by decide) (by decide) (by decide) (by decide) (by decide) (by decide) (by decide) (by decide)))
theorem rb1_at9 (j : Fin 128) :
    (Hand.Asm.W9 m c (Proc.devRef .tc main_v69) : S1x128.Idx → EReal) (ix2 0 j) = rb1 m c j :=
  (HostVal.v69_apply (Hand.Asm.W8 m c) 0 j).trans
    (congrArg (fun f : S128.Idx → EReal => f (ix1 j)) (W8_keep m c main_arg16 (by decide) (by decide) (by decide) (by decide) (by decide) (by decide) (by decide) (by decide)))
theorem rb2_at9 (j : Fin 128) :
    (Hand.Asm.W9 m c (Proc.devRef .tc main_v70) : S1x128.Idx → EReal) (ix2 0 j) = rb2 m c j :=
  (HostVal.v70_apply (Hand.Asm.W8 m c) 0 j).trans
    (congrArg (fun f : S128.Idx → EReal => f (ix1 j)) (W8_keep m c main_arg18 (by decide) (by decide) (by decide) (by decide) (by decide) (by decide) (by decide) (by decide)))
theorem rb3_at9 (j : Fin 2) :
    (Hand.Asm.W9 m c (Proc.devRef .tc main_v71) : S1x2.Idx → EReal) (ix2 0 j) = rb3 m c j :=
  (HostVal.v71_apply (Hand.Asm.W8 m c) 0 j).trans
    (congrArg (fun f : S2.Idx → EReal => f (ix1 j)) (W8_keep m c main_arg20 (by decide) (by decide) (by decide) (by decide) (by decide) (by decide) (by decide) (by decide)))

end Cert.KernelIdeal.KernelValue

end
-- ==== Proof.KI.Val1Blocks.lean ====
/-
  Region 1 at the exact instance: where its windows' blocks sit in their arrays.

  The two row-blocked inputs (the aggregate and the state) and the two outputs move 2048 rows per grid point; the two
  384-column weight matrices, the two bias rows and the 128×128 matrix are read whole at every point. Hence a block
  entry is the array entry at row "point × 2048 + row in block" (or at the same index, for the whole-array windows),
  and the 68 output blocks cover the 139264 rows.
-/
import proofs.«136422_j72232759984373_2_alg».proof.Proof.Gen.KernelIdeal.Launch
import proofs.«136422_j72232759984373_2_alg».proof.Proof.Gen.KernelIdeal.Skeleton
import proofs.«136422_j72232759984373_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer access. -/
theorem hz1 : (![0, 0] : Fin 2 → Nat) = fun _ => 0 := funext fun a => by fin_cases a <;> rfl

/-- The printed index maps of region 1, decided over its 68 points: the row-blocked windows are at block row `t`,
    block column 0; the whole-array windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

section
variable (V : (c : Dev nD) → (b : Ref sig .tc) → Buf (Elt Ideal) ((c : Thread nD τ).loc b)) (c : Dev nD)

/-! ## The input arrays as the region finds them, as matrices and rows -/

/-- The aggregate (window 0) and the state (window 1): 139264 rows of 128. -/
def agg1 : Fin 139264 → Fin 128 → EReal := fun r k => (V c (Pipeline.arrRef spec1 0) : S139264x128.Idx → EReal) (ix2 r k)
def x1 : Fin 139264 → Fin 128 → EReal := fun r k => (V c (Pipeline.arrRef spec1 1) : S139264x128.Idx → EReal) (ix2 r k)
/-- The two transposed weight matrices (windows 2 and 4) and their bias rows (windows 3 and 5). -/
def wi1 : Fin 128 → Fin 384 → EReal := fun k j => (V c (Pipeline.arrRef spec1 2) : S128x384.Idx → EReal) (ix2 k j)
def bi1 : Fin 384 → EReal := fun j => (V c (Pipeline.arrRef spec1 3) : S1x384.Idx → EReal) (ix2 0 j)
def wh1 : Fin 128 → Fin 384 → EReal := fun k j => (V c (Pipeline.arrRef spec1 4) : S128x384.Idx → EReal) (ix2 k j)
def bh1 : Fin 384 → EReal := fun j => (V c (Pipeline.arrRef spec1 5) : S1x384.Idx → EReal) (ix2 0 j)
/-- The 128×128 matrix the new state is multiplied by (window 6). -/
def w11 : Fin 128 → Fin 128 → EReal := fun k j => (V c (Pipeline.arrRef spec1 6) : S128x128.Idx → EReal) (ix2 k j)

/-! ## A block entry is an array entry -/

/-- Row `p` of window 0's block at point `t` is row `t × 2048 + p` of its array. -/
theorem blk1_0_apply (t : Fin cfg1.N) (p : Fin 2048) (k : Fin 128) (r : Fin 139264) (hr : r.val = t.val * 2048 + p.val) :
    (((cfg1.win 0).blk t).view.read (Elt Ideal) (V c (Pipeline.arrRef spec1 0)) : Vec Ideal S2048x128 .f32) (ix2 p k)
      = agg1 V c r k := by
  obtain ⟨e0, e1, -⟩ := idx_facts1 t
  rw [View.read_apply]
  unfold agg1
  refine congrArg (V c (Pipeline.arrRef spec1 0) : S139264x128.Idx → EReal) ?_
  funext a
  apply Fin.ext
  match a with
  | ⟨0, _⟩ => show win1_0.index t (0 : Fin 2) * 2048 + 1 * p.val = r.val; rw [e0, hr]; omega
  | ⟨1, _⟩ => show win1_0.index t (1 : Fin 2) * 128 + 1 * k.val = k.val; rw [e1]; omega

/-- Row `p` of window 1's block at point `t` is row `t × 2048 + p` of its array. -/
theorem blk1_1_apply (t : Fin cfg1.N) (p : Fin 2048) (k : Fin 128) (r : Fin 139264) (hr : r.val = t.val * 2048 + p.val) :
    (((cfg1.win 1).blk t).view.read (Elt Ideal) (V c (Pipeline.arrRef spec1 1)) : Vec Ideal S2048x128 .f32) (ix2 p k)
      = x1 V c r k := by
  obtain ⟨-, -, e0, e1, -⟩ := idx_facts1 t
  rw [View.read_apply]
  unfold x1
  refine congrArg (V c (Pipeline.arrRef spec1 1) : S139264x128.Idx → EReal) ?_
  funext a
  apply Fin.ext
  match a with
  | ⟨0, _⟩ => show win1_1.index t (0 : Fin 2) * 2048 + 1 * p.val = r.val; rw [e0, hr]; omega
  | ⟨1, _⟩ => show win1_1.index t (1 : Fin 2) * 128 + 1 * k.val = k.val; rw [e1]; omega

/-- Window 2's block at any point is its whole array. -/
theorem blk1_2_apply (t : Fin cfg1.N) (k : Fin 128) (j : Fin 384) :
    (((cfg1.win 2).blk t).view.read (Elt Ideal) (V c (Pipeline.arrRef spec1 2)) : Vec Ideal S128x384 .bf16) (ix2 k j)
      = wi1 V c k j := by
  obtain ⟨-, -, -, -, e0, e1, -⟩ := idx_facts1 t
  rw [View.read_apply]
  unfold wi1
  refine congrArg (V c (Pipeline.arrRef spec1 2) : S128x384.Idx → EReal) ?_
  funext a
  apply Fin.ext
  match a with
  | ⟨0, _⟩ => show win1_2.index t (0 : Fin 2) * 128 + 1 * k.val = k.val; rw [e0]; omega
  | ⟨1, _⟩ => show win1_2.index t (1 : Fin 2) * 384 + 1 * j.val = j.val; rw [e1]; omega

/-- Window 3's block at any point is its whole one-row array. -/
theorem blk1_3_apply (t : Fin cfg1.N) (j : Fin 384) :
    (((cfg1.win 3).blk t).view.read (Elt Ideal) (V c (Pipeline.arrRef spec1 3)) : Vec Ideal S1x384 .f32) (ix2 0 j)
      = bi1 V c j := by
  obtain ⟨-, -, -, -, -, -, e0, e1, -⟩ := idx_facts1 t
  rw [View.read_apply]
  unfold bi1
  refine congrArg (V c (Pipeline.arrRef spec1 3) : S1x384.Idx → EReal) ?_
  funext a
  apply Fin.ext
  match a with
  | ⟨0, _⟩ => show win1_3.index t (0 : Fin 2) * 1 + 1 * 0 = 0; rw [e0]
  | ⟨1, _⟩ => show win1_3.index t (1 : Fin 2) * 384 + 1 * j.val = j.val; rw [e1]; omega

/-- Window 4's block at any point is its whole array. -/
theorem blk1_4_apply (t : Fin cfg1.N) (k : Fin 128) (j : Fin 384) :
    (((cfg1.win 4).blk t).view.read (Elt Ideal) (V c (Pipeline.arrRef spec1 4)) : Vec Ideal S128x384 .bf16) (ix2 k j)
      = wh1 V c k j := by
  obtain ⟨-, -, -, -, -, -, -, -, e0, e1, -⟩ := idx_facts1 t
  rw [View.read_apply]
  unfold wh1
  refine congrArg (V c (Pipeline.arrRef spec1 4) : S128x384.Idx → EReal) ?_
  funext a
  apply Fin.ext
  match a with
  | ⟨0, _⟩ => show win1_4.index t (0 : Fin 2) * 128 + 1 * k.val = k.val; rw [e0]; omega
  | ⟨1, _⟩ => show win1_4.index t (1 : Fin 2) * 384 + 1 * j.val = j.val; rw [e1]; omega

/-- Window 5's block at any point is its whole one-row array. -/
theorem blk1_5_apply (t : Fin cfg1.N) (j : Fin 384) :
    (((cfg1.win 5).blk t).view.read (Elt Ideal) (V c (Pipeline.arrRef spec1 5)) : Vec Ideal S1x384 .f32) (ix2 0 j)
      = bh1 V c j := by
  obtain ⟨-, -, -, -, -, -, -, -, -, -, e0, e1, -⟩ := idx_facts1 t
  rw [View.read_apply]
  unfold bh1
  refine congrArg (V c (Pipeline.arrRef spec1 5) : S1x384.Idx → EReal) ?_
  funext a
  apply Fin.ext
  match a with
  | ⟨0, _⟩ => show win1_5.index t (0 : Fin 2) * 1 + 1 * 0 = 0; rw [e0]
  | ⟨1, _⟩ => show win1_5.index t (1 : Fin 2) * 384 + 1 * j.val = j.val; rw [e1]; omega

/-- Window 6's block at any point is its whole array. -/
theorem blk1_6_apply (t : Fin cfg1.N) (k : Fin 128) (j : Fin 128) :
    (((cfg1.win 6).blk t).view.read (Elt Ideal) (V c (Pipeline.arrRef spec1 6)) : Vec Ideal S128x128 .bf16) (ix2 k j)
      = w11 V c k j := by
  obtain ⟨-, -, -, -, -, -, -, -, -, -, -, -, e0, e1, -⟩ := idx_facts1 t
  rw [View.read_apply]
  unfold w11
  refine congrArg (V c (Pipeline.arrRef spec1 6) : S128x128.Idx → EReal) ?_
  funext a
  apply Fin.ext
  match a with
  | ⟨0, _⟩ => show win1_6.index t (0 : Fin 2) * 128 + 1 * k.val = k.val; rw [e0]; omega
  | ⟨1, _⟩ => show win1_6.index t (1 : Fin 2) * 128 + 1 * j.val = j.val; rw [e1]; omega

/-! ## The output blocks: where an entry of a block sits, and that the blocks cover the arrays -/

/-- Entry `(p, q)` of output window 7's block at point `t` sits at row `t × 2048 + p`, column `q` of its array. -/
theorem emb1_7 (t : Fin cfg1.N) (p : Fin 2048) (q : Fin 128) (r : Fin 139264) (hr : r.val = t.val * 2048 + p.val) :
    (((cfg1.win 7).blk t).view.emb (ix2 p q) : S139264x128.Idx) = ix2 r q := by
  obtain ⟨-, -, -, -, -, -, -, -, -, -, -, -, -, -, e0, e1, -⟩ := idx_facts1 t
  funext a
  apply Fin.ext
  match a with
  | ⟨0, _⟩ => show win1_7.index t (0 : Fin 2) * 2048 + 1 * p.val = r.val; rw [e0, hr]; omega
  | ⟨1, _⟩ => show win1_7.index t (1 : Fin 2) * 128 + 1 * q.val = q.val; rw [e1]; omega

/-- An index of output array 7 is in point `t`'s block iff each coordinate is in the block's range on its axis. -/
theorem mem_blk1_7 (t : Fin cfg1.N) (i : S139264x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v29_0).slice (win1_7.rect t)).set ↔ _
  rw [View.set_slice_whole, Rect.mem_set_unit]
  exact Iff.rfl

/-- Every index of output array 7 is in the block of the point its row number divided by 2048 names, and that
    point writes its block back. -/
theorem covered1_7 (i : S139264x128.Idx) :
    ∃ t : Fin cfg1.N, (cfg1.win 7).flush t = true ∧ i ∈ ((cfg1.win 7).blk t).view.set := by
  have hi0 : (i 0).val < 139264 := idx2_lt0 i
  have hi1 : (i 1).val < 128 := idx2_lt1 i
  have hN : cfg1.N = 68 := N_1
  refine ⟨⟨(i 0).val / 2048, by rw [hN]; omega⟩, flush1_7 _, ?_⟩
  rw [mem_blk1_7]
  obtain ⟨-, -, -, -, -, -, -, -, -, -, -, -, -, -, e0, e1, -⟩ := idx_facts1 ⟨(i 0).val / 2048, by rw [hN]; omega⟩
  intro a
  match a with
  | ⟨0, _⟩ =>
    show win1_7.index _ (0 : Fin 2) * 2048 ≤ (i 0).val ∧ (i 0).val < win1_7.index _ (0 : Fin 2) * 2048 + 2048
    rw [e0]; show (i 0).val / 2048 * 2048 ≤ (i 0).val ∧ (i 0).val < (i 0).val / 2048 * 2048 + 2048; omega
  | ⟨1, _⟩ =>
    show win1_7.index _ (1 : Fin 2) * 128 ≤ (i 1).val ∧ (i 1).val < win1_7.index _ (1 : Fin 2) * 128 + 128
    rw [e1]; omega

/-- Entry `(p, q)` of output window 8's block at point `t` sits at row `t × 2048 + p`, column `q` of its array. -/
theorem emb1_8 (t : Fin cfg1.N) (p : Fin 2048) (q : Fin 128) (r : Fin 139264) (hr : r.val = t.val * 2048 + p.val) :
    (((cfg1.win 8).blk t).view.emb (ix2 p q) : S139264x128.Idx) = ix2 r q := by
  obtain ⟨-, -, -, -, -, -, -, -, -, -, -, -, -, -, -, -, e0, e1⟩ := idx_facts1 t
  funext a
  apply Fin.ext
  match a with
  | ⟨0, _⟩ => show win1_8.index t (0 : Fin 2) * 2048 + 1 * p.val = r.val; rw [e0, hr]; omega
  | ⟨1, _⟩ => show win1_8.index t (1 : Fin 2) * 128 + 1 * q.val = q.val; rw [e1]; omega

/-- An index of output array 8 is in point `t`'s block iff each coordinate is in the block's range on its axis. -/
theorem mem_blk1_8 (t : Fin cfg1.N) (i : S139264x128.Idx) :
    i ∈ ((cfg1.win 8).blk t).view.set ↔ ∀ a : Fin 2, win1_8.index t a * S2048x128.size a ≤ (i a).val ∧ (i a).val < win1_8.index t a * S2048x128.size a + S2048x128.size a := by
  show i ∈ ((View.whole main_v29_1).slice (win1_8.rect t)).set ↔ _
  rw [View.set_slice_whole, Rect.mem_set_unit]
  exact Iff.rfl

/-- Every index of output array 8 is in the block of the point its row number divided by 2048 names, and that
    point writes its block back. -/
theorem covered1_8 (i : S139264x128.Idx) :
    ∃ t : Fin cfg1.N, (cfg1.win 8).flush t = true ∧ i ∈ ((cfg1.win 8).blk t).view.set := by
  have hi0 : (i 0).val < 139264 := idx2_lt0 i
  have hi1 : (i 1).val < 128 := idx2_lt1 i
  have hN : cfg1.N = 68 := N_1
  refine ⟨⟨(i 0).val / 2048, by rw [hN]; omega⟩, flush1_8 _, ?_⟩
  rw [mem_blk1_8]
  obtain ⟨-, -, -, -, -, -, -, -, -, -, -, -, -, -, -, -, e0, e1⟩ := idx_facts1 ⟨(i 0).val / 2048, by rw [hN]; omega⟩
  intro a
  match a with
  | ⟨0, _⟩ =>
    show win1_8.index _ (0 : Fin 2) * 2048 ≤ (i 0).val ∧ (i 0).val < win1_8.index _ (0 : Fin 2) * 2048 + 2048
    rw [e0]; show (i 0).val / 2048 * 2048 ≤ (i 0).val ∧ (i 0).val < (i 0).val / 2048 * 2048 + 2048; omega
  | ⟨1, _⟩ =>
    show win1_8.index _ (1 : Fin 2) * 128 ≤ (i 1).val ∧ (i 1).val < win1_8.index _ (1 : Fin 2) * 128 + 128
    rw [e1]; omega

end

end Cert.KernelIdeal.Hand

end
-- ==== Proof.LibDense.lean ====
/-
  Dense products read at an index, at the ideal instance.

  For the plain dimension numbers of an `M×K` by `K×N` product (`DotDims.plain M K N`: no batch axis, the left
  operand contracted on its columns, the right on its rows) the operand indices at result index `(r, c)` and
  contraction position `k` are `(r, k)` and `(k, c)`. Hence both the kernel's matrix product into a zero
  accumulator and the host's `dot_general` are, entry by entry, the textbook sum `∑ k, lhs (r, k) · rhs (k, c)` on the
  extended reals. Everything here is generic in `M`, `K`, `N` and in the operands' float formats.
-/
import Idealize.ShloMosaic.PureOps.Ideal.Laws
import Idealize.ShloMosaic.Lib.ValueIdx
import Idealize.ShloMosaic.Lib.Pipeline.Value

noncomputable section

namespace LibDense

open Idealize.ShloMosaic Idealize.ShloMosaic.ValueIdx

variable {M K N : Nat} {φ₁ φ₂ : FTy}

/-- The one-axis contraction index of the plain product, as a number below `K`. -/
abbrev ce (M K N : Nat) : (DotDims.plain M K N).contr.Idx ≃ Fin K := contrEquiv1 (DotDims.plain M K N) K rfl rfl

/-- The left operand is read at row `r`, column `k`. -/
theorem plain_lhsIdx (r : Fin M) (c : Fin N) (k : Fin K) :
    (DotDims.plain M K N).lhsIdx (ix2 r c) ((ce M K N).symm k) = ix2 r k := by
  funext a
  apply Fin.ext
  match a with
  | ⟨0, h0⟩ =>
    have hb : ¬(⟨0, h0⟩ : Fin (⟨2, ![M, K]⟩ : Shape).rank) ∈ (DotDims.plain M K N).lhsBatch := List.not_mem_nil
    have hn : (⟨0, h0⟩ : Fin (⟨2, ![M, K]⟩ : Shape).rank) ∈ (DotDims.plain M K N).lhsNonContracting :=
      List.mem_singleton.mpr rfl
    unfold DotDims.lhsIdx
    rw [dif_neg hb, dif_pos hn]
    rfl
  | ⟨1, _⟩ =>
    exact ((DotDims.plain M K N).lhsIdx_val_of_single (cl := 1) rfl (ix2 r c) _).trans
      (contrEquiv1_symm_val (DotDims.plain M K N) K rfl rfl k)

/-- The right operand is read at row `k`, column `c`. -/
theorem plain_rhsIdx (r : Fin M) (c : Fin N) (k : Fin K) :
    (DotDims.plain M K N).rhsIdx (ix2 r c) ((ce M K N).symm k) = ix2 k c := by
  funext a
  apply Fin.ext
  match a with
  | ⟨0, _⟩ =>
    exact ((DotDims.plain M K N).rhsIdx_val_of_single (cr := 0) rfl (ix2 r c) _).trans
      (contrEquiv1_symm_val (DotDims.plain M K N) K rfl rfl k)
  | ⟨1, h1⟩ =>
    have hb : ¬(⟨1, h1⟩ : Fin (⟨2, ![K, N]⟩ : Shape).rank) ∈ (DotDims.plain M K N).rhsBatch := List.not_mem_nil
    have hn : (⟨1, h1⟩ : Fin (⟨2, ![K, N]⟩ : Shape).rank) ∈ (DotDims.plain M K N).rhsNonContracting :=
      List.mem_singleton.mpr rfl
    unfold DotDims.rhsIdx
    rw [dif_neg hb, dif_pos hn]
    rfl

/-- The contraction sum of the plain product, re-indexed by `k < K`. -/
theorem plain_sum (lhs : FVec Ideal ⟨2, ![M, K]⟩ φ₁) (rhs : FVec Ideal ⟨2, ![K, N]⟩ φ₂) (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (ce M K N).symm]
  refine Finset.sum_congr rfl fun k _ => ?_
  rw [plain_lhsIdx, plain_rhsIdx]

/-- A matrix product accumulated into zero, at `(r, c)`. -/
theorem matmul_plain_zero_apply (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, plain_sum]

/-- The host's `dot_general`, whatever its schedule key, at `(r, c)`. -/
theorem dotGeneral_plain_apply (prec : Option ContractPrecision) (sched : HostSchedule) (lhs : FVec Ideal ⟨2, ![M, K]⟩ φ₁)
    (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, plain_sum]

/-! ## A bias row broadcast along the rows -/

section Rows
variable {α : Type}

/-- The host's `broadcast_in_dim` of a `[1, N]` row to `[M, N]`, at `(r, c)`: the row's entry `c`. -/
theorem rowBroadcastInDim_apply (h : (⟨2, ![1, N]⟩ : Shape).BroadcastsInDim ⟨2, ![M, N]⟩ ![0, 1])
    (b : (⟨2, ![1, N]⟩ : Shape).Idx → α) (r : Fin M) (c : Fin N) :
    broadcastInDim ⟨2, ![M, N]⟩ ![0, 1] h b (ix2 r c) = b (ix2 0 c) :=
  broadcastInDim_apply _ h b (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- The kernel's `vector.broadcast` of a `[1, N]` row to `[M, N]`, at `(r, c)`: the row's entry `c`. -/
theorem rowBroadcastTo_apply (h : (⟨2, ![1, N]⟩ : Shape).Broadcasts ⟨2, ![M, N]⟩)
    (b : (⟨2, ![1, N]⟩ : Shape).Idx → α) (r : Fin M) (c : Fin N) :
    broadcastTo ⟨2, ![M, N]⟩ b h (ix2 r c) = b (ix2 0 c) :=
  broadcastTo_apply b h (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- A length-`N` vector recast as a `[1, N]` row is the vector broadcast along axis 1: both read entry `c` at `(0, c)`
    (the bias as the kernel's caller reshapes it, and as the host's reference broadcasts it). -/
theorem rowOfVec_eq (h : (⟨1, ![N]⟩ : Shape).ShapeCasts ⟨2, ![1, N]⟩)
    (h' : (⟨1, ![N]⟩ : Shape).BroadcastsInDim ⟨2, ![1, N]⟩ ![1]) (b : (⟨1, ![N]⟩ : Shape).Idx → α) :
    shapeCast ⟨2, ![1, N]⟩ b h = broadcastInDim ⟨2, ![1, N]⟩ ![1] h' b := by
  funext j
  obtain ⟨r, c, rfl⟩ : ∃ (r : Fin 1) (c : Fin N), j = ix2 r c := ⟨j 0, j 1, eq_ix2 j⟩
  rw [shapeCast_apply b h (ix2 r c) (ix1 c) (by
      rw [Shape.rowMajor_val_one, Shape.rowMajor_val_two]
      show c.val = r.val * N + c.val
      have := r.isLt; have hr : r.val = 0 := by omega
      rw [hr]; omega),
    broadcastInDim_apply ![1] h' b (ix2 r c) (ix1 c) (fun a => match a with
      | ⟨0, _⟩ => by
        show c.val = if N = 1 then 0 else c.val
        split
        · have := c.isLt; omega
        · rfl)]

end Rows

/-! ## Two products and a bias row: the affine part of a layer -/

/-- The host's spelling: `a · Wl`, plus the bias row on every row, plus `x · Wr`, on whole arrays. -/
def hostAffine (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) : FVec Ideal ⟨2, ![M, N]⟩ .f32 :=
  addf (addf (Host.dotGeneral (DotDims.plain M K N) none a Wl) (broadcastInDim ⟨2, ![M, N]⟩ ![0, 1] h b))
    (Host.dotGeneral (DotDims.plain M K N) none x Wr)

/-- Entry `(r, c)` of the host's spelling. -/
theorem hostAffine_apply (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) (r : Fin M) (c : Fin N) :
    hostAffine h a x Wl b Wr (ix2 r c)
      = ((∑ k : Fin K, a (ix2 r k) * Wl (ix2 k c)) + b (ix2 0 c)) + ∑ k : Fin K, x (ix2 r k) * Wr (ix2 k c) := by
  show (FloatOps.dotGeneral (DotDims.plain M K N) none .single a Wl (ix2 r c)
      + broadcastInDim ⟨2, ![M, N]⟩ ![0, 1] h b (ix2 r c))
      + FloatOps.dotGeneral (DotDims.plain M K N) none .single x Wr (ix2 r c) = _
  rw [dotGeneral_plain_apply, dotGeneral_plain_apply, rowBroadcastInDim_apply]

/-- The kernel body's spelling on a block of `M` rows — both products accumulated into zero and added, then the
    bias row — has the same entry `(r, c)`: addition on the extended reals is commutative and associative, so the
    bias may be added before or after the second product. -/
theorem blockAffine_apply (h : (⟨2, ![1, N]⟩ : Shape).Broadcasts ⟨2, ![M, N]⟩)
    (a x : FVec Ideal ⟨2, ![M, K]⟩ φ₁) (Wl Wr : FVec Ideal ⟨2, ![K, N]⟩ φ₂) (b : FVec Ideal ⟨2, ![1, N]⟩ .f32)
    (r : Fin M) (c : Fin N) :
    (FloatOps.matmul (DotDims.plain M K N) none a Wl (constant ⟨2, ![M, N]⟩ .f32 0x00000000#32) (ix2 r c)
        + FloatOps.matmul (DotDims.plain M K N) none x Wr (constant ⟨2, ![M, N]⟩ .f32 0x00000000#32) (ix2 r c))
        + broadcastTo ⟨2, ![M, N]⟩ b h (ix2 r c)
      = ((∑ k : Fin K, a (ix2 r k) * Wl (ix2 k c)) + b (ix2 0 c)) + ∑ k : Fin K, x (ix2 r k) * Wr (ix2 k c) := by
  rw [matmul_plain_zero_apply, matmul_plain_zero_apply, rowBroadcastTo_apply, add_right_comm]

end LibDense

end
-- ==== Proof.KI.GruCell.lean ====
/- The gated recurrent cell's payload at an index, at the ideal instance.

   The kernel body's one stored value, over its six whole-block loads (the state block `v0`, the aggregate block
   `v3`, the two transposed weight matrices `v6`, `v13` and the two bias rows `v9`, `v16`), read at row `p` and
   column `q`, is `GGNN.gru` of those blocks read as matrices: the two matrix products into a zero accumulator are
   the textbook sums, the bias rows are broadcast along the rows, the three column slices are the three 128-column
   thirds, the logistic function is `1 / (1 + e⁻ᵗ)`, and the changes of float format are the identity. -/
import proofs.«136422_j72232759984373_2_alg».proof.Proof.Gen.KernelIdeal.Skeleton
import proofs.«136422_j72232759984373_2_alg».proof.Proof.Spec
import proofs.«136422_j72232759984373_2_alg».proof.Proof.LibDense
import Idealize.ShloMosaic.Lib.IdealHost
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

/-- The printed dimension numbers are the plain ones: the left operand contracted on its columns, the right on
    its rows, no batch axis. -/
theorem dot_2048_128_384_eq : dot_S2048x128_S128x384_S2048x384_1_0_0_1_n_n = DotDims.plain 2048 128 384 := rfl

/-- A dense layer's pre-activation on a block of 2048 rows, at row `p` and column `c`: the product accumulated
    into zero plus the broadcast bias row. -/
theorem denseBlock_apply (a : FVec Ideal S2048x128 .bf16) (w : FVec Ideal S128x384 .bf16) (b : FVec Ideal S1x384 .f32)
    (p : Fin 2048) (c : Fin 384) :
    matmul dot_S2048x128_S128x384_S2048x384_1_0_0_1_n_n none a w (constant S2048x384 .f32 0x00000000#32) (ix2 p c)
        + broadcastTo S2048x384 b broadcasts_S1x384_S2048x384 (ix2 p c)
      = GGNN.dense (n := 2048) (fun r k => a (ix2 r k)) (fun k j => w (ix2 k j)) (fun j => b (ix2 0 j)) p c := by
  rw [dot_2048_128_384_eq]
  show FloatOps.matmul (DotDims.plain 2048 128 384) none a w (constant ⟨2, ![2048, 384]⟩ .f32 0x00000000#32) (ix2 p c)
      + broadcastTo ⟨2, ![2048, 384]⟩ b broadcasts_S1x384_S2048x384 (ix2 p c)
      = (∑ k : Fin 128, a (ix2 p k) * w (ix2 k c)) + b (ix2 0 c)
  rw [LibDense.matmul_plain_zero_apply, LibDense.rowBroadcastTo_apply]

/-- The three 128-column slices of a 384-column block, at row `p` and column `q`: the block at the column of
    the third. -/
theorem third0_apply (X : FVec Ideal S2048x384 .f32) (p : Fin 2048) (q : Fin 128) :
    extractStridedSlice S2048x128 ![0, 0] X slices_S2048x384_o0_0_S2048x128 (ix2 p q) = X (ix2 p (GGNN.third 0 q)) :=
  slice2_axis1_apply 0 X slices_S2048x384_o0_0_S2048x128 p q (GGNN.third 0 q)
    (by show (0 : Fin 3).val * 128 + q.val = 0 + q.val; simp)
theorem third1_apply (X : FVec Ideal S2048x384 .f32) (p : Fin 2048) (q : Fin 128) :
    extractStridedSlice S2048x128 ![0, 128] X slices_S2048x384_o0_128_S2048x128 (ix2 p q) = X (ix2 p (GGNN.third 1 q)) :=
  slice2_axis1_apply 128 X slices_S2048x384_o0_128_S2048x128 p q (GGNN.third 1 q)
    (by show (1 : Fin 3).val * 128 + q.val = 128 + q.val; simp)
theorem third2_apply (X : FVec Ideal S2048x384 .f32) (p : Fin 2048) (q : Fin 128) :
    extractStridedSlice S2048x128 ![0, 256] X slices_S2048x384_o0_256_S2048x128 (ix2 p q) = X (ix2 p (GGNN.third 2 q)) :=
  slice2_axis1_apply 256 X slices_S2048x384_o0_256_S2048x128 p q (GGNN.third 2 q)
    (by show (2 : Fin 3).val * 128 + q.val = 256 + q.val; simp)

/-- The logistic function and the hyperbolic tangent act entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The logistic function of the ideal instance is the specification's spelling of it. -/
theorem logistic_eq_sigm (t : EReal) : Ideal.logistic t = GGNN.sigm t := by
  unfold GGNN.sigm GGNN.one Ideal.logistic
  rw [Ideal.ofBits_one_f32]

section Cell
variable (v0 v3 : Vec Ideal S2048x128 .f32) (v6 : Vec Ideal S128x384 .bf16) (v9 : Vec Ideal S1x384 .f32)
  (v13 : Vec Ideal S128x384 .bf16) (v16 : Vec Ideal S1x384 .f32) (p : Fin 2048) (q : Fin 128)

/-- THE CELL AT AN INDEX: region 2's stored value at row `p`, column `q` of the block. -/
theorem k2_pay1_apply :
    k2_pay1 v0 v3 v6 v9 v13 v16 (ix2 p q)
      = GGNN.gru (n := 2048) (fun r k => v3 (ix2 r k)) (fun r k => v0 (ix2 r k)) (fun k j => v6 (ix2 k j)) (fun k j => v13 (ix2 k j))
          (fun j => v9 (ix2 0 j)) (fun j => v16 (ix2 0 j)) p q := by
  unfold k2_pay1
  simp only [shapeCast_self, addf_apply, mulf_apply, subf_apply, broadcast_apply, logistic_apply, tanh_apply,
    third0_apply, third1_apply, third2_apply]
  simp only [denseBlock_apply, logistic_eq_sigm]
  rfl

/-- The same cell is region 1's stored value: the two printed payloads are one text. -/
theorem k1_pay2_apply :
    k1_pay2 v0 v3 v6 v9 v13 v16 (ix2 p q)
      = GGNN.gru (n := 2048) (fun r k => v3 (ix2 r k)) (fun r k => v0 (ix2 r k)) (fun k j => v6 (ix2 k j)) (fun k j => v13 (ix2 k j))
          (fun j => v9 (ix2 0 j)) (fun j => v16 (ix2 0 j)) p q :=
  (show k1_pay2 v0 v3 v6 v9 v13 v16 (ix2 p q) = k2_pay1 v0 v3 v6 v9 v13 v16 (ix2 p q) from rfl).trans
    (k2_pay1_apply v0 v3 v6 v9 v13 v16 p q)

end Cell

end Cert.KernelIdeal.Hand

end
-- ==== Proof.SpecRows.lean ====
/-
  The gated cell and the matrix product, at a row, depend only on that row of their row-indexed operands: two
  tables with different numbers of rows (a block of rows and the whole table) that agree on one row give the same
  entries there.
-/
import proofs.«136422_j72232759984373_2_alg».proof.Proof.Spec

open scoped BigOperators

noncomputable section

namespace GGNNRows

open GGNN

variable {n n' K N : ℕ}

/-- Row `r` of a product is a function of row `r` of the left factor. -/
theorem mm_row (x : Mat n K) (x' : Mat n' K) (w : Mat K N) (r : Fin n) (r' : Fin n') (h : x r = x' r') (c : Fin N) :
    mm x w r c = mm x' w r' c := by
  unfold mm
  rw [h]

/-- The same for a dense layer. -/
theorem dense_row (x : Mat n K) (x' : Mat n' K) (w : Mat K N) (b : Fin N → EReal) (r : Fin n) (r' : Fin n')
    (h : x r = x' r') : dense x w b r = dense x' w b r' := by
  funext c
  unfold dense
  rw [mm_row x x' w r r' h c]

/-- Row `r` of the gated cell is a function of row `r` of the aggregate and of the state. -/
theorem gru_row (agg x : Mat n 128) (agg' x' : Mat n' 128) (wi wh : Mat 128 384) (bi bh : Fin 384 → EReal)
    (r : Fin n) (r' : Fin n') (hagg : agg r = agg' r') (hx : x r = x' r') :
    gru agg x wi wh bi bh r = gru agg' x' wi wh bi bh r' := by
  funext j
  unfold gru
  dsimp only
  rw [dense_row agg agg' wi bi r r' hagg, dense_row x x' wh bh r r' hx, hx]

/-- The same, the weights and biases replaced by equal ones. -/
theorem gru_row_congr (agg x : Mat n 128) (agg' x' : Mat n' 128) (wi wi' wh wh' : Mat 128 384) (bi bi' bh bh' : Fin 384 → EReal)
    (r : Fin n) (r' : Fin n') (hagg : agg r = agg' r') (hx : x r = x' r')
    (hwi : wi = wi') (hwh : wh = wh') (hbi : bi = bi') (hbh : bh = bh') :
    gru agg x wi wh bi bh r = gru agg' x' wi' wh' bi' bh' r' := by
  subst hwi hwh hbi hbh
  exact gru_row agg x agg' x' wi wh bi bh r r' hagg hx

/-- Row `r` of a product, the right factor replaced by an equal one. -/
theorem mm_row_congr (x : Mat n K) (x' : Mat n' K) (w w' : Mat K N) (r : Fin n) (r' : Fin n') (h : x r = x' r')
    (hw : w = w') (c : Fin N) : mm x w r c = mm x' w' r' c := by
  subst hw
  exact mm_row x x' w r r' h c

end GGNNRows

end
-- ==== Proof.KI.Val1.lean ====
/-
  Region 1 at the exact instance: what its two output arrays hold when it ends, as whole-array functions of the
  arrays it was entered with.

  Output 7 is the gated cell of the aggregate and the state, row by row; output 8 is that new state times the
  128×128 matrix. Each grid point writes back rows `2048 t … 2048 t + 2047`; within a block the cell reads only the
  block's own rows and the whole weights, so a block's entry is the whole-array function's entry at the block's place,
  and the 68 blocks cover the array.
-/
import proofs.«136422_j72232759984373_2_alg».proof.Proof.KI.Body1
import proofs.«136422_j72232759984373_2_alg».proof.Proof.KI.Val1Blocks
import proofs.«136422_j72232759984373_2_alg».proof.Proof.KI.GruCell
import proofs.«136422_j72232759984373_2_alg».proof.Proof.Spec
import proofs.«136422_j72232759984373_2_alg».proof.Proof.SpecRows
import proofs.«136422_j72232759984373_2_alg».proof.Proof.LibDense

set_option maxRecDepth 16384

open scoped BigOperators

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The second store's payload: a product into a zero accumulator, and the narrowing that feeds it -/

/-- Entry `(p, q)` of the 2048×128 by 128×128 product into zero is the sum over `k` of the products of entries. -/
theorem k1_pay1_apply (v39 : FVec Ideal S2048x128 .bf16) (v40 : Vec Ideal S128x128 .bf16) (p : Fin 2048) (q : Fin 128) :
    k1_pay1 v39 v40 (ix2 p q) = ∑ k : Fin 128, v39 (ix2 p k) * v40 (ix2 k q) := by
  unfold k1_pay1
  rw [shapeCast_self]
  exact LibDense.matmul_plain_zero_apply none v39 v40 p q

/-- Narrowing to bf16 is the identity on extended reals: the first part returns the new state itself. -/
theorem k1_pay3_apply (v0 v3 : Vec Ideal S2048x128 .f32) (v6 : Vec Ideal S128x384 .bf16) (v9 : Vec Ideal S1x384 .f32)
    (v13 : Vec Ideal S128x384 .bf16) (v16 : Vec Ideal S1x384 .f32) (i : S2048x128.Idx) :
    k1_pay3 v0 v3 v6 v9 v13 v16 i = k1_pay2 v0 v3 v6 v9 v13 v16 i := rfl

section
variable (V : (c : Dev nD) → (b : Ref sig .tc) → Buf (Elt Ideal) ((c : Thread nD τ).loc b)) (c : Dev nD)

/-! ## The region's input arrays as matrices -/

/-- The aggregate (window 0), the state (window 1), the transposed weights (windows 2 and 4), the bias rows
    (windows 3 and 5) and the 128×128 matrix (window 6), as the region finds them. -/
abbrev in1_agg : GGNN.Mat 139264 128 := fun r k => (V c (Pipeline.arrRef spec1 0) : S139264x128.Idx → EReal) (ix2 r k)
abbrev in1_x : GGNN.Mat 139264 128 := fun r k => (V c (Pipeline.arrRef spec1 1) : S139264x128.Idx → EReal) (ix2 r k)
abbrev in1_wi : GGNN.Mat 128 384 := fun k j => (V c (Pipeline.arrRef spec1 2) : S128x384.Idx → EReal) (ix2 k j)
abbrev in1_bi : Fin 384 → EReal := fun j => (V c (Pipeline.arrRef spec1 3) : S1x384.Idx → EReal) (ix2 0 j)
abbrev in1_wh : GGNN.Mat 128 384 := fun k j => (V c (Pipeline.arrRef spec1 4) : S128x384.Idx → EReal) (ix2 k j)
abbrev in1_bh : Fin 384 → EReal := fun j => (V c (Pipeline.arrRef spec1 5) : S1x384.Idx → EReal) (ix2 0 j)
abbrev in1_w1 : GGNN.Mat 128 128 := fun k j => (V c (Pipeline.arrRef spec1 6) : S128x128.Idx → EReal) (ix2 k j)

/-! ## The two outputs, whole -/

/-- The new state: the gated cell of the aggregate and the state, at every row. -/
def G1_7 : S139264x128.Idx → EReal := fun i => GGNN.gru (in1_agg V c) (in1_x V c) (in1_wi V c) (in1_wh V c) (in1_bi V c) (in1_bh V c) (i 0) (i 1)

/-- The new state's messages: its product with the 128×128 matrix. -/
def G1_8 : S139264x128.Idx → EReal := fun i => GGNN.mm (GGNN.gru (in1_agg V c) (in1_x V c) (in1_wi V c) (in1_wh V c) (in1_bi V c) (in1_bh V c)) (in1_w1 V c) (i 0) (i 1)

/-- The cell of a point's blocks at block row `p` is the cell of the arrays at row `2048 t + p`: the two row blocks are
    those rows of their arrays and the weights and biases are the whole arrays. -/
theorem cell_blocks (t : Fin cfg1.N) (p : Fin 2048) (r : Fin 139264) (hr : r.val = t.val * 2048 + p.val) :
    GGNN.gru (fun a k => (iblk1 V c 0 t : Vec Ideal S2048x128 .f32) (ix2 a k)) (fun a k => (iblk1 V c 1 t : Vec Ideal S2048x128 .f32) (ix2 a k))
        (fun k j => (iblk1 V c 2 t : Vec Ideal S128x384 .bf16) (ix2 k j)) (fun k j => (iblk1 V c 4 t : Vec Ideal S128x384 .bf16) (ix2 k j))
        (fun j => (iblk1 V c 3 t : Vec Ideal S1x384 .f32) (ix2 0 j)) (fun j => (iblk1 V c 5 t : Vec Ideal S1x384 .f32) (ix2 0 j)) p
      = GGNN.gru (in1_agg V c) (in1_x V c) (in1_wi V c) (in1_wh V c) (in1_bi V c) (in1_bh V c) r :=
  GGNNRows.gru_row_congr _ _ _ _ _ _ _ _ _ _ _ _ p r
    (funext fun k => blk1_0_apply V c t p k r hr) (funext fun k => blk1_1_apply V c t p k r hr)
    (funext fun k => funext fun j => blk1_2_apply V c t k j) (funext fun k => funext fun j => blk1_4_apply V c t k j)
    (funext fun j => blk1_3_apply V c t j) (funext fun j => blk1_5_apply V c t j)

/-! ## What a point writes back is its block of the whole-array function -/

theorem flushed1_7_eq (t : Fin cfg1.N) :
    (dat1 V c).flushed 7 t = ((cfg1.win 7).blk t).view.read (Elt Ideal) (G1_7 V c) := by
  show (cfg1.win 7).cut (grid1.coords t) ((dat1 V c).after 7 t) = _
  rw [after1_7]
  unfold out1_7
  rw [View.canon_unit_zero hz1]
  simp only [View.ld_unit_zero (S := S2048x128) hz1, View.ld_unit_zero (S := S128x384) hz1, View.ld_unit_zero (S := S1x384) hz1]
  funext j
  obtain ⟨p, q, rfl⟩ : ∃ (p : Fin 2048) (q : Fin 128), j = ix2 p q := ⟨j 0, j 1, eq_ix2 j⟩
  have ht : t.val < 68 := lt_of_lt_of_eq t.isLt N_1
  have hr : (⟨t.val * 2048 + p.val, by have := p.isLt; omega⟩ : Fin 139264).val = t.val * 2048 + p.val := rfl
  show k1_pay2 (iblk1 V c 1 t) (iblk1 V c 0 t) (iblk1 V c 2 t) (iblk1 V c 3 t) (iblk1 V c 4 t) (iblk1 V c 5 t) (ix2 p q) = G1_7 V c (((cfg1.win 7).blk t).view.emb (ix2 p q))
  refine Eq.trans ?_ (congrArg (G1_7 V c) (emb1_7 t p q _ hr).symm)
  refine (k1_pay2_apply (iblk1 V c 1 t) (iblk1 V c 0 t) (iblk1 V c 2 t) (iblk1 V c 3 t) (iblk1 V c 4 t) (iblk1 V c 5 t) p q).trans ?_
  exact congrFun (cell_blocks V c t p _ hr) q

theorem flushed1_8_eq (t : Fin cfg1.N) :
    (dat1 V c).flushed 8 t = ((cfg1.win 8).blk t).view.read (Elt Ideal) (G1_8 V c) := by
  show (cfg1.win 8).cut (grid1.coords t) ((dat1 V c).after 8 t) = _
  rw [after1_8]
  unfold out1_8
  rw [View.canon_unit_zero hz1]
  simp only [View.ld_unit_zero (S := S2048x128) hz1, View.ld_unit_zero (S := S128x384) hz1, View.ld_unit_zero (S := S1x384) hz1,
    View.ld_unit_zero (S := S128x128) hz1]
  funext j
  obtain ⟨p, q, rfl⟩ : ∃ (p : Fin 2048) (q : Fin 128), j = ix2 p q := ⟨j 0, j 1, eq_ix2 j⟩
  have ht : t.val < 68 := lt_of_lt_of_eq t.isLt N_1
  have hr : (⟨t.val * 2048 + p.val, by have := p.isLt; omega⟩ : Fin 139264).val = t.val * 2048 + p.val := rfl
  show k1_pay1 (k1_pay3 (iblk1 V c 1 t) (iblk1 V c 0 t) (iblk1 V c 2 t) (iblk1 V c 3 t) (iblk1 V c 4 t) (iblk1 V c 5 t)) (iblk1 V c 6 t) (ix2 p q) = G1_8 V c (((cfg1.win 8).blk t).view.emb (ix2 p q))
  refine Eq.trans ?_ (congrArg (G1_8 V c) (emb1_8 t p q _ hr).symm)
  refine (k1_pay1_apply (k1_pay3 (iblk1 V c 1 t) (iblk1 V c 0 t) (iblk1 V c 2 t) (iblk1 V c 3 t) (iblk1 V c 4 t) (iblk1 V c 5 t)) (iblk1 V c 6 t) p q).trans ?_
  show _ = GGNN.mm (GGNN.gru (in1_agg V c) (in1_x V c) (in1_wi V c) (in1_wh V c) (in1_bi V c) (in1_bh V c)) (in1_w1 V c) _ q
  unfold GGNN.mm
  refine Finset.sum_congr rfl fun k _ => ?_
  exact congrArg₂ (· * ·)
    ((k1_pay2_apply (iblk1 V c 1 t) (iblk1 V c 0 t) (iblk1 V c 2 t) (iblk1 V c 3 t) (iblk1 V c 4 t) (iblk1 V c 5 t) p k).trans (congrFun (cell_blocks V c t p _ hr) k))
    (blk1_6_apply V c t k q)

/-! ## The arrays when the region ends -/

theorem arr1_7 : (dat1 V c).arrAt 7 cfg1.N = G1_7 V c :=
  (dat1 V c).arrAt_eq_of_cover 7 (G1_7 V c) (fun t _ => flushed1_7_eq V c t) covered1_7

theorem arr1_8 : (dat1 V c).arrAt 8 cfg1.N = G1_8 V c :=
  (dat1 V c).arrAt_eq_of_cover 8 (G1_8 V c) (fun t _ => flushed1_8_eq V c t) covered1_8

/-- Output 7, entry by entry: the gated cell. -/
theorem final1_7 (r : Fin 139264) (j : Fin 128) :
    ((dat1 (F := Ideal) V c).arrAt 7 cfg1.N : S139264x128.Idx → EReal) (ix2 r j) = GGNN.gru (in1_agg V c) (in1_x V c) (in1_wi V c) (in1_wh V c) (in1_bi V c) (in1_bh V c) r j :=
  congrFun (arr1_7 V c) (ix2 r j)

/-- Output 8, entry by entry: the new state times the 128×128 matrix. -/
theorem final1_8 (r : Fin 139264) (j : Fin 128) :
    ((dat1 (F := Ideal) V c).arrAt 8 cfg1.N : S139264x128.Idx → EReal) (ix2 r j) = GGNN.mm (GGNN.gru (in1_agg V c) (in1_x V c) (in1_wi V c) (in1_wh V c) (in1_bi V c) (in1_bh V c)) (in1_w1 V c) r j :=
  congrFun (arr1_8 V c) (ix2 r j)

end

end Cert.KernelIdeal.Hand

end
-- ==== Proof.KI.Val2.lean ====
/- The value of region 2 of @main at the ideal instance: the output window's array after the region is the gated
   recurrent cell of the region's input arrays as it finds them, row by row.

   Every grid point `t` writes back rows `2048·t … 2048·t + 2047` of the result; the aggregate and state windows
   move with it, the two weight matrices and the two bias rows are whole and never move. So what point `t` writes
   back is block `t` of ONE whole-array function `G2_6`, the blocks tile the array, and the array ends at `G2_6`. -/
import proofs.«136422_j72232759984373_2_alg».proof.Proof.KI.Body2
import proofs.«136422_j72232759984373_2_alg».proof.Proof.KI.GruCell
import proofs.«136422_j72232759984373_2_alg».proof.Proof.SpecRows
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

theorem hz2_6 : (![0, 0] : Fin 2 → Nat) = fun _ => 0 := funext fun a => by fin_cases a <;> rfl

/-! ## The cell of one row of a block against the cell of the whole tables -/

/-- The stored value at row `p`, column `q` of a block is the cell of the whole tables at row `r`, column `q'`,
    when row `p` of the block's aggregate and state are row `r` of the tables', the weights and biases are the
    tables', and `q' = q`. -/
theorem cell_block (x0 x1 : Vec Ideal S2048x128 .f32) (x2 x4 : Vec Ideal S128x384 .bf16) (x3 x5 : Vec Ideal S1x384 .f32)
    (agg x : GGNN.Mat 139264 128) (wi wh : GGNN.Mat 128 384) (bi bh : Fin 384 → EReal)
    (p : Fin 2048) (q : Fin 128) (r : Fin 139264) (q' : Fin 128) (hq : q' = q)
    (h0 : ∀ k : Fin 128, x0 (ix2 p k) = agg r k) (h1 : ∀ k : Fin 128, x1 (ix2 p k) = x r k)
    (h2 : ∀ (k : Fin 128) (j : Fin 384), x2 (ix2 k j) = wi k j) (h3 : ∀ j : Fin 384, x3 (ix2 0 j) = bi j)
    (h4 : ∀ (k : Fin 128) (j : Fin 384), x4 (ix2 k j) = wh k j) (h5 : ∀ j : Fin 384, x5 (ix2 0 j) = bh j) :
    k2_pay1 x1 x0 x2 x3 x4 x5 (ix2 p q) = GGNN.gru agg x wi wh bi bh r q' := by
  rw [k2_pay1_apply, hq]
  exact congrFun (GGNNRows.gru_row_congr (n := 2048) (n' := 139264) (fun r k => x0 (ix2 r k)) (fun r k => x1 (ix2 r k)) agg x
    (fun k j => x2 (ix2 k j)) wi (fun k j => x4 (ix2 k j)) wh (fun j => x3 (ix2 0 j)) bi (fun j => x5 (ix2 0 j)) bh p r
    (funext h0) (funext h1) (funext fun k => funext (h2 k)) (funext fun k => funext (h4 k)) (funext h3) (funext h5)) q

/-! ## The printed index maps, decided once over the grid -/

/-- The aggregate, state and result windows are at row block `t`; the weights and biases never move. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every row block is some point's. -/
theorem idx_onto2 : ∀ q0 : Fin 68, ∃ t : Fin cfg2.N, win2_6.index t = ![q0.val, 0] :=
  (by decide +kernel : ∀ q0 : Fin 68, ∃ t : Fin grid2.N, win2_6.index t = ![q0.val, 0])

section Val2
variable (V : (c : Dev nD) → (b : Ref sig .tc) → Buf (Elt Ideal) ((c : Thread nD τ).loc b)) (c : Dev nD)

/-! ## The region's input arrays as matrices -/

/-- The aggregate (window 0), the state (window 1), the transposed weights (windows 2 and 4) and the bias rows
    (windows 3 and 5), as the region finds them. -/
abbrev in2_agg : GGNN.Mat 139264 128 := fun r k => (V c (Pipeline.arrRef spec2 0) : S139264x128.Idx → EReal) (ix2 r k)
abbrev in2_x : GGNN.Mat 139264 128 := fun r k => (V c (Pipeline.arrRef spec2 1) : S139264x128.Idx → EReal) (ix2 r k)
abbrev in2_wi : GGNN.Mat 128 384 := fun k j => (V c (Pipeline.arrRef spec2 2) : S128x384.Idx → EReal) (ix2 k j)
abbrev in2_bi : Fin 384 → EReal := fun j => (V c (Pipeline.arrRef spec2 3) : S1x384.Idx → EReal) (ix2 0 j)
abbrev in2_wh : GGNN.Mat 128 384 := fun k j => (V c (Pipeline.arrRef spec2 4) : S128x384.Idx → EReal) (ix2 k j)
abbrev in2_bh : Fin 384 → EReal := fun j => (V c (Pipeline.arrRef spec2 5) : S1x384.Idx → EReal) (ix2 0 j)

/-- What the result array ends holding: the cell of the input arrays, index by index. -/
abbrev G2_6 : S139264x128.Idx → EReal := fun i =>
  GGNN.gru (in2_agg V c) (in2_x V c) (in2_wi V c) (in2_wh V c) (in2_bi V c) (in2_bh V c) (i 0) (i 1)

/-! ## Each input block read where the output's block says -/

/-- A row-block window's block at point `t`, at row `p`: row `r` of its array, when `r` is `2048·t + p`. -/
theorem iblk2_0_apply (t : Fin cfg2.N) (p : Fin 2048) (k : Fin 128) (r : Fin 139264) (hr : r.val = t.val * 2048 + p.val) :
    (iblk2 V c 0 t : Vec Ideal S2048x128 .f32) (ix2 p k) = in2_agg V c r k := by
  obtain ⟨e0, e1, -⟩ := idx_facts2 t
  unfold iblk2
  rw [View.read_apply]
  show (V c (Pipeline.arrRef spec2 0) : S139264x128.Idx → EReal) _ = (V c (Pipeline.arrRef spec2 0) : S139264x128.Idx → EReal) _
  refine congrArg (V c (Pipeline.arrRef spec2 0) : S139264x128.Idx → EReal) (funext fun a => Fin.ext ?_)
  match a with
  | ⟨0, _⟩ => show win2_0.index t (0 : Fin 2) * 2048 + 1 * p.val = r.val; rw [e0, hr]; omega
  | ⟨1, _⟩ => show win2_0.index t (1 : Fin 2) * 128 + 1 * k.val = k.val; rw [e1]; omega
theorem iblk2_1_apply (t : Fin cfg2.N) (p : Fin 2048) (k : Fin 128) (r : Fin 139264) (hr : r.val = t.val * 2048 + p.val) :
    (iblk2 V c 1 t : Vec Ideal S2048x128 .f32) (ix2 p k) = in2_x V c r k := by
  obtain ⟨-, -, e0, e1, -⟩ := idx_facts2 t
  unfold iblk2
  rw [View.read_apply]
  show (V c (Pipeline.arrRef spec2 1) : S139264x128.Idx → EReal) _ = (V c (Pipeline.arrRef spec2 1) : S139264x128.Idx → EReal) _
  refine congrArg (V c (Pipeline.arrRef spec2 1) : S139264x128.Idx → EReal) (funext fun a => Fin.ext ?_)
  match a with
  | ⟨0, _⟩ => show win2_1.index t (0 : Fin 2) * 2048 + 1 * p.val = r.val; rw [e0, hr]; omega
  | ⟨1, _⟩ => show win2_1.index t (1 : Fin 2) * 128 + 1 * k.val = k.val; rw [e1]; omega

/-- A whole, never-moving window's block at any point is its array. -/
theorem iblk2_2_apply (t : Fin cfg2.N) (k : Fin 128) (j : Fin 384) :
    (iblk2 V c 2 t : Vec Ideal S128x384 .bf16) (ix2 k j) = in2_wi V c k j := by
  obtain ⟨-, -, -, -, e0, e1, -⟩ := idx_facts2 t
  unfold iblk2
  rw [View.read_apply]
  show (V c (Pipeline.arrRef spec2 2) : S128x384.Idx → EReal) _ = (V c (Pipeline.arrRef spec2 2) : S128x384.Idx → EReal) _
  refine congrArg (V c (Pipeline.arrRef spec2 2) : S128x384.Idx → EReal) (funext fun a => Fin.ext ?_)
  match a with
  | ⟨0, _⟩ => show win2_2.index t (0 : Fin 2) * 128 + 1 * k.val = k.val; rw [e0]; omega
  | ⟨1, _⟩ => show win2_2.index t (1 : Fin 2) * 384 + 1 * j.val = j.val; rw [e1]; omega
theorem iblk2_3_apply (t : Fin cfg2.N) (j : Fin 384) :
    (iblk2 V c 3 t : Vec Ideal S1x384 .f32) (ix2 0 j) = in2_bi V c j := by
  obtain ⟨-, -, -, -, -, -, e0, e1, -⟩ := idx_facts2 t
  unfold iblk2
  rw [View.read_apply]
  show (V c (Pipeline.arrRef spec2 3) : S1x384.Idx → EReal) _ = (V c (Pipeline.arrRef spec2 3) : S1x384.Idx → EReal) _
  refine congrArg (V c (Pipeline.arrRef spec2 3) : S1x384.Idx → EReal) (funext fun a => Fin.ext ?_)
  match a with
  | ⟨0, _⟩ => show win2_3.index t (0 : Fin 2) * 1 + 1 * (0 : Fin 1).val = (0 : Fin 1).val; rw [e0]; simp
  | ⟨1, _⟩ => show win2_3.index t (1 : Fin 2) * 384 + 1 * j.val = j.val; rw [e1]; omega
theorem iblk2_4_apply (t : Fin cfg2.N) (k : Fin 128) (j : Fin 384) :
    (iblk2 V c 4 t : Vec Ideal S128x384 .bf16) (ix2 k j) = in2_wh V c k j := by
  obtain ⟨-, -, -, -, -, -, -, -, e0, e1, -⟩ := idx_facts2 t
  unfold iblk2
  rw [View.read_apply]
  show (V c (Pipeline.arrRef spec2 4) : S128x384.Idx → EReal) _ = (V c (Pipeline.arrRef spec2 4) : S128x384.Idx → EReal) _
  refine congrArg (V c (Pipeline.arrRef spec2 4) : S128x384.Idx → EReal) (funext fun a => Fin.ext ?_)
  match a with
  | ⟨0, _⟩ => show win2_4.index t (0 : Fin 2) * 128 + 1 * k.val = k.val; rw [e0]; omega
  | ⟨1, _⟩ => show win2_4.index t (1 : Fin 2) * 384 + 1 * j.val = j.val; rw [e1]; omega
theorem iblk2_5_apply (t : Fin cfg2.N) (j : Fin 384) :
    (iblk2 V c 5 t : Vec Ideal S1x384 .f32) (ix2 0 j) = in2_bh V c j := by
  obtain ⟨-, -, -, -, -, -, -, -, -, -, e0, e1, -⟩ := idx_facts2 t
  unfold iblk2
  rw [View.read_apply]
  show (V c (Pipeline.arrRef spec2 5) : S1x384.Idx → EReal) _ = (V c (Pipeline.arrRef spec2 5) : S1x384.Idx → EReal) _
  refine congrArg (V c (Pipeline.arrRef spec2 5) : S1x384.Idx → EReal) (funext fun a => Fin.ext ?_)
  match a with
  | ⟨0, _⟩ => show win2_5.index t (0 : Fin 2) * 1 + 1 * (0 : Fin 1).val = (0 : Fin 1).val; rw [e0]; simp
  | ⟨1, _⟩ => show win2_5.index t (1 : Fin 2) * 384 + 1 * j.val = j.val; rw [e1]; omega

/-! ## What a point writes back -/

/-- Point `t` writes back block `t` of `G2_6`. -/
theorem flushed2_6_eq (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz2_6]
  simp only [View.ld_unit_zero (S := S2048x128) hz2_6, View.ld_unit_zero (S := S128x384) hz2_6,
    View.ld_unit_zero (S := S1x384) hz2_6]
  obtain ⟨-, -, -, -, -, -, -, -, -, -, -, -, e0, e1⟩ := idx_facts2 t
  funext y
  show k2_pay1 (iblk2 V c 1 t) (iblk2 V c 0 t) (iblk2 V c 2 t) (iblk2 V c 3 t) (iblk2 V c 4 t) (iblk2 V c 5 t) y
      = G2_6 V c (((cfg2.win 6).blk t).view.emb y)
  refine (congrArg (k2_pay1 (iblk2 V c 1 t) (iblk2 V c 0 t) (iblk2 V c 2 t) (iblk2 V c 3 t) (iblk2 V c 4 t) (iblk2 V c 5 t))
    (eq_ix2 (n0 := 2048) (n1 := 128) y)).trans ?_
  have hr : ((((cfg2.win 6).blk t).view.emb y) 0).val = t.val * 2048 + (y 0).val := by
    show win2_6.index t (0 : Fin 2) * 2048 + 1 * (y 0).val = _; rw [e0]; omega
  have hq : (((cfg2.win 6).blk t).view.emb y) 1 = y 1 := by
    apply Fin.ext; show win2_6.index t (1 : Fin 2) * 128 + 1 * (y 1).val = (y 1).val; rw [e1]; omega
  exact cell_block (iblk2 V c 0 t) (iblk2 V c 1 t) (iblk2 V c 2 t) (iblk2 V c 4 t) (iblk2 V c 3 t) (iblk2 V c 5 t)
    (in2_agg V c) (in2_x V c) (in2_wi V c) (in2_wh V c) (in2_bi V c) (in2_bh V c)
    (y 0) (y 1) ((((cfg2.win 6).blk t).view.emb y) 0) ((((cfg2.win 6).blk t).view.emb y) 1) hq
    (fun k => iblk2_0_apply V c t (y 0) k _ hr) (fun k => iblk2_1_apply V c t (y 0) k _ hr)
    (fun k j => iblk2_2_apply V c t k j) (fun j => iblk2_3_apply V c t j)
    (fun k j => iblk2_4_apply V c t k j) (fun j => iblk2_5_apply V c t j)

/-! ## The blocks tile the array -/

/-- An index of the array is in point `t`'s block iff each coordinate is in the block's range on its axis. -/
theorem mem_blk2_6 (t : Fin cfg2.N) (i : S139264x128.Idx) :
    i ∈ ((cfg2.win 6).blk t).view.set ↔ ∀ a : Fin 2, win2_6.index t a * S2048x128.size a ≤ (i a).val ∧ (i a).val < win2_6.index t a * S2048x128.size a + S2048x128.size a := by
  show i ∈ ((View.whole main_v55).slice (win2_6.rect t)).set ↔ _
  rw [View.set_slice_whole, Rect.mem_set_unit]
  exact Iff.rfl

/-- Row `r` is in the block of the point whose row block is `r / 2048`. -/
theorem cover2_6_arr (i : S139264x128.Idx) :
    ∃ t : Fin cfg2.N, (cfg2.win 6).flush t = true ∧ i ∈ ((cfg2.win 6).blk t).view.set := by
  have hi0 : (i 0).val < 139264 := (i 0).isLt
  have hi1 : (i 1).val < 128 := (i 1).isLt
  obtain ⟨t, ht⟩ := idx_onto2 ⟨(i 0).val / 2048, by omega⟩
  have q0 : win2_6.index t (0 : Fin 2) = (i 0).val / 2048 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 128 ≤ (i 1).val ∧ (i 1).val < win2_6.index t (1 : Fin 2) * 128 + 128; omega

/-! ## The array after the region -/

/-- THE RESULT ARRAY after the region is the cell of the input arrays. -/
theorem final2_6_all : (dat2 V c).arrAt 6 cfg2.N = G2_6 V c :=
  (dat2 V c).arrAt_eq_of_cover 6 (G2_6 V c) (fun t _ => flushed2_6_eq V c t) (cover2_6_arr)

/-- The same, entry by entry. -/
theorem final2_6 (r : Fin 139264) (j : Fin 128) :
    ((dat2 V c).arrAt 6 cfg2.N : S139264x128.Idx → EReal) (ix2 r j)
      = GGNN.gru (in2_agg V c) (in2_x V c) (in2_wi V c) (in2_wh V c) (in2_bi V c) (in2_bh V c) r j :=
  congrFun (final2_6_all V c) (ix2 r j)

end Val2

end Cert.KernelIdeal.Hand

end
-- ==== Proof.KI.Val3.lean ====
/- The value of region 3 (the message network) on the extended reals. The region's output array, after all of
   its 32 grid points have written back, is at entry (e, j) the three-layer network `GGNN.mlp3` applied to row
   8192 + e of the node-state array the region reads (its factor rows), with the three weight matrices and the
   three bias rows the region is entered with. Point t reads rows 8192 + 4096·t … of the state (block index
   2 + t) and writes rows 4096·t … of the output; the weights' and biases' blocks are the whole arrays. -/
import proofs.«136422_j72232759984373_2_alg».proof.Proof.KI.Body3
import proofs.«136422_j72232759984373_2_alg».proof.Proof.Spec
import proofs.«136422_j72232759984373_2_alg».proof.Proof.LibDense
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The network depends on one row of its input -/

/-- `GGNN.mlp3` at row `r` reads its input only on row `r`. -/
theorem v3_mlp3_congr {n n' K0 K1 K2 K3 : ℕ} {x : GGNN.Mat n K0} {x' : GGNN.Mat n' K0}
    {w1 w1' : GGNN.Mat K0 K1} {b1 b1' : Fin K1 → EReal} {w2 w2' : GGNN.Mat K1 K2} {b2 b2' : Fin K2 → EReal}
    {w3 w3' : GGNN.Mat K2 K3} {b3 b3' : Fin K3 → EReal} {r : Fin n} {r' : Fin n'} {j j' : Fin K3}
    (hx : ∀ k, x r k = x' r' k) (h1 : w1 = w1') (g1 : b1 = b1') (h2 : w2 = w2') (g2 : b2 = b2')
    (h3 : w3 = w3') (g3 : b3 = b3') (hj : j = j') :
    GGNN.mlp3 x w1 b1 w2 b2 w3 b3 r j = GGNN.mlp3 x' w1' b1' w2' b2' w3' b3' r' j' := by
  subst h1 g1 h2 g2 h3 g3 hj
  unfold GGNN.mlp3 GGNN.dense GGNN.mm
  simp only [hx]

/-! ## One layer on a block of rows -/

/-- The affine part of a layer on a block of `M` rows as the body computes it: the rows rounded to the
    weights' format (the identity on the extended reals), the product into a zero accumulator, the bias row
    added to every row. -/
def v3_aff {M K N : ℕ} (h : (⟨2, ![1, N]⟩ : Shape).Broadcasts ⟨2, ![M, N]⟩) (x : FVec Ideal ⟨2, ![M, K]⟩ .f32)
    (w : FVec Ideal ⟨2, ![K, N]⟩ .bf16) (b : FVec Ideal ⟨2, ![1, N]⟩ .f32) : FVec Ideal ⟨2, ![M, N]⟩ .f32 :=
  addf (matmul (DotDims.plain M K N) none (truncf .bf16 x) w (constant ⟨2, ![M, N]⟩ .f32 0x00000000#32))
    (broadcastTo ⟨2, ![M, N]⟩ b h)

/-- The rectification: the maximum with the zero word, entry by entry. -/
def v3_relu {M N : ℕ} (y : FVec Ideal ⟨2, ![M, N]⟩ .f32) : FVec Ideal ⟨2, ![M, N]⟩ .f32 :=
  maximumf y (broadcast ⟨2, ![M, N]⟩ (Scalar.ofBits (F := Ideal) .f32 0x00000000#32))

/-- Entry `(r, c)` of the affine part is the dense layer's. -/
theorem v3_aff_apply {M K N : ℕ} (h : (⟨2, ![1, N]⟩ : Shape).Broadcasts ⟨2, ![M, N]⟩) (x : FVec Ideal ⟨2, ![M, K]⟩ .f32)
    (w : FVec Ideal ⟨2, ![K, N]⟩ .bf16) (b : FVec Ideal ⟨2, ![1, N]⟩ .f32) (r : Fin M) (c : Fin N) :
    v3_aff h x w b (ix2 r c)
      = GGNN.dense (fun r k => x (ix2 r k)) (fun k c => w (ix2 k c)) (fun c => b (ix2 0 c)) r c := by
  show FloatOps.matmul (DotDims.plain M K N) none (truncf .bf16 x) w (constant ⟨2, ![M, N]⟩ .f32 0x00000000#32) (ix2 r c)
      + broadcastTo ⟨2, ![M, N]⟩ b h (ix2 r c) = _
  rw [LibDense.matmul_plain_zero_apply, LibDense.rowBroadcastTo_apply]
  rfl

/-- Entry `(r, c)` of a rectified block. -/
theorem v3_relu_apply {M N : ℕ} (y : FVec Ideal ⟨2, ![M, N]⟩ .f32) (r : Fin M) (c : Fin N) :
    v3_relu y (ix2 r c) = GGNN.relu (y (ix2 r c)) := rfl

/-! ## The body's payload at an entry -/

/-- The stored value is the three layers, one after the other. -/
theorem v3_pay_layers (x0 : Vec Ideal S4096x128 .f32) (x1 : Vec Ideal S128x128 .bf16) (x2 : Vec Ideal S1x128 .f32)
    (x3 : Vec Ideal S128x128 .bf16) (x4 : Vec Ideal S1x128 .f32) (x5 : Vec Ideal S128x64 .bf16) (x6 : Vec Ideal S1x64 .f32) :
    k3_pay1 (F := Ideal) x0 x1 x2 x3 x4 x5 x6
      = v3_aff (M := 4096) (K := 128) (N := 64) broadcasts_S1x64_S4096x64
          (v3_relu (v3_aff (M := 4096) (K := 128) (N := 128) broadcasts_S1x128_S4096x128
            (v3_relu (v3_aff (M := 4096) (K := 128) (N := 128) broadcasts_S1x128_S4096x128 x0 x1 x2)) x3 x4)) x5 x6 := by
  unfold k3_pay1
  simp only [shapeCast_self]
  rfl

/-- Entry `(r, j)` of the stored value: the network of row `r` of the state block. -/
theorem v3_pay_apply (x0 : Vec Ideal S4096x128 .f32) (x1 : Vec Ideal S128x128 .bf16) (x2 : Vec Ideal S1x128 .f32)
    (x3 : Vec Ideal S128x128 .bf16) (x4 : Vec Ideal S1x128 .f32) (x5 : Vec Ideal S128x64 .bf16) (x6 : Vec Ideal S1x64 .f32)
    (r : Fin 4096) (j : Fin 64) :
    k3_pay1 (F := Ideal) x0 x1 x2 x3 x4 x5 x6 (ix2 r j)
      = GGNN.mlp3 (fun r k => x0 (ix2 r k)) (fun k j => x1 (ix2 k j)) (fun j => x2 (ix2 0 j))
          (fun k j => x3 (ix2 k j)) (fun j => x4 (ix2 0 j)) (fun k j => x5 (ix2 k j)) (fun j => x6 (ix2 0 j)) r j := by
  rw [v3_pay_layers, v3_aff_apply]
  unfold GGNN.mlp3
  simp only [v3_relu_apply, v3_aff_apply]

/-! ## The region's arrays and its blocks -/

section Region3
variable (V : (c : Dev nD) → (b : Ref sig .tc) → Buf (Elt Ideal) ((c : Thread nD τ).loc b)) (c : Dev nD)

/-- The arrays the region is entered with: the node states, then weight and bias of each layer. -/
abbrev A3_0 : S139264x128.Idx → EReal := V c (Pipeline.arrRef spec3 0)
abbrev A3_1 : S128x128.Idx → EReal := V c (Pipeline.arrRef spec3 1)
abbrev A3_2 : S1x128.Idx → EReal := V c (Pipeline.arrRef spec3 2)
abbrev A3_3 : S128x128.Idx → EReal := V c (Pipeline.arrRef spec3 3)
abbrev A3_4 : S1x128.Idx → EReal := V c (Pipeline.arrRef spec3 4)
abbrev A3_5 : S128x64.Idx → EReal := V c (Pipeline.arrRef spec3 5)
abbrev A3_6 : S1x64.Idx → EReal := V c (Pipeline.arrRef spec3 6)

theorem v3_hz : (![0, 0] : Fin 2 → Nat) = fun _ => 0 := funext fun a => by fin_cases a <;> rfl

/-- The printed index maps over the grid: point `t` takes state block `2 + t` and output block `t`; -/
theorem v3_idx_io : ∀ t : Fin cfg3.N, win3_0.index t (0 : Fin 2) = t.val + 2 ∧ win3_0.index t (1 : Fin 2) = 0
    ∧ win3_7.index t (0 : Fin 2) = t.val ∧ win3_7.index t (1 : Fin 2) = 0 :=
  (by decide +kernel : ∀ t : Fin grid3.N, _)
/-- the weights' and biases' block is always block (0, 0). -/
theorem v3_idx_w : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The state block at point `t` is rows `8192 + 4096·t …` of the state array. -/
theorem v3_iblk_0 (t : Fin cfg3.N) (r : Fin 4096) (k : Fin 128) (e : Fin 139264) (he : e.val = 8192 + (t.val * 4096 + r.val)) :
    (iblk3 V c 0 t : Vec Ideal S4096x128 .f32) (ix2 r k) = A3_0 V c (ix2 e k) := by
  obtain ⟨e0, e1, -, -⟩ := v3_idx_io t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 4096 + 1 * r.val = e.val; omega
  | ⟨1, _⟩ => show win3_0.index t (1 : Fin 2) * 128 + 1 * k.val = k.val; omega
/-- Window 1's block is its whole array at every point. -/
theorem v3_iblk_1 (t : Fin cfg3.N) (k : Fin 128) (j : Fin 128) :
    (iblk3 V c 1 t : Vec Ideal S128x128 .bf16) (ix2 k j) = A3_1 V c (ix2 k j) := by
  have hw := v3_idx_w t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * k.val = k.val; omega
  | ⟨1, _⟩ => show win3_1.index t (1 : Fin 2) * 128 + 1 * j.val = j.val; omega
/-- Window 2's block is its whole array at every point. -/
theorem v3_iblk_2 (t : Fin cfg3.N) (k : Fin 1) (j : Fin 128) :
    (iblk3 V c 2 t : Vec Ideal S1x128 .f32) (ix2 k j) = A3_2 V c (ix2 k j) := by
  have hw := v3_idx_w t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * k.val = k.val; omega
  | ⟨1, _⟩ => show win3_2.index t (1 : Fin 2) * 128 + 1 * j.val = j.val; omega
/-- Window 3's block is its whole array at every point. -/
theorem v3_iblk_3 (t : Fin cfg3.N) (k : Fin 128) (j : Fin 128) :
    (iblk3 V c 3 t : Vec Ideal S128x128 .bf16) (ix2 k j) = A3_3 V c (ix2 k j) := by
  have hw := v3_idx_w t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * k.val = k.val; omega
  | ⟨1, _⟩ => show win3_3.index t (1 : Fin 2) * 128 + 1 * j.val = j.val; omega
/-- Window 4's block is its whole array at every point. -/
theorem v3_iblk_4 (t : Fin cfg3.N) (k : Fin 1) (j : Fin 128) :
    (iblk3 V c 4 t : Vec Ideal S1x128 .f32) (ix2 k j) = A3_4 V c (ix2 k j) := by
  have hw := v3_idx_w t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * k.val = k.val; omega
  | ⟨1, _⟩ => show win3_4.index t (1 : Fin 2) * 128 + 1 * j.val = j.val; omega
/-- Window 5's block is its whole array at every point. -/
theorem v3_iblk_5 (t : Fin cfg3.N) (k : Fin 128) (j : Fin 64) :
    (iblk3 V c 5 t : Vec Ideal S128x64 .bf16) (ix2 k j) = A3_5 V c (ix2 k j) := by
  have hw := v3_idx_w t
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 128 + 1 * k.val = k.val; omega
  | ⟨1, _⟩ => show win3_5.index t (1 : Fin 2) * 64 + 1 * j.val = j.val; omega
/-- Window 6's block is its whole array at every point. -/
theorem v3_iblk_6 (t : Fin cfg3.N) (k : Fin 1) (j : Fin 64) :
    (iblk3 V c 6 t : Vec Ideal S1x64 .f32) (ix2 k j) = A3_6 V c (ix2 k j) := by
  have hw := v3_idx_w t
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * k.val = k.val; omega
  | ⟨1, _⟩ => show win3_6.index t (1 : Fin 2) * 64 + 1 * j.val = j.val; omega

/-! ## The output array as one function of the region's arrays -/

/-- Entry `i` of the output: the network applied to factor row `i 0` of the state (row `8192 + i 0`). -/
def G3 (i : S131072x64.Idx) : EReal :=
  GGNN.mlp3 (fun (e : Fin 131072) (k : Fin 128) => A3_0 V c (ix2 (⟨8192 + e.val, by omega⟩ : Fin 139264) k))
    (fun k j => A3_1 V c (ix2 k j)) (fun j => A3_2 V c (ix2 0 j)) (fun k j => A3_3 V c (ix2 k j)) (fun j => A3_4 V c (ix2 0 j))
    (fun k j => A3_5 V c (ix2 k j)) (fun j => A3_6 V c (ix2 0 j)) ⟨(i 0).val, (i 0).isLt⟩ ⟨(i 1).val, (i 1).isLt⟩

/-- What point `t` stores at entry `(r, j)` of its block is `G3` at the block's place in the array. -/
theorem v3_point (t : Fin cfg3.N) (r : Fin 4096) (j : Fin 64) :
    k3_pay1 (F := Ideal) (iblk3 V c 0 t) (iblk3 V c 1 t) (iblk3 V c 2 t) (iblk3 V c 3 t) (iblk3 V c 4 t) (iblk3 V c 5 t) (iblk3 V c 6 t) (ix2 r j)
      = G3 V c (((cfg3.win 7).blk t).view.emb (ix2 r j)) := by
  obtain ⟨-, -, e0, e1⟩ := v3_idx_io t
  have hrow : (((cfg3.win 7).blk t).view.emb (ix2 r j) 0).val = t.val * 4096 + r.val := by
    show win3_7.index t (0 : Fin 2) * 4096 + 1 * r.val = _; omega
  have hcol : (((cfg3.win 7).blk t).view.emb (ix2 r j) 1).val = j.val := by
    show win3_7.index t (1 : Fin 2) * 64 + 1 * j.val = _; omega
  refine (v3_pay_apply (iblk3 V c 0 t) (iblk3 V c 1 t) (iblk3 V c 2 t) (iblk3 V c 3 t) (iblk3 V c 4 t) (iblk3 V c 5 t) (iblk3 V c 6 t) r j).trans ?_
  unfold G3
  refine v3_mlp3_congr (fun k => ?_) (funext fun k => funext fun j => ?_) (funext fun j => ?_) (funext fun k => funext fun j => ?_)
    (funext fun j => ?_) (funext fun k => funext fun j => ?_) (funext fun j => ?_) (Fin.ext hcol.symm)
  · exact v3_iblk_0 V c t r k _ (congrArg (8192 + ·) hrow)
  · exact v3_iblk_1 V c t k j
  · exact v3_iblk_2 V c t 0 j
  · exact v3_iblk_3 V c t k j
  · exact v3_iblk_4 V c t 0 j
  · exact v3_iblk_5 V c t k j
  · exact v3_iblk_6 V c t 0 j

/-- What point `t` writes back is block `t` of `G3`. -/
theorem v3_flushed (t : Fin cfg3.N) :
    (dat3 (F := Ideal) V c).flushed 7 t = ((cfg3.win 7).blk t).view.read (Elt Ideal) (G3 V c) := by
  show (cfg3.win 7).cut (grid3.coords t) ((dat3 V c).after 7 t) = _
  rw [after3_7]
  unfold out3_7
  rw [View.canon_unit_zero v3_hz]
  simp only [View.ld_unit_zero (S := S4096x128) v3_hz, View.ld_unit_zero (S := S128x128) v3_hz, View.ld_unit_zero (S := S1x128) v3_hz,
    View.ld_unit_zero (S := S128x64) v3_hz, View.ld_unit_zero (S := S1x64) v3_hz]
  funext y
  obtain ⟨r, j, rfl⟩ : ∃ (r : Fin 4096) (j : Fin 64), y = ix2 r j := ⟨y 0, y 1, eq_ix2 y⟩
  exact v3_point V c t r j

/-- An index of the output array is in point `t`'s block iff each coordinate is in the block's range. -/
theorem v3_mem_blk (t : Fin cfg3.N) (i : S131072x64.Idx) :
    i ∈ ((cfg3.win 7).blk t).view.set ↔ ∀ a : Fin 2, win3_7.index t a * S4096x64.size a ≤ (i a).val ∧ (i a).val < win3_7.index t a * S4096x64.size a + S4096x64.size a := by
  show i ∈ ((View.whole main_v62).slice (win3_7.rect t)).set ↔ _
  rw [View.set_slice_whole, Rect.mem_set_unit]
  exact Iff.rfl

/-- Every index of the output array is in the block of the point `i 0 / 4096`. -/
theorem v3_cover (i : S131072x64.Idx) :
    ∃ t : Fin cfg3.N, (cfg3.win 7).flush t = true ∧ i ∈ ((cfg3.win 7).blk t).view.set := by
  have hi0 : (i 0).val < 131072 := (i 0).isLt
  have hi1 : (i 1).val < 64 := (i 1).isLt
  have hN : cfg3.N = 32 := N_3
  obtain ⟨t, ht⟩ : ∃ t : Fin cfg3.N, t.val = (i 0).val / 4096 := ⟨⟨(i 0).val / 4096, by rw [hN]; omega⟩, rfl⟩
  obtain ⟨-, -, e0, e1⟩ := v3_idx_io t
  refine ⟨t, flush3_7 t, ?_⟩
  rw [v3_mem_blk]
  intro a
  match a with
  | ⟨0, _⟩ => show win3_7.index t (0 : Fin 2) * 4096 ≤ (i 0).val ∧ (i 0).val < win3_7.index t (0 : Fin 2) * 4096 + 4096; omega
  | ⟨1, _⟩ => show win3_7.index t (1 : Fin 2) * 64 ≤ (i 1).val ∧ (i 1).val < win3_7.index t (1 : Fin 2) * 64 + 64; omega

/-- The output array after the region is `G3`. -/
theorem arr3_7_eq : (dat3 (F := Ideal) V c).arrAt 7 cfg3.N = G3 V c :=
  (dat3 (F := Ideal) V c).arrAt_eq_of_cover 7 (G3 V c) (fun t _ => v3_flushed V c t) (v3_cover)

/-- Entry `(e, j)` of the output array after the region: the message network of factor row `e`. -/
theorem final3_7 (e : Fin 131072) (j : Fin 64) :
    (dat3 (F := Ideal) V c).arrAt 7 cfg3.N (ix2 e j)
      = GGNN.mlp3 (fun (e : Fin 131072) (k : Fin 128) => A3_0 V c (ix2 (⟨8192 + e.val, by omega⟩ : Fin 139264) k))
          (fun k j => A3_1 V c (ix2 k j)) (fun j => A3_2 V c (ix2 0 j)) (fun k j => A3_3 V c (ix2 k j)) (fun j => A3_4 V c (ix2 0 j))
          (fun k j => A3_5 V c (ix2 k j)) (fun j => A3_6 V c (ix2 0 j)) e j :=
  (congrFun (arr3_7_eq V c) (ix2 e j)).trans rfl

end Region3

end Cert.KernelIdeal.Hand

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KI.Pay4.lean ====
/-
  The readout kernel's stored value read at an index, at the ideal instance: entry `(p, c)` of the value the body
  stores into the output block is the row softmax of the three-layer network's logits on row `p` of the loaded
  input block, with the loaded weights and bias rows.  Layer by layer: a product into a zero accumulator plus a
  broadcast bias row is a dense layer's entry; `max · 0` is the rectification; a change of float format is the
  identity on the extended reals; the row maximum is a fold of `max` from the minus-infinity word, which is the
  join of that word with the supremum over the two columns; the row sum is a sum over the two columns.
-/
import proofs.«136422_j72232759984373_2_alg».proof.Proof.Gen.KernelIdeal.Skeleton
import proofs.«136422_j72232759984373_2_alg».proof.Proof.Spec
import proofs.«136422_j72232759984373_2_alg».proof.Proof.LibDense
import proofs.«136422_j72232759984373_2_alg».proof.Proof.LibKeepdims
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-! ## Generic pieces -/

/-- A fold of `max` from `b` is the join of `b` with the supremum. -/
theorem fold_max_eq_sup {ι : Type} (s : Finset ι) (b : EReal) (f : ι → EReal) : s.fold max b f = max b (s.sup f) := by
  classical
  induction s using Finset.induction_on with
  | empty => rw [Finset.fold_empty, Finset.sup_empty, max_bot_right]
  | insert a s ha ih =>
    rw [Finset.fold_insert ha, ih, Finset.sup_insert]
    exact max_left_comm _ _ _

/-- A change of float format is the identity on the extended reals, entry by entry. -/
theorem truncf_apply_ideal {s : Shape} {φ ψ : FTy} (v : FVec Ideal s φ) (h : ψ.bits < φ.bits) (i : s.Idx) :
    truncf ψ v h i = v i := rfl

/-- A product into a zero accumulator plus a bias row broadcast along the rows, at `(r, c)`: the dense layer's entry. -/
theorem dense_apply {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (c : Fin N) :
    addf (matmul d none x w (constant ⟨2, ![M, N]⟩ .f32 0x00000000#32)) (broadcastTo ⟨2, ![M, N]⟩ b hb) (ix2 r c)
      = GGNN.dense (fun r k => x (ix2 r k)) (fun k j => w (ix2 k j)) (fun j => b (ix2 0 j)) r c := by
  subst hd
  show FloatOps.matmul (DotDims.plain M K N) none x w (constant ⟨2, ![M, N]⟩ .f32 0x00000000#32) (ix2 r c)
      + broadcastTo ⟨2, ![M, N]⟩ b hb (ix2 r c) = _
  rw [LibDense.matmul_plain_zero_apply, LibDense.rowBroadcastTo_apply]
  rfl

/-- The same followed by `max · 0`: the rectified dense layer's entry. -/
theorem reluDense_apply {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (c : Fin N) :
    maximumf (addf (matmul d none x w (constant ⟨2, ![M, N]⟩ .f32 0x00000000#32)) (broadcastTo ⟨2, ![M, N]⟩ b hb))
        (broadcast ⟨2, ![M, N]⟩ (Scalar.ofBits .f32 0x00000000#32)) (ix2 r c)
      = GGNN.relu (GGNN.dense (fun r k => x (ix2 r k)) (fun k j => w (ix2 k j)) (fun j => b (ix2 0 j)) r c) := by
  show max (addf (matmul d none x w (constant ⟨2, ![M, N]⟩ .f32 0x00000000#32)) (broadcastTo ⟨2, ![M, N]⟩ b hb) (ix2 r c))
      (Ideal.ofBits .f32 0x00000000#32) = _
  rw [dense_apply d hd]
  rfl

/-- What follows the network on one row depends on that row of the input only. -/
theorem softmax_mlp3_row {n n' K0 K1 K2 : ℕ} (X : GGNN.Mat n K0) (X' : GGNN.Mat n' K0)
    (w1 : GGNN.Mat K0 K1) (b1 : Fin K1 → EReal) (w2 : GGNN.Mat K1 K2) (b2 : Fin K2 → EReal) (w3 : GGNN.Mat K2 2) (b3 : Fin 2 → EReal)
    (r : Fin n) (r' : Fin n') (h : X r = X' r') (c : Fin 2) :
    GGNN.softmaxRow (GGNN.mlp3 X w1 b1 w2 b2 w3 b3) r c = GGNN.softmaxRow (GGNN.mlp3 X' w1 b1 w2 b2 w3 b3) r' c := by
  have hm : GGNN.mlp3 X w1 b1 w2 b2 w3 b3 r = GGNN.mlp3 X' w1 b1 w2 b2 w3 b3 r' := by
    funext c
    simp only [GGNN.mlp3, GGNN.dense, GGNN.mm, h]
  simp only [GGNN.softmaxRow, hm]

/-! ## The stored value's layers, as the body computes them on its loaded blocks -/

/-- The first layer's output on the block, recast to the narrow format. -/
def lay1 (x0 : Vec Ideal S2048x64 .f32) (x1 : Vec Ideal S64x128 .bf16) (x2 : Vec Ideal S1x128 .f32) : FVec Ideal S2048x128 .bf16 :=
  truncf .bf16
    (maximumf
      (addf (matmul dot_S2048x64_S64x128_S2048x128_1_0_0_1_n_n none
          (truncf .bf16 (shapeCast S2048x64 x0 shapeCasts_S2048x64_S2048x64 : FVec Ideal S2048x64 .f32) bitsLt_bf16_f32)
          (shapeCast S64x128 x1 shapeCasts_S64x128_S64x128 : FVec Ideal S64x128 .bf16) (constant S2048x128 .f32 0x00000000#32))
        (broadcastTo S2048x128 (shapeCast S1x128 x2 shapeCasts_S1x128_S1x128 : FVec Ideal S1x128 .f32) broadcasts_S1x128_S2048x128))
      (broadcast S2048x128 (Scalar.ofBits .f32 0x00000000#32)))
    bitsLt_bf16_f32

/-- The second layer's. -/
def lay2 (h1 : FVec Ideal S2048x128 .bf16) (x3 : Vec Ideal S128x128 .bf16) (x4 : Vec Ideal S1x128 .f32) : FVec Ideal S2048x128 .bf16 :=
  truncf .bf16
    (maximumf
      (addf (matmul dot_S2048x128_S128x128_S2048x128_1_0_0_1_n_n none h1
          (shapeCast S128x128 x3 shapeCasts_S128x128_S128x128 : FVec Ideal S128x128 .bf16) (constant S2048x128 .f32 0x00000000#32))
        (broadcastTo S2048x128 (shapeCast S1x128 x4 shapeCasts_S1x128_S1x128 : FVec Ideal S1x128 .f32) broadcasts_S1x128_S2048x128))
      (broadcast S2048x128 (Scalar.ofBits .f32 0x00000000#32)))
    bitsLt_bf16_f32

/-- The logits. -/
def lay3 (h2 : FVec Ideal S2048x128 .bf16) (x5 : Vec Ideal S128x2 .bf16) (x6 : Vec Ideal S1x2 .f32) : FVec Ideal S2048x2 .f32 :=
  addf (matmul dot_S2048x128_S128x2_S2048x2_1_0_0_1_n_n none h2
      (shapeCast S128x2 x5 shapeCasts_S128x2_S128x2 : FVec Ideal S128x2 .bf16) (constant S2048x2 .f32 0x00000000#32))
    (broadcastTo S2048x2 (shapeCast S1x2 x6 shapeCasts_S1x2_S1x2 : FVec Ideal S1x2 .f32) broadcasts_S1x2_S2048x2)

/-- The row maximum of the logits, joined once more with the minus-infinity word. -/
def rowMax (l : FVec Ideal S2048x2 .f32) : FVec Ideal S2048 .f32 :=
  maximumf (broadcast S2048 (Scalar.ofBits .f32 0xFF800000#32))
    (multiReduction .maximumf [1] S2048 l 0xFF800000#32 reduces_S2048x2_S2048 (.inl rfl) rfl)

/-- The exponentials of the logits less their row maximum. -/
def expo (l : FVec Ideal S2048x2 .f32) : FVec Ideal S2048x2 .f32 :=
  exp (subf l (broadcastTo S2048x2 (shapeCast S2048x1 (rowMax l) shapeCasts_S2048_S2048x1) broadcasts_S2048x1_S2048x2))

/-- The value the first part hands on is these layers composed. -/
theorem pay2_eq (x0 : Vec Ideal S2048x64 .f32) (x1 : Vec Ideal S64x128 .bf16) (x2 : Vec Ideal S1x128 .f32)
    (x3 : Vec Ideal S128x128 .bf16) (x4 : Vec Ideal S1x128 .f32) (x5 : Vec Ideal S128x2 .bf16) (x6 : Vec Ideal S1x2 .f32) :
    k4_pay2 (F := Ideal) x0 x1 x2 x3 x4 x5 x6 = expo (lay3 (lay2 (lay1 x0 x1 x2) x3 x4) x5 x6) := rfl

/-! ## Each layer at an index -/

theorem lay1_apply (x0 : Vec Ideal S2048x64 .f32) (x1 : Vec Ideal S64x128 .bf16) (x2 : Vec Ideal S1x128 .f32) (r : Fin 2048) (j : Fin 128) :
    lay1 x0 x1 x2 (ix2 r j)
      = GGNN.relu (GGNN.dense (fun r k => x0 (ix2 r k)) (fun k j => x1 (ix2 k j)) (fun j => x2 (ix2 0 j)) r j) := by
  unfold lay1
  simp only [shapeCast_self]
  rw [truncf_apply_ideal]
  exact reluDense_apply (φ₁ := .bf16) (φ₂ := .bf16) dot_S2048x64_S64x128_S2048x128_1_0_0_1_n_n rfl (truncf .bf16 (x0 : FVec Ideal S2048x64 .f32) bitsLt_bf16_f32) x1 x2
    broadcasts_S1x128_S2048x128 r j

theorem lay2_apply (h1 : FVec Ideal S2048x128 .bf16) (x3 : Vec Ideal S128x128 .bf16) (x4 : Vec Ideal S1x128 .f32) (r : Fin 2048) (j : Fin 128) :
    lay2 h1 x3 x4 (ix2 r j)
      = GGNN.relu (GGNN.dense (fun r k => h1 (ix2 r k)) (fun k j => x3 (ix2 k j)) (fun j => x4 (ix2 0 j)) r j) := by
  unfold lay2
  simp only [shapeCast_self]
  rw [truncf_apply_ideal]
  exact reluDense_apply (φ₁ := .bf16) (φ₂ := .bf16) dot_S2048x128_S128x128_S2048x128_1_0_0_1_n_n rfl h1 x3 x4 broadcasts_S1x128_S2048x128 r j

theorem lay3_apply (h2 : FVec Ideal S2048x128 .bf16) (x5 : Vec Ideal S128x2 .bf16) (x6 : Vec Ideal S1x2 .f32) (r : Fin 2048) (c : Fin 2) :
    lay3 h2 x5 x6 (ix2 r c)
      = GGNN.dense (fun r k => h2 (ix2 r k)) (fun k j => x5 (ix2 k j)) (fun j => x6 (ix2 0 j)) r c := by
  unfold lay3
  simp only [shapeCast_self]
  exact dense_apply (φ₁ := .bf16) (φ₂ := .bf16) dot_S2048x128_S128x2_S2048x2_1_0_0_1_n_n rfl h2 x5 x6 broadcasts_S1x2_S2048x2 r c

/-- The logits are the three-layer network's, entry by entry. -/
theorem logits_apply (x0 : Vec Ideal S2048x64 .f32) (x1 : Vec Ideal S64x128 .bf16) (x2 : Vec Ideal S1x128 .f32)
    (x3 : Vec Ideal S128x128 .bf16) (x4 : Vec Ideal S1x128 .f32) (x5 : Vec Ideal S128x2 .bf16) (x6 : Vec Ideal S1x2 .f32)
    (r : Fin 2048) (c : Fin 2) :
    lay3 (lay2 (lay1 x0 x1 x2) x3 x4) x5 x6 (ix2 r c)
      = GGNN.mlp3 (fun r k => x0 (ix2 r k)) (fun k j => x1 (ix2 k j)) (fun j => x2 (ix2 0 j)) (fun k j => x3 (ix2 k j))
          (fun j => x4 (ix2 0 j)) (fun k j => x5 (ix2 k j)) (fun j => x6 (ix2 0 j)) r c := by
  have e1 : (fun (r : Fin 2048) (k : Fin 128) => lay1 x0 x1 x2 (ix2 r k))
      = fun r k => GGNN.relu (GGNN.dense (fun r k => x0 (ix2 r k)) (fun k j => x1 (ix2 k j)) (fun j => x2 (ix2 0 j)) r k) :=
    funext fun r => funext fun k => lay1_apply x0 x1 x2 r k
  have e2 : (fun (r : Fin 2048) (k : Fin 128) => lay2 (lay1 x0 x1 x2) x3 x4 (ix2 r k))
      = fun r k => GGNN.relu (GGNN.dense (fun r k => GGNN.relu (GGNN.dense (fun r k => x0 (ix2 r k)) (fun k j => x1 (ix2 k j))
          (fun j => x2 (ix2 0 j)) r k)) (fun k j => x3 (ix2 k j)) (fun j => x4 (ix2 0 j)) r k) :=
    funext fun r => funext fun k => (lay2_apply (lay1 x0 x1 x2) x3 x4 r k).trans (by rw [e1])
  refine (lay3_apply (lay2 (lay1 x0 x1 x2) x3 x4) x5 x6 r c).trans ?_
  rw [e2]
  rfl

/-! ## The row softmax at an index -/

/-- The source index over row `r` with column `k` inserted. -/
theorem lift_ix (r : Fin 2048) (k : Fin 2) : reduces_S2048x2_S2048.lift (ix1 r) k = ix2 r k :=
  funext fun a => Fin.ext (by match a with | ⟨0, _⟩ => rfl | ⟨1, _⟩ => rfl)

theorem rowMax_apply (l : FVec Ideal S2048x2 .f32) (r : Fin 2048) :
    rowMax l (ix1 r) = max GGNN.ninf (max GGNN.ninf (Finset.univ.sup fun c : Fin 2 => l (ix2 r c))) := by
  unfold rowMax
  show max (Ideal.ofBits .f32 0xFF800000#32)
      (multiReduction .maximumf [1] S2048 l 0xFF800000#32 reduces_S2048x2_S2048 (.inl rfl) rfl (ix1 r)) = _
  refine congrArg (max (Ideal.ofBits .f32 0xFF800000#32)) ?_
  refine (Ideal.multiReduction_maximumf_single l 0xFF800000#32 reduces_S2048x2_S2048 (.inl rfl) rfl (ix1 r)).trans ?_
  refine (fold_max_eq_sup _ _ _).trans ?_
  refine congrArg (max (Ideal.ofBits .f32 0xFF800000#32)) ?_
  exact congrArg (Finset.univ.sup) (funext fun k => congrArg l (lift_ix r k))

theorem expo_apply (l : FVec Ideal S2048x2 .f32) (r : Fin 2048) (c : Fin 2) :
    expo l (ix2 r c) = Ideal.exp (l (ix2 r c) - rowMax l (ix1 r)) := by
  unfold expo
  show Ideal.exp (l (ix2 r c) - broadcastTo S2048x2 (shapeCast S2048x1 (rowMax l) shapeCasts_S2048_S2048x1)
      broadcasts_S2048x1_S2048x2 (ix2 r c)) = _
  rw [Cert.LibKeepdims.broadcastTo_a1_ab_apply (a := 2048) (b := 2) _ _ r c,
    Cert.LibKeepdims.shapeCast_a_a1_apply (a := 2048) _ _ r 0]

/-- The stored value over any exponentials `e`: each entry divided by its row's sum. -/
theorem pay1_apply (e : FVec Ideal S2048x2 .f32) (r : Fin 2048) (c : Fin 2) :
    k4_pay1 (F := Ideal) e (ix2 r c) = Ideal.div (e (ix2 r c)) (∑ k : Fin 2, e (ix2 r k)) := by
  unfold k4_pay1
  show Ideal.div (e (ix2 r c)) (broadcastTo S2048x2 (shapeCast S2048x1
      (multiReduction .add [1] S2048 e 0x00000000#32 reduces_S2048x2_S2048 (.inl rfl) rfl) shapeCasts_S2048_S2048x1)
      broadcasts_S2048x1_S2048x2 (ix2 r c)) = _
  rw [Cert.LibKeepdims.broadcastTo_a1_ab_apply (a := 2048) (b := 2) _ _ r c,
    Cert.LibKeepdims.shapeCast_a_a1_apply (a := 2048) _ _ r 0]
  refine congrArg (Ideal.div (e (ix2 r c))) ?_
  refine (Ideal.multiReduction_add_single e 0x00000000#32 reduces_S2048x2_S2048 (.inl rfl) rfl (ix1 r)).trans ?_
  exact Finset.sum_congr rfl fun k _ => congrArg e (lift_ix r k)

/-- The stored value over the logits `l`: their row softmax. -/
theorem softmax_apply (l : FVec Ideal S2048x2 .f32) (r : Fin 2048) (c : Fin 2) :
    k4_pay1 (F := Ideal) (expo l) (ix2 r c) = GGNN.softmaxRow (fun r c => l (ix2 r c)) r c := by
  rw [pay1_apply]
  simp only [expo_apply, rowMax_apply]
  unfold GGNN.softmaxRow
  show _ = Ideal.div _ (GGNN.zero + _)
  rw [show GGNN.zero = (0 : EReal) from Ideal.ofBits_zero_f32, zero_add]

/-! ## The stored value at an index -/

/-- Entry `(p, c)` of what the body stores: the row softmax of the network's logits on row `p` of the input block. -/
theorem pay4_apply (x0 : Vec Ideal S2048x64 .f32) (x1 : Vec Ideal S64x128 .bf16) (x2 : Vec Ideal S1x128 .f32)
    (x3 : Vec Ideal S128x128 .bf16) (x4 : Vec Ideal S1x128 .f32) (x5 : Vec Ideal S128x2 .bf16) (x6 : Vec Ideal S1x2 .f32)
    (p : Fin 2048) (c : Fin 2) :
    k4_pay1 (F := Ideal) (k4_pay2 x0 x1 x2 x3 x4 x5 x6) (ix2 p c)
      = GGNN.softmaxRow (GGNN.mlp3 (fun r k => x0 (ix2 r k)) (fun k j => x1 (ix2 k j)) (fun j => x2 (ix2 0 j))
          (fun k j => x3 (ix2 k j)) (fun j => x4 (ix2 0 j)) (fun k j => x5 (ix2 k j)) (fun j => x6 (ix2 0 j))) p c := by
  rw [pay2_eq, softmax_apply]
  exact congrArg (fun L : GGNN.Mat 2048 2 => GGNN.softmaxRow L p c)
    (funext fun r => funext fun c => logits_apply x0 x1 x2 x3 x4 x5 x6 r c)

end Cert.KernelIdeal.Hand

end
-- ==== Proof.KI.Val4.lean ====
/-
  The value of region 4 at the ideal instance: after the region, every entry `(v, c)` of the output window's
  array is the row softmax of the three-layer network's logits on row `v` of the first input window's array, with
  the six weight and bias windows' arrays — whatever the buffers held when the region was entered.
  The stored value at an index of a block; each input block read against its array (the first window's block at a
  point is that point's band of 2048 rows, the six others' is the whole array); what a point writes back is its
  block of the whole-array function; the four points' blocks cover the array.
-/
import proofs.«136422_j72232759984373_2_alg».proof.Proof.KI.Body4
import proofs.«136422_j72232759984373_2_alg».proof.Proof.KI.Pay4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored value of a block whose inputs are read off whole arrays -/

/-- If row `p` of the input block is row `v` of the array `A0` and the six other blocks are the arrays `A1 … A6`,
    entry `(p, q)` of the stored value is entry `(v, q)` of the row softmax of the network's logits on the arrays. -/
theorem block_value (x0 : Vec Ideal S2048x64 .f32) (x1 : Vec Ideal S64x128 .bf16) (x2 : Vec Ideal S1x128 .f32)
    (x3 : Vec Ideal S128x128 .bf16) (x4 : Vec Ideal S1x128 .f32) (x5 : Vec Ideal S128x2 .bf16) (x6 : Vec Ideal S1x2 .f32)
    (A0 : S8192x64.Idx → EReal) (A1 : S64x128.Idx → EReal) (A2 : S1x128.Idx → EReal) (A3 : S128x128.Idx → EReal)
    (A4 : S1x128.Idx → EReal) (A5 : S128x2.Idx → EReal) (A6 : S1x2.Idx → EReal)
    (p : Fin 2048) (q : Fin 2) (v : Fin 8192)
    (h0 : ∀ k : Fin 64, x0 (ix2 p k) = A0 (ix2 v k))
    (h1 : ∀ (k : Fin 64) (j : Fin 128), x1 (ix2 k j) = A1 (ix2 k j))
    (h2 : ∀ j : Fin 128, x2 (ix2 (0 : Fin 1) j) = A2 (ix2 (0 : Fin 1) j))
    (h3 : ∀ (k : Fin 128) (j : Fin 128), x3 (ix2 k j) = A3 (ix2 k j))
    (h4 : ∀ j : Fin 128, x4 (ix2 (0 : Fin 1) j) = A4 (ix2 (0 : Fin 1) j))
    (h5 : ∀ (k : Fin 128) (j : Fin 2), x5 (ix2 k j) = A5 (ix2 k j))
    (h6 : ∀ j : Fin 2, x6 (ix2 (0 : Fin 1) j) = A6 (ix2 (0 : Fin 1) j)) :
    k4_pay1 (F := Ideal) (k4_pay2 x0 x1 x2 x3 x4 x5 x6) (ix2 p q)
      = GGNN.softmaxRow (GGNN.mlp3 (fun v k => A0 (ix2 v k)) (fun k j => A1 (ix2 k j)) (fun j => A2 (ix2 0 j)) (fun k j => A3 (ix2 k j)) (fun j => A4 (ix2 0 j)) (fun k j => A5 (ix2 k j)) (fun j => A6 (ix2 0 j))) v q := by
  rw [pay4_apply]
  have e1 : (fun (k : Fin 64) (j : Fin 128) => x1 (ix2 k j)) = fun k j => A1 (ix2 k j) := funext fun k => funext fun j => h1 k j
  have e2 : (fun (j : Fin 128) => x2 (ix2 (0 : Fin 1) j)) = fun j => A2 (ix2 (0 : Fin 1) j) := funext fun j => h2 j
  have e3 : (fun (k : Fin 128) (j : Fin 128) => x3 (ix2 k j)) = fun k j => A3 (ix2 k j) := funext fun k => funext fun j => h3 k j
  have e4 : (fun (j : Fin 128) => x4 (ix2 (0 : Fin 1) j)) = fun j => A4 (ix2 (0 : Fin 1) j) := funext fun j => h4 j
  have e5 : (fun (k : Fin 128) (j : Fin 2) => x5 (ix2 k j)) = fun k j => A5 (ix2 k j) := funext fun k => funext fun j => h5 k j
  have e6 : (fun (j : Fin 2) => x6 (ix2 (0 : Fin 1) j)) = fun j => A6 (ix2 (0 : Fin 1) j) := funext fun j => h6 j
  rw [e1, e2, e3, e4, e5, e6]
  exact softmax_mlp3_row (fun (r : Fin 2048) (k : Fin 64) => x0 (ix2 r k)) (fun (v : Fin 8192) (k : Fin 64) => A0 (ix2 v k))
    (fun k j => A1 (ix2 k j)) (fun j => A2 (ix2 (0 : Fin 1) j)) (fun k j => A3 (ix2 k j)) (fun j => A4 (ix2 (0 : Fin 1) j))
    (fun k j => A5 (ix2 k j)) (fun j => A6 (ix2 (0 : Fin 1) j)) p v (funext fun k => h0 k) q

section Value4
variable (V : (c : Dev nD) → (b : Ref sig .tc) → Buf (Elt Ideal) ((c : Thread nD τ).loc b)) (c : Dev nD)

theorem hz4 : (![0, 0] : Fin 2 → Nat) = fun _ => 0 := funext fun a => by fin_cases a <;> rfl

/-- The printed index maps over the grid: the first input window and the output window are on block row `t` at
    point `t`, block column 0; the six other windows never move. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-! ## Each input block read against its array -/

/-- The first input window's block at point `t` is rows `2048 t … 2048 t + 2047` of its array. -/
theorem iblk4_0_apply (t : Fin cfg4.N) (p : Fin 2048) (k : Fin 64) (v : Fin 8192) (hv : v.val = t.val * 2048 + p.val) :
    (iblk4 V c 0 t : Vec Ideal S2048x64 .f32) (ix2 p k) = (V c (Pipeline.arrRef spec4 0) : S8192x64.Idx → EReal) (ix2 v k) := by
  obtain ⟨e0, e1, -⟩ := idx_facts4 t
  unfold iblk4
  rw [View.read_apply]
  refine congrArg (V c (Pipeline.arrRef spec4 0) : S8192x64.Idx → EReal) ?_
  funext a
  apply Fin.ext
  match a with
  | ⟨0, _⟩ => show win4_0.index t (0 : Fin 2) * 2048 + 1 * p.val = v.val; rw [e0, hv]; omega
  | ⟨1, _⟩ => show win4_0.index t (1 : Fin 2) * 64 + 1 * k.val = k.val; rw [e1]; omega

/-- Window 1's block at any point is its whole array. -/
theorem iblk4_1_apply (t : Fin cfg4.N) (a : Fin 64) (b : Fin 128) :
    (iblk4 V c 1 t : Vec Ideal S64x128 .bf16) (ix2 a b) = (V c (Pipeline.arrRef spec4 1) : S64x128.Idx → EReal) (ix2 a b) := by
  obtain ⟨-, -, e0, e1, -⟩ := idx_facts4 t
  unfold iblk4
  rw [View.read_apply]
  refine congrArg (V c (Pipeline.arrRef spec4 1) : S64x128.Idx → EReal) ?_
  funext x
  apply Fin.ext
  match x with
  | ⟨0, _⟩ => show win4_1.index t (0 : Fin 2) * 64 + 1 * a.val = a.val; rw [e0]; omega
  | ⟨1, _⟩ => show win4_1.index t (1 : Fin 2) * 128 + 1 * b.val = b.val; rw [e1]; omega

/-- Window 2's block at any point is its whole array. -/
theorem iblk4_2_apply (t : Fin cfg4.N) (a : Fin 1) (b : Fin 128) :
    (iblk4 V c 2 t : Vec Ideal S1x128 .f32) (ix2 a b) = (V c (Pipeline.arrRef spec4 2) : S1x128.Idx → EReal) (ix2 a b) := by
  obtain ⟨-, -, -, -, e0, e1, -⟩ := idx_facts4 t
  unfold iblk4
  rw [View.read_apply]
  refine congrArg (V c (Pipeline.arrRef spec4 2) : S1x128.Idx → EReal) ?_
  funext x
  apply Fin.ext
  match x with
  | ⟨0, _⟩ => show win4_2.index t (0 : Fin 2) * 1 + 1 * a.val = a.val; rw [e0]; omega
  | ⟨1, _⟩ => show win4_2.index t (1 : Fin 2) * 128 + 1 * b.val = b.val; rw [e1]; omega

/-- Window 3's block at any point is its whole array. -/
theorem iblk4_3_apply (t : Fin cfg4.N) (a : Fin 128) (b : Fin 128) :
    (iblk4 V c 3 t : Vec Ideal S128x128 .bf16) (ix2 a b) = (V c (Pipeline.arrRef spec4 3) : S128x128.Idx → EReal) (ix2 a b) := by
  obtain ⟨-, -, -, -, -, -, e0, e1, -⟩ := idx_facts4 t
  unfold iblk4
  rw [View.read_apply]
  refine congrArg (V c (Pipeline.arrRef spec4 3) : S128x128.Idx → EReal) ?_
  funext x
  apply Fin.ext
  match x with
  | ⟨0, _⟩ => show win4_3.index t (0 : Fin 2) * 128 + 1 * a.val = a.val; rw [e0]; omega
  | ⟨1, _⟩ => show win4_3.index t (1 : Fin 2) * 128 + 1 * b.val = b.val; rw [e1]; omega

/-- Window 4's block at any point is its whole array. -/
theorem iblk4_4_apply (t : Fin cfg4.N) (a : Fin 1) (b : Fin 128) :
    (iblk4 V c 4 t : Vec Ideal S1x128 .f32) (ix2 a b) = (V c (Pipeline.arrRef spec4 4) : S1x128.Idx → EReal) (ix2 a b) := by
  obtain ⟨-, -, -, -, -, -, -, -, e0, e1, -⟩ := idx_facts4 t
  unfold iblk4
  rw [View.read_apply]
  refine congrArg (V c (Pipeline.arrRef spec4 4) : S1x128.Idx → EReal) ?_
  funext x
  apply Fin.ext
  match x with
  | ⟨0, _⟩ => show win4_4.index t (0 : Fin 2) * 1 + 1 * a.val = a.val; rw [e0]; omega
  | ⟨1, _⟩ => show win4_4.index t (1 : Fin 2) * 128 + 1 * b.val = b.val; rw [e1]; omega

/-- Window 5's block at any point is its whole array. -/
theorem iblk4_5_apply (t : Fin cfg4.N) (a : Fin 128) (b : Fin 2) :
    (iblk4 V c 5 t : Vec Ideal S128x2 .bf16) (ix2 a b) = (V c (Pipeline.arrRef spec4 5) : S128x2.Idx → EReal) (ix2 a b) := by
  obtain ⟨-, -, -, -, -, -, -, -, -, -, e0, e1, -⟩ := idx_facts4 t
  unfold iblk4
  rw [View.read_apply]
  refine congrArg (V c (Pipeline.arrRef spec4 5) : S128x2.Idx → EReal) ?_
  funext x
  apply Fin.ext
  match x with
  | ⟨0, _⟩ => show win4_5.index t (0 : Fin 2) * 128 + 1 * a.val = a.val; rw [e0]; omega
  | ⟨1, _⟩ => show win4_5.index t (1 : Fin 2) * 2 + 1 * b.val = b.val; rw [e1]; omega

/-- Window 6's block at any point is its whole array. -/
theorem iblk4_6_apply (t : Fin cfg4.N) (a : Fin 1) (b : Fin 2) :
    (iblk4 V c 6 t : Vec Ideal S1x2 .f32) (ix2 a b) = (V c (Pipeline.arrRef spec4 6) : S1x2.Idx → EReal) (ix2 a b) := by
  obtain ⟨-, -, -, -, -, -, -, -, -, -, -, -, e0, e1, -⟩ := idx_facts4 t
  unfold iblk4
  rw [View.read_apply]
  refine congrArg (V c (Pipeline.arrRef spec4 6) : S1x2.Idx → EReal) ?_
  funext x
  apply Fin.ext
  match x with
  | ⟨0, _⟩ => show win4_6.index t (0 : Fin 2) * 1 + 1 * a.val = a.val; rw [e0]; omega
  | ⟨1, _⟩ => show win4_6.index t (1 : Fin 2) * 2 + 1 * b.val = b.val; rw [e1]; omega

/-! ## What the output window's array ends holding -/

/-- The row softmax of the network's logits, as one function of the seven input arrays, index by index. -/
def G4 : S8192x2.Idx → EReal := fun i =>
  GGNN.softmaxRow (GGNN.mlp3 (fun v k => (V c (Pipeline.arrRef spec4 0) : S8192x64.Idx → EReal) (ix2 v k)) (fun k j => (V c (Pipeline.arrRef spec4 1) : S64x128.Idx → EReal) (ix2 k j)) (fun j => (V c (Pipeline.arrRef spec4 2) : S1x128.Idx → EReal) (ix2 0 j)) (fun k j => (V c (Pipeline.arrRef spec4 3) : S128x128.Idx → EReal) (ix2 k j)) (fun j => (V c (Pipeline.arrRef spec4 4) : S1x128.Idx → EReal) (ix2 0 j)) (fun k j => (V c (Pipeline.arrRef spec4 5) : S128x2.Idx → EReal) (ix2 k j)) (fun j => (V c (Pipeline.arrRef spec4 6) : S1x2.Idx → EReal) (ix2 0 j))) (i 0) (i 1)

/-- `G4` at an index built from its coordinates. -/
theorem G4_apply (v : Fin 8192) (q : Fin 2) :
    G4 V c (ix2 v q) = GGNN.softmaxRow (GGNN.mlp3 (fun v k => (V c (Pipeline.arrRef spec4 0) : S8192x64.Idx → EReal) (ix2 v k)) (fun k j => (V c (Pipeline.arrRef spec4 1) : S64x128.Idx → EReal) (ix2 k j)) (fun j => (V c (Pipeline.arrRef spec4 2) : S1x128.Idx → EReal) (ix2 0 j)) (fun k j => (V c (Pipeline.arrRef spec4 3) : S128x128.Idx → EReal) (ix2 k j)) (fun j => (V c (Pipeline.arrRef spec4 4) : S1x128.Idx → EReal) (ix2 0 j)) (fun k j => (V c (Pipeline.arrRef spec4 5) : S128x2.Idx → EReal) (ix2 k j)) (fun j => (V c (Pipeline.arrRef spec4 6) : S1x2.Idx → EReal) (ix2 0 j))) v q := rfl

/-- Entry `(p, q)` of the output window's block at point `t` is entry `(2048 t + p, q)` of its array. -/
theorem emb4_7 (t : Fin cfg4.N) (p : Fin 2048) (q : Fin 2) (hv : t.val * 2048 + p.val < 8192) :
    ((cfg4.win 7).blk t).view.emb (ix2 p q) = (ix2 (⟨t.val * 2048 + p.val, hv⟩ : Fin 8192) q : S8192x2.Idx) := by
  obtain ⟨-, -, -, -, -, -, -, -, -, -, -, -, -, -, e0, e1⟩ := idx_facts4 t
  funext a
  apply Fin.ext
  match a with
  | ⟨0, _⟩ => show win4_7.index t (0 : Fin 2) * 2048 + 1 * p.val = t.val * 2048 + p.val; rw [e0]; omega
  | ⟨1, _⟩ => show win4_7.index t (1 : Fin 2) * 2 + 1 * q.val = q.val; rw [e1]; omega

/-- What point `t` writes back is block `t` of `G4`. -/
theorem flushed4_7_eq (t : Fin cfg4.N) :
    (dat4 (F := Ideal) V c).flushed 7 t = ((cfg4.win 7).blk t).view.read (Elt Ideal) (G4 V c) := by
  show (cfg4.win 7).cut (grid4.coords t) ((dat4 (F := Ideal) V c).after 7 t) = _
  rw [after4_7]
  unfold out4_7
  rw [View.canon_unit_zero hz4]
  simp only [View.ld_unit_zero (S := S2048x64) hz4, View.ld_unit_zero (S := S64x128) hz4, View.ld_unit_zero (S := S1x128) hz4,
    View.ld_unit_zero (S := S128x128) hz4, View.ld_unit_zero (S := S128x2) hz4, View.ld_unit_zero (S := S1x2) hz4]
  funext j
  obtain ⟨p, q, rfl⟩ : ∃ (p : Fin 2048) (q : Fin 2), j = ix2 p q := ⟨j 0, j 1, eq_ix2 j⟩
  have ht : t.val < 4 := lt_of_lt_of_eq t.isLt N_4
  have hv : t.val * 2048 + p.val < 8192 := by have := p.isLt; omega
  show k4_pay1 (F := Ideal) (k4_pay2 (iblk4 V c 0 t) (iblk4 V c 1 t) (iblk4 V c 2 t) (iblk4 V c 3 t) (iblk4 V c 4 t) (iblk4 V c 5 t) (iblk4 V c 6 t)) (ix2 p q)
    = G4 V c (((cfg4.win 7).blk t).view.emb (ix2 p q))
  refine Eq.trans ?_ (congrArg (G4 V c) (emb4_7 t p q hv).symm)
  refine Eq.trans ?_ (G4_apply V c ⟨t.val * 2048 + p.val, hv⟩ q).symm
  exact block_value (iblk4 V c 0 t) (iblk4 V c 1 t) (iblk4 V c 2 t) (iblk4 V c 3 t) (iblk4 V c 4 t) (iblk4 V c 5 t) (iblk4 V c 6 t)
    (V c (Pipeline.arrRef spec4 0) : S8192x64.Idx → EReal) (V c (Pipeline.arrRef spec4 1) : S64x128.Idx → EReal) (V c (Pipeline.arrRef spec4 2) : S1x128.Idx → EReal) (V c (Pipeline.arrRef spec4 3) : S128x128.Idx → EReal) (V c (Pipeline.arrRef spec4 4) : S1x128.Idx → EReal) (V c (Pipeline.arrRef spec4 5) : S128x2.Idx → EReal) (V c (Pipeline.arrRef spec4 6) : S1x2.Idx → EReal)
    p q ⟨t.val * 2048 + p.val, hv⟩
    (fun k => iblk4_0_apply V c t p k ⟨t.val * 2048 + p.val, hv⟩ rfl)
    (fun k j => iblk4_1_apply V c t k j) (fun j => iblk4_2_apply V c t 0 j)
    (fun k j => iblk4_3_apply V c t k j) (fun j => iblk4_4_apply V c t 0 j)
    (fun k j => iblk4_5_apply V c t k j) (fun j => iblk4_6_apply V c t 0 j)

/-- An index of the array is in point `t`'s block iff each coordinate is in the block's range on its axis. -/
theorem mem_blk4_7 (t : Fin cfg4.N) (i : S8192x2.Idx) :
    i ∈ ((cfg4.win 7).blk t).view.set ↔ ∀ a : Fin 2, win4_7.index t a * S2048x2.size a ≤ (i a).val ∧ (i a).val < win4_7.index t a * S2048x2.size a + S2048x2.size a := by
  show i ∈ ((View.whole main_v72).slice (win4_7.rect t)).set ↔ _
  rw [View.set_slice_whole, Rect.mem_set_unit]
  exact Iff.rfl

/-- Every index of the array is in the block of the point its row's band names. -/
theorem covered4_7 (i : S8192x2.Idx) : ∃ t : Fin cfg4.N, (cfg4.win 7).flush t = true ∧ i ∈ ((cfg4.win 7).blk t).view.set := by
  have hN : cfg4.N = 4 := N_4
  have hi0 : (i 0).val < 8192 := (i 0).isLt
  have hi1 : (i 1).val < 2 := (i 1).isLt
  refine ⟨⟨(i 0).val / 2048, by rw [hN]; omega⟩, flush4_7 _, ?_⟩
  obtain ⟨-, -, -, -, -, -, -, -, -, -, -, -, -, -, e0, e1⟩ := idx_facts4 ⟨(i 0).val / 2048, by rw [hN]; omega⟩
  rw [mem_blk4_7]
  intro a
  match a with
  | ⟨0, _⟩ =>
    show win4_7.index _ (0 : Fin 2) * 2048 ≤ (i 0).val ∧ (i 0).val < win4_7.index _ (0 : Fin 2) * 2048 + 2048
    rw [e0]; show (i 0).val / 2048 * 2048 ≤ (i 0).val ∧ (i 0).val < (i 0).val / 2048 * 2048 + 2048; omega
  | ⟨1, _⟩ =>
    show win4_7.index _ (1 : Fin 2) * 2 ≤ (i 1).val ∧ (i 1).val < win4_7.index _ (1 : Fin 2) * 2 + 2
    rw [e1]; omega

/-- THE ARRAY after the region: `G4` of the input arrays as the region found them. -/
theorem final4_7_all : (dat4 (F := Ideal) V c).arrAt 7 cfg4.N = G4 V c :=
  (dat4 (F := Ideal) V c).arrAt_eq_of_cover 7 (G4 V c) (fun t _ => flushed4_7_eq V c t) covered4_7

/-- Entry `(v, cc)` of it. -/
theorem final4_7 (v : Fin 8192) (cc : Fin 2) :
    (dat4 (F := Ideal) V c).arrAt 7 cfg4.N (ix2 v cc)
      = GGNN.softmaxRow (GGNN.mlp3 (fun v k => (V c (Pipeline.arrRef spec4 0) : S8192x64.Idx → EReal) (ix2 v k)) (fun k j => (V c (Pipeline.arrRef spec4 1) : S64x128.Idx → EReal) (ix2 k j)) (fun j => (V c (Pipeline.arrRef spec4 2) : S1x128.Idx → EReal) (ix2 0 j)) (fun k j => (V c (Pipeline.arrRef spec4 3) : S128x128.Idx → EReal) (ix2 k j)) (fun j => (V c (Pipeline.arrRef spec4 4) : S1x128.Idx → EReal) (ix2 0 j)) (fun k j => (V c (Pipeline.arrRef spec4 5) : S128x2.Idx → EReal) (ix2 k j)) (fun j => (V c (Pipeline.arrRef spec4 6) : S1x2.Idx → EReal) (ix2 0 j))) v cc :=
  congrFun (final4_7_all V c) (ix2 v cc)

end Value4

end Cert.KernelIdeal.Hand

end
-- ==== Proof.LibRowOps.lean ====
import Idealize.ShloMosaic.PureOps.Ideal
import Idealize.ShloMosaic.Lib.ValueIdx

/-!
# A row gather and a row scatter-add read at an index

For a table `x : [N, C]` and a column of row numbers `idx : [E, 1]`:

* the gather of whole rows, `[E, C]`, has at `(e, k)` the entry `x (row e, k)` where `row e` is the
  `e`-th row number read as a signed integer and clamped into `[0, N − 1]`;
* the accumulating scatter of rows `u : [E, C]` into `x` has at `(r, k)` the entry `x (r, k)` plus the sum of
  `u (e, k)` over the `e` whose row number, read as a signed integer, is exactly `r` (a row number outside
  `[0, N)` contributes nothing: it is dropped, not clamped).
-/

noncomputable section

open scoped BigOperators

namespace RowOps

open Idealize.ShloMosaic Idealize.ShloMosaic.ValueIdx

/-! ## The gather of rows -/

/-- The dimension numbers of a gather of whole rows: operand `[N, C]`, start indices `[E, 1]` whose second axis
    is the index vector (one component, the row), result `[E, C]` whose second axis is the offset along the
    operand's columns; the operand's row axis is collapsed, a slice is one row. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the `e`-th start index names: read signed, clamped into `[0, N − 1]` so that a slice of one row fits. -/
def clampRow {N E w : Nat} (hN : 0 < N) (idx : IVec ⟨2, ![E, 1]⟩ w) (e : Fin E) : Fin N :=
  ⟨min (idx (ix2 e 0)).toInt.toNat (N - 1), by omega⟩

section Gather
variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the row axis the operand index is the clamped start: the axis is collapsed (no offset) and not a batching
    axis, and the start index of result `(e, k)` is read at `(e, 0)`. -/
theorem operandIdx_row0 (hN : 0 < N) :
    ((rowGather N E C wf).operandIdx (ix2 e k) idx 0).val = (clampRow hN idx e).val := by
  show (rowGather N E C wf).start (ix2 e k) idx 0 + (rowGather N E C wf).batchCoord (ix2 e k) 0
    + (rowGather N E C wf).offCoord (ix2 e k) 0 = _
  rw [GatherDims.batchCoord_eq_zero _ _ _ List.not_mem_nil, GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e k) ⟨List.idxOf (0 : Fin 2) (rowGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand index is the result's column: the start is `0` (the start index map does not
    name the axis), there is no batching, and the offset is the result's second coordinate. -/
theorem operandIdx_row1 :
    ((rowGather N E C wf).operandIdx (ix2 e k) idx 1).val = k.val := by
  show (rowGather N E C wf).start (ix2 e k) idx 1 + (rowGather N E C wf).batchCoord (ix2 e k) 1
    + (rowGather N E C wf).offCoord (ix2 e k) 1 = _
  rw [GatherDims.batchCoord_eq_zero _ _ _ List.not_mem_nil]
  unfold GatherDims.start
  rw [dif_neg (show (1 : Fin 2) ∉ (rowGather N E C wf).startIndexMap from (by decide : (1 : Fin 2) ∉ [0]))]
  unfold GatherDims.offCoord
  rw [dif_pos (show (1 : Fin 2) ∈ (rowGather N E C wf).sKept from
    (GatherDims.mem_sKept _ _).mpr ⟨(by decide : (1 : Fin 2) ∉ [0]), List.not_mem_nil⟩)]
  simp only [Nat.zero_add, Nat.add_zero]
  rfl

/-- THE GATHER READ AT `(e, k)`: the operand at the clamped row of edge `e`, column `k`. -/
theorem gather_row_apply {α : Type} (hN : 0 < N) (x : (⟨2, ![N, C]⟩ : Shape).Idx → α) :
    Host.gather (rowGather N E C wf) x idx (ix2 e k) = x (ix2 (clampRow hN idx e) k) := by
  unfold Host.gather
  congr 1
  funext a
  match a with
  | ⟨0, _⟩ => exact Fin.ext (operandIdx_row0 wf idx e k hN)
  | ⟨1, _⟩ => exact Fin.ext (operandIdx_row1 wf idx e k)

end Gather

/-! ## The accumulating scatter of rows -/

/-- The dimension numbers of a scatter of whole rows: operand `[N, C]`, scatter indices `[E, 1]` whose second axis
    is the index vector (one component, the row), updates `[E, C]` whose second axis is the window along the
    operand's columns; the operand's row axis is the inserted one. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row the `e`-th update lands on: its scatter index read signed, when that is a row of the operand; `none`
    when it is not (the update is dropped, not clamped). -/
def landRow {N E w : Nat} (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩
  else none

/-- An update lands on row `r` exactly when its scatter index, read signed, is `r`. -/
theorem landRow_eq_some_iff {N E w : Nat} (idx : IVec ⟨2, ![E, 1]⟩ w) (e : Fin E) (r : Fin N) :
    landRow idx e = some r ↔ (idx (ix2 e 0)).toInt = (r.val : Int) := by
  have hr := r.isLt
  unfold landRow
  by_cases hv : 0 ≤ (idx (ix2 e 0)).toInt ∧ (idx (ix2 e 0)).toInt < N
  · rw [dif_pos hv, Option.some.injEq]
    constructor
    · intro h
      have := congrArg Fin.val h
      simp only at this
      omega
    · intro h
      refine Fin.ext ?_
      simp only
      omega
  · rw [dif_neg hv]
    constructor
    · intro h; exact absurd h (by simp)
    · intro h; exact absurd ⟨by omega, by omega⟩ hv

/-- A scatter's result index is `i` exactly when, on every axis, start plus window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · intro hf a
      have := congrArg Fin.val (congrFun hf a)
      simp only at this
      have := h a
      omega
    · intro hi
      funext a
      refine Fin.ext ?_
      have := hi a
      simp only
      omega
  · rw [dif_neg h]
    constructor
    · intro hf; exact absurd hf (by simp)
    · intro hi
      refine absurd (fun a => ?_) h
      have := hi a
      have := (i a).isLt
      omega

section Scatter
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- On the row axis the window starts at the scatter index of update `(e, k)`, read signed at `(e, 0)`. -/
theorem start_row0 : (rowScatter N E C wf).start j idx 0 = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun i => (idx i).toInt) hsi

/-- On the column axis the window starts at `0`: the scatter index has no component for it. -/
theorem start_row1 : (rowScatter N E C wf).start j idx 1 = 0 := by
  unfold ScatterDims.start
  rw [dif_neg (show (1 : Fin 2) ∉ (rowScatter N E C wf).scatterDimsToOperandDims from
    (by decide : (1 : Fin 2) ∉ [0]))]

/-- The row axis is inserted: no window coordinate. -/
theorem window_row0 : (rowScatter N E C wf).window j 0 = 0 := by
  unfold ScatterDims.window
  rw [dif_neg (show (0 : Fin 2) ∉ (rowScatter N E C wf).sKept from
    fun h => (of_decide_eq_true (List.mem_filter.mp h).2) (List.mem_singleton.mpr rfl))]

/-- On the column axis the window coordinate is the update's column. -/
theorem window_row1 : (rowScatter N E C wf).window j 1 = (j 1).val := by
  unfold ScatterDims.window
  rw [dif_pos (show (1 : Fin 2) ∈ (rowScatter N E C wf).sKept from
    List.mem_filter.mpr ⟨List.mem_finRange _, decide_eq_true (by decide : (1 : Fin 2) ∉ [0])⟩)]
  rfl

/-- WHERE AN UPDATE LANDS: update `(e, c)` lands at `(r, k)` exactly when edge `e` lands on row `r` and `c = k`. -/
theorem resultIdx_row (r : Fin N) (k : Fin C) :
    (rowScatter N E C wf).resultIdx? j idx = some (ix2 r k) ↔ landRow idx (j 0) = some r ∧ j 1 = k := by
  constructor
  · intro h
    have h' := (resultIdx?_eq_some_iff _ j idx (ix2 r k)).mp h
    have h0 : (rowScatter N E C wf).start j idx 0 + ((rowScatter N E C wf).window j 0 : Int) = ((r.val : Nat) : Int) :=
      h' 0
    have h1 : (rowScatter N E C wf).start j idx 1 + ((rowScatter N E C wf).window j 1 : Int) = ((k.val : Nat) : Int) :=
      h' 1
    rw [start_row0, window_row0] at h0
    rw [start_row1, window_row1] at h1
    refine ⟨(landRow_eq_some_iff idx (j 0) r).mpr (by simpa using h0), Fin.ext ?_⟩
    have h2 : (((j 1).val : Nat) : Int) = ((k.val : Nat) : Int) := by simpa using h1
    exact Int.ofNat_inj.mp h2
  · rintro ⟨h0, h1⟩
    have h0' := (landRow_eq_some_iff idx (j 0) r).mp h0
    refine (resultIdx?_eq_some_iff _ j idx (ix2 r k)).mpr fun a => ?_
    match a with
    | ⟨0, _⟩ =>
      show (rowScatter N E C wf).start j idx 0 + ((rowScatter N E C wf).window j 0 : Int) = ((r.val : Nat) : Int)
      rw [start_row0, window_row0]
      exact (Int.add_zero _).trans h0'
    | ⟨1, _⟩ =>
      show (rowScatter N E C wf).start j idx 1 + ((rowScatter N E C wf).window j 1 : Int) = ((k.val : Nat) : Int)
      rw [start_row1, window_row1]
      exact (Int.zero_add _).trans (congrArg (fun z : Nat => (z : Int)) (congrArg Fin.val h1))

/-- THE SCATTER-ADD READ AT `(r, k)`: the operand's entry plus the sum, over the edges landing on row `r`, of
    their updates' column `k`. The updates landing at `(r, k)` are the `(e, k)` with `e` landing on `r`. -/
theorem scatterAdd_row_apply (x : (⟨2, ![N, C]⟩ : Shape).Idx → EReal) (u : (⟨2, ![E, C]⟩ : Shape).Idx → EReal)
    (r : Fin N) (k : Fin C) :
    Ideal.hostScatterAdd (rowScatter N E C wf) x idx u (ix2 r k)
      = x (ix2 r k) + ∑ e ∈ Finset.univ.filter (fun e : Fin E => landRow idx e = some r), u (ix2 e k) := by
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, ((resultIdx_row wf idx j r k).mp (Finset.mem_filter.mp hj).2).1⟩
  · intro e he
    exact Finset.mem_filter.mpr
      ⟨Finset.mem_univ _, (resultIdx_row wf idx (ix2 e k) r k).mpr ⟨(Finset.mem_filter.mp he).2, rfl⟩⟩
  · intro j hj
    have h1 : j 1 = k := ((resultIdx_row wf idx j r k).mp (Finset.mem_filter.mp hj).2).2
    exact (congrArg (fun c => ix2 (j 0) c) h1.symm).trans (eq_ix2 j).symm
  · intro e _; rfl
  · intro j hj
    have h1 : j 1 = k := ((resultIdx_row wf idx j r k).mp (Finset.mem_filter.mp hj).2).2
    exact congrArg u ((eq_ix2 j).trans (congrArg (fun c => ix2 (j 0) c) h1))

end Scatter

end RowOps

end
-- ==== Proof.KI.HostLib.lean ====
import proofs.«136422_j72232759984373_2_alg».proof.Proof.Gen.KernelIdeal.Launch
import proofs.«136422_j72232759984373_2_alg».proof.Proof.LibRowOps
import proofs.«136422_j72232759984373_2_alg».proof.Proof.Spec
import Idealize.ShloMosaic.Lib.StableHlo.Run
import Idealize.ShloMosaic.Lib.Pipeline.Value
import Idealize.ShloMosaic.Lib.ValueIdx

/-! # The graph operations of the host stretches, at an index

What the host stretches of @main share: a table of zeros at an index; the column of row numbers (an integer
vector broadcast to one column) at a row; the accumulating scatter of rows and the gather of rows when the row
numbers are those of a function `f : Fin E → Fin N`: the scatter adds, into row `r`, the rows `e` with
`f e = r`; the gather reads row `f e`. -/

open scoped BigOperators

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

/-- A scalar broadcast to a table is the scalar at every index. -/
theorem bcast_scalar_apply {t : Shape} {α : Type} (h : S_.BroadcastsInDim t (![] : Fin 0 → Fin t.rank)) (x : S_.Idx → α)
    (i : t.Idx) : broadcastInDim t ![] h x i = x ix0 :=
  broadcastInDim_apply _ h x i ix0 (fun a => a.elim0)

/-- A table of zeros at an index. -/
theorem zeros_apply {t : Shape} (h : S_.BroadcastsInDim t (![] : Fin 0 → Fin t.rank)) (i : t.Idx) :
    broadcastInDim t ![] h (constant (F := Ideal) S_ .f32 0x00000000#32) i = GGNN.zero :=
  bcast_scalar_apply h _ i

/-- The column of row numbers at row `e` is the vector's entry `e`. -/
theorem col_apply {α : Type} (x : S131072.Idx → α) (e : Fin 131072) :
    broadcastInDim S131072x1 ![0] bcast_S131072_S131072x1_0 x (ix2 e 0) = x (ix1 e) :=
  broadcastInDim_apply _ bcast_S131072_S131072x1_0 x (ix2 e 0) (ix1 e) (fun a => match a with
    | ⟨0, _⟩ => by show e.val = if (131072 : Nat) = 1 then 0 else e.val; rw [if_neg (by decide)])

section Rows
variable {N E C : Nat}

/-- The accumulating scatter of rows whose row numbers are those of `f`: row `r` gains the rows `e` with `f e = r`. -/
theorem scatterAdd_fun_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (u : (⟨2, ![E, C]⟩ : Shape).Idx → EReal)
    (f : Fin E → Fin N) (hf : ∀ e : Fin E, (idx (ix2 e 0)).toInt = ((f e).val : Int)) (r : Fin N) (k : Fin C) :
    Ideal.hostScatterAdd (RowOps.rowScatter N E C wf) x idx u (ix2 r k)
      = x (ix2 r k) + ∑ e ∈ Finset.univ.filter (fun e : Fin E => f e = r), u (ix2 e k) := by
  rw [RowOps.scatterAdd_row_apply]
  congr 2
  refine Finset.filter_congr fun e _ => ?_
  rw [RowOps.landRow_eq_some_iff, hf e]
  constructor
  · intro h; exact Fin.ext (Int.ofNat_inj.mp h)
  · intro h; rw [h]

/-- The gather of rows whose row numbers are those of `f`: row `e` of the result is row `f e` of the table. -/
theorem gather_fun_apply {α : Type} (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32)
    (f : Fin E → Fin N) (hf : ∀ e : Fin E, (idx (ix2 e 0)).toInt = ((f e).val : Int)) (e : Fin E) (k : Fin C) :
    Host.gather (RowOps.rowGather N E C wf) x idx (ix2 e k) = x (ix2 (f e) k) := by
  have hN : 0 < N := Nat.lt_of_le_of_lt (Nat.zero_le _) (f e).isLt
  rw [RowOps.gather_row_apply wf idx e k hN]
  congr 2
  refine Fin.ext ?_
  unfold RowOps.clampRow
  show min (idx (ix2 e 0)).toInt.toNat (N - 1) = (f e).val
  rw [hf e]
  have := (f e).isLt
  simp only [Int.toNat_natCast]
  omega

end Rows

/-! ## The printed records -/

/-- A table of zeros, the operand of the 128-column scatters. -/
abbrev Z8192x128 : S8192x128.Idx → EReal :=
  broadcastInDim S8192x128 ![] bcast_S_S8192x128 (constant (F := Ideal) S_ .f32 0x00000000#32)

/-- The 128-column accumulating scatter of rows into a table of zeros, the row numbers those of `f`: at `(v, k)`
    zero plus the sum of the rows `e` with `f e = v`, at column `k`. -/
theorem segsum128_apply (x : S131072.Idx → BitVec 32) (u : S131072x128.Idx → EReal) (f : Fin 131072 → Fin 8192)
    (hf : ∀ e : Fin 131072, (x (ix1 e)).toInt = ((f e).val : Int)) (v : Fin 8192) (k : Fin 128) :
    Host.scatterAdd (F := Ideal) scatter_S8192x128_S131072x1_S131072x128_1_0_0_1
        (broadcastInDim S8192x128 ![] bcast_S_S8192x128 (constant (F := Ideal) S_ .f32 0x00000000#32))
        (broadcastInDim S131072x1 ![0] bcast_S131072_S131072x1_0 x) u (ix2 v k)
      = GGNN.zero + ∑ e ∈ Finset.univ.filter (fun e : Fin 131072 => f e = v), u (ix2 e k) := by
  show Ideal.hostScatterAdd (RowOps.rowScatter 8192 131072 128 scatter_S8192x128_S131072x1_S131072x128_1_0_0_1_wf)
    _ _ _ (ix2 v k) = _
  rw [scatterAdd_fun_apply _ _ _ _ f (fun e => by rw [col_apply]; exact hf e), zeros_apply]

/-- The 64-column one. -/
theorem segsum64_apply (x : S131072.Idx → BitVec 32) (u : S131072x64.Idx → EReal) (f : Fin 131072 → Fin 8192)
    (hf : ∀ e : Fin 131072, (x (ix1 e)).toInt = ((f e).val : Int)) (v : Fin 8192) (k : Fin 64) :
    Host.scatterAdd (F := Ideal) scatter_S8192x64_S131072x1_S131072x64_1_0_0_1
        (broadcastInDim S8192x64 ![] bcast_S_S8192x64 (constant (F := Ideal) S_ .f32 0x00000000#32))
        (broadcastInDim S131072x1 ![0] bcast_S131072_S131072x1_0 x) u (ix2 v k)
      = GGNN.zero + ∑ e ∈ Finset.univ.filter (fun e : Fin 131072 => f e = v), u (ix2 e k) := by
  show Ideal.hostScatterAdd (RowOps.rowScatter 8192 131072 64 scatter_S8192x64_S131072x1_S131072x64_1_0_0_1_wf)
    _ _ _ (ix2 v k) = _
  rw [scatterAdd_fun_apply _ _ _ _ f (fun e => by rw [col_apply]; exact hf e), zeros_apply]

/-- The 128-column gather of rows, the row numbers those of `f`: row `e` is row `f e` of the table. -/
theorem gather128_apply {α : Type} (tbl : S8192x128.Idx → α) (y : S131072.Idx → BitVec 32) (f : Fin 131072 → Fin 8192)
    (hf : ∀ e : Fin 131072, (y (ix1 e)).toInt = ((f e).val : Int)) (e : Fin 131072) (k : Fin 128) :
    Host.gather gather_S8192x128_S131072x1_S131072x128_1_0_n_n_0_1_1128 tbl
        (broadcastInDim S131072x1 ![0] bcast_S131072_S131072x1_0 y) (ix2 e k)
      = tbl (ix2 (f e) k) := by
  show Host.gather (RowOps.rowGather 8192 131072 128 gather_S8192x128_S131072x1_S131072x128_1_0_n_n_0_1_1128_wf)
    _ _ (ix2 e k) = _
  exact gather_fun_apply _ _ _ f (fun e => by rw [col_apply]; exact hf e) e k

/-! ## A row number that may count from the end -/

/-- A signed comparison "below zero" of a word that is not negative is false. -/
theorem cmpi_slt_zero_of_nonneg (x : BitVec 32) (h : 0 ≤ x.toInt) : IntOp.cmpi .slt x 0#32 = 0#1 := by
  have hs : x.slt 0#32 = false := by
    simp only [BitVec.slt, BitVec.toInt_zero, decide_eq_false_iff_not, not_lt]
    exact h
  show BitVec.ofBool (x.slt 0#32) = 0#1
  rw [hs]
  rfl

/-- The normalisation of row numbers that may count from the end — a negative one has the table's height added. -/
abbrev normIdx (x : S131072.Idx → BitVec 32) : S131072.Idx → BitVec 32 :=
  select (cmpi .slt x (broadcastInDim S131072 ![] bcast_S_S131072 (constantI S_ 32 0#32)))
    (addi x (broadcastInDim S131072 ![] bcast_S_S131072 (constantI S_ 32 8192#32))) x

/-- It leaves a row number that is not negative as it is. -/
theorem normIdx_apply (x : S131072.Idx → BitVec 32) (e : Fin 131072) (h : 0 ≤ (x (ix1 e)).toInt) :
    normIdx x (ix1 e) = x (ix1 e) := by
  have hc : cmpi .slt x (broadcastInDim S131072 ![] bcast_S_S131072 (constantI S_ 32 0#32)) (ix1 e) = 0#1 := by
    show IntOp.cmpi .slt (x (ix1 e)) (broadcastInDim S131072 ![] bcast_S_S131072 (constantI S_ 32 0#32) (ix1 e)) = 0#1
    rw [bcast_scalar_apply]
    exact cmpi_slt_zero_of_nonneg _ h
  show Scalar.select (cmpi .slt x (broadcastInDim S131072 ![] bcast_S_S131072 (constantI S_ 32 0#32)) (ix1 e)) _ _ = _
  rw [hc, select_zero]

/-! ## The two halves of the node table -/

/-- The variable rows of a node table: its first 8192 rows. -/
theorem varRows_apply {α : Type} (y : S139264x128.Idx → α) (v : Fin 8192) (k : Fin 128) :
    extractStridedSlice S8192x128 ![0, 0] y slices_S139264x128_S8192x128_0_0 (ix2 v k)
      = y (ix2 (GGNN.varRow (nE := 131072) v) k) :=
  extractStridedSlice_apply ![0, 0] y slices_S139264x128_S8192x128_0_0 (ix2 v k) (ix2 (GGNN.varRow (nE := 131072) v) k)
    (fun a => match a with
      | ⟨0, _⟩ => by show v.val = 0 + v.val; omega
      | ⟨1, _⟩ => by show k.val = 0 + k.val; omega)

/-- The factor rows of a node table: the 131072 rows from row 8192 on. -/
theorem facRows_apply {α : Type} (y : S139264x128.Idx → α) (e : Fin 131072) (k : Fin 128) :
    extractStridedSlice S131072x128 ![8192, 0] y slices_S139264x128_S131072x128_8192_0 (ix2 e k)
      = y (ix2 (GGNN.facRow (nV := 8192) e) k) :=
  extractStridedSlice_apply ![8192, 0] y slices_S139264x128_S131072x128_8192_0 (ix2 e k) (ix2 (GGNN.facRow (nV := 8192) e) k)
    (fun a => match a with
      | ⟨0, _⟩ => by show 8192 + e.val = 8192 + e.val; rfl
      | ⟨1, _⟩ => by show k.val = 0 + k.val; omega)

end Cert.KernelIdeal.HostVal

end
-- ==== Proof.LibStack.lean ====
import Idealize.ShloMosaic.Lib.Pipeline.Value
import Idealize.ShloMosaic.Lib.ValueIdx

/-!
# Two tables stacked along the rows, read at a row

For `x₁ : [N₁, C]` and `x₂ : [N₂, C]`, their concatenation along axis 0, a table `[N, C]` with `N = N₁ + N₂`,
has at `(r, k)` the entry `x₁ (r, k)` when `r < N₁`, and `x₂ (r − N₁, k)` otherwise.
-/

namespace Stack

open Idealize.ShloMosaic Idealize.ShloMosaic.ValueIdx

variable {α : Type} {N₁ N₂ N C : Nat}

/-- A row above the seam is the first table's row. -/
theorem stack_apply_top (x₁ : (⟨2, ![N₁, C]⟩ : Shape).Idx → α) (x₂ : (⟨2, ![N₂, C]⟩ : Shape).Idx → α)
    (h : Shape.Concatenates [⟨2, ![N₁, C]⟩, ⟨2, ![N₂, C]⟩] ⟨2, ![N, C]⟩ 0) (r : Fin N) (k : Fin C) (hr : r.val < N₁) :
    concatenate ⟨2, ![N, C]⟩ 0 [⟨⟨2, ![N₁, C]⟩, x₁⟩, ⟨⟨2, ![N₂, C]⟩, x₂⟩] h (ix2 r k) = x₁ (ix2 ⟨r.val, hr⟩ k) :=
  concatenate_pair_apply_left (t := ⟨2, ![N, C]⟩) (s₁ := ⟨2, ![N₁, C]⟩) (s₂ := ⟨2, ![N₂, C]⟩) (0 : Fin 2) x₁ x₂ h
    (ix2 r k) rfl (ix2 ⟨r.val, hr⟩ k) (fun b => by
      match b with
      | ⟨0, _⟩ => rfl
      | ⟨1, _⟩ => rfl)

/-- A row at or below the seam is the second table's row, the first table's height less. -/
theorem stack_apply_bottom (x₁ : (⟨2, ![N₁, C]⟩ : Shape).Idx → α) (x₂ : (⟨2, ![N₂, C]⟩ : Shape).Idx → α)
    (h : Shape.Concatenates [⟨2, ![N₁, C]⟩, ⟨2, ![N₂, C]⟩] ⟨2, ![N, C]⟩ 0) (r : Fin N) (k : Fin C) (hr : N₁ ≤ r.val)
    (hr₂ : r.val - N₁ < N₂) :
    concatenate ⟨2, ![N, C]⟩ 0 [⟨⟨2, ![N₁, C]⟩, x₁⟩, ⟨⟨2, ![N₂, C]⟩, x₂⟩] h (ix2 r k) = x₂ (ix2 ⟨r.val - N₁, hr₂⟩ k) :=
  concatenate_pair_apply_right (t := ⟨2, ![N, C]⟩) (s₁ := ⟨2, ![N₁, C]⟩) (s₂ := ⟨2, ![N₂, C]⟩) (0 : Fin 2) x₁ x₂ h
    (ix2 r k) rfl rfl (ix2 ⟨r.val - N₁, hr₂⟩ k)
    (fun b hb => by
      match b with
      | ⟨0, _⟩ => exact absurd rfl hb
      | ⟨1, _⟩ => rfl)
    (by show r.val - N₁ + N₁ = r.val; omega)

/-- The stacked table at `(r, k)`, both cases at once. -/
theorem stack_apply (x₁ : (⟨2, ![N₁, C]⟩ : Shape).Idx → α) (x₂ : (⟨2, ![N₂, C]⟩ : Shape).Idx → α)
    (h : Shape.Concatenates [⟨2, ![N₁, C]⟩, ⟨2, ![N₂, C]⟩] ⟨2, ![N, C]⟩ 0) (hN : N = N₁ + N₂) (r : Fin N) (k : Fin C) :
    concatenate ⟨2, ![N, C]⟩ 0 [⟨⟨2, ![N₁, C]⟩, x₁⟩, ⟨⟨2, ![N₂, C]⟩, x₂⟩] h (ix2 r k)
      = if hr : r.val < N₁ then x₁ (ix2 ⟨r.val, hr⟩ k)
        else x₂ (ix2 ⟨r.val - N₁, by have := r.isLt; omega⟩ k) := by
  by_cases hr : r.val < N₁
  · rw [dif_pos hr]; exact stack_apply_top x₁ x₂ h r k hr
  · rw [dif_neg hr]; exact stack_apply_bottom x₁ x₂ h r k (Nat.le_of_not_lt hr) _

end Stack
-- ==== Proof.KI.Host1.lean ====
import proofs.«136422_j72232759984373_2_alg».proof.Proof.KI.HostLib
import proofs.«136422_j72232759984373_2_alg».proof.Proof.LibStack

/-! # The second host stretch: the first aggregate

After the stretch the node table `main_v28` holds, on a variable row `r < 8192`, the rows of the message table
`main_v19` (the one the stretch starts from) of the edges whose row number is `r`, summed from zero, plus those of
the edges whose column number is `r`, summed from zero; on a factor row, zero. -/

open scoped BigOperators

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- The node table `main_v28` after the stretch, as the operations' term. -/
theorem v28_term :
    (StableHlo.after (hostOps1 (F := Ideal)) W (Proc.devRef .tc main_v28) : S139264x128.Idx → EReal)
      = concatenate S139264x128 0
          [⟨S8192x128, addf (F := Ideal) (φ := .f32)
              (Host.scatterAdd (F := Ideal) (φ := .f32) scatter_S8192x128_S131072x1_S131072x128_1_0_0_1 Z8192x128
                (broadcastInDim S131072x1 ![0] bcast_S131072_S131072x1_0 (W (Proc.devRef .tc main_arg2) : S131072.Idx → BitVec 32))
                (W (Proc.devRef .tc main_v19) : S131072x128.Idx → EReal))
              (Host.scatterAdd (F := Ideal) (φ := .f32) scatter_S8192x128_S131072x1_S131072x128_1_0_0_1 Z8192x128
                (broadcastInDim S131072x1 ![0] bcast_S131072_S131072x1_0 (W (Proc.devRef .tc main_arg3) : S131072.Idx → BitVec 32))
                (W (Proc.devRef .tc main_v19) : S131072x128.Idx → EReal))⟩,
           ⟨S131072x128, broadcastInDim S131072x128 ![] bcast_S_S131072x128 (constant (F := Ideal) S_ .f32 0x00000000#32)⟩]
          concatenates_S8192x128_S131072x128_S139264x128_d0 := by
  simp only [hostOps1]
  after_results <;> rfl

/-- The node table `main_v28` after the stretch at `(r, k)`, the message table the stretch starts from given as a
    matrix `M`: on a variable row the rows of `M` of the edges whose row number is it, summed from zero, plus those
    of the edges whose column number is it, summed from zero; on a factor row zero. -/
theorem v28_apply_of (rowF colF : Fin 131072 → Fin 8192)
    (hrow : ∀ e : Fin 131072, ((W (Proc.devRef .tc main_arg2) : S131072.Idx → BitVec 32) (ix1 e)).toInt = ((rowF e).val : Int))
    (hcol : ∀ e : Fin 131072, ((W (Proc.devRef .tc main_arg3) : S131072.Idx → BitVec 32) (ix1 e)).toInt = ((colF e).val : Int))
    (M : GGNN.Mat 131072 128)
    (hM : ∀ (e : Fin 131072) (k : Fin 128), (W (Proc.devRef .tc main_v19) : S131072x128.Idx → EReal) (ix2 e k) = M e k)
    (r : Fin 139264) (k : Fin 128) :
    (StableHlo.after (hostOps1 (F := Ideal)) W (Proc.devRef .tc main_v28) : S139264x128.Idx → EReal) (ix2 r k)
      = if h : r.val < 8192 then
          (GGNN.zero + ∑ e ∈ Finset.univ.filter (fun e : Fin 131072 => rowF e = ⟨r.val, h⟩), M e k)
            + (GGNN.zero + ∑ e ∈ Finset.univ.filter (fun e : Fin 131072 => colF e = ⟨r.val, h⟩), M e k)
        else GGNN.zero := by
  rw [v28_term]
  refine (Stack.stack_apply (N₁ := 8192) (N₂ := 131072) (N := 139264) (C := 128) _ _
    concatenates_S8192x128_S131072x128_S139264x128_d0 rfl r k).trans ?_
  by_cases h : r.val < 8192
  · rw [dif_pos h, dif_pos h, addf_apply]
    refine (congrArg₂ (· + ·) (segsum128_apply _ _ rowF hrow _ k) (segsum128_apply _ _ colF hcol _ k)).trans ?_
    exact congrArg₂ (· + ·)
      (congrArg (GGNN.zero + ·) (Finset.sum_congr rfl fun e _ => hM e k))
      (congrArg (GGNN.zero + ·) (Finset.sum_congr rfl fun e _ => hM e k))
  · rw [dif_neg h, dif_neg h, zeros_apply]

/-- The same with the message table's contents themselves: on a variable row its rows summed by row number plus
    its rows summed by column number. -/
theorem v28_apply (rowF colF : Fin 131072 → Fin 8192)
    (hrow : ∀ e : Fin 131072, ((W (Proc.devRef .tc main_arg2) : S131072.Idx → BitVec 32) (ix1 e)).toInt = ((rowF e).val : Int))
    (hcol : ∀ e : Fin 131072, ((W (Proc.devRef .tc main_arg3) : S131072.Idx → BitVec 32) (ix1 e)).toInt = ((colF e).val : Int))
    (r : Fin 139264) (k : Fin 128) :
    (StableHlo.after (hostOps1 (F := Ideal)) W (Proc.devRef .tc main_v28) : S139264x128.Idx → EReal) (ix2 r k)
      = if h : r.val < 8192 then
          GGNN.segRow rowF (fun e k => (W (Proc.devRef .tc main_v19) : S131072x128.Idx → EReal) (ix2 e k)) ⟨r.val, h⟩ k
            + GGNN.segRow colF (fun e k => (W (Proc.devRef .tc main_v19) : S131072x128.Idx → EReal) (ix2 e k)) ⟨r.val, h⟩ k
        else GGNN.zero :=
  v28_apply_of W rowF colF hrow hcol (fun e k => (W (Proc.devRef .tc main_v19) : S131072x128.Idx → EReal) (ix2 e k))
    (fun _ _ => rfl) r k

end Cert.KernelIdeal.HostVal

end
-- ==== Proof.KI.Host2.lean ====
import proofs.«136422_j72232759984373_2_alg».proof.Proof.KI.HostLib
import proofs.«136422_j72232759984373_2_alg».proof.Proof.LibStack

/-! # The third host stretch: the second aggregate, split by node kind

The stretch starts from the message table `main_v29_1` (one row per node). After it the node table `main_v54` holds,
on a variable row, the factor rows' messages of the edges whose row number is it, summed from zero, plus those of
the edges whose column number is it; on a factor row, the messages of its two variables (the rows its row number and
its column number name). The row numbers are first normalised (a negative one counts from the end): they are not
negative, so this changes nothing. -/

open scoped BigOperators

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- The variable rows of the message table. -/
abbrev varMsg : S8192x128.Idx → EReal :=
  extractStridedSlice S8192x128 ![0, 0] (W (Proc.devRef .tc main_v29_1) : S139264x128.Idx → EReal) slices_S139264x128_S8192x128_0_0

/-- The factor rows of the message table. -/
abbrev facMsg : S131072x128.Idx → EReal :=
  extractStridedSlice S131072x128 ![8192, 0] (W (Proc.devRef .tc main_v29_1) : S139264x128.Idx → EReal) slices_S139264x128_S131072x128_8192_0

/-- The node table `main_v54` after the stretch, as the operations' term. -/
theorem v54_term :
    (StableHlo.after (hostOps2 (F := Ideal)) W (Proc.devRef .tc main_v54) : S139264x128.Idx → EReal)
      = concatenate S139264x128 0
          [⟨S8192x128, addf (F := Ideal) (φ := .f32)
              (Host.scatterAdd (F := Ideal) (φ := .f32) scatter_S8192x128_S131072x1_S131072x128_1_0_0_1 Z8192x128
                (broadcastInDim S131072x1 ![0] bcast_S131072_S131072x1_0 (W (Proc.devRef .tc main_arg2) : S131072.Idx → BitVec 32))
                (facMsg W))
              (Host.scatterAdd (F := Ideal) (φ := .f32) scatter_S8192x128_S131072x1_S131072x128_1_0_0_1 Z8192x128
                (broadcastInDim S131072x1 ![0] bcast_S131072_S131072x1_0 (W (Proc.devRef .tc main_arg3) : S131072.Idx → BitVec 32))
                (facMsg W))⟩,
           ⟨S131072x128, addf (F := Ideal) (φ := .f32)
              (Host.gather gather_S8192x128_S131072x1_S131072x128_1_0_n_n_0_1_1128 (varMsg W)
                (broadcastInDim S131072x1 ![0] bcast_S131072_S131072x1_0 (normIdx (W (Proc.devRef .tc main_arg2) : S131072.Idx → BitVec 32))))
              (Host.gather gather_S8192x128_S131072x1_S131072x128_1_0_n_n_0_1_1128 (varMsg W)
                (broadcastInDim S131072x1 ![0] bcast_S131072_S131072x1_0 (normIdx (W (Proc.devRef .tc main_arg3) : S131072.Idx → BitVec 32))))⟩]
          concatenates_S8192x128_S131072x128_S139264x128_d0 := by
  simp only [hostOps2]
  after_results_simp <;> rfl

/-- The split aggregate on a variable row: the factor messages of the edges whose row number is it, summed from
    zero, plus those of the edges whose column number is it. -/
theorem aggSplit_top {nV nE : ℕ} (row col : Fin nE → Fin nV) (msg : GGNN.Mat (nV + nE) 128) (r : Fin (nV + nE)) (k : Fin 128)
    (h : r.val < nV) :
    GGNN.aggSplit row col msg r k
      = (GGNN.zero + ∑ e ∈ Finset.univ.filter (fun e : Fin nE => row e = ⟨r.val, h⟩), msg (GGNN.facRow e) k)
        + (GGNN.zero + ∑ e ∈ Finset.univ.filter (fun e : Fin nE => col e = ⟨r.val, h⟩), msg (GGNN.facRow e) k) := by
  unfold GGNN.aggSplit
  exact dif_pos h

/-- The split aggregate on a factor row: the messages of its two variables. -/
theorem aggSplit_bot {nV nE : ℕ} (row col : Fin nE → Fin nV) (msg : GGNN.Mat (nV + nE) 128) (r : Fin (nV + nE)) (k : Fin 128)
    (h : ¬ r.val < nV) :
    GGNN.aggSplit row col msg r k
      = msg (GGNN.varRow (row ⟨r.val - nV, by have := r.isLt; omega⟩)) k
        + msg (GGNN.varRow (col ⟨r.val - nV, by have := r.isLt; omega⟩)) k := by
  unfold GGNN.aggSplit
  exact dif_neg h

/-- The node table `main_v54` after the stretch at `(r, k)`, the message table the stretch starts from given as a
    matrix `M`: the aggregate of `M`, split by node kind. -/
theorem v54_apply_of (rowF colF : Fin 131072 → Fin 8192)
    (hrow : ∀ e : Fin 131072, ((W (Proc.devRef .tc main_arg2) : S131072.Idx → BitVec 32) (ix1 e)).toInt = ((rowF e).val : Int))
    (hcol : ∀ e : Fin 131072, ((W (Proc.devRef .tc main_arg3) : S131072.Idx → BitVec 32) (ix1 e)).toInt = ((colF e).val : Int))
    (M : GGNN.Mat (8192 + 131072) 128)
    (hM : ∀ (r : Fin (8192 + 131072)) (k : Fin 128),
      (W (Proc.devRef .tc main_v29_1) : S139264x128.Idx → EReal) (ix2 r k) = M r k)
    (r : Fin 139264) (k : Fin 128) :
    (StableHlo.after (hostOps2 (F := Ideal)) W (Proc.devRef .tc main_v54) : S139264x128.Idx → EReal) (ix2 r k)
      = GGNN.aggSplit rowF colF M r k := by
  have hrow' : ∀ e : Fin 131072,
      (normIdx (W (Proc.devRef .tc main_arg2) : S131072.Idx → BitVec 32) (ix1 e)).toInt = ((rowF e).val : Int) := fun e => by
    rw [normIdx_apply _ e (by rw [hrow e]; exact Int.natCast_nonneg _)]; exact hrow e
  have hcol' : ∀ e : Fin 131072,
      (normIdx (W (Proc.devRef .tc main_arg3) : S131072.Idx → BitVec 32) (ix1 e)).toInt = ((colF e).val : Int) := fun e => by
    rw [normIdx_apply _ e (by rw [hcol e]; exact Int.natCast_nonneg _)]; exact hcol e
  have hfac : ∀ e : Fin 131072, facMsg W (ix2 e k) = M (GGNN.facRow (nV := 8192) e) k :=
    fun e => (facRows_apply _ e k).trans (hM (GGNN.facRow (nV := 8192) e) k)
  have hvar : ∀ v : Fin 8192, varMsg W (ix2 v k) = M (GGNN.varRow (nE := 131072) v) k :=
    fun v => (varRows_apply _ v k).trans (hM (GGNN.varRow (nE := 131072) v) k)
  rw [v54_term]
  refine (Stack.stack_apply (N₁ := 8192) (N₂ := 131072) (N := 139264) (C := 128) _ _
    concatenates_S8192x128_S131072x128_S139264x128_d0 rfl r k).trans ?_
  by_cases h : r.val < 8192
  · rw [dif_pos h, addf_apply]
    refine (congrArg₂ (· + ·) (segsum128_apply _ _ rowF hrow _ k) (segsum128_apply _ _ colF hcol _ k)).trans ?_
    refine (congrArg₂ (· + ·)
      (congrArg (GGNN.zero + ·) (Finset.sum_congr rfl fun e _ => hfac e))
      (congrArg (GGNN.zero + ·) (Finset.sum_congr rfl fun e _ => hfac e))).trans ?_
    exact (aggSplit_top rowF colF M r k h).symm
  · rw [dif_neg h, addf_apply]
    refine (congrArg₂ (· + ·) (gather128_apply _ _ rowF hrow' _ k) (gather128_apply _ _ colF hcol' _ k)).trans ?_
    refine (congrArg₂ (· + ·) (hvar _) (hvar _)).trans ?_
    exact (aggSplit_bot rowF colF M r k h).symm

/-- The same with the message table's contents themselves. -/
theorem v54_apply (rowF colF : Fin 131072 → Fin 8192)
    (hrow : ∀ e : Fin 131072, ((W (Proc.devRef .tc main_arg2) : S131072.Idx → BitVec 32) (ix1 e)).toInt = ((rowF e).val : Int))
    (hcol : ∀ e : Fin 131072, ((W (Proc.devRef .tc main_arg3) : S131072.Idx → BitVec 32) (ix1 e)).toInt = ((colF e).val : Int))
    (r : Fin 139264) (k : Fin 128) :
    (StableHlo.after (hostOps2 (F := Ideal)) W (Proc.devRef .tc main_v54) : S139264x128.Idx → EReal) (ix2 r k)
      = GGNN.aggSplit rowF colF (fun r k => (W (Proc.devRef .tc main_v29_1) : S139264x128.Idx → EReal) (ix2 r k)) r k :=
  v54_apply_of W rowF colF hrow hcol (fun r k => (W (Proc.devRef .tc main_v29_1) : S139264x128.Idx → EReal) (ix2 r k))
    (fun _ _ => rfl) r k

end Cert.KernelIdeal.HostVal

end
-- ==== Proof.KI.Host4b.lean ====
import proofs.«136422_j72232759984373_2_alg».proof.Proof.KI.HostLib

/-! # The fifth host stretch: the messages summed into the variables

After the stretch, the table `main_v65` holds at `(v, k)` zero plus the sum, over the edges `e` whose row number
is `v`, of entry `(e, k)` of the message table `main_v62` the stretch starts from. -/

open scoped BigOperators

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- The table `main_v65` after the stretch, as the operations' term. -/
theorem v65_term :
    (StableHlo.after (hostOps4 (F := Ideal)) W (Proc.devRef .tc main_v65) : S8192x64.Idx → EReal)
      = Host.scatterAdd (F := Ideal) scatter_S8192x64_S131072x1_S131072x64_1_0_0_1
          (broadcastInDim S8192x64 ![] bcast_S_S8192x64 (constant (F := Ideal) S_ .f32 0x00000000#32))
          (broadcastInDim S131072x1 ![0] bcast_S131072_S131072x1_0 (W (Proc.devRef .tc main_arg2) : S131072.Idx → BitVec 32))
          (W (Proc.devRef .tc main_v62) : S131072x64.Idx → EReal) := by
  simp only [hostOps4]
  after_results <;> rfl

/-- The table `main_v65` after the stretch at `(v, k)`, the message table the stretch starts from given as a matrix
    `M`: the rows of `M` of the edges whose row number is `v`, summed from zero. -/
theorem v65_apply_of (rowF : Fin 131072 → Fin 8192)
    (hrow : ∀ e : Fin 131072, ((W (Proc.devRef .tc main_arg2) : S131072.Idx → BitVec 32) (ix1 e)).toInt = ((rowF e).val : Int))
    (M : GGNN.Mat 131072 64)
    (hM : ∀ (e : Fin 131072) (k : Fin 64), (W (Proc.devRef .tc main_v62) : S131072x64.Idx → EReal) (ix2 e k) = M e k)
    (v : Fin 8192) (k : Fin 64) :
    (StableHlo.after (hostOps4 (F := Ideal)) W (Proc.devRef .tc main_v65) : S8192x64.Idx → EReal) (ix2 v k)
      = GGNN.segRow rowF M v k := by
  rw [v65_term, segsum64_apply _ _ rowF hrow]
  exact congrArg (GGNN.zero + ·) (Finset.sum_congr rfl fun e _ => hM e k)

/-- The same with the message table's contents themselves. -/
theorem v65_apply (rowF : Fin 131072 → Fin 8192)
    (hrow : ∀ e : Fin 131072, ((W (Proc.devRef .tc main_arg2) : S131072.Idx → BitVec 32) (ix1 e)).toInt = ((rowF e).val : Int))
    (v : Fin 8192) (k : Fin 64) :
    (StableHlo.after (hostOps4 (F := Ideal)) W (Proc.devRef .tc main_v65) : S8192x64.Idx → EReal) (ix2 v k)
      = GGNN.segRow rowF (fun e k => (W (Proc.devRef .tc main_v62) : S131072x64.Idx → EReal) (ix2 e k)) v k :=
  v65_apply_of W rowF hrow (fun e k => (W (Proc.devRef .tc main_v62) : S131072x64.Idx → EReal) (ix2 e k)) (fun _ _ => rfl) v k

end Cert.KernelIdeal.HostVal

end
-- ==== Proof.KI.KernelValue.lean ====
import proofs.«136422_j72232759984373_2_alg».proof.Proof.KI.KernelCarry
import proofs.«136422_j72232759984373_2_alg».proof.Proof.KI.Val1
import proofs.«136422_j72232759984373_2_alg».proof.Proof.KI.Val2
import proofs.«136422_j72232759984373_2_alg».proof.Proof.KI.Val3
import proofs.«136422_j72232759984373_2_alg».proof.Proof.KI.Val4
import proofs.«136422_j72232759984373_2_alg».proof.Proof.KI.Host1
import proofs.«136422_j72232759984373_2_alg».proof.Proof.KI.Host2
import proofs.«136422_j72232759984373_2_alg».proof.Proof.KI.Host4b

/-! # The kernel program's result is the network `GGNN.netKer` of the arguments

The result buffer at the end of @main, entry by entry, through the boundaries of @main: the first aggregate from
region 0's closed-form factor messages, the first recurrent layer and the second layer's messages (region 1), the
second aggregate split by node kind, the second recurrent layer (region 2), the message network on the factor rows
(region 3), the messages summed into the variables, the readout network and the row softmax (region 4). Every step
is an equation between matrices, functions of a row and a column. -/

set_option maxRecDepth 16384

open scoped BigOperators

noncomputable section

namespace Cert.KernelIdeal.KernelValue

open Cert.KernelIdeal Cert.KernelIdeal.Gen
open Idealize.ShloMosaic Idealize.ShloMosaic.TcCoe Idealize.SL.Sem
open Idealize.ShloMosaic.ValueIdx

/-- Three dense layers of equal inputs, weights and biases are equal. -/
theorem mlp3_congr {n K0 K1 K2 K3 : ℕ} {x x' : GGNN.Mat n K0} {w1 w1' : GGNN.Mat K0 K1} {b1 b1' : Fin K1 → EReal}
    {w2 w2' : GGNN.Mat K1 K2} {b2 b2' : Fin K2 → EReal} {w3 w3' : GGNN.Mat K2 K3} {b3 b3' : Fin K3 → EReal}
    (hx : x = x') (h1 : w1 = w1') (hb1 : b1 = b1') (h2 : w2 = w2') (hb2 : b2 = b2') (h3 : w3 = w3') (hb3 : b3 = b3') :
    GGNN.mlp3 x w1 b1 w2 b2 w3 b3 = GGNN.mlp3 x' w1' b1' w2' b2' w3' b3' := by
  subst hx h1 hb1 h2 hb2 h3 hb3; rfl

variable (m : (ℓ : Loc nD τ sig) → Buf (Elt Ideal) ℓ) (c : Dev nD) (rowF colF : Fin 131072 → Fin 8192)

/-! ## The network's intermediate tables, of the arguments -/

/-- The initial node states. -/
abbrev nX0 : GGNN.Mat 139264 128 := GGNN.x0 (nV := 8192) (nE := 131072) (jv m c)
/-- The first aggregate. -/
abbrev nA0 : GGNN.Mat 139264 128 := GGNN.agg0 (nV := 8192) (nE := 131072) (jv m c) rowF colF (cW0 m c)
/-- The node states after the first layer. -/
abbrev nX1 : GGNN.Mat 139264 128 := GGNN.gru (nA0 m c rowF colF) (nX0 m c) (wi m c) (wh m c) (bi m c) (bh m c)
/-- The second layer's messages. -/
abbrev nM1 : GGNN.Mat 139264 128 := GGNN.mm (nX1 m c rowF colF) (cW1 m c)
/-- The second aggregate. -/
abbrev nA1 : GGNN.Mat 139264 128 := GGNN.aggSplit (nV := 8192) (nE := 131072) rowF colF (nM1 m c rowF colF)
/-- The node states after the second layer. -/
abbrev nX2 : GGNN.Mat 139264 128 := GGNN.gru (nA1 m c rowF colF) (nX1 m c rowF colF) (wi m c) (wh m c) (bi m c) (bh m c)
/-- The factor messages of the message network. -/
abbrev nMsg : GGNN.Mat 131072 64 :=
  GGNN.mlp3 (GGNN.facRows (nV := 8192) (nE := 131072) (nX2 m c rowF colF)) (mW1 m c) (mb1 m c) (mW2 m c) (mb2 m c) (mW3 m c) (mb3 m c)
/-- The messages summed into the variables. -/
abbrev nNM : GGNN.Mat 8192 64 := GGNN.segRow rowF (nMsg m c rowF colF)

variable
  (hrow : ∀ e : Fin 131072, ((m ((c.tc : Thread nD τ).loc main_arg2) : S131072.Idx → BitVec 32) (ix1 e)).toInt = ((rowF e).val : Int))
  (hcol : ∀ e : Fin 131072, ((m ((c.tc : Thread nD τ).loc main_arg3) : S131072.Idx → BitVec 32) (ix1 e)).toInt = ((colF e).val : Int))

/-! ## The first aggregate, at region 1's entry -/

include hrow hcol in
theorem A0_at3 (r : Fin 139264) (k : Fin 128) :
    (Hand.Asm.W3 m c (Proc.devRef .tc main_v28) : S139264x128.Idx → EReal) (ix2 r k) = nA0 m c rowF colF r k := by
  refine (HostVal.v28_apply_of (Hand.Asm.W2 m c) rowF colF
    (fun e => by rw [W2_arg2 m c]; exact hrow e) (fun e => by rw [W2_arg3 m c]; exact hcol e)
    (GGNN.msg0 (jv m c) (cW0 m c)) (fun e k => M0_at2 m c e k) r k).trans ?_
  rfl

/-! ## Region 1: the first recurrent layer and the second layer's messages -/

include hrow hcol in
theorem X1_at4 (r : Fin 139264) (j : Fin 128) :
    (Hand.Asm.W4 m c (Proc.devRef .tc main_v29_0) : S139264x128.Idx → EReal) (ix2 r j) = nX1 m c rowF colF r j := by
  rw [show Hand.Asm.W4 m c (Proc.devRef .tc main_v29_0) = (Hand.dat1 (Hand.Asm.V3 m) c).arrAt 7 cfg1.N from Hand.Asm.W4_arr m c 7]
  refine (Hand.final1_7 (Hand.Asm.V3 m) c r j).trans ?_
  have h0 : Hand.in1_agg (Hand.Asm.V3 m) c = nA0 m c rowF colF := funext fun r => funext fun k => A0_at3 m c rowF colF hrow hcol r k
  have h1 : Hand.in1_x (Hand.Asm.V3 m) c = nX0 m c := funext fun r => funext fun k => X0_at3 m c r k
  have h2 : Hand.in1_wi (Hand.Asm.V3 m) c = wi m c := funext fun k => funext fun j => wi_at3 m c k j
  have h3 : Hand.in1_bi (Hand.Asm.V3 m) c = bi m c := funext fun j => bi_at3 m c j
  have h4 : Hand.in1_wh (Hand.Asm.V3 m) c = wh m c := funext fun k => funext fun j => wh_at3 m c k j
  have h5 : Hand.in1_bh (Hand.Asm.V3 m) c = bh m c := funext fun j => bh_at3 m c j
  rw [h0, h1, h2, h3, h4, h5]

include hrow hcol in
theorem M1_at4 (r : Fin 139264) (j : Fin 128) :
    (Hand.Asm.W4 m c (Proc.devRef .tc main_v29_1) : S139264x128.Idx → EReal) (ix2 r j) = nM1 m c rowF colF r j := by
  rw [show Hand.Asm.W4 m c (Proc.devRef .tc main_v29_1) = (Hand.dat1 (Hand.Asm.V3 m) c).arrAt 8 cfg1.N from Hand.Asm.W4_arr m c 8]
  refine (Hand.final1_8 (Hand.Asm.V3 m) c r j).trans ?_
  have h0 : Hand.in1_agg (Hand.Asm.V3 m) c = nA0 m c rowF colF := funext fun r => funext fun k => A0_at3 m c rowF colF hrow hcol r k
  have h1 : Hand.in1_x (Hand.Asm.V3 m) c = nX0 m c := funext fun r => funext fun k => X0_at3 m c r k
  have h2 : Hand.in1_wi (Hand.Asm.V3 m) c = wi m c := funext fun k => funext fun j => wi_at3 m c k j
  have h3 : Hand.in1_bi (Hand.Asm.V3 m) c = bi m c := funext fun j => bi_at3 m c j
  have h4 : Hand.in1_wh (Hand.Asm.V3 m) c = wh m c := funext fun k => funext fun j => wh_at3 m c k j
  have h5 : Hand.in1_bh (Hand.Asm.V3 m) c = bh m c := funext fun j => bh_at3 m c j
  have h6 : Hand.in1_w1 (Hand.Asm.V3 m) c = cW1 m c := funext fun k => funext fun j => cW1_at3 m c k j
  rw [h0, h1, h2, h3, h4, h5, h6]

/-! ## The second aggregate, at region 2's entry -/

include hrow hcol in
theorem A1_at5 (r : Fin 139264) (k : Fin 128) :
    (Hand.Asm.W5 m c (Proc.devRef .tc main_v54) : S139264x128.Idx → EReal) (ix2 r k) = nA1 m c rowF colF r k := by
  exact HostVal.v54_apply_of (Hand.Asm.W4 m c) rowF colF
    (fun e => by rw [W4_arg2 m c]; exact hrow e) (fun e => by rw [W4_arg3 m c]; exact hcol e)
    (nM1 m c rowF colF) (fun r k => M1_at4 m c rowF colF hrow hcol r k) r k

include hrow hcol in
/-- The node states after the first layer, at region 2's entry: the third host stretch does not write them. -/
theorem X1_at5 (r : Fin 139264) (j : Fin 128) :
    (Hand.Asm.W5 m c (Proc.devRef .tc main_v29_0) : S139264x128.Idx → EReal) (ix2 r j) = nX1 m c rowF colF r j := by
  rw [Hand.Asm.W5_of m c main_v29_0 (by decide)]
  exact X1_at4 m c rowF colF hrow hcol r j

/-! ## Region 2: the second recurrent layer -/

include hrow hcol in
theorem X2_at6 (r : Fin 139264) (j : Fin 128) :
    (Hand.Asm.W6 m c (Proc.devRef .tc main_v55) : S139264x128.Idx → EReal) (ix2 r j) = nX2 m c rowF colF r j := by
  rw [show Hand.Asm.W6 m c (Proc.devRef .tc main_v55) = (Hand.dat2 (Hand.Asm.V5 m) c).arrAt 6 cfg2.N from Hand.Asm.W6_arr m c 6]
  refine (Hand.final2_6 (Hand.Asm.V5 m) c r j).trans ?_
  have h0 : Hand.in2_agg (Hand.Asm.V5 m) c = nA1 m c rowF colF := funext fun r => funext fun k => A1_at5 m c rowF colF hrow hcol r k
  have h1 : Hand.in2_x (Hand.Asm.V5 m) c = nX1 m c rowF colF := funext fun r => funext fun k => X1_at5 m c rowF colF hrow hcol r k
  have h2 : Hand.in2_wi (Hand.Asm.V5 m) c = wi m c := funext fun k => funext fun j => wi_at5 m c k j
  have h3 : Hand.in2_bi (Hand.Asm.V5 m) c = bi m c := funext fun j => bi_at5 m c j
  have h4 : Hand.in2_wh (Hand.Asm.V5 m) c = wh m c := funext fun k => funext fun j => wh_at5 m c k j
  have h5 : Hand.in2_bh (Hand.Asm.V5 m) c = bh m c := funext fun j => bh_at5 m c j
  rw [h0, h1, h2, h3, h4, h5]

/-! ## Region 3: the message network on the factor rows -/

include hrow hcol in
theorem Msg_at8 (e : Fin 131072) (j : Fin 64) :
    (Hand.Asm.W8 m c (Proc.devRef .tc main_v62) : S131072x64.Idx → EReal) (ix2 e j) = nMsg m c rowF colF e j := by
  rw [show Hand.Asm.W8 m c (Proc.devRef .tc main_v62) = (Hand.dat3 (Hand.Asm.V7 m) c).arrAt 7 cfg3.N from Hand.Asm.W8_arr m c 7]
  have h0 : (fun (e : Fin 131072) (k : Fin 128) => Hand.A3_0 (Hand.Asm.V7 m) c (ix2 (⟨8192 + e.val, by omega⟩ : Fin 139264) k))
      = GGNN.facRows (nV := 8192) (nE := 131072) (nX2 m c rowF colF) := funext fun e => funext fun k => by
    show (Hand.Asm.W7 m c (Proc.devRef .tc main_v55) : S139264x128.Idx → EReal) (ix2 (⟨8192 + e.val, by omega⟩ : Fin 139264) k) = _
    rw [Hand.Asm.W7_of m c main_v55 (by decide)]
    exact X2_at6 m c rowF colF hrow hcol _ k
  exact (Hand.final3_7 (Hand.Asm.V7 m) c e j).trans (congrFun (congrFun (mlp3_congr
    (x' := GGNN.facRows (nV := 8192) (nE := 131072) (nX2 m c rowF colF)) (w1' := mW1 m c) (b1' := mb1 m c)
    (w2' := mW2 m c) (b2' := mb2 m c) (w3' := mW3 m c) (b3' := mb3 m c) h0
    (funext fun k => funext fun j => mW1_at7 m c k j) (funext fun j => mb1_at7 m c j)
    (funext fun k => funext fun j => mW2_at7 m c k j) (funext fun j => mb2_at7 m c j)
    (funext fun k => funext fun j => mW3_at7 m c k j) (funext fun j => mb3_at7 m c j)) e) j)

/-! ## The messages summed into the variables, at region 4's entry -/

include hrow hcol in
theorem NM_at9 (v : Fin 8192) (k : Fin 64) :
    (Hand.Asm.W9 m c (Proc.devRef .tc main_v65) : S8192x64.Idx → EReal) (ix2 v k) = nNM m c rowF colF v k := by
  exact HostVal.v65_apply_of (Hand.Asm.W8 m c) rowF (fun e => by rw [W8_arg2 m c]; exact hrow e)
    (nMsg m c rowF colF) (fun e k => Msg_at8 m c rowF colF hrow hcol e k) v k

/-! ## Region 4 and the result -/

include hrow hcol in
/-- The result buffer at the end of @main is the network of the arguments. -/
theorem kernel_eq (v : Fin 8192) (cc : Fin 2) :
    (Hand.Asm.W10 m c (Proc.devRef .tc main_v72) : S8192x2.Idx → EReal) (ix2 v cc)
      = GGNN.netKer (nV := 8192) (nE := 131072) (jv m c) rowF colF (cW0 m c) (cW1 m c) (wi m c) (wh m c) (bi m c) (bh m c)
          (mW1 m c) (mb1 m c) (mW2 m c) (mb2 m c) (mW3 m c) (mb3 m c)
          (rW1 m c) (rb1 m c) (rW2 m c) (rb2 m c) (rW3 m c) (rb3 m c) v cc := by
  rw [show Hand.Asm.W10 m c (Proc.devRef .tc main_v72) = (Hand.dat4 (Hand.Asm.V9 m) c).arrAt 7 cfg4.N from Hand.Asm.W10_result m c]
  refine ((Hand.final4_7 (Hand.Asm.V9 m) c v cc).trans (congrArg (fun M : GGNN.Mat 8192 2 => GGNN.softmaxRow M v cc)
    (mlp3_congr (x' := nNM m c rowF colF) (w1' := rW1 m c) (b1' := rb1 m c) (w2' := rW2 m c) (b2' := rb2 m c)
      (w3' := rW3 m c) (b3' := rb3 m c)
      (funext fun v => funext fun k => NM_at9 m c rowF colF hrow hcol v k)
      (funext fun k => funext fun j => rW1_at9 m c k j) (funext fun j => rb1_at9 m c j)
      (funext fun k => funext fun j => rW2_at9 m c k j) (funext fun j => rb2_at9 m c j)
      (funext fun k => funext fun j => rW3_at9 m c k j) (funext fun j => rb3_at9 m c j)))).trans ?_
  rfl

end Cert.KernelIdeal.KernelValue

end
-- ==== Proof.Ref.RunVal.lean ====
/-
  The reference program's run, read back in four stretches. Its operations, in order, are cut after the
  edge words (values 9, 13, 14), after the first layer's state (value 65), after the second layer's state
  (value 116) and at the end (value 159). The contents of the buffers after a concatenation of two lists
  of operations are the contents after the second list, started from the contents after the first; so each
  stretch is read on its own, from arbitrary contents that hold the earlier stages at the buffers it reads,
  and the four readings compose to: the last buffer holds the last stage of the arguments.
-/
import proofs.«136422_j72232759984373_2_alg».proof.Proof.RefReadP

set_option pp.maxSteps 5000
set_option pp.deepTerms false

noncomputable section

namespace Cert.ReferenceIdeal.RunVal

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Two one-word index vectors laid end to end (the index a scatter of one window reads). -/
def cat2 (a : (⟨S1, .i32⟩ : BufTy).Contents (Elt F)) (b : (⟨S1, .i32⟩ : BufTy).Contents (Elt F)) :
    (⟨S2, .i32⟩ : BufTy).Contents (Elt F) :=
  concatenate S2 0 [⟨S1, a⟩, ⟨S1, b⟩] concatenates_S1_S1_S2_d0

/-- Four edge-word vectors laid end to end. -/
def cat4 (u0 u1 u2 u3 : (⟨S131072, .i32⟩ : BufTy).Contents (Elt F)) : (⟨S524288, .i32⟩ : BufTy).Contents (Elt F) :=
  concatenate S524288 0 [⟨S131072, u0⟩, ⟨S131072, u1⟩, ⟨S131072, u2⟩, ⟨S131072, u3⟩] concatenates_S131072_S131072_S131072_S131072_S524288_d0

/-- Stretch 1: operations 1 to 22. -/
abbrev ops1 : List (HloOp τ sig (Elt F)) :=
  [ nullary main_cst (constant S_ .f32 0x00000000#32),
    unary main_cst main_v0 (broadcastInDim S139264x128 ![] bcast_S_S139264x128 : (⟨S_, .f32⟩ : BufTy).Contents (Elt F) → (⟨S139264x128, .f32⟩ : BufTy).Contents (Elt F)),
    nullary main_c (constantI S_ 32 8192#32),
    unary main_c main_v1 (broadcastInDim S1 ![] bcast_S_S1 : (⟨S_, .i32⟩ : BufTy).Contents (Elt F) → (⟨S1, .i32⟩ : BufTy).Contents (Elt F)),
    nullary main_c_0 (constantI S_ 32 0#32),
    unary main_c_0 main_v2 (broadcastInDim S1 ![] bcast_S_S1 : (⟨S_, .i32⟩ : BufTy).Contents (Elt F) → (⟨S1, .i32⟩ : BufTy).Contents (Elt F)),
    binary main_v1 main_v2 main_v3 (cat2 (F := F)),
    nullary main_cst_1 (constant S_ .f32 0x3F800000#32),
    unary main_cst_1 main_v4 (broadcastInDim S131072 ![] bcast_S_S131072 : (⟨S_, .f32⟩ : BufTy).Contents (Elt F) → (⟨S131072, .f32⟩ : BufTy).Contents (Elt F)),
    ternary main_v0 main_v3 main_v4 main_v5 ((fun x i u => Host.scatter scatter_S139264x128_S2_S131072_0_1_01_0 (fun _ b => b) x i u) : (⟨S139264x128, .f32⟩ : BufTy).Contents (Elt F) → (⟨S2, .i32⟩ : BufTy).Contents (Elt F) → (⟨S131072, .f32⟩ : BufTy).Contents (Elt F) → (⟨S139264x128, .f32⟩ : BufTy).Contents (Elt F)),
    nullary main_c_2 (constantI S_ 32 8192#32),
    unary main_c_2 main_v6 (broadcastInDim S1 ![] bcast_S_S1 : (⟨S_, .i32⟩ : BufTy).Contents (Elt F) → (⟨S1, .i32⟩ : BufTy).Contents (Elt F)),
    nullary main_c_3 (constantI S_ 32 1#32),
    unary main_c_3 main_v7 (broadcastInDim S1 ![] bcast_S_S1 : (⟨S_, .i32⟩ : BufTy).Contents (Elt F) → (⟨S1, .i32⟩ : BufTy).Contents (Elt F)),
    binary main_v6 main_v7 main_v8 (cat2 (F := F)),
    ternary main_v5 main_v8 main_arg0 main_v9 ((fun x i u => Host.scatter scatter_S139264x128_S2_S131072_0_1_01_0 (fun _ b => b) x i u) : (⟨S139264x128, .f32⟩ : BufTy).Contents (Elt F) → (⟨S2, .i32⟩ : BufTy).Contents (Elt F) → (⟨S131072, .f32⟩ : BufTy).Contents (Elt F) → (⟨S139264x128, .f32⟩ : BufTy).Contents (Elt F)),
    nullary main_v10 (iotaInDim S131072 32 0),
    nullary main_c_4 (constantI S_ 32 8192#32),
    unary main_c_4 main_v11 (broadcastInDim S131072 ![] bcast_S_S131072 : (⟨S_, .i32⟩ : BufTy).Contents (Elt F) → (⟨S131072, .i32⟩ : BufTy).Contents (Elt F)),
    binary main_v11 main_v10 main_v12 (addi : (⟨S131072, .i32⟩ : BufTy).Contents (Elt F) → (⟨S131072, .i32⟩ : BufTy).Contents (Elt F) → (⟨S131072, .i32⟩ : BufTy).Contents (Elt F)),
    nary ![main_v12, main_arg2, main_v12, main_arg3] main_v13 (fun u => cat4 (F := F) (u 0) (u 1) (u 2) (u 3)),
    nary ![main_arg2, main_v12, main_arg3, main_v12] main_v14 (fun u => cat4 (F := F) (u 0) (u 1) (u 2) (u 3)) ]

/-- Stretch 2: operations 23 to 81. -/
abbrev ops2 : List (HloOp τ sig (Elt F)) :=
  [ unary main_arg4 main_v15 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v15 main_v16 rfl shapeCasts_S1x128x128_S128x128,
    binary main_v9 main_v16 main_v17 ((fun l r => Host.dotGeneral dot_S139264x128_S128x128_S139264x128_1_0_0_1_n_n none l r) : (⟨S139264x128, .f32⟩ : BufTy).Contents (Elt F) → (⟨S128x128, .f32⟩ : BufTy).Contents (Elt F) → (⟨S139264x128, .f32⟩ : BufTy).Contents (Elt F)),
    nullary main_c_5 (constantI S_ 32 0#32),
    unary main_c_5 main_v18 (broadcastInDim S524288 ![] bcast_S_S524288 : (⟨S_, .i32⟩ : BufTy).Contents (Elt F) → (⟨S524288, .i32⟩ : BufTy).Contents (Elt F)),
    binary main_v13 main_v18 main_v19 (cmpi .slt : (⟨S524288, .i32⟩ : BufTy).Contents (Elt F) → (⟨S524288, .i32⟩ : BufTy).Contents (Elt F) → (⟨S524288, .i1⟩ : BufTy).Contents (Elt F)),
    nullary main_c_6 (constantI S_ 32 139264#32),
    unary main_c_6 main_v20 (broadcastInDim S524288 ![] bcast_S_S524288 : (⟨S_, .i32⟩ : BufTy).Contents (Elt F) → (⟨S524288, .i32⟩ : BufTy).Contents (Elt F)),
    binary main_v13 main_v20 main_v21 (addi : (⟨S524288, .i32⟩ : BufTy).Contents (Elt F) → (⟨S524288, .i32⟩ : BufTy).Contents (Elt F) → (⟨S524288, .i32⟩ : BufTy).Contents (Elt F)),
    ternary main_v19 main_v21 main_v13 main_v22 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v22 main_v23 (broadcastInDim S524288x1 ![0] bcast_S524288_S524288x1_0 : (⟨S524288, .i32⟩ : BufTy).Contents (Elt F) → (⟨S524288x1, .i32⟩ : BufTy).Contents (Elt F)),
    binary main_v17 main_v23 main_v24 ((fun x i => Host.gather gather_S139264x128_S524288x1_S524288x128_1_0_n_n_0_1_1128 x i) : (⟨S139264x128, .f32⟩ : BufTy).Contents (Elt F) → (⟨S524288x1, .i32⟩ : BufTy).Contents (Elt F) → (⟨S524288x128, .f32⟩ : BufTy).Contents (Elt F)),
    nullary main_cst_7 (constant S_ .f32 0x00000000#32),
    unary main_cst_7 main_v25 (broadcastInDim S139264x128 ![] bcast_S_S139264x128 : (⟨S_, .f32⟩ : BufTy).Contents (Elt F) → (⟨S139264x128, .f32⟩ : BufTy).Contents (Elt F)),
    unary main_v14 main_v26 (broadcastInDim S524288x1 ![0] bcast_S524288_S524288x1_0 : (⟨S524288, .i32⟩ : BufTy).Contents (Elt F) → (⟨S524288x1, .i32⟩ : BufTy).Contents (Elt F)),
    ternary main_v25 main_v26 main_v24 main_v27 ((fun x i u => Host.scatterAdd scatter_S139264x128_S524288x1_S524288x128_1_0_0_1 x i u) : (⟨S139264x128, .f32⟩ : BufTy).Contents (Elt F) → (⟨S524288x1, .i32⟩ : BufTy).Contents (Elt F) → (⟨S524288x128, .f32⟩ : BufTy).Contents (Elt F) → (⟨S139264x128, .f32⟩ : BufTy).Contents (Elt F)),
    unary main_arg5 main_v28 ((transpose S128x384 [1, 0] · transposes_S384x128_S128x384_1_0) : (⟨S384x128, .f32⟩ : BufTy).Contents (Elt F) → (⟨S128x384, .f32⟩ : BufTy).Contents (Elt F)),
    binary main_v27 main_v28 main_v29 ((fun l r => Host.dotGeneral dot_S139264x128_S128x384_S139264x384_1_0_0_1_n_n none l r) : (⟨S139264x128, .f32⟩ : BufTy).Contents (Elt F) → (⟨S128x384, .f32⟩ : BufTy).Contents (Elt F) → (⟨S139264x384, .f32⟩ : BufTy).Contents (Elt F)),
    unary main_arg7 main_v30 (broadcastInDim S1x384 ![1] bcast_S384_S1x384_1 : (⟨S384, .f32⟩ : BufTy).Contents (Elt F) → (⟨S1x384, .f32⟩ : BufTy).Contents (Elt F)),
    unary main_v30 main_v31 (broadcastInDim S139264x384 ![0, 1] bcast_S1x384_S139264x384_0_1 : (⟨S1x384, .f32⟩ : BufTy).Contents (Elt F) → (⟨S139264x384, .f32⟩ : BufTy).Contents (Elt F)),
    binary main_v29 main_v31 main_v32 (addf : (⟨S139264x384, .f32⟩ : BufTy).Contents (Elt F) → (⟨S139264x384, .f32⟩ : BufTy).Contents (Elt F) → (⟨S139264x384, .f32⟩ : BufTy).Contents (Elt F)),
    unary main_arg6 main_v33 ((transpose S128x384 [1, 0] · transposes_S384x128_S128x384_1_0) : (⟨S384x128, .f32⟩ : BufTy).Contents (Elt F) → (⟨S128x384, .f32⟩ : BufTy).Contents (Elt F)),
    binary main_v9 main_v33 main_v34 ((fun l r => Host.dotGeneral dot_S139264x128_S128x384_S139264x384_1_0_0_1_n_n none l r) : (⟨S139264x128, .f32⟩ : BufTy).Contents (Elt F) → (⟨S128x384, .f32⟩ : BufTy).Contents (Elt F) → (⟨S139264x384, .f32⟩ : BufTy).Contents (Elt F)),
    unary main_arg8 main_v35 (broadcastInDim S1x384 ![1] bcast_S384_S1x384_1 : (⟨S384, .f32⟩ : BufTy).Contents (Elt F) → (⟨S1x384, .f32⟩ : BufTy).Contents (Elt F)),
    unary main_v35 main_v36 (broadcastInDim S139264x384 ![0, 1] bcast_S1x384_S139264x384_0_1 : (⟨S1x384, .f32⟩ : BufTy).Contents (Elt F) → (⟨S139264x384, .f32⟩ : BufTy).Contents (Elt F)),
    binary main_v34 main_v36 main_v37 (addf : (⟨S139264x384, .f32⟩ : BufTy).Contents (Elt F) → (⟨S139264x384, .f32⟩ : BufTy).Contents (Elt F) → (⟨S139264x384, .f32⟩ : BufTy).Contents (Elt F)),
    unary main_v32 main_v38 ((extractStridedSlice S139264x128 ![0, 0] · slices_S139264x384_S139264x128_0_0) : (⟨S139264x384, .f32⟩ : BufTy).Contents (Elt F) → (⟨S139264x128, .f32⟩ : BufTy).Contents (Elt F)),
    unary main_v32 main_v39 ((extractStridedSlice S139264x128 ![0, 128] · slices_S139264x384_S139264x128_0_128) : (⟨S139264x384, .f32⟩ : BufTy).Contents (Elt F) → (⟨S139264x128, .f32⟩ : BufTy).Contents (Elt F)),
    unary main_v32 main_v40 ((extractStridedSlice S139264x128 ![0, 256] · slices_S139264x384_S139264x128_0_256) : (⟨S139264x384, .f32⟩ : BufTy).Contents (Elt F) → (⟨S139264x128, .f32⟩ : BufTy).Contents (Elt F)),
    unary main_v37 main_v41 ((extractStridedSlice S139264x128 ![0, 0] · slices_S139264x384_S139264x128_0_0) : (⟨S139264x384, .f32⟩ : BufTy).Contents (Elt F) → (⟨S139264x128, .f32⟩ : BufTy).Contents (Elt F)),
    unary main_v37 main_v42 ((extractStridedSlice S139264x128 ![0, 128] · slices_S139264x384_S139264x128_0_128) : (⟨S139264x384, .f32⟩ : BufTy).Contents (Elt F) → (⟨S139264x128, .f32⟩ : BufTy).Contents (Elt F)),
    unary main_v37 main_v43 ((extractStridedSlice S139264x128 ![0, 256] · slices_S139264x384_S139264x128_0_256) : (⟨S139264x384, .f32⟩ : BufTy).Contents (Elt F) → (⟨S139264x128, .f32⟩ : BufTy).Contents (Elt F)),
    binary main_v38 main_v41 main_v44 (addf : (⟨S139264x128, .f32⟩ : BufTy).Contents (Elt F) → (⟨S139264x128, .f32⟩ : BufTy).Contents (Elt F) → (⟨S139264x128, .f32⟩ : BufTy).Contents (Elt F)),
    unary main_v44 main_v45 (Host.negf : (⟨S139264x128, .f32⟩ : BufTy).Contents (Elt F) → (⟨S139264x128, .f32⟩ : BufTy).Contents (Elt F)),
    unary main_v45 main_v46 (Host.exp : (⟨S139264x128, .f32⟩ : BufTy).Contents (Elt F) → (⟨S139264x128, .f32⟩ : BufTy).Contents (Elt F)),
    nullary main_cst_8 (constant S_ .f32 0x3F800000#32),
    unary main_cst_8 main_v47 (broadcastInDim S139264x128 ![] bcast_S_S139264x128 : (⟨S_, .f32⟩ : BufTy).Contents (Elt F) → (⟨S139264x128, .f32⟩ : BufTy).Contents (Elt F)),
    binary main_v47 main_v46 main_v48 (addf : (⟨S139264x128, .f32⟩ : BufTy).Contents (Elt F) → (⟨S139264x128, .f32⟩ : BufTy).Contents (Elt F) → (⟨S139264x128, .f32⟩ : BufTy).Contents (Elt F)),
    nullary main_cst_9 (constant S_ .f32 0x3F800000#32),
    unary main_cst_9 main_v49 (broadcastInDim S139264x128 ![] bcast_S_S139264x128 : (⟨S_, .f32⟩ : BufTy).Contents (Elt F) → (⟨S139264x128, .f32⟩ : BufTy).Contents (Elt F)),
    binary main_v49 main_v48 main_v50 (Host.divf : (⟨S139264x128, .f32⟩ : BufTy).Contents (Elt F) → (⟨S139264x128, .f32⟩ : BufTy).Contents (Elt F) → (⟨S139264x128, .f32⟩ : BufTy).Contents (Elt F)),
    binary main_v39 main_v42 main_v51 (addf : (⟨S139264x128, .f32⟩ : BufTy).Contents (Elt F) → (⟨S139264x128, .f32⟩ : BufTy).Contents (Elt F) → (⟨S139264x128, .f32⟩ : BufTy).Contents (Elt F)),
    unary main_v51 main_v52 (Host.negf : (⟨S139264x128, .f32⟩ : BufTy).Contents (Elt F) → (⟨S139264x128, .f32⟩ : BufTy).Contents (Elt F)),
    unary main_v52 main_v53 (Host.exp : (⟨S139264x128, .f32⟩ : BufTy).Contents (Elt F) → (⟨S139264x128, .f32⟩ : BufTy).Contents (Elt F)),
    nullary main_cst_10 (constant S_ .f32 0x3F800000#32),
    unary main_cst_10 main_v54 (broadcastInDim S139264x128 ![] bcast_S_S139264x128 : (⟨S_, .f32⟩ : BufTy).Contents (Elt F) → (⟨S139264x128, .f32⟩ : BufTy).Contents (Elt F)),
    binary main_v54 main_v53 main_v55 (addf : (⟨S139264x128, .f32⟩ : BufTy).Contents (Elt F) → (⟨S139264x128, .f32⟩ : BufTy).Contents (Elt F) → (⟨S139264x128, .f32⟩ : BufTy).Contents (Elt F)),
    nullary main_cst_11 (constant S_ .f32 0x3F800000#32),
    unary main_cst_11 main_v56 (broadcastInDim S139264x128 ![] bcast_S_S139264x128 : (⟨S_, .f32⟩ : BufTy).Contents (Elt F) → (⟨S139264x128, .f32⟩ : BufTy).Contents (Elt F)),
    binary main_v56 main_v55 main_v57 (Host.divf : (⟨S139264x128, .f32⟩ : BufTy).Contents (Elt F) → (⟨S139264x128, .f32⟩ : BufTy).Contents (Elt F) → (⟨S139264x128, .f32⟩ : BufTy).Contents (Elt F)),
    binary main_v50 main_v43 main_v58 (mulf : (⟨S139264x128, .f32⟩ : BufTy).Contents (Elt F) → (⟨S139264x128, .f32⟩ : BufTy).Contents (Elt F) → (⟨S139264x128, .f32⟩ : BufTy).Contents (Elt F)),
    binary main_v40 main_v58 main_v59 (addf : (⟨S139264x128, .f32⟩ : BufTy).Contents (Elt F) → (⟨S139264x128, .f32⟩ : BufTy).Contents (Elt F) → (⟨S139264x128, .f32⟩ : BufTy).Contents (Elt F)),
    unary main_v59 main_v60 (Host.tanh : (⟨S139264x128, .f32⟩ : BufTy).Contents (Elt F) → (⟨S139264x128, .f32⟩ : BufTy).Contents (Elt F)),
    nullary main_cst_12 (constant S_ .f32 0x3F800000#32),
    unary main_cst_12 main_v61 (broadcastInDim S139264x128 ![] bcast_S_S139264x128 : (⟨S_, .f32⟩ : BufTy).Contents (Elt F) → (⟨S139264x128, .f32⟩ : BufTy).Contents (Elt F)),
    binary main_v61 main_v57 main_v62 (subf : (⟨S139264x128, .f32⟩ : BufTy).Contents (Elt F) → (⟨S139264x128, .f32⟩ : BufTy).Contents (Elt F) → (⟨S139264x128, .f32⟩ : BufTy).Contents (Elt F)),
    binary main_v62 main_v60 main_v63 (mulf : (⟨S139264x128, .f32⟩ : BufTy).Contents (Elt F) → (⟨S139264x128, .f32⟩ : BufTy).Contents (Elt F) → (⟨S139264x128, .f32⟩ : BufTy).Contents (Elt F)),
    binary main_v57 main_v9 main_v64 (mulf : (⟨S139264x128, .f32⟩ : BufTy).Contents (Elt F) → (⟨S139264x128, .f32⟩ : BufTy).Contents (Elt F) → (⟨S139264x128, .f32⟩ : BufTy).Contents (Elt F)),
    binary main_v63 main_v64 main_v65 (addf : (⟨S139264x128, .f32⟩ : BufTy).Contents (Elt F) → (⟨S139264x128, .f32⟩ : BufTy).Contents (Elt F) → (⟨S139264x128, .f32⟩ : BufTy).Contents (Elt F)) ]

/-- Stretch 3: operations 82 to 140. -/
abbrev ops3 : List (HloOp τ sig (Elt F)) :=
  [ unary main_arg4 main_v66 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S139264x128_S128x128_S139264x128_1_0_0_1_n_n none l r) : (⟨S139264x128, .f32⟩ : BufTy).Contents (Elt F) → (⟨S128x128, .f32⟩ : BufTy).Contents (Elt F) → (⟨S139264x128, .f32⟩ : BufTy).Contents (Elt F)),
    nullary main_c_13 (constantI S_ 32 0#32),
    unary main_c_13 main_v69 (broadcastInDim S524288 ![] bcast_S_S524288 : (⟨S_, .i32⟩ : BufTy).Contents (Elt F) → (⟨S524288, .i32⟩ : BufTy).Contents (Elt F)),
    binary main_v13 main_v69 main_v70 (cmpi .slt : (⟨S524288, .i32⟩ : BufTy).Contents (Elt F) → (⟨S524288, .i32⟩ : BufTy).Contents (Elt F) → (⟨S524288, .i1⟩ : BufTy).Contents (Elt F)),
    nullary main_c_14 (constantI S_ 32 139264#32),
    unary main_c_14 main_v71 (broadcastInDim S524288 ![] bcast_S_S524288 : (⟨S_, .i32⟩ : BufTy).Contents (Elt F) → (⟨S524288, .i32⟩ : BufTy).Contents (Elt F)),
    binary main_v13 main_v71 main_v72 (addi : (⟨S524288, .i32⟩ : BufTy).Contents (Elt F) → (⟨S524288, .i32⟩ : BufTy).Contents (Elt F) → (⟨S524288, .i32⟩ : BufTy).Contents (Elt F)),
    ternary main_v70 main_v72 main_v13 main_v73 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v73 main_v74 (broadcastInDim S524288x1 ![0] bcast_S524288_S524288x1_0 : (⟨S524288, .i32⟩ : BufTy).Contents (Elt F) → (⟨S524288x1, .i32⟩ : BufTy).Contents (Elt F)),
    binary main_v68 main_v74 main_v75 ((fun x i => Host.gather gather_S139264x128_S524288x1_S524288x128_1_0_n_n_0_1_1128 x i) : (⟨S139264x128, .f32⟩ : BufTy).Contents (Elt F) → (⟨S524288x1, .i32⟩ : BufTy).Contents (Elt F) → (⟨S524288x128, .f32⟩ : BufTy).Contents (Elt F)),
    nullary main_cst_15 (constant S_ .f32 0x00000000#32),
    unary main_cst_15 main_v76 (broadcastInDim S139264x128 ![] bcast_S_S139264x128 : (⟨S_, .f32⟩ : BufTy).Contents (Elt F) → (⟨S139264x128, .f32⟩ : BufTy).Contents (Elt F)),
    unary main_v14 main_v77 (broadcastInDim S524288x1 ![0] bcast_S524288_S524288x1_0 : (⟨S524288, .i32⟩ : BufTy).Contents (Elt F) → (⟨S524288x1, .i32⟩ : BufTy).Contents (Elt F)),
    ternary main_v76 main_v77 main_v75 main_v78 ((fun x i u => Host.scatterAdd scatter_S139264x128_S524288x1_S524288x128_1_0_0_1 x i u) : (⟨S139264x128, .f32⟩ : BufTy).Contents (Elt F) → (⟨S524288x1, .i32⟩ : BufTy).Contents (Elt F) → (⟨S524288x128, .f32⟩ : BufTy).Contents (Elt F) → (⟨S139264x128, .f32⟩ : BufTy).Contents (Elt F)),
    unary main_arg5 main_v79 ((transpose S128x384 [1, 0] · transposes_S384x128_S128x384_1_0) : (⟨S384x128, .f32⟩ : BufTy).Contents (Elt F) → (⟨S128x384, .f32⟩ : BufTy).Contents (Elt F)),
    binary main_v78 main_v79 main_v80 ((fun l r => Host.dotGeneral dot_S139264x128_S128x384_S139264x384_1_0_0_1_n_n none l r) : (⟨S139264x128, .f32⟩ : BufTy).Contents (Elt F) → (⟨S128x384, .f32⟩ : BufTy).Contents (Elt F) → (⟨S139264x384, .f32⟩ : BufTy).Contents (Elt F)),
    unary main_arg7 main_v81 (broadcastInDim S1x384 ![1] bcast_S384_S1x384_1 : (⟨S384, .f32⟩ : BufTy).Contents (Elt F) → (⟨S1x384, .f32⟩ : BufTy).Contents (Elt F)),
    unary main_v81 main_v82 (broadcastInDim S139264x384 ![0, 1] bcast_S1x384_S139264x384_0_1 : (⟨S1x384, .f32⟩ : BufTy).Contents (Elt F) → (⟨S139264x384, .f32⟩ : BufTy).Contents (Elt F)),
    binary main_v80 main_v82 main_v83 (addf : (⟨S139264x384, .f32⟩ : BufTy).Contents (Elt F) → (⟨S139264x384, .f32⟩ : BufTy).Contents (Elt F) → (⟨S139264x384, .f32⟩ : BufTy).Contents (Elt F)),
    unary main_arg6 main_v84 ((transpose S128x384 [1, 0] · transposes_S384x128_S128x384_1_0) : (⟨S384x128, .f32⟩ : BufTy).Contents (Elt F) → (⟨S128x384, .f32⟩ : BufTy).Contents (Elt F)),
    binary main_v65 main_v84 main_v85 ((fun l r => Host.dotGeneral dot_S139264x128_S128x384_S139264x384_1_0_0_1_n_n none l r) : (⟨S139264x128, .f32⟩ : BufTy).Contents (Elt F) → (⟨S128x384, .f32⟩ : BufTy).Contents (Elt F) → (⟨S139264x384, .f32⟩ : BufTy).Contents (Elt F)),
    unary main_arg8 main_v86 (broadcastInDim S1x384 ![1] bcast_S384_S1x384_1 : (⟨S384, .f32⟩ : BufTy).Contents (Elt F) → (⟨S1x384, .f32⟩ : BufTy).Contents (Elt F)),
    unary main_v86 main_v87 (broadcastInDim S139264x384 ![0, 1] bcast_S1x384_S139264x384_0_1 : (⟨S1x384, .f32⟩ : BufTy).Contents (Elt F) → (⟨S139264x384, .f32⟩ : BufTy).Contents (Elt F)),
    binary main_v85 main_v87 main_v88 (addf : (⟨S139264x384, .f32⟩ : BufTy).Contents (Elt F) → (⟨S139264x384, .f32⟩ : BufTy).Contents (Elt F) → (⟨S139264x384, .f32⟩ : BufTy).Contents (Elt F)),
    unary main_v83 main_v89 ((extractStridedSlice S139264x128 ![0, 0] · slices_S139264x384_S139264x128_0_0) : (⟨S139264x384, .f32⟩ : BufTy).Contents (Elt F) → (⟨S139264x128, .f32⟩ : BufTy).Contents (Elt F)),
    unary main_v83 main_v90 ((extractStridedSlice S139264x128 ![0, 128] · slices_S139264x384_S139264x128_0_128) : (⟨S139264x384, .f32⟩ : BufTy).Contents (Elt F) → (⟨S139264x128, .f32⟩ : BufTy).Contents (Elt F)),
    unary main_v83 main_v91 ((extractStridedSlice S139264x128 ![0, 256] · slices_S139264x384_S139264x128_0_256) : (⟨S139264x384, .f32⟩ : BufTy).Contents (Elt F) → (⟨S139264x128, .f32⟩ : BufTy).Contents (Elt F)),
    unary main_v88 main_v92 ((extractStridedSlice S139264x128 ![0, 0] · slices_S139264x384_S139264x128_0_0) : (⟨S139264x384, .f32⟩ : BufTy).Contents (Elt F) → (⟨S139264x128, .f32⟩ : BufTy).Contents (Elt F)),
    unary main_v88 main_v93 ((extractStridedSlice S139264x128 ![0, 128] · slices_S139264x384_S139264x128_0_128) : (⟨S139264x384, .f32⟩ : BufTy).Contents (Elt F) → (⟨S139264x128, .f32⟩ : BufTy).Contents (Elt F)),
    unary main_v88 main_v94 ((extractStridedSlice S139264x128 ![0, 256] · slices_S139264x384_S139264x128_0_256) : (⟨S139264x384, .f32⟩ : BufTy).Contents (Elt F) → (⟨S139264x128, .f32⟩ : BufTy).Contents (Elt F)),
    binary main_v89 main_v92 main_v95 (addf : (⟨S139264x128, .f32⟩ : BufTy).Contents (Elt F) → (⟨S139264x128, .f32⟩ : BufTy).Contents (Elt F) → (⟨S139264x128, .f32⟩ : BufTy).Contents (Elt F)),
    unary main_v95 main_v96 (Host.negf : (⟨S139264x128, .f32⟩ : BufTy).Contents (Elt F) → (⟨S139264x128, .f32⟩ : BufTy).Contents (Elt F)),
    unary main_v96 main_v97 (Host.exp : (⟨S139264x128, .f32⟩ : BufTy).Contents (Elt F) → (⟨S139264x128, .f32⟩ : BufTy).Contents (Elt F)),
    nullary main_cst_16 (constant S_ .f32 0x3F800000#32),
    unary main_cst_16 main_v98 (broadcastInDim S139264x128 ![] bcast_S_S139264x128 : (⟨S_, .f32⟩ : BufTy).Contents (Elt F) → (⟨S139264x128, .f32⟩ : BufTy).Contents (Elt F)),
    binary main_v98 main_v97 main_v99 (addf : (⟨S139264x128, .f32⟩ : BufTy).Contents (Elt F) → (⟨S139264x128, .f32⟩ : BufTy).Contents (Elt F) → (⟨S139264x128, .f32⟩ : BufTy).Contents (Elt F)),
    nullary main_cst_17 (constant S_ .f32 0x3F800000#32),
    unary main_cst_17 main_v100 (broadcastInDim S139264x128 ![] bcast_S_S139264x128 : (⟨S_, .f32⟩ : BufTy).Contents (Elt F) → (⟨S139264x128, .f32⟩ : BufTy).Contents (Elt F)),
    binary main_v100 main_v99 main_v101 (Host.divf : (⟨S139264x128, .f32⟩ : BufTy).Contents (Elt F) → (⟨S139264x128, .f32⟩ : BufTy).Contents (Elt F) → (⟨S139264x128, .f32⟩ : BufTy).Contents (Elt F)),
    binary main_v90 main_v93 main_v102 (addf : (⟨S139264x128, .f32⟩ : BufTy).Contents (Elt F) → (⟨S139264x128, .f32⟩ : BufTy).Contents (Elt F) → (⟨S139264x128, .f32⟩ : BufTy).Contents (Elt F)),
    unary main_v102 main_v103 (Host.negf : (⟨S139264x128, .f32⟩ : BufTy).Contents (Elt F) → (⟨S139264x128, .f32⟩ : BufTy).Contents (Elt F)),
    unary main_v103 main_v104 (Host.exp : (⟨S139264x128, .f32⟩ : BufTy).Contents (Elt F) → (⟨S139264x128, .f32⟩ : BufTy).Contents (Elt F)),
    nullary main_cst_18 (constant S_ .f32 0x3F800000#32),
    unary main_cst_18 main_v105 (broadcastInDim S139264x128 ![] bcast_S_S139264x128 : (⟨S_, .f32⟩ : BufTy).Contents (Elt F) → (⟨S139264x128, .f32⟩ : BufTy).Contents (Elt F)),
    binary main_v105 main_v104 main_v106 (addf : (⟨S139264x128, .f32⟩ : BufTy).Contents (Elt F) → (⟨S139264x128, .f32⟩ : BufTy).Contents (Elt F) → (⟨S139264x128, .f32⟩ : BufTy).Contents (Elt F)),
    nullary main_cst_19 (constant S_ .f32 0x3F800000#32),
    unary main_cst_19 main_v107 (broadcastInDim S139264x128 ![] bcast_S_S139264x128 : (⟨S_, .f32⟩ : BufTy).Contents (Elt F) → (⟨S139264x128, .f32⟩ : BufTy).Contents (Elt F)),
    binary main_v107 main_v106 main_v108 (Host.divf : (⟨S139264x128, .f32⟩ : BufTy).Contents (Elt F) → (⟨S139264x128, .f32⟩ : BufTy).Contents (Elt F) → (⟨S139264x128, .f32⟩ : BufTy).Contents (Elt F)),
    binary main_v101 main_v94 main_v109 (mulf : (⟨S139264x128, .f32⟩ : BufTy).Contents (Elt F) → (⟨S139264x128, .f32⟩ : BufTy).Contents (Elt F) → (⟨S139264x128, .f32⟩ : BufTy).Contents (Elt F)),
    binary main_v91 main_v109 main_v110 (addf : (⟨S139264x128, .f32⟩ : BufTy).Contents (Elt F) → (⟨S139264x128, .f32⟩ : BufTy).Contents (Elt F) → (⟨S139264x128, .f32⟩ : BufTy).Contents (Elt F)),
    unary main_v110 main_v111 (Host.tanh : (⟨S139264x128, .f32⟩ : BufTy).Contents (Elt F) → (⟨S139264x128, .f32⟩ : BufTy).Contents (Elt F)),
    nullary main_cst_20 (constant S_ .f32 0x3F800000#32),
    unary main_cst_20 main_v112 (broadcastInDim S139264x128 ![] bcast_S_S139264x128 : (⟨S_, .f32⟩ : BufTy).Contents (Elt F) → (⟨S139264x128, .f32⟩ : BufTy).Contents (Elt F)),
    binary main_v112 main_v108 main_v113 (subf : (⟨S139264x128, .f32⟩ : BufTy).Contents (Elt F) → (⟨S139264x128, .f32⟩ : BufTy).Contents (Elt F) → (⟨S139264x128, .f32⟩ : BufTy).Contents (Elt F)),
    binary main_v113 main_v111 main_v114 (mulf : (⟨S139264x128, .f32⟩ : BufTy).Contents (Elt F) → (⟨S139264x128, .f32⟩ : BufTy).Contents (Elt F) → (⟨S139264x128, .f32⟩ : BufTy).Contents (Elt F)),
    binary main_v108 main_v65 main_v115 (mulf : (⟨S139264x128, .f32⟩ : BufTy).Contents (Elt F) → (⟨S139264x128, .f32⟩ : BufTy).Contents (Elt F) → (⟨S139264x128, .f32⟩ : BufTy).Contents (Elt F)),
    binary main_v114 main_v115 main_v116 (addf : (⟨S139264x128, .f32⟩ : BufTy).Contents (Elt F) → (⟨S139264x128, .f32⟩ : BufTy).Contents (Elt F) → (⟨S139264x128, .f32⟩ : BufTy).Contents (Elt F)) ]

/-- Stretch 4: operations 141 to 195. -/
abbrev ops4 : List (HloOp τ sig (Elt F)) :=
  [ unary main_v116 main_v117 ((extractStridedSlice S131072x128 ![8192, 0] · slices_S139264x128_S131072x128_8192_0) : (⟨S139264x128, .f32⟩ : BufTy).Contents (Elt F) → (⟨S131072x128, .f32⟩ : BufTy).Contents (Elt F)),
    binary main_v117 main_arg9 main_v118 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    unary main_arg10 main_v119 (broadcastInDim S1x128 ![1] bcast_S128_S1x128_1 : (⟨S128, .f32⟩ : BufTy).Contents (Elt F) → (⟨S1x128, .f32⟩ : BufTy).Contents (Elt F)),
    unary main_v119 main_v120 (broadcastInDim S131072x128 ![0, 1] bcast_S1x128_S131072x128_0_1 : (⟨S1x128, .f32⟩ : BufTy).Contents (Elt F) → (⟨S131072x128, .f32⟩ : BufTy).Contents (Elt F)),
    binary main_v118 main_v120 main_v121 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x128, .f32⟩) main_call0_v0) (broadcastInDim S131072x128 ![] bcast_S_S131072x128),
    TRef.binary (TRef.of (T := ⟨S131072x128, .f32⟩) main_v121) (TRef.of (T := ⟨S131072x128, .f32⟩) main_call0_v0) (TRef.of (T := ⟨S131072x128, .f32⟩) main_v122) maximumf,
    binary main_v122 main_arg11 main_v123 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    unary main_arg12 main_v124 (broadcastInDim S1x128 ![1] bcast_S128_S1x128_1 : (⟨S128, .f32⟩ : BufTy).Contents (Elt F) → (⟨S1x128, .f32⟩ : BufTy).Contents (Elt F)),
    unary main_v124 main_v125 (broadcastInDim S131072x128 ![0, 1] bcast_S1x128_S131072x128_0_1 : (⟨S1x128, .f32⟩ : BufTy).Contents (Elt F) → (⟨S131072x128, .f32⟩ : BufTy).Contents (Elt F)),
    binary main_v123 main_v125 main_v126 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x128, .f32⟩) main_call1_v0) (broadcastInDim S131072x128 ![] bcast_S_S131072x128),
    TRef.binary (TRef.of (T := ⟨S131072x128, .f32⟩) main_v126) (TRef.of (T := ⟨S131072x128, .f32⟩) main_call1_v0) (TRef.of (T := ⟨S131072x128, .f32⟩) main_v127) maximumf,
    binary main_v127 main_arg13 main_v128 ((fun l r => Host.dotGeneral dot_S131072x128_S128x64_S131072x64_1_0_0_1_n_n none l r) : (⟨S131072x128, .f32⟩ : BufTy).Contents (Elt F) → (⟨S128x64, .f32⟩ : BufTy).Contents (Elt F) → (⟨S131072x64, .f32⟩ : BufTy).Contents (Elt F)),
    unary main_arg14 main_v129 (broadcastInDim S1x64 ![1] bcast_S64_S1x64_1 : (⟨S64, .f32⟩ : BufTy).Contents (Elt F) → (⟨S1x64, .f32⟩ : BufTy).Contents (Elt F)),
    unary main_v129 main_v130 (broadcastInDim S131072x64 ![0, 1] bcast_S1x64_S131072x64_0_1 : (⟨S1x64, .f32⟩ : BufTy).Contents (Elt F) → (⟨S131072x64, .f32⟩ : BufTy).Contents (Elt F)),
    binary main_v128 main_v130 main_v131 (addf : (⟨S131072x64, .f32⟩ : BufTy).Contents (Elt F) → (⟨S131072x64, .f32⟩ : BufTy).Contents (Elt F) → (⟨S131072x64, .f32⟩ : BufTy).Contents (Elt F)),
    nullary main_cst_21 (constant S_ .f32 0x00000000#32),
    unary main_cst_21 main_v132 (broadcastInDim S8192x64 ![] bcast_S_S8192x64 : (⟨S_, .f32⟩ : BufTy).Contents (Elt F) → (⟨S8192x64, .f32⟩ : BufTy).Contents (Elt F)),
    unary main_arg2 main_v133 (broadcastInDim S131072x1 ![0] bcast_S131072_S131072x1_0 : (⟨S131072, .i32⟩ : BufTy).Contents (Elt F) → (⟨S131072x1, .i32⟩ : BufTy).Contents (Elt F)),
    ternary main_v132 main_v133 main_v131 main_v134 ((fun x i u => Host.scatterAdd scatter_S8192x64_S131072x1_S131072x64_1_0_0_1 x i u) : (⟨S8192x64, .f32⟩ : BufTy).Contents (Elt F) → (⟨S131072x1, .i32⟩ : BufTy).Contents (Elt F) → (⟨S131072x64, .f32⟩ : BufTy).Contents (Elt F) → (⟨S8192x64, .f32⟩ : BufTy).Contents (Elt F)),
    binary main_v134 main_arg15 main_v135 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    unary main_arg16 main_v136 (broadcastInDim S1x128 ![1] bcast_S128_S1x128_1 : (⟨S128, .f32⟩ : BufTy).Contents (Elt F) → (⟨S1x128, .f32⟩ : BufTy).Contents (Elt F)),
    unary main_v136 main_v137 (broadcastInDim S8192x128 ![0, 1] bcast_S1x128_S8192x128_0_1 : (⟨S1x128, .f32⟩ : BufTy).Contents (Elt F) → (⟨S8192x128, .f32⟩ : BufTy).Contents (Elt F)),
    binary main_v135 main_v137 main_v138 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x128, .f32⟩) main_call2_v0) (broadcastInDim S8192x128 ![] bcast_S_S8192x128),
    TRef.binary (TRef.of (T := ⟨S8192x128, .f32⟩) main_v138) (TRef.of (T := ⟨S8192x128, .f32⟩) main_call2_v0) (TRef.of (T := ⟨S8192x128, .f32⟩) main_v139) maximumf,
    binary main_v139 main_arg17 main_v140 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg18 main_v141 (broadcastInDim S1x128 ![1] bcast_S128_S1x128_1 : (⟨S128, .f32⟩ : BufTy).Contents (Elt F) → (⟨S1x128, .f32⟩ : BufTy).Contents (Elt F)),
    unary main_v141 main_v142 (broadcastInDim S8192x128 ![0, 1] bcast_S1x128_S8192x128_0_1 : (⟨S1x128, .f32⟩ : BufTy).Contents (Elt F) → (⟨S8192x128, .f32⟩ : BufTy).Contents (Elt F)),
    binary main_v140 main_v142 main_v143 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x128, .f32⟩) main_call3_v0) (broadcastInDim S8192x128 ![] bcast_S_S8192x128),
    TRef.binary (TRef.of (T := ⟨S8192x128, .f32⟩) main_v143) (TRef.of (T := ⟨S8192x128, .f32⟩) main_call3_v0) (TRef.of (T := ⟨S8192x128, .f32⟩) main_v144) maximumf,
    binary main_v144 main_arg19 main_v145 ((fun l r => Host.dotGeneral dot_S8192x128_S128x2_S8192x2_1_0_0_1_n_n none l r) : (⟨S8192x128, .f32⟩ : BufTy).Contents (Elt F) → (⟨S128x2, .f32⟩ : BufTy).Contents (Elt F) → (⟨S8192x2, .f32⟩ : BufTy).Contents (Elt F)),
    unary main_arg20 main_v146 (broadcastInDim S1x2 ![1] bcast_S2_S1x2_1 : (⟨S2, .f32⟩ : BufTy).Contents (Elt F) → (⟨S1x2, .f32⟩ : BufTy).Contents (Elt F)),
    unary main_v146 main_v147 (broadcastInDim S8192x2 ![0, 1] bcast_S1x2_S8192x2_0_1 : (⟨S1x2, .f32⟩ : BufTy).Contents (Elt F) → (⟨S8192x2, .f32⟩ : BufTy).Contents (Elt F)),
    binary main_v145 main_v147 main_v148 (addf : (⟨S8192x2, .f32⟩ : BufTy).Contents (Elt F) → (⟨S8192x2, .f32⟩ : BufTy).Contents (Elt F) → (⟨S8192x2, .f32⟩ : BufTy).Contents (Elt F)),
    nullary main_cst_22 (constant S_ .f32 0xFF800000#32),
    binary main_v148 main_cst_22 main_v149 ((fun x v => Host.reduce FloatOps.maximumf x v reducesTo_S8192x2_S8192_d1 h_S_) : (⟨S8192x2, .f32⟩ : BufTy).Contents (Elt F) → (⟨S_, .f32⟩ : BufTy).Contents (Elt F) → (⟨S8192, .f32⟩ : BufTy).Contents (Elt F)),
    nullary main_cst_23 (constant S_ .f32 0xFF800000#32),
    unary main_cst_23 main_v150 (broadcastInDim S8192 ![] bcast_S_S8192 : (⟨S_, .f32⟩ : BufTy).Contents (Elt F) → (⟨S8192, .f32⟩ : BufTy).Contents (Elt F)),
    binary main_v150 main_v149 main_v151 (maximumf : (⟨S8192, .f32⟩ : BufTy).Contents (Elt F) → (⟨S8192, .f32⟩ : BufTy).Contents (Elt F) → (⟨S8192, .f32⟩ : BufTy).Contents (Elt F)),
    unary main_v151 main_v152 (broadcastInDim S8192x1 ![0] bcast_S8192_S8192x1_0 : (⟨S8192, .f32⟩ : BufTy).Contents (Elt F) → (⟨S8192x1, .f32⟩ : BufTy).Contents (Elt F)),
    unary main_v152 main_v153 (broadcastInDim S8192x2 ![0, 1] bcast_S8192x1_S8192x2_0_1 : (⟨S8192x1, .f32⟩ : BufTy).Contents (Elt F) → (⟨S8192x2, .f32⟩ : BufTy).Contents (Elt F)),
    binary main_v148 main_v153 main_v154 (subf : (⟨S8192x2, .f32⟩ : BufTy).Contents (Elt F) → (⟨S8192x2, .f32⟩ : BufTy).Contents (Elt F) → (⟨S8192x2, .f32⟩ : BufTy).Contents (Elt F)),
    unary main_v154 main_v155 (Host.exp : (⟨S8192x2, .f32⟩ : BufTy).Contents (Elt F) → (⟨S8192x2, .f32⟩ : BufTy).Contents (Elt F)),
    nullary main_cst_24 (constant S_ .f32 0x00000000#32),
    binary main_v155 main_cst_24 main_v156 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v156 main_v157 (broadcastInDim S8192x1 ![0] bcast_S8192_S8192x1_0 : (⟨S8192, .f32⟩ : BufTy).Contents (Elt F) → (⟨S8192x1, .f32⟩ : BufTy).Contents (Elt F)),
    unary main_v157 main_v158 (broadcastInDim S8192x2 ![0, 1] bcast_S8192x1_S8192x2_0_1 : (⟨S8192x1, .f32⟩ : BufTy).Contents (Elt F) → (⟨S8192x2, .f32⟩ : BufTy).Contents (Elt F)),
    binary main_v155 main_v158 main_v159 (Host.divf : (⟨S8192x2, .f32⟩ : BufTy).Contents (Elt F) → (⟨S8192x2, .f32⟩ : BufTy).Contents (Elt F) → (⟨S8192x2, .f32⟩ : BufTy).Contents (Elt F)) ]

set_option maxRecDepth 8192 in
set_option maxHeartbeats 4000000 in
/-- The program's operations are the four stretches in order. -/
theorem ops_eq : (ops : List (HloOp τ sig (Elt F))) = ops1 ++ ops2 ++ ops3 ++ ops4 := rfl

/-- The buffers stretch 1 writes. -/
abbrev ops1_W : List (Ref sig .tc) := [main_cst, main_v0, main_c, main_v1, main_c_0, main_v2, main_v3, main_cst_1, main_v4, main_v5, main_c_2, main_v6, main_c_3, main_v7, main_v8, main_v9, main_v10, main_c_4, main_v11, main_v12, main_v13, main_v14]
set_option maxRecDepth 8192 in
set_option maxHeartbeats 4000000 in
theorem ops1_writes : (ops1 : List (HloOp τ sig (Elt F))).Forall fun op => op.writes ⊆ (ops1_W.map (Proc.devRef (τ := τ) .tc)).toFinset := by
  simp only [ops1, List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer stretch 1 does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- The buffers stretch 2 writes. -/
abbrev ops2_W : List (Ref sig .tc) := [main_v15, main_v16, main_v17, main_c_5, main_v18, main_v19, main_c_6, main_v20, main_v21, main_v22, main_v23, main_v24, main_cst_7, main_v25, main_v26, main_v27, main_v28, main_v29, main_v30, main_v31, main_v32, main_v33, main_v34, main_v35, main_v36, main_v37, main_v38, main_v39, main_v40, main_v41, main_v42, main_v43, main_v44, main_v45, main_v46, main_cst_8, main_v47, main_v48, main_cst_9, main_v49, main_v50, main_v51, main_v52, main_v53, main_cst_10, main_v54, main_v55, main_cst_11, main_v56, main_v57, main_v58, main_v59, main_v60, main_cst_12, main_v61, main_v62, main_v63, main_v64, main_v65]
set_option maxRecDepth 8192 in
set_option maxHeartbeats 4000000 in
theorem ops2_writes : (ops2 : List (HloOp τ sig (Elt F))).Forall fun op => op.writes ⊆ (ops2_W.map (Proc.devRef (τ := τ) .tc)).toFinset := by
  simp only [ops2, List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer stretch 2 does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- The buffers stretch 3 writes. -/
abbrev ops3_W : List (Ref sig .tc) := [main_v66, main_v67, main_v68, main_c_13, main_v69, main_v70, main_c_14, main_v71, main_v72, main_v73, main_v74, main_v75, main_cst_15, main_v76, main_v77, main_v78, main_v79, main_v80, main_v81, main_v82, main_v83, main_v84, main_v85, main_v86, main_v87, main_v88, main_v89, main_v90, main_v91, main_v92, main_v93, main_v94, main_v95, main_v96, main_v97, main_cst_16, main_v98, main_v99, main_cst_17, main_v100, main_v101, main_v102, main_v103, main_v104, main_cst_18, main_v105, main_v106, main_cst_19, main_v107, main_v108, main_v109, main_v110, main_v111, main_cst_20, main_v112, main_v113, main_v114, main_v115, main_v116]
set_option maxRecDepth 8192 in
set_option maxHeartbeats 4000000 in
theorem ops3_writes : (ops3 : List (HloOp τ sig (Elt F))).Forall fun op => op.writes ⊆ (ops3_W.map (Proc.devRef (τ := τ) .tc)).toFinset := by
  simp only [ops3, List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer stretch 3 does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-! ## Stretch 1: the initial state and the edge words -/

set_option maxRecDepth 8192 in
set_option maxHeartbeats 4000000 in
theorem s1_v9 (V : Valuation τ sig (Elt F)) (x0 : (⟨S131072, .f32⟩ : BufTy).Contents (Elt F)) (h0 : V (Proc.devRef .tc main_arg0) = x0) :
    after ops1 V (Proc.devRef .tc main_v9) = val_main_v9 (F := F) x0 := by
  simp only [ops1]
  after_results_simp
  rw [h0]
  rfl

set_option maxRecDepth 8192 in
set_option maxHeartbeats 4000000 in
theorem s1_v13 (V : Valuation τ sig (Elt F)) (x2 : (⟨S131072, .i32⟩ : BufTy).Contents (Elt F)) (x3 : (⟨S131072, .i32⟩ : BufTy).Contents (Elt F)) (h2 : V (Proc.devRef .tc main_arg2) = x2) (h3 : V (Proc.devRef .tc main_arg3) = x3) :
    after ops1 V (Proc.devRef .tc main_v13) = val_main_v13 (F := F) x2 x3 := by
  simp only [ops1]
  after_results_simp
  try dsimp only [Matrix.cons_val]
  try after_results_simp
  rw [h2, h3]
  rfl

set_option maxRecDepth 8192 in
set_option maxHeartbeats 4000000 in
theorem s1_v14 (V : Valuation τ sig (Elt F)) (x2 : (⟨S131072, .i32⟩ : BufTy).Contents (Elt F)) (x3 : (⟨S131072, .i32⟩ : BufTy).Contents (Elt F)) (h2 : V (Proc.devRef .tc main_arg2) = x2) (h3 : V (Proc.devRef .tc main_arg3) = x3) :
    after ops1 V (Proc.devRef .tc main_v14) = val_main_v14 (F := F) x2 x3 := by
  simp only [ops1]
  after_results_simp
  try dsimp only [Matrix.cons_val]
  try after_results_simp
  rw [h2, h3]
  rfl

/-! ## Stretch 2: one layer, from the state 9 to the state 65 -/

set_option maxRecDepth 8192 in
set_option maxHeartbeats 4000000 in
theorem s2_v65 (W : Valuation τ sig (Elt F)) (x0 : (⟨S131072, .f32⟩ : BufTy).Contents (Elt F)) (x2 : (⟨S131072, .i32⟩ : BufTy).Contents (Elt F)) (x3 : (⟨S131072, .i32⟩ : BufTy).Contents (Elt F)) (x4 : (⟨S2x128x128, .f32⟩ : BufTy).Contents (Elt F)) (x5 : (⟨S384x128, .f32⟩ : BufTy).Contents (Elt F)) (x6 : (⟨S384x128, .f32⟩ : BufTy).Contents (Elt F)) (x7 : (⟨S384, .f32⟩ : BufTy).Contents (Elt F)) (x8 : (⟨S384, .f32⟩ : BufTy).Contents (Elt F))
    (hs : W (Proc.devRef .tc main_v9) = val_main_v9 (F := F) x0)
    (h13 : W (Proc.devRef .tc main_v13) = val_main_v13 (F := F) x2 x3) (h14 : W (Proc.devRef .tc main_v14) = val_main_v14 (F := F) x2 x3)
    (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    after ops2 W (Proc.devRef .tc main_v65) = val_main_v65 (F := F) x0 x2 x3 x4 x5 x6 x7 x8 := by
  simp only [ops2]
  after_results_simp
  rw [hs, h13, h14, h4, h5, h6, h7, h8]
  rfl

/-! ## Stretch 3: one layer, from the state 65 to the state 116 -/

set_option maxRecDepth 8192 in
set_option maxHeartbeats 4000000 in
theorem s3_v116 (W : Valuation τ sig (Elt F)) (x0 : (⟨S131072, .f32⟩ : BufTy).Contents (Elt F)) (x2 : (⟨S131072, .i32⟩ : BufTy).Contents (Elt F)) (x3 : (⟨S131072, .i32⟩ : BufTy).Contents (Elt F)) (x4 : (⟨S2x128x128, .f32⟩ : BufTy).Contents (Elt F)) (x5 : (⟨S384x128, .f32⟩ : BufTy).Contents (Elt F)) (x6 : (⟨S384x128, .f32⟩ : BufTy).Contents (Elt F)) (x7 : (⟨S384, .f32⟩ : BufTy).Contents (Elt F)) (x8 : (⟨S384, .f32⟩ : BufTy).Contents (Elt F))
    (hs : W (Proc.devRef .tc main_v65) = val_main_v65 (F := F) x0 x2 x3 x4 x5 x6 x7 x8)
    (h13 : W (Proc.devRef .tc main_v13) = val_main_v13 (F := F) x2 x3) (h14 : W (Proc.devRef .tc main_v14) = val_main_v14 (F := F) x2 x3)
    (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    after ops3 W (Proc.devRef .tc main_v116) = val_main_v116 (F := F) x0 x2 x3 x4 x5 x6 x7 x8 := by
  simp only [ops3]
  after_results_simp
  rw [hs, h13, h14, h4, h5, h6, h7, h8]
  rfl

/-! ## Stretch 4: the readout, from the state 116 to the result -/

set_option maxRecDepth 8192 in
set_option maxHeartbeats 4000000 in
theorem s4_v159 (W : Valuation τ sig (Elt F)) (x0 : (⟨S131072, .f32⟩ : BufTy).Contents (Elt F)) (x2 : (⟨S131072, .i32⟩ : BufTy).Contents (Elt F)) (x3 : (⟨S131072, .i32⟩ : BufTy).Contents (Elt F)) (x4 : (⟨S2x128x128, .f32⟩ : BufTy).Contents (Elt F)) (x5 : (⟨S384x128, .f32⟩ : BufTy).Contents (Elt F)) (x6 : (⟨S384x128, .f32⟩ : BufTy).Contents (Elt F)) (x7 : (⟨S384, .f32⟩ : BufTy).Contents (Elt F)) (x8 : (⟨S384, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) (x15 : (⟨S64x128, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F)) (x19 : (⟨S128x2, .f32⟩ : BufTy).Contents (Elt F)) (x20 : (⟨S2, .f32⟩ : BufTy).Contents (Elt F))
    (hs : W (Proc.devRef .tc main_v116) = val_main_v116 (F := F) x0 x2 x3 x4 x5 x6 x7 x8)
    (h2 : W (Proc.devRef .tc main_arg2) = x2) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) (h17 : W (Proc.devRef .tc main_arg17) = x17) (h18 : W (Proc.devRef .tc main_arg18) = x18) (h19 : W (Proc.devRef .tc main_arg19) = x19) (h20 : W (Proc.devRef .tc main_arg20) = x20) :
    after ops4 W (Proc.devRef .tc main_v159) = val_main_v159 (F := F) x0 x2 x3 x4 x5 x6 x7 x8 x9 x10 x11 x12 x13 x14 x15 x16 x17 x18 x19 x20 := by
  simp only [ops4]
  after_results_simp
  rw [hs, h2, h9, h10, h11, h12, h13, h14, h15, h16, h17, h18, h19, h20]
  rfl

/-! ## The four readings composed -/

/-- From any contents holding the arguments, the result buffer after all the operations holds the last stage. -/
theorem after_ops_v159 (V : Valuation τ sig (Elt F)) (x0 : (⟨S131072, .f32⟩ : BufTy).Contents (Elt F)) (x2 : (⟨S131072, .i32⟩ : BufTy).Contents (Elt F)) (x3 : (⟨S131072, .i32⟩ : BufTy).Contents (Elt F)) (x4 : (⟨S2x128x128, .f32⟩ : BufTy).Contents (Elt F)) (x5 : (⟨S384x128, .f32⟩ : BufTy).Contents (Elt F)) (x6 : (⟨S384x128, .f32⟩ : BufTy).Contents (Elt F)) (x7 : (⟨S384, .f32⟩ : BufTy).Contents (Elt F)) (x8 : (⟨S384, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) (x15 : (⟨S64x128, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F)) (x19 : (⟨S128x2, .f32⟩ : BufTy).Contents (Elt F)) (x20 : (⟨S2, .f32⟩ : BufTy).Contents (Elt F))
    (h0 : V (Proc.devRef .tc main_arg0) = x0) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) (h18 : V (Proc.devRef .tc main_arg18) = x18) (h19 : V (Proc.devRef .tc main_arg19) = x19) (h20 : V (Proc.devRef .tc main_arg20) = x20) :
    after ops V (Proc.devRef .tc main_v159) = val_main_v159 (F := F) x0 x2 x3 x4 x5 x6 x7 x8 x9 x10 x11 x12 x13 x14 x15 x16 x17 x18 x19 x20 := by
  rw [ops_eq, after_append, after_append, after_append]
  have a9 := s1_v9 V x0 h0
  have a13 := s1_v13 V x2 x3 h2 h3
  have a14 := s1_v14 V x2 x3 h2 h3
  have b65 := s2_v65 (after ops1 V) x0 x2 x3 x4 x5 x6 x7 x8 a9 a13 a14
    ((keep1 _ main_arg4 (by decide)).trans (h4)) ((keep1 _ main_arg5 (by decide)).trans (h5)) ((keep1 _ main_arg6 (by decide)).trans (h6)) ((keep1 _ main_arg7 (by decide)).trans (h7)) ((keep1 _ main_arg8 (by decide)).trans (h8))
  have b13 := (keep2 (after ops1 V) main_v13 (by decide)).trans a13
  have b14 := (keep2 (after ops1 V) main_v14 (by decide)).trans a14
  have c116 := s3_v116 (after ops2 (after ops1 V)) x0 x2 x3 x4 x5 x6 x7 x8 b65 b13 b14
    ((keep2 _ main_arg4 (by decide)).trans ((keep1 _ main_arg4 (by decide)).trans (h4))) ((keep2 _ main_arg5 (by decide)).trans ((keep1 _ main_arg5 (by decide)).trans (h5))) ((keep2 _ main_arg6 (by decide)).trans ((keep1 _ main_arg6 (by decide)).trans (h6))) ((keep2 _ main_arg7 (by decide)).trans ((keep1 _ main_arg7 (by decide)).trans (h7))) ((keep2 _ main_arg8 (by decide)).trans ((keep1 _ main_arg8 (by decide)).trans (h8)))
  exact s4_v159 (after ops3 (after ops2 (after ops1 V))) x0 x2 x3 x4 x5 x6 x7 x8 x9 x10 x11 x12 x13 x14 x15 x16 x17 x18 x19 x20 c116
    ((keep3 _ main_arg2 (by decide)).trans ((keep2 _ main_arg2 (by decide)).trans ((keep1 _ main_arg2 (by decide)).trans (h2))))
    ((keep3 _ main_arg9 (by decide)).trans ((keep2 _ main_arg9 (by decide)).trans ((keep1 _ main_arg9 (by decide)).trans (h9))))
    ((keep3 _ main_arg10 (by decide)).trans ((keep2 _ main_arg10 (by decide)).trans ((keep1 _ main_arg10 (by decide)).trans (h10))))
    ((keep3 _ main_arg11 (by decide)).trans ((keep2 _ main_arg11 (by decide)).trans ((keep1 _ main_arg11 (by decide)).trans (h11))))
    ((keep3 _ main_arg12 (by decide)).trans ((keep2 _ main_arg12 (by decide)).trans ((keep1 _ main_arg12 (by decide)).trans (h12))))
    ((keep3 _ main_arg13 (by decide)).trans ((keep2 _ main_arg13 (by decide)).trans ((keep1 _ main_arg13 (by decide)).trans (h13))))
    ((keep3 _ main_arg14 (by decide)).trans ((keep2 _ main_arg14 (by decide)).trans ((keep1 _ main_arg14 (by decide)).trans (h14))))
    ((keep3 _ main_arg15 (by decide)).trans ((keep2 _ main_arg15 (by decide)).trans ((keep1 _ main_arg15 (by decide)).trans (h15))))
    ((keep3 _ main_arg16 (by decide)).trans ((keep2 _ main_arg16 (by decide)).trans ((keep1 _ main_arg16 (by decide)).trans (h16))))
    ((keep3 _ main_arg17 (by decide)).trans ((keep2 _ main_arg17 (by decide)).trans ((keep1 _ main_arg17 (by decide)).trans (h17))))
    ((keep3 _ main_arg18 (by decide)).trans ((keep2 _ main_arg18 (by decide)).trans ((keep1 _ main_arg18 (by decide)).trans (h18))))
    ((keep3 _ main_arg19 (by decide)).trans ((keep2 _ main_arg19 (by decide)).trans ((keep1 _ main_arg19 (by decide)).trans (h19))))
    ((keep3 _ main_arg20 (by decide)).trans ((keep2 _ main_arg20 (by decide)).trans ((keep1 _ main_arg20 (by decide)).trans (h20))))

/-- THE RUN'S RESULT IS THE LAST STAGE: what the result buffer holds after the run, from launch contents `m` on
    device `c`, is the last stage function of the argument arrays' launch contents. -/
theorem res_eq_val (m : (ℓ : Loc nD τ sig) → Buf (Elt F) ℓ) (c : Dev nD) :
    Cert.ReferenceIdeal.Value.res_main_v159 m c
      = Cert.ReferenceIdeal.Read.val_main_v159 (F := F)
          (m ((c.tc : Thread nD τ).loc main_arg0))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20)) :=
  after_ops_v159 (launchContents m c)
    (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
    rfl rfl rfl rfl rfl rfl rfl rfl rfl rfl rfl rfl rfl rfl rfl rfl rfl rfl rfl rfl

end Cert.ReferenceIdeal.RunVal

end
-- ==== Proof.LibScatterSet.lean ====
import Idealize.ShloMosaic.PureOps

/-!
# A scatter whose body returns the update, read at one position

`Host.scatter d f x idx upd` walks the update indices in row-major order; each update index `j` whose result
index `d.resultIdx? j idx` is some position `i` replaces the element at `i` by `f (old element) (upd j)`, and an
update index with no result index changes nothing. When the body is `fun _ b => b` the element at `i` after the
walk is the update of the LAST update index landing on `i`, or the operand's element when none lands there. So:

* `scatter_set_apply_of_no_hit`: no update index lands on `i` — the result at `i` is the operand's `x i`;
* `scatter_set_apply`: some update index `j₀` lands on `i`, and every update index landing on `i` carries the
  value `upd j₀` — the result at `i` is `upd j₀`;
* `scatter_set_apply_of_unique`: `j₀` is the only update index landing on `i` — the same conclusion.

Nothing here depends on the shapes, on the dimension numbers or on the element type.
-/

namespace Cert.LibScatterSet

open Idealize.ShloMosaic

variable {s si u : Shape} {α : Type} {w : Nat}

/-- One step of the walk: update index number `n` (in row-major order) overwrites the position it lands on, if
    it lands on one. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter whose body returns the update is the walk of `step` over all update index numbers. -/
theorem scatter_eq_foldl_step (d : ScatterDims s si u) (x : s.Idx → α) (idx : IVec si w) (upd : u.Idx → α) :
    Host.scatter d (fun _ b => b) x idx upd = (List.finRange u.numel).foldl (step d idx upd) x := rfl

/-- A step that lands on `i` leaves its update there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- A step that does not land on `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  generalize d.resultIdx? (u.rowMajor.symm n) idx = o at h ⊢
  cases o with
  | none => rfl
  | some i0 =>
    have e : ¬ i = i0 := fun e => h (by rw [e])
    exact if_neg e

/-- A walk none of whose steps lands on `i` leaves the element at `i` as it was. -/
theorem foldl_step_of_no_hit (d : ScatterDims s si u) (idx : IVec si w) (upd : u.Idx → α)
    (l : List (Fin u.numel)) (r : s.Idx → α) (i : s.Idx)
    (h : ∀ n ∈ l, d.resultIdx? (u.rowMajor.symm n) idx ≠ some i) :
    l.foldl (step d idx upd) r i = r i := by
  induction l generalizing r with
  | nil => rfl
  | cons n l ih =>
    rw [List.foldl_cons, ih _ (fun m hm => h m (List.mem_cons_of_mem _ hm)),
      step_miss d idx upd r n i (h n List.mem_cons_self)]

/-- A walk with a step landing on `i`, all of whose steps landing on `i` carry the value `v`, leaves `v` at `i`:
    the last such step decides, and it carries `v`. -/
theorem foldl_step_of_hit (d : ScatterDims s si u) (idx : IVec si w) (upd : u.Idx → α)
    (l : List (Fin u.numel)) (r : s.Idx → α) (i : s.Idx) (v : α)
    (hv : ∀ n ∈ l, d.resultIdx? (u.rowMajor.symm n) idx = some i → upd (u.rowMajor.symm n) = v)
    (hex : ∃ n ∈ l, d.resultIdx? (u.rowMajor.symm n) idx = some i) :
    l.foldl (step d idx upd) r i = v := by
  induction l generalizing r with
  | nil => obtain ⟨n, hn, _⟩ := hex; cases hn
  | cons n l ih =>
    rw [List.foldl_cons]
    by_cases hl : ∃ m ∈ l, d.resultIdx? (u.rowMajor.symm m) idx = some i
    · exact ih _ (fun m hm => hv m (List.mem_cons_of_mem _ hm)) hl
    · have hno : ∀ m ∈ l, d.resultIdx? (u.rowMajor.symm m) idx ≠ some i := fun m hm e => hl ⟨m, hm, e⟩
      rw [foldl_step_of_no_hit d idx upd l _ i hno]
      obtain ⟨m, hm, e⟩ := hex
      rcases List.mem_cons.1 hm with rfl | hm'
      · rw [step_hit d idx upd r m i e]; exact hv m List.mem_cons_self e
      · exact absurd e (hno m hm')

/-- No update index lands on `i`: the scatter leaves the operand's element there. -/
theorem scatter_set_apply_of_no_hit (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl_step]
  exact foldl_step_of_no_hit d idx upd _ x i (fun n _ => h _)

/-- Update index `j₀` lands on `i`, and every update index landing on `i` carries `upd j₀`: the scatter whose body
    returns the update has `upd j₀` at `i`. -/
theorem scatter_set_apply (d : ScatterDims s si u) (x : s.Idx → α) (idx : IVec si w) (upd : u.Idx → α)
    (i : s.Idx) (j₀ : u.Idx) (h₀ : d.resultIdx? j₀ idx = some i)
    (hall : ∀ j, d.resultIdx? j idx = some i → upd j = upd j₀) :
    Host.scatter d (fun _ b => b) x idx upd i = upd j₀ := by
  rw [scatter_eq_foldl_step]
  refine foldl_step_of_hit d idx upd _ x i (upd j₀) (fun n _ e => hall _ e) ⟨u.rowMajor j₀, List.mem_finRange _, ?_⟩
  rw [Equiv.symm_apply_apply]; exact h₀

/-- Update index `j₀` is the only one landing on `i`: the scatter whose body returns the update has `upd j₀` at `i`. -/
theorem scatter_set_apply_of_unique (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ :=
  scatter_set_apply d x idx upd i j₀ h₀ (fun j e => by rw [huniq j e])

end Cert.LibScatterSet
-- ==== Proof.Ref.ColSet.lean ====
import proofs.«136422_j72232759984373_2_alg».proof.Proof.LibScatterSet
import proofs.«136422_j72232759984373_2_alg».proof.Proof.LibRowOps
import Idealize.ShloMosaic.Lib.Pipeline.Value

/-!
# A stretch of one column overwritten from a row on

For a table `x : [N, C]`, ONE scatter index of two words `(r₀, c₀)` and a vector of updates `u : [E]`: the
scatter whose body returns the update writes `u e` at `(r₀ + e, c₀)` for every `e` and leaves every other entry
of `x` as it is. Read at `(r, k)`: the update `u (r − r₀)` when `k = c₀` and `r₀ ≤ r < r₀ + E`, else `x (r, k)`.
Also: a vector of two words made by joining two one-word vectors reads the first at `0` and the second at `1`.
-/

noncomputable section

namespace ColSet

open Idealize.ShloMosaic Idealize.ShloMosaic.ValueIdx

/-- The dimension numbers: operand `[N, C]`, scatter indices `[2]` — one index vector of two components, the row
    and the column —, updates `[E]` whose one axis is the window along the operand's rows; the operand's column
    axis is the inserted one. -/
abbrev colScatter (N C E : Nat) (wf : ScatterDims.WF ⟨2, ![N, C]⟩ ⟨1, ![2]⟩ ⟨1, ![E]⟩ [0] [1] [0, 1] 0) :
    ScatterDims ⟨2, ![N, C]⟩ ⟨1, ![2]⟩ ⟨1, ![E]⟩ where
  updateWindowDims := [0]
  insertedWindowDims := [1]
  scatterDimsToOperandDims := [0, 1]
  indexVectorDim := 0
  wf := wf

section Scatter
variable {N C E w : Nat} (wf : ScatterDims.WF ⟨2, ![N, C]⟩ ⟨1, ![2]⟩ ⟨1, ![E]⟩ [0] [1] [0, 1] 0)
  (idx : IVec ⟨1, ![2]⟩ w) (j : (⟨1, ![E]⟩ : Shape).Idx)

/-- On the row axis the window starts at the first word of the scatter index, read signed. -/
theorem start_col0 : (colScatter N C E wf).start j idx 0 = (idx (ix1 0)).toInt := by
  unfold ScatterDims.start
  rw [dif_pos (show (0 : Fin 2) ∈ (colScatter N C E wf).scatterDimsToOperandDims from List.mem_cons_self)]
  have hsi : (colScatter N C E wf).siIdx j ⟨List.idxOf (0 : Fin 2) (colScatter N C E wf).scatterDimsToOperandDims,
      List.idxOf_lt_length_iff.2 List.mem_cons_self⟩ = ix1 0 := by
    funext b; refine Fin.ext ?_
    match b with
    | ⟨0, _⟩ => rfl
  exact congrArg (fun i => (idx i).toInt) hsi

/-- On the column axis the window starts at the second word of the scatter index, read signed. -/
theorem start_col1 : (colScatter N C E wf).start j idx 1 = (idx (ix1 1)).toInt := by
  unfold ScatterDims.start
  rw [dif_pos (show (1 : Fin 2) ∈ (colScatter N C E wf).scatterDimsToOperandDims from
    List.mem_cons_of_mem _ List.mem_cons_self)]
  have hsi : (colScatter N C E wf).siIdx j ⟨List.idxOf (1 : Fin 2) (colScatter N C E wf).scatterDimsToOperandDims,
      List.idxOf_lt_length_iff.2 (List.mem_cons_of_mem _ List.mem_cons_self)⟩ = ix1 1 := by
    funext b; refine Fin.ext ?_
    match b with
    | ⟨0, _⟩ => rfl
  exact congrArg (fun i => (idx i).toInt) hsi

/-- On the row axis the window coordinate is the update's position. -/
theorem window_col0 : (colScatter N C E wf).window j 0 = (j 0).val := by
  unfold ScatterDims.window
  rw [dif_pos (show (0 : Fin 2) ∈ (colScatter N C E wf).sKept from
    List.mem_filter.mpr ⟨List.mem_finRange _, decide_eq_true (by decide : (0 : Fin 2) ∉ [1])⟩)]
  rfl

/-- The column axis is inserted: no window coordinate. -/
theorem window_col1 : (colScatter N C E wf).window j 1 = 0 := by
  unfold ScatterDims.window
  rw [dif_neg (show (1 : Fin 2) ∉ (colScatter N C E wf).sKept from
    fun h => (of_decide_eq_true (List.mem_filter.mp h).2) (List.mem_singleton.mpr rfl))]

/-- WHERE AN UPDATE LANDS: update `e` lands at `(r, k)` exactly when `r₀ + e = r` and `c₀ = k`. -/
theorem resultIdx_col (r : Fin N) (k : Fin C) :
    (colScatter N C E wf).resultIdx? j idx = some (ix2 r k)
      ↔ (idx (ix1 0)).toInt + ((j 0).val : Int) = (r.val : Int) ∧ (idx (ix1 1)).toInt = (k.val : Int) := by
  rw [RowOps.resultIdx?_eq_some_iff]
  constructor
  · intro h'
    have h0 : (colScatter N C E wf).start j idx 0 + ((colScatter N C E wf).window j 0 : Int) = ((r.val : Nat) : Int) :=
      h' 0
    have h1 : (colScatter N C E wf).start j idx 1 + ((colScatter N C E wf).window j 1 : Int) = ((k.val : Nat) : Int) :=
      h' 1
    rw [start_col0, window_col0] at h0
    rw [start_col1, window_col1] at h1
    exact ⟨h0, by simpa using h1⟩
  · rintro ⟨h0, h1⟩ a
    match a with
    | ⟨0, _⟩ =>
      show (colScatter N C E wf).start j idx 0 + ((colScatter N C E wf).window j 0 : Int) = ((r.val : Nat) : Int)
      rw [start_col0, window_col0]
      exact h0
    | ⟨1, _⟩ =>
      show (colScatter N C E wf).start j idx 1 + ((colScatter N C E wf).window j 1 : Int) = ((k.val : Nat) : Int)
      rw [start_col1, window_col1]
      exact (Int.add_zero _).trans h1

end Scatter

/-- THE SCATTER READ AT `(r, k)`, the scatter index being the words `(r₀, c₀)`: the update `r − r₀` on column `c₀`
    from row `r₀` on, as far as the updates go; the operand's own entry everywhere else. -/
theorem colSet_apply {N C E w : Nat} {α : Type}
    (wf : ScatterDims.WF ⟨2, ![N, C]⟩ ⟨1, ![2]⟩ ⟨1, ![E]⟩ [0] [1] [0, 1] 0) (idx : IVec ⟨1, ![2]⟩ w)
    (x : (⟨2, ![N, C]⟩ : Shape).Idx → α) (upd : (⟨1, ![E]⟩ : Shape).Idx → α) (r₀ c₀ : Nat)
    (h0 : (idx (ix1 0)).toInt = (r₀ : Int)) (h1 : (idx (ix1 1)).toInt = (c₀ : Int)) (r : Fin N) (k : Fin C) :
    Host.scatter (colScatter N C E wf) (fun _ b => b) x idx upd (ix2 r k)
      = if h : k.val = c₀ ∧ r₀ ≤ r.val ∧ r.val < r₀ + E then upd (ix1 (⟨r.val - r₀, by omega⟩ : Fin E))
        else x (ix2 r k) := by
  by_cases h : k.val = c₀ ∧ r₀ ≤ r.val ∧ r.val < r₀ + E
  · rw [dif_pos h]
    refine Cert.LibScatterSet.scatter_set_apply_of_unique _ x idx upd (ix2 r k)
      (ix1 (⟨r.val - r₀, by omega⟩ : Fin E)) ?_ ?_
    · refine (resultIdx_col wf idx _ r k).mpr ⟨?_, ?_⟩
      · rw [h0]
        show (r₀ : Int) + ((r.val - r₀ : Nat) : Int) = (r.val : Int)
        omega
      · rw [h1]
        omega
    · intro j hj
      have hj' := (resultIdx_col wf idx j r k).mp hj
      rw [h0] at hj'
      refine (eq_ix1 j).trans (congrArg (fun a : Fin E => ix1 a) (Fin.ext ?_))
      show (j 0).val = r.val - r₀
      omega
  · rw [dif_neg h]
    refine Cert.LibScatterSet.scatter_set_apply_of_no_hit _ x idx upd (ix2 r k) (fun j hj => h ?_)
    have hj' := (resultIdx_col wf idx j r k).mp hj
    rw [h0, h1] at hj'
    have hlt : (j 0).val < E := (j 0).isLt
    exact ⟨by omega, by omega, by omega⟩

/-! ## Two one-word vectors joined -/

section Join
variable {α : Type} (x0 x1 : (⟨1, ![1]⟩ : Shape).Idx → α)
  (h : Shape.Concatenates [(⟨1, ![1]⟩ : Shape), ⟨1, ![1]⟩] ⟨1, ![2]⟩ 0)

/-- Position `0` of the joined vector reads the first piece. -/
theorem join2_0 :
    concatenate ⟨1, ![2]⟩ 0 [⟨(⟨1, ![1]⟩ : Shape), x0⟩, ⟨(⟨1, ![1]⟩ : Shape), x1⟩] h (ix1 0) = x0 (ix1 0) :=
  concatenate_apply_piece (t := ⟨1, ![2]⟩) 0 [⟨(⟨1, ![1]⟩ : Shape), x0⟩, ⟨(⟨1, ![1]⟩ : Shape), x1⟩] h (ix1 0) 0
    (by show 0 < 2; decide) ⟨1, ![1]⟩ x0 rfl rfl 0 rfl (ix1 0)
    (fun b hb => absurd (Fin.ext (by have : b.val < 1 := b.isLt; show b.val = 0; omega)) hb)
    (by first | rfl | decide)

/-- Position `1` of the joined vector reads the second piece. -/
theorem join2_1 :
    concatenate ⟨1, ![2]⟩ 0 [⟨(⟨1, ![1]⟩ : Shape), x0⟩, ⟨(⟨1, ![1]⟩ : Shape), x1⟩] h (ix1 1) = x1 (ix1 0) :=
  concatenate_apply_piece (t := ⟨1, ![2]⟩) 0 [⟨(⟨1, ![1]⟩ : Shape), x0⟩, ⟨(⟨1, ![1]⟩ : Shape), x1⟩] h (ix1 1) 1
    (by show 1 < 2; decide) ⟨1, ![1]⟩ x1 rfl rfl 1 rfl (ix1 0)
    (fun b hb => absurd (Fin.ext (by have : b.val < 1 := b.isLt; show b.val = 0; omega)) hb)
    (by first | rfl | decide)

end Join

end ColSet

end
-- ==== Proof.Ref.X0.lean ====
import proofs.«136422_j72232759984373_2_alg».proof.Proof.Spec
import proofs.«136422_j72232759984373_2_alg».proof.Proof.Ref.ColSet
import proofs.«136422_j72232759984373_2_alg».proof.Proof.RefReadP

/-!
# The initial states

The reference builds its first node table from zeros by two overwrites of a stretch of one column: column 0 from
row 8192 on becomes the one word, column 1 from row 8192 on becomes the edge values. Read at `(r, k)` the result is
`GGNN.x0`: zero on the variable rows; on factor row `8192 + e`, one, then the edge value `e`, then zeros.
-/

noncomputable section

namespace Cert.ReferenceIdeal.RefValue

open Cert.ReferenceIdeal Cert.ReferenceIdeal.Gen Cert.ReferenceIdeal.Read Idealize.ShloMosaic Idealize.ShloMosaic.ValueIdx

/-- The first overwrite's index is the pair of words `(8192, 0)`. -/
theorem v3_row : ((val_main_v3 (F := Ideal)) (ix1 0)).toInt = ((8192 : Nat) : Int) := by
  unfold val_main_v3
  rw [ColSet.join2_0, val_main_v1_apply, val_main_c_apply]
  decide
theorem v3_col : ((val_main_v3 (F := Ideal)) (ix1 1)).toInt = ((0 : Nat) : Int) := by
  unfold val_main_v3
  rw [ColSet.join2_1, val_main_v2_apply, val_main_c_0_apply]
  decide

/-- The second overwrite's index is the pair of words `(8192, 1)`. -/
theorem v8_row : ((val_main_v8 (F := Ideal)) (ix1 0)).toInt = ((8192 : Nat) : Int) := by
  unfold val_main_v8
  rw [ColSet.join2_0, val_main_v6_apply, val_main_c_2_apply]
  decide
theorem v8_col : ((val_main_v8 (F := Ideal)) (ix1 1)).toInt = ((1 : Nat) : Int) := by
  unfold val_main_v8
  rw [ColSet.join2_1, val_main_v7_apply, val_main_c_3_apply]
  decide

/-- THE INITIAL STATES: the table after the two overwrites is `GGNN.x0` of the edge values. -/
theorem x0_apply (a0 : (⟨S131072, .f32⟩ : BufTy).Contents (Elt Ideal)) (r : Fin (8192 + 131072)) (k : Fin 128) :
    val_main_v9 (F := Ideal) a0 (ix2 r k)
      = GGNN.x0 (nV := 8192) (nE := 131072) (fun e => a0 (ix1 e)) r k := by
  have hr : r.val < 8192 + 131072 := r.isLt
  have h9 : val_main_v9 (F := Ideal) a0 (ix2 r k)
      = if h : k.val = 1 ∧ 8192 ≤ r.val ∧ r.val < 8192 + 131072
        then a0 (ix1 (⟨r.val - 8192, by omega⟩ : Fin 131072))
        else val_main_v5 (F := Ideal) (ix2 r k) :=
    ColSet.colSet_apply scatter_S139264x128_S2_S131072_0_1_01_0_wf (val_main_v8 (F := Ideal))
      (val_main_v5 (F := Ideal)) a0 8192 1 v8_row v8_col r k
  have h5 : val_main_v5 (F := Ideal) (ix2 r k)
      = if h : k.val = 0 ∧ 8192 ≤ r.val ∧ r.val < 8192 + 131072
        then val_main_v4 (F := Ideal) (ix1 (⟨r.val - 8192, by omega⟩ : Fin 131072))
        else val_main_v0 (F := Ideal) (ix2 r k) :=
    ColSet.colSet_apply scatter_S139264x128_S2_S131072_0_1_01_0_wf (val_main_v3 (F := Ideal))
      (val_main_v0 (F := Ideal)) (val_main_v4 (F := Ideal)) 8192 0 v3_row v3_col r k
  have h4 : ∀ j, val_main_v4 (F := Ideal) j = GGNN.one := fun j => by rw [val_main_v4_apply]; rfl
  have h0 : ∀ j, val_main_v0 (F := Ideal) j = GGNN.zero := fun j => by rw [val_main_v0_apply]; rfl
  unfold GGNN.x0
  by_cases hlt : r.val < 8192
  · have c9 : ¬(k.val = 1 ∧ 8192 ≤ r.val ∧ r.val < 8192 + 131072) := by omega
    have c5 : ¬(k.val = 0 ∧ 8192 ≤ r.val ∧ r.val < 8192 + 131072) := by omega
    rw [h9, dif_neg c9, h5, dif_neg c5, h0, dif_pos hlt]
  · by_cases hk0 : k.val = 0
    · have c9 : ¬(k.val = 1 ∧ 8192 ≤ r.val ∧ r.val < 8192 + 131072) := by omega
      have c5 : k.val = 0 ∧ 8192 ≤ r.val ∧ r.val < 8192 + 131072 := by omega
      rw [h9, dif_neg c9, h5, dif_pos c5, h4, dif_neg hlt, if_pos hk0]
    · by_cases hk1 : k.val = 1
      · have c9 : k.val = 1 ∧ 8192 ≤ r.val ∧ r.val < 8192 + 131072 := by omega
        rw [h9, dif_pos c9, dif_neg hlt, if_neg hk0, if_pos hk1]
      · have c9 : ¬(k.val = 1 ∧ 8192 ≤ r.val ∧ r.val < 8192 + 131072) := by omega
        have c5 : ¬(k.val = 0 ∧ 8192 ≤ r.val ∧ r.val < 8192 + 131072) := by omega
        rw [h9, dif_neg c9, h5, dif_neg c5, h0, dif_neg hlt, if_neg hk0, if_neg hk1]

end Cert.ReferenceIdeal.RefValue

end
-- ==== Proof.Ref.Words.lean ====
/-
  Vectors of 32-bit index words read at a position: a concatenation of four equal stretches, the factor numbers
  `8192 + e`, the "add the row count where negative" normalisation (the identity on non-negative words), a splat,
  and a vector made a one-column matrix.
-/
import Idealize.ShloMosaic.Lib.Pipeline.Value
import Idealize.ShloMosaic.Lib.ValueIdx

noncomputable section

namespace Cert.ReferenceIdeal.RefValue

open Idealize.ShloMosaic Idealize.ShloMosaic.ValueIdx

/-- The vectors over the edges, over the four stretches, and the latter as one column. -/
abbrev SE : Shape := ⟨1, ![131072]⟩
abbrev SP : Shape := ⟨1, ![524288]⟩
abbrev SP1 : Shape := ⟨2, ![524288, 1]⟩
abbrev SE1 : Shape := ⟨2, ![131072, 1]⟩

section Concat
variable {α : Type} (x0 x1 x2 x3 : SE.Idx → α) (h : Shape.Concatenates [SE, SE, SE, SE] SP 0)

/-- Position `p` of the first stretch reads the first piece. -/
theorem concat4_0 (p : Fin 524288) (e : Fin 131072) (hp : p.val = e.val) :
    concatenate SP 0 [⟨SE, x0⟩, ⟨SE, x1⟩, ⟨SE, x2⟩, ⟨SE, x3⟩] h (ix1 p) = x0 (ix1 e) :=
  concatenate_apply_piece (t := SP) (0 : Fin 1) [⟨SE, x0⟩, ⟨SE, x1⟩, ⟨SE, x2⟩, ⟨SE, x3⟩] h (ix1 p) 0 (by show 0 < 4; omega) SE x0 rfl rfl 0 rfl (ix1 e)
    (fun b hb => absurd (Fin.ext (by have : b.val < 1 := b.isLt; show b.val = 0; omega)) hb)
    (by show 0 + e.val = p.val; omega)

/-- Position `131072 + e` reads the second piece at `e`. -/
theorem concat4_1 (p : Fin 524288) (e : Fin 131072) (hp : p.val = 131072 + e.val) :
    concatenate SP 0 [⟨SE, x0⟩, ⟨SE, x1⟩, ⟨SE, x2⟩, ⟨SE, x3⟩] h (ix1 p) = x1 (ix1 e) :=
  concatenate_apply_piece (t := SP) (0 : Fin 1) [⟨SE, x0⟩, ⟨SE, x1⟩, ⟨SE, x2⟩, ⟨SE, x3⟩] h (ix1 p) 1 (by show 1 < 4; omega) SE x1 rfl rfl 131072 rfl (ix1 e)
    (fun b hb => absurd (Fin.ext (by have : b.val < 1 := b.isLt; show b.val = 0; omega)) hb)
    (by show 131072 + e.val = p.val; omega)

/-- Position `2 · 131072 + e` reads the third piece at `e`. -/
theorem concat4_2 (p : Fin 524288) (e : Fin 131072) (hp : p.val = 262144 + e.val) :
    concatenate SP 0 [⟨SE, x0⟩, ⟨SE, x1⟩, ⟨SE, x2⟩, ⟨SE, x3⟩] h (ix1 p) = x2 (ix1 e) :=
  concatenate_apply_piece (t := SP) (0 : Fin 1) [⟨SE, x0⟩, ⟨SE, x1⟩, ⟨SE, x2⟩, ⟨SE, x3⟩] h (ix1 p) 2 (by show 2 < 4; omega) SE x2 rfl rfl 262144 rfl (ix1 e)
    (fun b hb => absurd (Fin.ext (by have : b.val < 1 := b.isLt; show b.val = 0; omega)) hb)
    (by show 262144 + e.val = p.val; omega)

/-- Position `3 · 131072 + e` reads the fourth piece at `e`. -/
theorem concat4_3 (p : Fin 524288) (e : Fin 131072) (hp : p.val = 393216 + e.val) :
    concatenate SP 0 [⟨SE, x0⟩, ⟨SE, x1⟩, ⟨SE, x2⟩, ⟨SE, x3⟩] h (ix1 p) = x3 (ix1 e) :=
  concatenate_apply_piece (t := SP) (0 : Fin 1) [⟨SE, x0⟩, ⟨SE, x1⟩, ⟨SE, x2⟩, ⟨SE, x3⟩] h (ix1 p) 3 (by show 3 < 4; omega) SE x3 rfl rfl 393216 (by simp) (ix1 e)
    (fun b hb => absurd (Fin.ext (by have : b.val < 1 := b.isLt; show b.val = 0; omega)) hb)
    (by show 393216 + e.val = p.val; omega)

end Concat

/-! ## The factor numbers -/

/-- The factor numbers `8192 + e` as the program computes them: a constant vector plus the positions. -/
def facOps (hb : (⟨0, ![]⟩ : Shape).BroadcastsInDim SE (![] : Fin 0 → Fin 1)) : IVec SE 32 :=
  addi (broadcastInDim SE ![] hb (constantI ⟨0, ![]⟩ 32 8192#32)) (iotaInDim SE 32 0)

theorem word_add_toInt (e : Fin 131072) : (8192#32 + BitVec.ofNat 32 e.val).toInt = ((8192 + e.val : Nat) : Int) := by
  have he := e.isLt
  rw [BitVec.toInt_eq_toNat_cond]
  simp only [BitVec.toNat_add, BitVec.toNat_ofNat]
  split <;> omega

/-- The word of factor `e`, read signed, is `8192 + e`. -/
theorem facOps_toInt (hb : (⟨0, ![]⟩ : Shape).BroadcastsInDim SE (![] : Fin 0 → Fin 1)) (e : Fin 131072) :
    (facOps hb (ix1 e)).toInt = ((8192 + e.val : Nat) : Int) := by
  have e1 : facOps hb (ix1 e) = 8192#32 + BitVec.ofNat 32 e.val := by
    show IntOp.addi (broadcastInDim SE ![] hb (constantI ⟨0, ![]⟩ 32 8192#32) (ix1 e)) (BitVec.ofNat 32 e.val) = _
    rw [broadcastInDim_apply ![] hb (constantI ⟨0, ![]⟩ 32 8192#32) (ix1 e) ix0 (fun a => a.elim0)]
    rfl
  rw [e1, word_add_toInt]

/-! ## The normalisation of possibly negative indices, and the one-column form -/

/-- A word that is not negative is below zero in no signed comparison. -/
theorem cmpi_slt_zero_of_nonneg (x : BitVec 32) (hx : 0 ≤ x.toInt) : IntOp.cmpi .slt x 0#32 = 0#1 := by
  show BitVec.ofBool (x.slt 0#32) = 0#1
  have e : x.slt 0#32 = false := by
    rw [BitVec.slt_eq_decide]
    exact decide_eq_false (by simp only [BitVec.toInt_zero]; omega)
  rw [e]
  rfl

/-- "Add the row count where the word is negative" leaves a non-negative word as it is. -/
theorem normalise_apply {s : Shape} (v zeros c : IVec s 32) (hz : ∀ i, zeros i = 0#32) (i : s.Idx)
    (hv : 0 ≤ (v i).toInt) : select (cmpi .slt v zeros) (addi v c) v i = v i := by
  show Scalar.select (IntOp.cmpi .slt (v i) (zeros i)) (IntOp.addi (v i) (c i)) (v i) = v i
  rw [hz, cmpi_slt_zero_of_nonneg _ hv]
  exact select_zero _ _

/-- A splat of a word reads the word everywhere. -/
theorem splatI_apply {s : Shape} (hb : (⟨0, ![]⟩ : Shape).BroadcastsInDim s (![] : Fin 0 → Fin s.rank)) (b : BitVec 32)
    (i : s.Idx) : broadcastInDim s ![] hb (constantI ⟨0, ![]⟩ 32 b) i = b :=
  broadcastInDim_apply ![] hb (constantI ⟨0, ![]⟩ 32 b) i ix0 (fun a => a.elim0)

/-- A vector of `n > 1` words made a one-column matrix reads, at `(p, 0)`, the vector's word `p`. -/
theorem column_apply {n : Nat} (hn : n ≠ 1) (hb : (⟨1, ![n]⟩ : Shape).BroadcastsInDim ⟨2, ![n, 1]⟩ ![0])
    (v : IVec ⟨1, ![n]⟩ 32) (p : Fin n) : broadcastInDim ⟨2, ![n, 1]⟩ ![0] hb v (ix2 p 0) = v (ix1 p) :=
  broadcastInDim_apply ![0] hb v (ix2 p 0) (ix1 p) (fun a => match a with
    | ⟨0, _⟩ => by show p.val = if n = 1 then 0 else p.val; rw [if_neg hn])

end Cert.ReferenceIdeal.RefValue

end
-- ==== Proof.Ref.Graph.lean ====
/-
  The graph's index words.

  The program numbers the factor node of edge `e` as `8192 + e` and lists the directed edges in four stretches of
  131072 positions each: sources `factor, row, factor, col`, destinations `row, factor, col, factor`. The two
  concatenated vectors of 32-bit words are read at a position: the word, read as a signed integer, is the row
  number the specification's `GGNN.src` / `GGNN.dst` gives that position.
-/
import proofs.«136422_j72232759984373_2_alg».proof.Proof.Spec
import proofs.«136422_j72232759984373_2_alg».proof.Proof.Ref.Words

noncomputable section

namespace Cert.ReferenceIdeal.RefValue

open Idealize.ShloMosaic Idealize.ShloMosaic.ValueIdx

section Words
variable (fac rowI colI : IVec SE 32) (rowF colF : Fin 131072 → Fin 8192)
  (hfac : ∀ e : Fin 131072, (fac (ix1 e)).toInt = ((8192 + e.val : Nat) : Int))
  (hrow : ∀ e : Fin 131072, (rowI (ix1 e)).toInt = ((rowF e).val : Int))
  (hcol : ∀ e : Fin 131072, (colI (ix1 e)).toInt = ((colF e).val : Int))
  (h : Shape.Concatenates [SE, SE, SE, SE] SP 0)

include hfac hrow hcol

/-- The sources `factor, row, factor, col`: position `p`'s word is the row number of `GGNN.src`. -/
theorem srcWords_toInt (p : Fin 524288) :
    (concatenate SP 0 [⟨SE, fac⟩, ⟨SE, rowI⟩, ⟨SE, fac⟩, ⟨SE, colI⟩] h (ix1 p)).toInt
      = ((GGNN.src (nV := 8192) (nE := 131072) rowF colF p).val : Int) := by
  have hp := p.isLt
  unfold GGNN.src
  by_cases h0 : p.val < 131072
  · rw [dif_pos h0, concat4_0 fac rowI fac colI h p ⟨p.val, h0⟩ rfl]
    exact hfac _
  · rw [dif_neg h0]
    by_cases h1 : p.val < 2 * 131072
    · rw [dif_pos h1, concat4_1 fac rowI fac colI h p ⟨p.val - 131072, by omega⟩ (by show p.val = 131072 + (p.val - 131072); omega)]
      exact hrow _
    · rw [dif_neg h1]
      by_cases h2 : p.val < 3 * 131072
      · rw [dif_pos h2, concat4_2 fac rowI fac colI h p ⟨p.val - 2 * 131072, by omega⟩ (by show p.val = 262144 + (p.val - 2 * 131072); omega)]
        exact hfac _
      · rw [dif_neg h2, concat4_3 fac rowI fac colI h p ⟨p.val - 3 * 131072, by omega⟩ (by show p.val = 393216 + (p.val - 3 * 131072); omega)]
        exact hcol _

/-- The destinations `row, factor, col, factor`: position `p`'s word is the row number of `GGNN.dst`. -/
theorem dstWords_toInt (p : Fin 524288) :
    (concatenate SP 0 [⟨SE, rowI⟩, ⟨SE, fac⟩, ⟨SE, colI⟩, ⟨SE, fac⟩] h (ix1 p)).toInt
      = ((GGNN.dst (nV := 8192) (nE := 131072) rowF colF p).val : Int) := by
  have hp := p.isLt
  unfold GGNN.dst
  by_cases h0 : p.val < 131072
  · rw [dif_pos h0, concat4_0 rowI fac colI fac h p ⟨p.val, h0⟩ rfl]
    exact hrow _
  · rw [dif_neg h0]
    by_cases h1 : p.val < 2 * 131072
    · rw [dif_pos h1, concat4_1 rowI fac colI fac h p ⟨p.val - 131072, by omega⟩ (by show p.val = 131072 + (p.val - 131072); omega)]
      exact hfac _
    · rw [dif_neg h1]
      by_cases h2 : p.val < 3 * 131072
      · rw [dif_pos h2, concat4_2 rowI fac colI fac h p ⟨p.val - 2 * 131072, by omega⟩ (by show p.val = 262144 + (p.val - 2 * 131072); omega)]
        exact hcol _
      · rw [dif_neg h2, concat4_3 rowI fac colI fac h p ⟨p.val - 3 * 131072, by omega⟩ (by show p.val = 393216 + (p.val - 3 * 131072); omega)]
        exact hfac _

end Words

end Cert.ReferenceIdeal.RefValue

end
-- ==== Proof.Ref.Agg.lean ====
/-
  One layer's aggregate, read at an entry.

  The messages are the rows of a table `m : [N, C]`. Edge position `p` has a source row and a destination row,
  each stored as a signed 32-bit word in a column `[P, 1]`. Gathering the source rows gives `[P, C]`; adding row
  `p` of that into row `dst p` of a table `z` gives, at `(r, k)`, the entry `z (r, k)` plus the sum of
  `m (src p, k)` over the positions `p` whose destination is `r`. The words are assumed to be the row numbers of
  two given functions `srcF`, `dstF` into the rows, so no clamping or dropping happens.
-/
import proofs.«136422_j72232759984373_2_alg».proof.Proof.Spec
import proofs.«136422_j72232759984373_2_alg».proof.Proof.LibRowOps

open scoped BigOperators

noncomputable section

namespace Cert.ReferenceIdeal.RefValue

open Idealize.ShloMosaic Idealize.ShloMosaic.ValueIdx

section Agg
variable {N P C : Nat}
  (wfG : GatherDims.WF ⟨2, ![N, C]⟩ ⟨2, ![P, 1]⟩ ⟨2, ![P, C]⟩ [1] [0] [] [0] [] 1 ![1, C])
  (wfS : ScatterDims.WF ⟨2, ![N, C]⟩ ⟨2, ![P, 1]⟩ ⟨2, ![P, C]⟩ [1] [0] [0] 1)

/-- A start index that is the number of a row is not moved by the clamp. -/
theorem clampRow_eq_of_toInt (hN : 0 < N) (idx : IVec ⟨2, ![P, 1]⟩ 32) (p : Fin P) (r : Fin N)
    (h : (idx (ix2 p 0)).toInt = (r.val : Int)) : RowOps.clampRow hN idx p = r := by
  apply Fin.ext
  show min (idx (ix2 p 0)).toInt.toNat (N - 1) = r.val
  rw [h, Int.toNat_natCast]
  have := r.isLt
  omega

/-- The positions landing on row `r` are those whose destination is `r`. -/
theorem landRow_filter (dstI : IVec ⟨2, ![P, 1]⟩ 32) (dstF : Fin P → Fin N)
    (hd : ∀ p, (dstI (ix2 p 0)).toInt = ((dstF p).val : Int)) (r : Fin N) :
    (Finset.univ.filter fun p : Fin P => RowOps.landRow dstI p = some r)
      = Finset.univ.filter fun p : Fin P => dstF p = r := by
  refine Finset.filter_congr fun p _ => ?_
  rw [RowOps.landRow_eq_some_iff, hd p]
  constructor
  · intro h
    exact Fin.ext (Int.ofNat_inj.mp h)
  · intro h
    rw [h]

/-- The gather of the source rows at `(p, k)`. -/
theorem gatherRows_apply (hN : 0 < N) (m : FVec Ideal ⟨2, ![N, C]⟩ .f32) (srcI : IVec ⟨2, ![P, 1]⟩ 32)
    (srcF : Fin P → Fin N) (hs : ∀ p, (srcI (ix2 p 0)).toInt = ((srcF p).val : Int)) (p : Fin P) (k : Fin C) :
    Host.gather (RowOps.rowGather N P C wfG) m srcI (ix2 p k) = m (ix2 (srcF p) k) := by
  rw [RowOps.gather_row_apply wfG srcI p k hN m, clampRow_eq_of_toInt hN srcI p (srcF p) (hs p)]

/-- THE AGGREGATE AT `(r, k)`: the table's entry plus the messages of the sources of the positions ending at `r`. -/
theorem gatherScatter_apply (hN : 0 < N) (m z : FVec Ideal ⟨2, ![N, C]⟩ .f32) (srcI dstI : IVec ⟨2, ![P, 1]⟩ 32)
    (srcF dstF : Fin P → Fin N) (hs : ∀ p, (srcI (ix2 p 0)).toInt = ((srcF p).val : Int))
    (hd : ∀ p, (dstI (ix2 p 0)).toInt = ((dstF p).val : Int)) (r : Fin N) (k : Fin C) :
    Host.scatterAdd (F := Ideal) (RowOps.rowScatter N P C wfS) z dstI
        (Host.gather (RowOps.rowGather N P C wfG) m srcI) (ix2 r k)
      = z (ix2 r k) + ∑ p ∈ Finset.univ.filter (fun p : Fin P => dstF p = r), m (ix2 (srcF p) k) := by
  show Ideal.hostScatterAdd (RowOps.rowScatter N P C wfS) z dstI
      (Host.gather (RowOps.rowGather N P C wfG) m srcI) (ix2 r k) = _
  rw [RowOps.scatterAdd_row_apply, landRow_filter dstI dstF hd r]
  congr 1
  exact Finset.sum_congr rfl fun p _ => gatherRows_apply wfG hN m srcI srcF hs p k

/-- Messages summed into `M` rows by one column of row numbers (no gather): at `(v, k)`. -/
theorem scatterRows_apply {M : Nat} (wfS' : ScatterDims.WF ⟨2, ![M, C]⟩ ⟨2, ![P, 1]⟩ ⟨2, ![P, C]⟩ [1] [0] [0] 1)
    (z : FVec Ideal ⟨2, ![M, C]⟩ .f32) (u : FVec Ideal ⟨2, ![P, C]⟩ .f32) (dstI : IVec ⟨2, ![P, 1]⟩ 32)
    (dstF : Fin P → Fin M) (hd : ∀ p, (dstI (ix2 p 0)).toInt = ((dstF p).val : Int)) (v : Fin M) (k : Fin C) :
    Host.scatterAdd (F := Ideal) (RowOps.rowScatter M P C wfS') z dstI u (ix2 v k)
      = z (ix2 v k) + ∑ p ∈ Finset.univ.filter (fun p : Fin P => dstF p = v), u (ix2 p k) := by
  show Ideal.hostScatterAdd (RowOps.rowScatter M P C wfS') z dstI u (ix2 v k) = _
  rw [RowOps.scatterAdd_row_apply, landRow_filter dstI dstF hd v]

end Agg

end Cert.ReferenceIdeal.RefValue

end
-- ==== Proof.Ref.Cell.lean ====
/-
  A dense layer and the gated recurrent cell, as the host program spells them on whole arrays, read at an entry.

  A dense layer is a matrix product plus a bias vector made a one-row matrix and repeated down the rows. The cell
  takes the aggregate `agg` and the state `x` (both `[N, 128]`), forms two 384-column dense layers with the
  TRANSPOSED weights, cuts each into three 128-column thirds, and combines them entry by entry:
  `r = 1 / (1 + e^{-(i_r + h_r)})`, `z = 1 / (1 + e^{-(i_z + h_z)})`, `n = tanh (i_n + r · h_n)`,
  result `(1 − z) · n + z · x`. Every operation but the products, the bias rows, the transposes and the cuts
  acts entry by entry, so the result at `(r, j)` is the specification's `GGNN.gru` at `(r, j)`.
-/
import proofs.«136422_j72232759984373_2_alg».proof.Proof.Spec
import proofs.«136422_j72232759984373_2_alg».proof.Proof.LibDense

open scoped BigOperators

noncomputable section

namespace Cert.ReferenceIdeal.RefValue

open Idealize.ShloMosaic Idealize.ShloMosaic.ValueIdx

/-- An array as a matrix of its entries. -/
abbrev matOf {n k : Nat} (x : FVec Ideal ⟨2, ![n, k]⟩ .f32) : GGNN.Mat n k := fun r c => x (ix2 r c)

/-- A vector as a function of its position. -/
abbrev vecOf {n : Nat} (b : FVec Ideal ⟨1, ![n]⟩ .f32) : Fin n → EReal := fun c => b (ix1 c)

section Dense
variable {N K M : Nat}

/-- A vector made a one-row matrix reads the vector's entry `c` at `(0, c)`. -/
theorem vecRow_apply (h1 : (⟨1, ![M]⟩ : Shape).BroadcastsInDim ⟨2, ![1, M]⟩ ![1]) (b : FVec Ideal ⟨1, ![M]⟩ .f32)
    (c : Fin M) : broadcastInDim ⟨2, ![1, M]⟩ ![1] h1 b (ix2 0 c) = b (ix1 c) :=
  broadcastInDim_apply ![1] h1 b (ix2 0 c) (ix1 c) (fun a => match a with
    | ⟨0, _⟩ => by
      show c.val = if M = 1 then 0 else c.val
      split
      · have := c.isLt; omega
      · rfl)

/-- A dense layer on whole arrays: the product, plus the bias made a row and repeated down the rows. -/
def denseOps (h1 : (⟨1, ![M]⟩ : Shape).BroadcastsInDim ⟨2, ![1, M]⟩ ![1])
    (h2 : (⟨2, ![1, M]⟩ : Shape).BroadcastsInDim ⟨2, ![N, M]⟩ ![0, 1])
    (x : FVec Ideal ⟨2, ![N, K]⟩ .f32) (w : FVec Ideal ⟨2, ![K, M]⟩ .f32) (b : FVec Ideal ⟨1, ![M]⟩ .f32) :
    FVec Ideal ⟨2, ![N, M]⟩ .f32 :=
  addf (Host.dotGeneral (DotDims.plain N K M) none x w)
    (broadcastInDim ⟨2, ![N, M]⟩ ![0, 1] h2 (broadcastInDim ⟨2, ![1, M]⟩ ![1] h1 b))

/-- The dense layer at `(r, c)`. -/
theorem denseOps_apply (h1 : (⟨1, ![M]⟩ : Shape).BroadcastsInDim ⟨2, ![1, M]⟩ ![1])
    (h2 : (⟨2, ![1, M]⟩ : Shape).BroadcastsInDim ⟨2, ![N, M]⟩ ![0, 1])
    (x : FVec Ideal ⟨2, ![N, K]⟩ .f32) (w : FVec Ideal ⟨2, ![K, M]⟩ .f32) (b : FVec Ideal ⟨1, ![M]⟩ .f32)
    (r : Fin N) (c : Fin M) :
    denseOps h1 h2 x w b (ix2 r c) = GGNN.dense (matOf x) (matOf w) (vecOf b) r c := by
  show FloatOps.dotGeneral (DotDims.plain N K M) none .single x w (ix2 r c)
      + broadcastInDim ⟨2, ![N, M]⟩ ![0, 1] h2 (broadcastInDim ⟨2, ![1, M]⟩ ![1] h1 b) (ix2 r c) = _
  rw [LibDense.dotGeneral_plain_apply, LibDense.rowBroadcastInDim_apply, vecRow_apply]
  rfl

/-- A dense layer followed by `max · 0` against a table of zeros, at `(r, c)`. -/
theorem reluDense_apply (h1 : (⟨1, ![M]⟩ : Shape).BroadcastsInDim ⟨2, ![1, M]⟩ ![1])
    (h2 : (⟨2, ![1, M]⟩ : Shape).BroadcastsInDim ⟨2, ![N, M]⟩ ![0, 1])
    (x : FVec Ideal ⟨2, ![N, K]⟩ .f32) (w : FVec Ideal ⟨2, ![K, M]⟩ .f32) (b : FVec Ideal ⟨1, ![M]⟩ .f32)
    (zs : FVec Ideal ⟨2, ![N, M]⟩ .f32) (hz : ∀ i, zs i = GGNN.zero) (r : Fin N) (c : Fin M) :
    maximumf (denseOps h1 h2 x w b) zs (ix2 r c) = GGNN.relu (GGNN.dense (matOf x) (matOf w) (vecOf b) r c) := by
  show max (denseOps h1 h2 x w b (ix2 r c)) (zs (ix2 r c)) = _
  rw [denseOps_apply, hz]
  rfl

end Dense

section Cell
variable {N : Nat}

/-- The weights `[384, 128]` transposed, as a matrix `128 × 384`. -/
abbrev matOfT (g : FVec Ideal ⟨2, ![384, 128]⟩ .f32) : GGNN.Mat 128 384 := fun k c => g (ix2 c k)

/-- The transposed weights as an array are the transposed matrix. -/
theorem matOf_transpose (hT : (⟨2, ![384, 128]⟩ : Shape).Transposes [1, 0] ⟨2, ![128, 384]⟩)
    (g : FVec Ideal ⟨2, ![384, 128]⟩ .f32) :
    matOf (transpose ⟨2, ![128, 384]⟩ [1, 0] g hT) = matOfT g := by
  funext k c
  exact transpose_apply [1, 0] g hT (ix2 k c) (ix2 c k) (fun b => match b with
    | ⟨0, _⟩ => rfl
    | ⟨1, _⟩ => rfl)

/-- The logistic function on whole arrays, as the host spells it: `1 / (1 + e^{-(a + b)})`. -/
def sigmOps (ones a b : FVec Ideal ⟨2, ![N, 128]⟩ .f32) : FVec Ideal ⟨2, ![N, 128]⟩ .f32 :=
  Host.divf ones (addf ones (Host.exp (Host.negf (addf a b))))

theorem sigmOps_apply (ones a b : FVec Ideal ⟨2, ![N, 128]⟩ .f32) (ho : ∀ i, ones i = GGNN.one)
    (i : (⟨2, ![N, 128]⟩ : Shape).Idx) : sigmOps ones a b i = GGNN.sigm (a i + b i) := by
  show Ideal.div (ones i) (ones i + Ideal.exp (-(a i + b i))) = _
  rw [ho]
  rfl

/-- The cell's entrywise part on whole arrays, from the six thirds and the state. -/
def cellOps (ones ir iz inn hr hz hn x : FVec Ideal ⟨2, ![N, 128]⟩ .f32) : FVec Ideal ⟨2, ![N, 128]⟩ .f32 :=
  addf (mulf (subf ones (sigmOps ones iz hz)) (Host.tanh (addf inn (mulf (sigmOps ones ir hr) hn))))
    (mulf (sigmOps ones iz hz) x)

theorem cellOps_apply (ones ir iz inn hr hz hn x : FVec Ideal ⟨2, ![N, 128]⟩ .f32) (ho : ∀ i, ones i = GGNN.one)
    (i : (⟨2, ![N, 128]⟩ : Shape).Idx) :
    cellOps ones ir iz inn hr hz hn x i
      = (GGNN.one - GGNN.sigm (iz i + hz i)) * Ideal.tanh (inn i + GGNN.sigm (ir i + hr i) * hn i)
        + GGNN.sigm (iz i + hz i) * x i := by
  show (ones i - sigmOps ones iz hz i) * Ideal.tanh (inn i + sigmOps ones ir hr i * hn i) + sigmOps ones iz hz i * x i = _
  rw [sigmOps_apply ones iz hz ho, sigmOps_apply ones ir hr ho, ho]

/-- Third `q` of a 384-column array: the cut at column offset `128 · q`, at `(r, j)`. -/
theorem third0_apply (h : (⟨2, ![N, 384]⟩ : Shape).Slices ![0, 0] ⟨2, ![N, 128]⟩) (y : FVec Ideal ⟨2, ![N, 384]⟩ .f32)
    (r : Fin N) (j : Fin 128) :
    extractStridedSlice ⟨2, ![N, 128]⟩ ![0, 0] y h (ix2 r j) = y (ix2 r (GGNN.third 0 j)) :=
  extractStridedSlice_apply ![0, 0] y h (ix2 r j) (ix2 r (GGNN.third 0 j)) (fun a => match a with
    | ⟨0, _⟩ => by show r.val = 0 + r.val; omega
    | ⟨1, _⟩ => by show 0 * 128 + j.val = 0 + j.val; omega)

theorem third1_apply (h : (⟨2, ![N, 384]⟩ : Shape).Slices ![0, 128] ⟨2, ![N, 128]⟩) (y : FVec Ideal ⟨2, ![N, 384]⟩ .f32)
    (r : Fin N) (j : Fin 128) :
    extractStridedSlice ⟨2, ![N, 128]⟩ ![0, 128] y h (ix2 r j) = y (ix2 r (GGNN.third 1 j)) :=
  extractStridedSlice_apply ![0, 128] y h (ix2 r j) (ix2 r (GGNN.third 1 j)) (fun a => match a with
    | ⟨0, _⟩ => by show r.val = 0 + r.val; omega
    | ⟨1, _⟩ => by show 1 * 128 + j.val = 128 + j.val; omega)

theorem third2_apply (h : (⟨2, ![N, 384]⟩ : Shape).Slices ![0, 256] ⟨2, ![N, 128]⟩) (y : FVec Ideal ⟨2, ![N, 384]⟩ .f32)
    (r : Fin N) (j : Fin 128) :
    extractStridedSlice ⟨2, ![N, 128]⟩ ![0, 256] y h (ix2 r j) = y (ix2 r (GGNN.third 2 j)) :=
  extractStridedSlice_apply ![0, 256] y h (ix2 r j) (ix2 r (GGNN.third 2 j)) (fun a => match a with
    | ⟨0, _⟩ => by show r.val = 0 + r.val; omega
    | ⟨1, _⟩ => by show 2 * 128 + j.val = 256 + j.val; omega)

/-- The shape facts the cell's operations cite. -/
structure CellFacts (N : Nat) : Prop where
  one : (⟨0, ![]⟩ : Shape).BroadcastsInDim ⟨2, ![N, 128]⟩ (![] : Fin 0 → Fin 2)
  tr : (⟨2, ![384, 128]⟩ : Shape).Transposes [1, 0] ⟨2, ![128, 384]⟩
  b1 : (⟨1, ![384]⟩ : Shape).BroadcastsInDim ⟨2, ![1, 384]⟩ ![1]
  b2 : (⟨2, ![1, 384]⟩ : Shape).BroadcastsInDim ⟨2, ![N, 384]⟩ ![0, 1]
  s0 : (⟨2, ![N, 384]⟩ : Shape).Slices ![0, 0] ⟨2, ![N, 128]⟩
  s1 : (⟨2, ![N, 384]⟩ : Shape).Slices ![0, 128] ⟨2, ![N, 128]⟩
  s2 : (⟨2, ![N, 384]⟩ : Shape).Slices ![0, 256] ⟨2, ![N, 128]⟩

/-- The table of ones the cell uses. -/
def onesOps (h : (⟨0, ![]⟩ : Shape).BroadcastsInDim ⟨2, ![N, 128]⟩ (![] : Fin 0 → Fin 2)) :
    FVec Ideal ⟨2, ![N, 128]⟩ .f32 :=
  broadcastInDim ⟨2, ![N, 128]⟩ ![] h (constant (F := Ideal) ⟨0, ![]⟩ .f32 0x3F800000#32)

theorem onesOps_apply (h : (⟨0, ![]⟩ : Shape).BroadcastsInDim ⟨2, ![N, 128]⟩ (![] : Fin 0 → Fin 2))
    (i : (⟨2, ![N, 128]⟩ : Shape).Idx) : onesOps h i = GGNN.one :=
  broadcastInDim_apply ![] h (constant (F := Ideal) ⟨0, ![]⟩ .f32 0x3F800000#32) i ix0 (fun a => a.elim0)

/-- THE CELL ON WHOLE ARRAYS: the two dense layers with the transposed weights, their thirds, the entrywise part. -/
def gruOps (f : CellFacts N) (agg x : FVec Ideal ⟨2, ![N, 128]⟩ .f32) (gwi gwh : FVec Ideal ⟨2, ![384, 128]⟩ .f32)
    (bi bh : FVec Ideal ⟨1, ![384]⟩ .f32) : FVec Ideal ⟨2, ![N, 128]⟩ .f32 :=
  cellOps (onesOps f.one)
    (extractStridedSlice ⟨2, ![N, 128]⟩ ![0, 0] (denseOps f.b1 f.b2 agg (transpose ⟨2, ![128, 384]⟩ [1, 0] gwi f.tr) bi) f.s0)
    (extractStridedSlice ⟨2, ![N, 128]⟩ ![0, 128] (denseOps f.b1 f.b2 agg (transpose ⟨2, ![128, 384]⟩ [1, 0] gwi f.tr) bi) f.s1)
    (extractStridedSlice ⟨2, ![N, 128]⟩ ![0, 256] (denseOps f.b1 f.b2 agg (transpose ⟨2, ![128, 384]⟩ [1, 0] gwi f.tr) bi) f.s2)
    (extractStridedSlice ⟨2, ![N, 128]⟩ ![0, 0] (denseOps f.b1 f.b2 x (transpose ⟨2, ![128, 384]⟩ [1, 0] gwh f.tr) bh) f.s0)
    (extractStridedSlice ⟨2, ![N, 128]⟩ ![0, 128] (denseOps f.b1 f.b2 x (transpose ⟨2, ![128, 384]⟩ [1, 0] gwh f.tr) bh) f.s1)
    (extractStridedSlice ⟨2, ![N, 128]⟩ ![0, 256] (denseOps f.b1 f.b2 x (transpose ⟨2, ![128, 384]⟩ [1, 0] gwh f.tr) bh) f.s2)
    x

/-- THE CELL AT `(r, j)` is the specification's cell of the aggregate and the state as matrices. -/
theorem gruOps_apply (f : CellFacts N) (agg x : FVec Ideal ⟨2, ![N, 128]⟩ .f32) (gwi gwh : FVec Ideal ⟨2, ![384, 128]⟩ .f32)
    (bi bh : FVec Ideal ⟨1, ![384]⟩ .f32) (r : Fin N) (j : Fin 128) :
    gruOps f agg x gwi gwh bi bh (ix2 r j)
      = GGNN.gru (matOf agg) (matOf x) (matOfT gwi) (matOfT gwh) (vecOf bi) (vecOf bh) r j := by
  have hgi : ∀ c : Fin 384, denseOps f.b1 f.b2 agg (transpose ⟨2, ![128, 384]⟩ [1, 0] gwi f.tr) bi (ix2 r c)
      = GGNN.dense (matOf agg) (matOfT gwi) (vecOf bi) r c := fun c => by
    rw [denseOps_apply, matOf_transpose]
  have hgh : ∀ c : Fin 384, denseOps f.b1 f.b2 x (transpose ⟨2, ![128, 384]⟩ [1, 0] gwh f.tr) bh (ix2 r c)
      = GGNN.dense (matOf x) (matOfT gwh) (vecOf bh) r c := fun c => by
    rw [denseOps_apply, matOf_transpose]
  unfold gruOps
  rw [cellOps_apply _ _ _ _ _ _ _ _ (onesOps_apply f.one), third0_apply, third1_apply, third2_apply, third0_apply,
    third1_apply, third2_apply]
  simp only [hgi, hgh]
  rfl

end Cell

end Cert.ReferenceIdeal.RefValue

end
-- ==== Proof.Ref.Layer.lean ====
/-
  One recurrent layer on whole arrays, read at an entry.

  The layer multiplies the state table `x : [N, 128]` by the layer's weight `W`, gathers the rows of the product at
  the edges' source rows, adds them into a table of zeros at the edges' destination rows, and feeds that aggregate
  and the state to the gated recurrent cell. At `(r, j)` the result is the specification's cell of the aggregate
  "zero plus the sum, over the edge positions ending at `r`, of the product's row at the position's source".
-/
import proofs.«136422_j72232759984373_2_alg».proof.Proof.Spec
import proofs.«136422_j72232759984373_2_alg».proof.Proof.Ref.Agg
import proofs.«136422_j72232759984373_2_alg».proof.Proof.Ref.Cell

open scoped BigOperators

noncomputable section

namespace Cert.ReferenceIdeal.RefValue

open Idealize.ShloMosaic Idealize.ShloMosaic.ValueIdx

section Layer
variable {N P : Nat}

/-- The shape facts a layer's operations cite besides the cell's. -/
structure LayerFacts (N P : Nat) : Prop where
  cell : CellFacts N
  zero : (⟨0, ![]⟩ : Shape).BroadcastsInDim ⟨2, ![N, 128]⟩ (![] : Fin 0 → Fin 2)
  wfG : GatherDims.WF ⟨2, ![N, 128]⟩ ⟨2, ![P, 1]⟩ ⟨2, ![P, 128]⟩ [1] [0] [] [0] [] 1 ![1, 128]
  wfS : ScatterDims.WF ⟨2, ![N, 128]⟩ ⟨2, ![P, 1]⟩ ⟨2, ![P, 128]⟩ [1] [0] [0] 1

/-- The table of zeros the aggregate is added into. -/
def zerosOps {n k : Nat} (h : (⟨0, ![]⟩ : Shape).BroadcastsInDim ⟨2, ![n, k]⟩ (![] : Fin 0 → Fin 2)) :
    FVec Ideal ⟨2, ![n, k]⟩ .f32 :=
  broadcastInDim ⟨2, ![n, k]⟩ ![] h (constant (F := Ideal) ⟨0, ![]⟩ .f32 0x00000000#32)

theorem zerosOps_apply {n k : Nat} (h : (⟨0, ![]⟩ : Shape).BroadcastsInDim ⟨2, ![n, k]⟩ (![] : Fin 0 → Fin 2))
    (i : (⟨2, ![n, k]⟩ : Shape).Idx) : zerosOps h i = GGNN.zero :=
  broadcastInDim_apply ![] h (constant (F := Ideal) ⟨0, ![]⟩ .f32 0x00000000#32) i ix0 (fun a => a.elim0)

/-- The aggregate on whole arrays: the product's rows gathered at the sources, added into zeros at the destinations. -/
def aggOps (f : LayerFacts N P) (x : FVec Ideal ⟨2, ![N, 128]⟩ .f32) (W : FVec Ideal ⟨2, ![128, 128]⟩ .f32)
    (srcI dstI : IVec ⟨2, ![P, 1]⟩ 32) : FVec Ideal ⟨2, ![N, 128]⟩ .f32 :=
  Host.scatterAdd (F := Ideal) (RowOps.rowScatter N P 128 f.wfS) (zerosOps f.zero) dstI
    (Host.gather (RowOps.rowGather N P 128 f.wfG) (Host.dotGeneral (DotDims.plain N 128 128) none x W) srcI)

/-- The aggregate as a matrix: each row sums, from zero, the product's rows at the sources of the positions ending at it. -/
def aggMat (srcF dstF : Fin P → Fin N) (msg : GGNN.Mat N 128) : GGNN.Mat N 128 := fun r k =>
  GGNN.zero + ∑ p ∈ Finset.univ.filter (fun p : Fin P => dstF p = r), msg (srcF p) k

theorem aggOps_apply (f : LayerFacts N P) (hN : 0 < N) (x : FVec Ideal ⟨2, ![N, 128]⟩ .f32)
    (W : FVec Ideal ⟨2, ![128, 128]⟩ .f32) (srcI dstI : IVec ⟨2, ![P, 1]⟩ 32) (srcF dstF : Fin P → Fin N)
    (hs : ∀ p, (srcI (ix2 p 0)).toInt = ((srcF p).val : Int)) (hd : ∀ p, (dstI (ix2 p 0)).toInt = ((dstF p).val : Int)) :
    matOf (aggOps f x W srcI dstI) = aggMat srcF dstF (GGNN.mm (matOf x) (matOf W)) := by
  funext r k
  show Host.scatterAdd (F := Ideal) (RowOps.rowScatter N P 128 f.wfS) (zerosOps f.zero) dstI
    (Host.gather (RowOps.rowGather N P 128 f.wfG) (Host.dotGeneral (DotDims.plain N 128 128) none x W) srcI) (ix2 r k) = _
  rw [gatherScatter_apply f.wfG f.wfS hN _ _ srcI dstI srcF dstF hs hd r k, zerosOps_apply]
  unfold aggMat
  congr 1
  refine Finset.sum_congr rfl fun p _ => ?_
  exact LibDense.dotGeneral_plain_apply none .single x W (srcF p) k

/-- THE LAYER ON WHOLE ARRAYS. -/
def layerOps (f : LayerFacts N P) (x : FVec Ideal ⟨2, ![N, 128]⟩ .f32) (W : FVec Ideal ⟨2, ![128, 128]⟩ .f32)
    (srcI dstI : IVec ⟨2, ![P, 1]⟩ 32) (gwi gwh : FVec Ideal ⟨2, ![384, 128]⟩ .f32) (bi bh : FVec Ideal ⟨1, ![384]⟩ .f32) :
    FVec Ideal ⟨2, ![N, 128]⟩ .f32 :=
  gruOps f.cell (aggOps f x W srcI dstI) x gwi gwh bi bh

/-- THE LAYER AT `(r, j)`. -/
theorem layerOps_apply (f : LayerFacts N P) (hN : 0 < N) (x : FVec Ideal ⟨2, ![N, 128]⟩ .f32)
    (W : FVec Ideal ⟨2, ![128, 128]⟩ .f32) (srcI dstI : IVec ⟨2, ![P, 1]⟩ 32) (gwi gwh : FVec Ideal ⟨2, ![384, 128]⟩ .f32)
    (bi bh : FVec Ideal ⟨1, ![384]⟩ .f32) (srcF dstF : Fin P → Fin N)
    (hs : ∀ p, (srcI (ix2 p 0)).toInt = ((srcF p).val : Int)) (hd : ∀ p, (dstI (ix2 p 0)).toInt = ((dstF p).val : Int))
    (r : Fin N) (j : Fin 128) :
    layerOps f x W srcI dstI gwi gwh bi bh (ix2 r j)
      = GGNN.gru (aggMat srcF dstF (GGNN.mm (matOf x) (matOf W))) (matOf x) (matOfT gwi) (matOfT gwh) (vecOf bi) (vecOf bh) r j := by
  unfold layerOps
  rw [gruOps_apply, aggOps_apply f hN x W srcI dstI srcF dstF hs hd]

end Layer

end Cert.ReferenceIdeal.RefValue

end
-- ==== Proof.Ref.Layers.lean ====
/-
  The two recurrent layers of the reference program, read at an entry.

  Each layer's stages are the same operations: the state times the layer's weight, its rows gathered at the
  normalised source words, added into zeros at the destination words, then the gated recurrent cell. With the
  index words identified as the specification's edge lists, both layers are the specification's
  `gru (aggAll row col (mm X W)) X wi wh bi bh` of the state `X` going in.
-/
import proofs.«136422_j72232759984373_2_alg».proof.Proof.RefReadP
import proofs.«136422_j72232759984373_2_alg».proof.Proof.Spec
import proofs.«136422_j72232759984373_2_alg».proof.Proof.Ref.Graph
import proofs.«136422_j72232759984373_2_alg».proof.Proof.Ref.Layer

open scoped BigOperators

noncomputable section

namespace Cert.ReferenceIdeal.RefValue

open Cert.ReferenceIdeal Cert.ReferenceIdeal.Read Idealize.ShloMosaic Idealize.ShloMosaic.ValueIdx

/-- The shape facts of a layer at the program's extents. -/
theorem cellFacts : CellFacts 139264 where
  one := Gen.bcast_S_S139264x128
  tr := Gen.transposes_S384x128_S128x384_1_0
  b1 := Gen.bcast_S384_S1x384_1
  b2 := Gen.bcast_S1x384_S139264x384_0_1
  s0 := Gen.slices_S139264x384_S139264x128_0_0
  s1 := Gen.slices_S139264x384_S139264x128_0_128
  s2 := Gen.slices_S139264x384_S139264x128_0_256

theorem layerFacts : LayerFacts 139264 524288 where
  cell := cellFacts
  zero := Gen.bcast_S_S139264x128
  wfG := Gen.gather_S139264x128_S524288x1_S524288x128_1_0_n_n_0_1_1128_wf
  wfS := Gen.scatter_S139264x128_S524288x1_S524288x128_1_0_0_1_wf

section
variable (a0 : (⟨S131072, .f32⟩ : BufTy).Contents (Elt Ideal)) (a2 a3 : (⟨S131072, .i32⟩ : BufTy).Contents (Elt Ideal))
  (a4 : (⟨S2x128x128, .f32⟩ : BufTy).Contents (Elt Ideal)) (a5 a6 : (⟨S384x128, .f32⟩ : BufTy).Contents (Elt Ideal))
  (a7 a8 : (⟨S384, .f32⟩ : BufTy).Contents (Elt Ideal))

/-! ## The stages of each layer are the layer's operations -/

theorem v65_eq : val_main_v65 (F := Ideal) a0 a2 a3 a4 a5 a6 a7 a8
    = layerOps layerFacts (val_main_v9 (F := Ideal) a0) (val_main_v16 (F := Ideal) a4) (val_main_v23 (F := Ideal) a2 a3)
        (val_main_v26 (F := Ideal) a2 a3) a5 a6 a7 a8 := rfl

theorem v116_eq : val_main_v116 (F := Ideal) a0 a2 a3 a4 a5 a6 a7 a8
    = layerOps layerFacts (val_main_v65 (F := Ideal) a0 a2 a3 a4 a5 a6 a7 a8) (val_main_v67 (F := Ideal) a4) (val_main_v74 (F := Ideal) a2 a3)
        (val_main_v77 (F := Ideal) a2 a3) a5 a6 a7 a8 := rfl

/-! ## The index words -/

theorem v13_eq : val_main_v13 (F := Ideal) a2 a3
    = concatenate SP 0 [⟨SE, facOps Gen.bcast_S_S131072⟩, ⟨SE, a2⟩, ⟨SE, facOps Gen.bcast_S_S131072⟩, ⟨SE, a3⟩]
        Gen.concatenates_S131072_S131072_S131072_S131072_S524288_d0 := rfl

theorem v14_eq : val_main_v14 (F := Ideal) a2 a3
    = concatenate SP 0 [⟨SE, a2⟩, ⟨SE, facOps Gen.bcast_S_S131072⟩, ⟨SE, a3⟩, ⟨SE, facOps Gen.bcast_S_S131072⟩]
        Gen.concatenates_S131072_S131072_S131072_S131072_S524288_d0 := rfl

theorem v74_eq : val_main_v74 (F := Ideal) a2 a3 = val_main_v23 (F := Ideal) a2 a3 := rfl
theorem v77_eq : val_main_v77 (F := Ideal) a2 a3 = val_main_v26 (F := Ideal) a2 a3 := rfl

variable (rowF colF : Fin 131072 → Fin 8192)
  (hrow : ∀ e : Fin 131072, (a2 (ix1 e)).toInt = ((rowF e).val : Int))
  (hcol : ∀ e : Fin 131072, (a3 (ix1 e)).toInt = ((colF e).val : Int))

include hrow hcol

/-- Position `p` of the source words, read signed, is the row number of `GGNN.src`. -/
theorem v13_toInt (p : Fin 524288) :
    (val_main_v13 (F := Ideal) a2 a3 (ix1 p)).toInt = ((GGNN.src (nV := 8192) (nE := 131072) rowF colF p).val : Int) := by
  rw [v13_eq]
  exact srcWords_toInt _ a2 a3 rowF colF (facOps_toInt _) hrow hcol _ p

theorem v14_toInt (p : Fin 524288) :
    (val_main_v14 (F := Ideal) a2 a3 (ix1 p)).toInt = ((GGNN.dst (nV := 8192) (nE := 131072) rowF colF p).val : Int) := by
  rw [v14_eq]
  exact dstWords_toInt _ a2 a3 rowF colF (facOps_toInt _) hrow hcol _ p

/-- The normalised source words as a column: at `(p, 0)`, read signed, the row number of `GGNN.src`. -/
theorem v23_toInt (p : Fin 524288) :
    (val_main_v23 (F := Ideal) a2 a3 (ix2 p 0)).toInt = ((GGNN.src (nV := 8192) (nE := 131072) rowF colF p).val : Int) := by
  have e1 : val_main_v23 (F := Ideal) a2 a3 (ix2 p 0) = val_main_v22 (F := Ideal) a2 a3 (ix1 p) :=
    column_apply (by decide) Gen.bcast_S524288_S524288x1_0 (val_main_v22 (F := Ideal) a2 a3) p
  have h13 := v13_toInt a2 a3 rowF colF hrow hcol p
  have e2 : val_main_v22 (F := Ideal) a2 a3 (ix1 p) = val_main_v13 (F := Ideal) a2 a3 (ix1 p) :=
    normalise_apply (val_main_v13 (F := Ideal) a2 a3) (val_main_v18 (F := Ideal)) (val_main_v20 (F := Ideal))
      (fun i => splatI_apply Gen.bcast_S_S524288 0#32 i) (ix1 p) (by rw [h13]; exact Int.natCast_nonneg _)
  rw [e1, e2, h13]

/-- The destination words as a column: at `(p, 0)`, read signed, the row number of `GGNN.dst`. -/
theorem v26_toInt (p : Fin 524288) :
    (val_main_v26 (F := Ideal) a2 a3 (ix2 p 0)).toInt = ((GGNN.dst (nV := 8192) (nE := 131072) rowF colF p).val : Int) := by
  have e1 : val_main_v26 (F := Ideal) a2 a3 (ix2 p 0) = val_main_v14 (F := Ideal) a2 a3 (ix1 p) :=
    column_apply (by decide) Gen.bcast_S524288_S524288x1_0 (val_main_v14 (F := Ideal) a2 a3) p
  rw [e1, v14_toInt a2 a3 rowF colF hrow hcol p]

omit hrow hcol

/-! ## The layer weights -/

/-- Layer `l`'s weight as a matrix: slab `l` of the stacked weights. -/
theorem matOf_v16 : matOf (val_main_v16 (F := Ideal) a4) = fun j k => a4 (ix3 0 j k) := by
  funext j k
  show val_main_v16 (F := Ideal) a4 (ix2 j k) = _
  rw [val_main_v16_apply, val_main_v15_apply]
  congr 1
  funext a
  have hj := j.isLt
  have hk := k.isLt
  refine Fin.ext ?_
  match a with
  | ⟨0, _⟩ => rfl
  | ⟨1, _⟩ => show (j.val * 128 + k.val) / 128 % 128 = j.val; omega
  | ⟨2, _⟩ => show (j.val * 128 + k.val) % 128 = k.val; omega

theorem matOf_v67 : matOf (val_main_v67 (F := Ideal) a4) = fun j k => a4 (ix3 1 j k) := by
  funext j k
  show val_main_v67 (F := Ideal) a4 (ix2 j k) = _
  rw [val_main_v67_apply, val_main_v66_apply]
  congr 1
  funext a
  have hj := j.isLt
  have hk := k.isLt
  refine Fin.ext ?_
  match a with
  | ⟨0, _⟩ => rfl
  | ⟨1, _⟩ => show (j.val * 128 + k.val) / 128 % 128 = j.val; omega
  | ⟨2, _⟩ => show (j.val * 128 + k.val) % 128 = k.val; omega

/-! ## The two layers -/

include hrow hcol

/-- THE FIRST LAYER at `(r, j)`, of the initial states `X0` = stage 9. -/
theorem layer1 (r : Fin (8192 + 131072)) (j : Fin 128) :
    val_main_v65 (F := Ideal) a0 a2 a3 a4 a5 a6 a7 a8 (ix2 r j)
      = GGNN.gru (GGNN.aggAll (nV := 8192) (nE := 131072) rowF colF
            (GGNN.mm (fun r k => val_main_v9 (F := Ideal) a0 (ix2 r k)) (fun j k => a4 (ix3 0 j k))))
          (fun r k => val_main_v9 (F := Ideal) a0 (ix2 r k))
          (fun k j => a5 (ix2 j k)) (fun k j => a6 (ix2 j k)) (fun j => a7 (ix1 j)) (fun j => a8 (ix1 j)) r j := by
  rw [v65_eq]
  refine (layerOps_apply layerFacts (by decide) _ _ _ _ a5 a6 a7 a8 (GGNN.src (nV := 8192) (nE := 131072) rowF colF)
    (GGNN.dst (nV := 8192) (nE := 131072) rowF colF) (v23_toInt a2 a3 rowF colF hrow hcol) (v26_toInt a2 a3 rowF colF hrow hcol) r j).trans ?_
  rw [matOf_v16]
  rfl

/-- THE SECOND LAYER at `(r, j)`, of the first layer's states `X1` = stage 65. -/
theorem layer2 (r : Fin (8192 + 131072)) (j : Fin 128) :
    val_main_v116 (F := Ideal) a0 a2 a3 a4 a5 a6 a7 a8 (ix2 r j)
      = GGNN.gru (GGNN.aggAll (nV := 8192) (nE := 131072) rowF colF
            (GGNN.mm (fun r k => val_main_v65 (F := Ideal) a0 a2 a3 a4 a5 a6 a7 a8 (ix2 r k)) (fun j k => a4 (ix3 1 j k))))
          (fun r k => val_main_v65 (F := Ideal) a0 a2 a3 a4 a5 a6 a7 a8 (ix2 r k))
          (fun k j => a5 (ix2 j k)) (fun k j => a6 (ix2 j k)) (fun j => a7 (ix1 j)) (fun j => a8 (ix1 j)) r j := by
  rw [v116_eq, v74_eq, v77_eq]
  refine (layerOps_apply layerFacts (by decide) _ _ _ _ a5 a6 a7 a8 (GGNN.src (nV := 8192) (nE := 131072) rowF colF)
    (GGNN.dst (nV := 8192) (nE := 131072) rowF colF) (v23_toInt a2 a3 rowF colF hrow hcol) (v26_toInt a2 a3 rowF colF hrow hcol) r j).trans ?_
  rw [matOf_v67]
  rfl

end

end Cert.ReferenceIdeal.RefValue

end
-- ==== Proof.Ref.TailLib.lean ====
import proofs.«136422_j72232759984373_2_alg».proof.Proof.Spec
import proofs.«136422_j72232759984373_2_alg».proof.Proof.LibDense
import proofs.«136422_j72232759984373_2_alg».proof.Proof.LibRowOps
import Idealize.ShloMosaic.PureOps.Ideal.Laws
import Idealize.ShloMosaic.Lib.Pipeline.Value
import Idealize.ShloMosaic.Lib.ValueIdx

/-!
# The host's spelling of the network's last part, on whole arrays, read entry by entry

Each definition below is a composition of host operations on whole arrays, over variables of the literal array
types; each `_apply` lemma reads it at an entry as the specification's function of the operands' entries:

* `hostDense`: a product plus the bias made a row and repeated down the rows — `GGNN.dense`;
* `hostRelu`: the maximum with a splat zero word — `GGNN.relu`;
* `hostMlp3`: three dense layers with two `hostRelu` between them — `GGNN.mlp3`;
* `hostSegRow`: the accumulating scatter of rows into zeros, by a vector of row words — `GGNN.segRow`;
* `hostSoftmax`: the row maximum from the minus-infinity word joined once more with that word, the
  exponentials of the differences, their row sum from the zero word, the quotients — `GGNN.softmaxRow`.
-/

noncomputable section

open scoped BigOperators

namespace HostNet

open Idealize.ShloMosaic Idealize.ShloMosaic.ValueIdx

/-- The shape of a scalar. -/
abbrev S0 : Shape := ⟨0, ![]⟩

/-! ## Small reads -/

/-- A splat of a scalar reads the scalar everywhere. -/
theorem splat_apply {α : Type} {s : Shape} (hz : S0.BroadcastsInDim s (![] : Fin 0 → Fin s.rank)) (x : S0.Idx → α)
    (i : s.Idx) : broadcastInDim s (![] : Fin 0 → Fin s.rank) hz x i = x ix0 :=
  broadcastInDim_apply _ hz x i ix0 (fun a => a.elim0)

/-- A vector made a one-row matrix reads, at `(0, c)`, its entry `c`. -/
theorem vecRow_apply {α : Type} {N : Nat} (hv : (⟨1, ![N]⟩ : Shape).BroadcastsInDim ⟨2, ![1, N]⟩ ![1])
    (b : (⟨1, ![N]⟩ : Shape).Idx → α) (c : Fin N) :
    broadcastInDim ⟨2, ![1, N]⟩ ![1] hv b (ix2 0 c) = b (ix1 c) :=
  broadcastInDim_apply ![1] hv b (ix2 0 c) (ix1 c) (fun a => match a with
    | ⟨0, _⟩ => by
      show c.val = if N = 1 then 0 else c.val
      split
      · have := c.isLt; omega
      · rfl)

/-- A vector made a one-column matrix reads, at `(e, 0)`, its entry `e`. -/
theorem vecCol_apply {α : Type} {E : Nat} (hc : (⟨1, ![E]⟩ : Shape).BroadcastsInDim ⟨2, ![E, 1]⟩ ![0])
    (v : (⟨1, ![E]⟩ : Shape).Idx → α) (e : Fin E) :
    broadcastInDim ⟨2, ![E, 1]⟩ ![0] hc v (ix2 e 0) = v (ix1 e) :=
  broadcastInDim_apply ![0] hc v (ix2 e 0) (ix1 e) (fun a => match a with
    | ⟨0, _⟩ => by
      show e.val = if E = 1 then 0 else e.val
      split
      · have := e.isLt; omega
      · rfl)

/-- A one-column matrix repeated along the columns reads, at `(v, c)`, its entry `(v, 0)`. -/
theorem colRepeat_apply {α : Type} {n m : Nat} (h : (⟨2, ![n, 1]⟩ : Shape).BroadcastsInDim ⟨2, ![n, m]⟩ ![0, 1])
    (y : (⟨2, ![n, 1]⟩ : Shape).Idx → α) (v : Fin n) (c : Fin m) :
    broadcastInDim ⟨2, ![n, m]⟩ ![0, 1] h y (ix2 v c) = y (ix2 v 0) :=
  broadcastInDim_apply ![0, 1] h y (ix2 v c) (ix2 v 0) (fun a => match a with
    | ⟨0, _⟩ => by
      show v.val = if n = 1 then 0 else v.val
      split
      · have := v.isLt; omega
      · rfl
    | ⟨1, _⟩ => by show (0 : Nat) = if (1 : Nat) = 1 then 0 else c.val; rw [if_pos rfl])

/-! ## A dense layer -/

section Dense
variable {M K N : Nat}

/-- The host's dense layer on whole arrays: the product, plus the bias made a row and repeated down the rows. -/
def hostDense (hv : (⟨1, ![N]⟩ : Shape).BroadcastsInDim ⟨2, ![1, N]⟩ ![1])
    (hr : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32) :
    FVec Ideal ⟨2, ![M, N]⟩ .f32 :=
  addf (Host.dotGeneral (DotDims.plain M K N) none x W)
    (broadcastInDim ⟨2, ![M, N]⟩ ![0, 1] hr (broadcastInDim ⟨2, ![1, N]⟩ ![1] hv b))

/-- Entry `(r, c)` of the host's dense layer. -/
theorem hostDense_apply (hv : (⟨1, ![N]⟩ : Shape).BroadcastsInDim ⟨2, ![1, N]⟩ ![1])
    (hr : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32)
    (r : Fin M) (c : Fin N) :
    hostDense hv hr x W b (ix2 r c)
      = GGNN.dense (fun r k => x (ix2 r k)) (fun k c => W (ix2 k c)) (fun c => b (ix1 c)) r c := by
  show FloatOps.dotGeneral (DotDims.plain M K N) none .single x W (ix2 r c)
      + broadcastInDim ⟨2, ![M, N]⟩ ![0, 1] hr (broadcastInDim ⟨2, ![1, N]⟩ ![1] hv b) (ix2 r c) = _
  rw [LibDense.dotGeneral_plain_apply, LibDense.rowBroadcastInDim_apply, vecRow_apply]
  rfl

end Dense

/-! ## `max · 0` -/

/-- `max · 0` on whole arrays: the maximum with a splat of the zero word. -/
def hostRelu {s : Shape} (hz : S0.BroadcastsInDim s (![] : Fin 0 → Fin s.rank)) (y : FVec Ideal s .f32) :
    FVec Ideal s .f32 :=
  maximumf y (broadcastInDim s (![] : Fin 0 → Fin s.rank) hz (constant (F := Ideal) S0 .f32 0x00000000#32))

/-- An entry of it. -/
theorem hostRelu_apply {s : Shape} (hz : S0.BroadcastsInDim s (![] : Fin 0 → Fin s.rank)) (y : FVec Ideal s .f32)
    (i : s.Idx) : hostRelu hz y i = GGNN.relu (y i) := by
  show max (y i) (broadcastInDim s (![] : Fin 0 → Fin s.rank) hz (constant (F := Ideal) S0 .f32 0x00000000#32) i) = _
  rw [splat_apply]
  rfl

/-! ## Three dense layers -/

section Mlp
variable {M K0 K1 K2 K3 : Nat}

/-- Three dense layers on whole arrays, `max · 0` after the first two. -/
def hostMlp3 (hv1 : (⟨1, ![K1]⟩ : Shape).BroadcastsInDim ⟨2, ![1, K1]⟩ ![1])
    (hr1 : (⟨2, ![1, K1]⟩ : Shape).BroadcastsInDim ⟨2, ![M, K1]⟩ ![0, 1])
    (hz1 : S0.BroadcastsInDim ⟨2, ![M, K1]⟩ (![] : Fin 0 → Fin 2))
    (hv2 : (⟨1, ![K2]⟩ : Shape).BroadcastsInDim ⟨2, ![1, K2]⟩ ![1])
    (hr2 : (⟨2, ![1, K2]⟩ : Shape).BroadcastsInDim ⟨2, ![M, K2]⟩ ![0, 1])
    (hz2 : S0.BroadcastsInDim ⟨2, ![M, K2]⟩ (![] : Fin 0 → Fin 2))
    (hv3 : (⟨1, ![K3]⟩ : Shape).BroadcastsInDim ⟨2, ![1, K3]⟩ ![1])
    (hr3 : (⟨2, ![1, K3]⟩ : Shape).BroadcastsInDim ⟨2, ![M, K3]⟩ ![0, 1])
    (x : FVec Ideal ⟨2, ![M, K0]⟩ .f32)
    (W1 : FVec Ideal ⟨2, ![K0, K1]⟩ .f32) (b1 : FVec Ideal ⟨1, ![K1]⟩ .f32)
    (W2 : FVec Ideal ⟨2, ![K1, K2]⟩ .f32) (b2 : FVec Ideal ⟨1, ![K2]⟩ .f32)
    (W3 : FVec Ideal ⟨2, ![K2, K3]⟩ .f32) (b3 : FVec Ideal ⟨1, ![K3]⟩ .f32) : FVec Ideal ⟨2, ![M, K3]⟩ .f32 :=
  hostDense hv3 hr3 (hostRelu hz2 (hostDense hv2 hr2 (hostRelu hz1 (hostDense hv1 hr1 x W1 b1)) W2 b2)) W3 b3

/-- Entry `(r, c)` of the three layers. -/
theorem hostMlp3_apply (hv1 : (⟨1, ![K1]⟩ : Shape).BroadcastsInDim ⟨2, ![1, K1]⟩ ![1])
    (hr1 : (⟨2, ![1, K1]⟩ : Shape).BroadcastsInDim ⟨2, ![M, K1]⟩ ![0, 1])
    (hz1 : S0.BroadcastsInDim ⟨2, ![M, K1]⟩ (![] : Fin 0 → Fin 2))
    (hv2 : (⟨1, ![K2]⟩ : Shape).BroadcastsInDim ⟨2, ![1, K2]⟩ ![1])
    (hr2 : (⟨2, ![1, K2]⟩ : Shape).BroadcastsInDim ⟨2, ![M, K2]⟩ ![0, 1])
    (hz2 : S0.BroadcastsInDim ⟨2, ![M, K2]⟩ (![] : Fin 0 → Fin 2))
    (hv3 : (⟨1, ![K3]⟩ : Shape).BroadcastsInDim ⟨2, ![1, K3]⟩ ![1])
    (hr3 : (⟨2, ![1, K3]⟩ : Shape).BroadcastsInDim ⟨2, ![M, K3]⟩ ![0, 1])
    (x : FVec Ideal ⟨2, ![M, K0]⟩ .f32)
    (W1 : FVec Ideal ⟨2, ![K0, K1]⟩ .f32) (b1 : FVec Ideal ⟨1, ![K1]⟩ .f32)
    (W2 : FVec Ideal ⟨2, ![K1, K2]⟩ .f32) (b2 : FVec Ideal ⟨1, ![K2]⟩ .f32)
    (W3 : FVec Ideal ⟨2, ![K2, K3]⟩ .f32) (b3 : FVec Ideal ⟨1, ![K3]⟩ .f32) (r : Fin M) (c : Fin K3) :
    hostMlp3 hv1 hr1 hz1 hv2 hr2 hz2 hv3 hr3 x W1 b1 W2 b2 W3 b3 (ix2 r c)
      = GGNN.mlp3 (fun r k => x (ix2 r k)) (fun k c => W1 (ix2 k c)) (fun c => b1 (ix1 c))
          (fun k c => W2 (ix2 k c)) (fun c => b2 (ix1 c)) (fun k c => W3 (ix2 k c)) (fun c => b3 (ix1 c)) r c := by
  have e1 : (fun (r : Fin M) (k : Fin K1) => hostRelu hz1 (hostDense hv1 hr1 x W1 b1) (ix2 r k))
      = fun r c => GGNN.relu (GGNN.dense (fun r k => x (ix2 r k)) (fun k c => W1 (ix2 k c)) (fun c => b1 (ix1 c)) r c) :=
    funext fun r => funext fun k => by rw [hostRelu_apply, hostDense_apply]
  have e2 : (fun (r : Fin M) (k : Fin K2) =>
        hostRelu hz2 (hostDense hv2 hr2 (hostRelu hz1 (hostDense hv1 hr1 x W1 b1)) W2 b2) (ix2 r k))
      = fun r c => GGNN.relu (GGNN.dense
          (fun r c => GGNN.relu (GGNN.dense (fun r k => x (ix2 r k)) (fun k c => W1 (ix2 k c)) (fun c => b1 (ix1 c)) r c))
          (fun k c => W2 (ix2 k c)) (fun c => b2 (ix1 c)) r c) :=
    funext fun r => funext fun k => by rw [hostRelu_apply, hostDense_apply, e1]
  unfold hostMlp3 GGNN.mlp3
  rw [hostDense_apply, e2]

end Mlp

/-! ## The messages summed into the variables -/

section Seg
variable {N E C : Nat}

/-- The accumulating scatter of the rows `u` into zeros, each row `e` to the row its word `rowI e` names. -/
def hostSegRow (wf : ScatterDims.WF ⟨2, ![N, C]⟩ ⟨2, ![E, 1]⟩ ⟨2, ![E, C]⟩ [1] [0] [0] 1)
    (hz : S0.BroadcastsInDim ⟨2, ![N, C]⟩ (![] : Fin 0 → Fin 2))
    (hc : (⟨1, ![E]⟩ : Shape).BroadcastsInDim ⟨2, ![E, 1]⟩ ![0])
    (rowI : IVec ⟨1, ![E]⟩ 32) (u : FVec Ideal ⟨2, ![E, C]⟩ .f32) : FVec Ideal ⟨2, ![N, C]⟩ .f32 :=
  Host.scatterAdd (RowOps.rowScatter N E C wf)
    (broadcastInDim ⟨2, ![N, C]⟩ (![] : Fin 0 → Fin 2) hz (constant (F := Ideal) S0 .f32 0x00000000#32))
    (broadcastInDim ⟨2, ![E, 1]⟩ ![0] hc rowI) u

/-- Entry `(v, c)` of it, the words being the rows `rowF`: zero plus the sum of column `c` of the rows sent to `v`. -/
theorem hostSegRow_apply (wf : ScatterDims.WF ⟨2, ![N, C]⟩ ⟨2, ![E, 1]⟩ ⟨2, ![E, C]⟩ [1] [0] [0] 1)
    (hz : S0.BroadcastsInDim ⟨2, ![N, C]⟩ (![] : Fin 0 → Fin 2))
    (hc : (⟨1, ![E]⟩ : Shape).BroadcastsInDim ⟨2, ![E, 1]⟩ ![0])
    (rowI : IVec ⟨1, ![E]⟩ 32) (u : FVec Ideal ⟨2, ![E, C]⟩ .f32) (rowF : Fin E → Fin N)
    (hrow : ∀ e, (rowI (ix1 e)).toInt = ((rowF e).val : Int)) (v : Fin N) (c : Fin C) :
    hostSegRow wf hz hc rowI u (ix2 v c) = GGNN.segRow rowF (fun e k => u (ix2 e k)) v c := by
  show Ideal.hostScatterAdd (RowOps.rowScatter N E C wf)
      (broadcastInDim ⟨2, ![N, C]⟩ (![] : Fin 0 → Fin 2) hz (constant (F := Ideal) S0 .f32 0x00000000#32))
      (broadcastInDim ⟨2, ![E, 1]⟩ ![0] hc rowI) u (ix2 v c) = _
  rw [RowOps.scatterAdd_row_apply, splat_apply]
  unfold GGNN.segRow
  refine congrArg₂ (· + ·) rfl (Finset.sum_congr (Finset.filter_congr fun e _ => ?_) fun _ _ => rfl)
  rw [RowOps.landRow_eq_some_iff, vecCol_apply, hrow e]
  constructor
  · intro h; exact Fin.ext (Int.ofNat_inj.mp h)
  · intro h; rw [h]

end Seg

/-! ## The row softmax of a two-column matrix -/

/-- A fold of `max` from `b` is `b` joined with the supremum. -/
theorem fold_max_eq {ι : Type} [DecidableEq ι] (s : Finset ι) (b : EReal) (f : ι → EReal) :
    s.fold max b f = max b (s.sup f) := by
  induction s using Finset.induction_on with
  | empty => rw [Finset.fold_empty, Finset.sup_empty, max_bot_right]
  | insert a s ha ih =>
    rw [Finset.fold_insert ha, ih, Finset.sup_insert]
    exact max_left_comm _ _ _

section Softmax
variable {n : Nat}

/-- Row `v` of a two-column matrix with column `k` put back is `(v, k)`. -/
theorem lift_row (hR : (⟨2, ![n, 2]⟩ : Shape).Reduces [1] ⟨1, ![n]⟩) (v : Fin n)
    (k : Fin ((⟨2, ![n, 2]⟩ : Shape).size 1)) : hR.lift (ix1 v) k = ix2 v (⟨k.val, k.isLt⟩ : Fin 2) := by
  funext c; apply Fin.ext
  match c with
  | ⟨0, _⟩ => rfl
  | ⟨1, _⟩ => rfl

/-- The row maximum as the host computes it: the reduction from the minus-infinity word, joined once more with a
    splat of that word. -/
def hostRowMax (hred : (⟨2, ![n, 2]⟩ : Shape).ReducesTo [1] ⟨1, ![n]⟩) (hu : 0 < S0.numel)
    (hb0 : S0.BroadcastsInDim ⟨1, ![n]⟩ (![] : Fin 0 → Fin 1)) (l : FVec Ideal ⟨2, ![n, 2]⟩ .f32) :
    FVec Ideal ⟨1, ![n]⟩ .f32 :=
  maximumf (broadcastInDim ⟨1, ![n]⟩ (![] : Fin 0 → Fin 1) hb0 (constant (F := Ideal) S0 .f32 0xFF800000#32))
    (Host.reduce FloatOps.maximumf l (constant (F := Ideal) S0 .f32 0xFF800000#32) hred hu)

/-- Entry `v` of it. -/
theorem hostRowMax_apply (hred : (⟨2, ![n, 2]⟩ : Shape).ReducesTo [1] ⟨1, ![n]⟩) (hu : 0 < S0.numel)
    (hb0 : S0.BroadcastsInDim ⟨1, ![n]⟩ (![] : Fin 0 → Fin 1))
    (hR : (⟨2, ![n, 2]⟩ : Shape).Reduces [1] ⟨1, ![n]⟩) (l : FVec Ideal ⟨2, ![n, 2]⟩ .f32) (v : Fin n) :
    hostRowMax hred hu hb0 l (ix1 v)
      = max GGNN.ninf (max GGNN.ninf (Finset.univ.sup fun c : Fin 2 => l (ix2 v c))) := by
  show max (broadcastInDim ⟨1, ![n]⟩ (![] : Fin 0 → Fin 1) hb0 (constant (F := Ideal) S0 .f32 0xFF800000#32) (ix1 v))
      (Host.reduce FloatOps.maximumf l (constant (F := Ideal) S0 .f32 0xFF800000#32) hred hu (ix1 v)) = _
  rw [splat_apply, Host.reduce_eq_fold_single FloatOps.maximumf l _ hred hR hu]
  have hf : (l ∘ hR.lift (ix1 v)) = fun k : Fin 2 => l (ix2 v k) := funext fun k => congrArg l (lift_row hR v k)
  have e := fold_max_eq (Finset.univ : Finset (Fin 2)) (Ideal.ofBits .f32 0xFF800000#32) (fun k : Fin 2 => l (ix2 v k))
  refine Eq.trans ?_ (congrArg (max GGNN.ninf) e)
  exact congrArg (fun f => max GGNN.ninf
    (Finset.fold max (Ideal.ofBits .f32 0xFF800000#32) f (Finset.univ : Finset (Fin 2)))) hf

/-- The row sum from the zero word, entry `v`. -/
theorem hostRowSum_apply (hred : (⟨2, ![n, 2]⟩ : Shape).ReducesTo [1] ⟨1, ![n]⟩) (hu : 0 < S0.numel)
    (hR : (⟨2, ![n, 2]⟩ : Shape).Reduces [1] ⟨1, ![n]⟩) (x : FVec Ideal ⟨2, ![n, 2]⟩ .f32) (v : Fin n) :
    Host.reduceAdd x (constant (F := Ideal) S0 .f32 0x00000000#32) hred hu (ix1 v) = GGNN.zero + ∑ c : Fin 2, x (ix2 v c) := by
  show Ideal.hostReduceAdd hred x (constant (F := Ideal) S0 .f32 0x00000000#32 (Shape.Idx.first hu)) (ix1 v) = _
  rw [Ideal.hostReduceAdd_single hred hR]
  exact congrArg₂ (· + ·) rfl (Finset.sum_congr rfl fun k _ => congrArg x (lift_row hR v k))

/-- A vector repeated along two columns: made a one-column matrix, then repeated. -/
def keepCol (hc1 : (⟨1, ![n]⟩ : Shape).BroadcastsInDim ⟨2, ![n, 1]⟩ ![0])
    (hc2 : (⟨2, ![n, 1]⟩ : Shape).BroadcastsInDim ⟨2, ![n, 2]⟩ ![0, 1]) (y : FVec Ideal ⟨1, ![n]⟩ .f32) :
    FVec Ideal ⟨2, ![n, 2]⟩ .f32 :=
  broadcastInDim ⟨2, ![n, 2]⟩ ![0, 1] hc2 (broadcastInDim ⟨2, ![n, 1]⟩ ![0] hc1 y)

/-- Entry `(v, c)` of it is entry `v` of the vector. -/
theorem keepCol_apply (hc1 : (⟨1, ![n]⟩ : Shape).BroadcastsInDim ⟨2, ![n, 1]⟩ ![0])
    (hc2 : (⟨2, ![n, 1]⟩ : Shape).BroadcastsInDim ⟨2, ![n, 2]⟩ ![0, 1]) (y : FVec Ideal ⟨1, ![n]⟩ .f32)
    (v : Fin n) (c : Fin 2) : keepCol hc1 hc2 y (ix2 v c) = y (ix1 v) := by
  unfold keepCol
  rw [colRepeat_apply, vecCol_apply]

/-- The exponentials of the entries less their row's maximum. -/
def hostExps (hred : (⟨2, ![n, 2]⟩ : Shape).ReducesTo [1] ⟨1, ![n]⟩) (hu : 0 < S0.numel)
    (hb0 : S0.BroadcastsInDim ⟨1, ![n]⟩ (![] : Fin 0 → Fin 1))
    (hc1 : (⟨1, ![n]⟩ : Shape).BroadcastsInDim ⟨2, ![n, 1]⟩ ![0])
    (hc2 : (⟨2, ![n, 1]⟩ : Shape).BroadcastsInDim ⟨2, ![n, 2]⟩ ![0, 1]) (l : FVec Ideal ⟨2, ![n, 2]⟩ .f32) :
    FVec Ideal ⟨2, ![n, 2]⟩ .f32 :=
  Host.exp (subf l (keepCol hc1 hc2 (hostRowMax hred hu hb0 l)))

/-- Entry `(v, c)` of them. -/
theorem hostExps_apply (hred : (⟨2, ![n, 2]⟩ : Shape).ReducesTo [1] ⟨1, ![n]⟩) (hu : 0 < S0.numel)
    (hb0 : S0.BroadcastsInDim ⟨1, ![n]⟩ (![] : Fin 0 → Fin 1))
    (hc1 : (⟨1, ![n]⟩ : Shape).BroadcastsInDim ⟨2, ![n, 1]⟩ ![0])
    (hc2 : (⟨2, ![n, 1]⟩ : Shape).BroadcastsInDim ⟨2, ![n, 2]⟩ ![0, 1])
    (hR : (⟨2, ![n, 2]⟩ : Shape).Reduces [1] ⟨1, ![n]⟩) (l : FVec Ideal ⟨2, ![n, 2]⟩ .f32) (v : Fin n) (c : Fin 2) :
    hostExps hred hu hb0 hc1 hc2 l (ix2 v c)
      = Ideal.exp (l (ix2 v c) - max GGNN.ninf (max GGNN.ninf (Finset.univ.sup fun c : Fin 2 => l (ix2 v c)))) := by
  show Ideal.exp (l (ix2 v c) - keepCol hc1 hc2 (hostRowMax hred hu hb0 l) (ix2 v c)) = _
  rw [keepCol_apply, hostRowMax_apply hred hu hb0 hR]

/-- The row softmax as the host computes it. -/
def hostSoftmax (hred : (⟨2, ![n, 2]⟩ : Shape).ReducesTo [1] ⟨1, ![n]⟩) (hu : 0 < S0.numel)
    (hb0 : S0.BroadcastsInDim ⟨1, ![n]⟩ (![] : Fin 0 → Fin 1))
    (hc1 : (⟨1, ![n]⟩ : Shape).BroadcastsInDim ⟨2, ![n, 1]⟩ ![0])
    (hc2 : (⟨2, ![n, 1]⟩ : Shape).BroadcastsInDim ⟨2, ![n, 2]⟩ ![0, 1]) (l : FVec Ideal ⟨2, ![n, 2]⟩ .f32) :
    FVec Ideal ⟨2, ![n, 2]⟩ .f32 :=
  Host.divf (hostExps hred hu hb0 hc1 hc2 l)
    (keepCol hc1 hc2 (Host.reduceAdd (hostExps hred hu hb0 hc1 hc2 l) (constant (F := Ideal) S0 .f32 0x00000000#32) hred hu))

/-- Entry `(v, c)` of it. -/
theorem hostSoftmax_apply (hred : (⟨2, ![n, 2]⟩ : Shape).ReducesTo [1] ⟨1, ![n]⟩) (hu : 0 < S0.numel)
    (hb0 : S0.BroadcastsInDim ⟨1, ![n]⟩ (![] : Fin 0 → Fin 1))
    (hc1 : (⟨1, ![n]⟩ : Shape).BroadcastsInDim ⟨2, ![n, 1]⟩ ![0])
    (hc2 : (⟨2, ![n, 1]⟩ : Shape).BroadcastsInDim ⟨2, ![n, 2]⟩ ![0, 1])
    (hR : (⟨2, ![n, 2]⟩ : Shape).Reduces [1] ⟨1, ![n]⟩) (l : FVec Ideal ⟨2, ![n, 2]⟩ .f32) (v : Fin n) (c : Fin 2) :
    hostSoftmax hred hu hb0 hc1 hc2 l (ix2 v c) = GGNN.softmaxRow (fun v c => l (ix2 v c)) v c := by
  have hsum : (∑ c' : Fin 2, hostExps hred hu hb0 hc1 hc2 l (ix2 v c'))
      = ∑ c' : Fin 2, Ideal.exp (l (ix2 v c')
          - max GGNN.ninf (max GGNN.ninf (Finset.univ.sup fun c : Fin 2 => l (ix2 v c)))) :=
    Finset.sum_congr rfl fun c' _ => hostExps_apply hred hu hb0 hc1 hc2 hR l v c'
  show Ideal.div (hostExps hred hu hb0 hc1 hc2 l (ix2 v c))
      (keepCol hc1 hc2 (Host.reduceAdd (hostExps hred hu hb0 hc1 hc2 l) (constant (F := Ideal) S0 .f32 0x00000000#32) hred hu)
        (ix2 v c)) = _
  rw [keepCol_apply, hostRowSum_apply hred hu hR, hostExps_apply hred hu hb0 hc1 hc2 hR, hsum]
  rfl

end Softmax

end HostNet

end
-- ==== Proof.Ref.Tail.lean ====
import proofs.«136422_j72232759984373_2_alg».proof.Proof.Spec
import proofs.«136422_j72232759984373_2_alg».proof.Proof.Ref.TailLib
import proofs.«136422_j72232759984373_2_alg».proof.Proof.RefReadP

/-!
# What follows the second recurrent layer

The reference's operations after the second layer's states: the factor rows sliced off, the message network
(three dense layers), the messages summed into the variables by `row`, the readout network (three dense layers),
the row softmax. Each stretch is the corresponding whole-array spelling applied to the stretch before it, so that,
read entry by entry, the result is `GGNN.tail` of the second layer's states.
-/

noncomputable section

namespace Cert.ReferenceIdeal.RefValue

open Cert.ReferenceIdeal Cert.ReferenceIdeal.Gen Cert.ReferenceIdeal.Read Idealize.ShloMosaic Idealize.ShloMosaic.ValueIdx

section Tail
variable (a0 : (⟨S131072, .f32⟩ : BufTy).Contents (Elt Ideal)) (a2 a3 : (⟨S131072, .i32⟩ : BufTy).Contents (Elt Ideal))
  (a4 : (⟨S2x128x128, .f32⟩ : BufTy).Contents (Elt Ideal)) (a5 a6 : (⟨S384x128, .f32⟩ : BufTy).Contents (Elt Ideal)) (a7 a8 : (⟨S384, .f32⟩ : BufTy).Contents (Elt Ideal))
  (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal))
  (a13 : (⟨S128x64, .f32⟩ : BufTy).Contents (Elt Ideal)) (a14 : (⟨S64, .f32⟩ : BufTy).Contents (Elt Ideal)) (a15 : (⟨S64x128, .f32⟩ : BufTy).Contents (Elt Ideal)) (a16 : (⟨S128, .f32⟩ : BufTy).Contents (Elt Ideal))
  (a17 : (⟨S128x128, .f32⟩ : BufTy).Contents (Elt Ideal)) (a18 : (⟨S128, .f32⟩ : BufTy).Contents (Elt Ideal)) (a19 : (⟨S128x2, .f32⟩ : BufTy).Contents (Elt Ideal)) (a20 : (⟨S2, .f32⟩ : BufTy).Contents (Elt Ideal))

/-- The sliced rows are the factor rows of the second layer's states. -/
theorem facRows_apply (e : Fin 131072) (k : Fin 128) :
    val_main_v117 (F := Ideal) a0 a2 a3 a4 a5 a6 a7 a8 (ix2 e k) = (GGNN.facRows (nV := 8192) (nE := 131072) (fun r k => val_main_v116 (F := Ideal) a0 a2 a3 a4 a5 a6 a7 a8 (ix2 r k))) e k := by
  rw [val_main_v117_apply]
  show val_main_v116 (F := Ideal) a0 a2 a3 a4 a5 a6 a7 a8 (idx_main_v117 (ix2 e k))
    = val_main_v116 (F := Ideal) a0 a2 a3 a4 a5 a6 a7 a8 (ix2 (GGNN.facRow (nV := 8192) (nE := 131072) e) k)
  exact congrArg (val_main_v116 (F := Ideal) a0 a2 a3 a4 a5 a6 a7 a8)
    (funext fun a => Fin.ext (by match a with | ⟨0, _⟩ => rfl | ⟨1, _⟩ => rfl))

/-- The message network on the factor rows. -/
theorem msgs_apply (e : Fin 131072) (c : Fin 64) :
    val_main_v131 (F := Ideal) a0 a2 a3 a4 a5 a6 a7 a8 a9 a10 a11 a12 a13 a14 (ix2 e c)
      = GGNN.mlp3 (GGNN.facRows (nV := 8192) (nE := 131072) (fun r k => val_main_v116 (F := Ideal) a0 a2 a3 a4 a5 a6 a7 a8 (ix2 r k)))
          (fun j k => a9 (ix2 j k)) (fun j => a10 (ix1 j)) (fun j k => a11 (ix2 j k)) (fun j => a12 (ix1 j))
          (fun j k => a13 (ix2 j k)) (fun j => a14 (ix1 j)) e c := by
  have h : val_main_v131 (F := Ideal) a0 a2 a3 a4 a5 a6 a7 a8 a9 a10 a11 a12 a13 a14
      = HostNet.hostMlp3 bcast_S128_S1x128_1 bcast_S1x128_S131072x128_0_1 bcast_S_S131072x128
          bcast_S128_S1x128_1 bcast_S1x128_S131072x128_0_1 bcast_S_S131072x128
          bcast_S64_S1x64_1 bcast_S1x64_S131072x64_0_1
          (val_main_v117 (F := Ideal) a0 a2 a3 a4 a5 a6 a7 a8) a9 a10 a11 a12 a13 a14 := rfl
  have hx : (fun (e : Fin 131072) (k : Fin 128) => val_main_v117 (F := Ideal) a0 a2 a3 a4 a5 a6 a7 a8 (ix2 e k))
      = (GGNN.facRows (nV := 8192) (nE := 131072) (fun r k => val_main_v116 (F := Ideal) a0 a2 a3 a4 a5 a6 a7 a8 (ix2 r k))) :=
    funext fun e => funext fun k => facRows_apply a0 a2 a3 a4 a5 a6 a7 a8 e k
  rw [h, HostNet.hostMlp3_apply, hx]

/-- The messages summed into the variables by `row`. -/
theorem nodeMsgs_apply (rowF : Fin 131072 → Fin 8192) (hrow : ∀ e, (a2 (ix1 e)).toInt = ((rowF e).val : Int))
    (v : Fin 8192) (c : Fin 64) :
    val_main_v134 (F := Ideal) a0 a2 a3 a4 a5 a6 a7 a8 a9 a10 a11 a12 a13 a14 (ix2 v c)
      = GGNN.segRow rowF (fun e k => val_main_v131 (F := Ideal) a0 a2 a3 a4 a5 a6 a7 a8 a9 a10 a11 a12 a13 a14 (ix2 e k)) v c := by
  have h : val_main_v134 (F := Ideal) a0 a2 a3 a4 a5 a6 a7 a8 a9 a10 a11 a12 a13 a14
      = HostNet.hostSegRow scatter_S8192x64_S131072x1_S131072x64_1_0_0_1_wf bcast_S_S8192x64 bcast_S131072_S131072x1_0
          a2 (val_main_v131 (F := Ideal) a0 a2 a3 a4 a5 a6 a7 a8 a9 a10 a11 a12 a13 a14) := rfl
  rw [h, HostNet.hostSegRow_apply _ _ _ a2 _ rowF hrow]

/-- The readout network on the summed messages. -/
theorem logits_apply (v : Fin 8192) (c : Fin 2) :
    val_main_v148 (F := Ideal) a0 a2 a3 a4 a5 a6 a7 a8 a9 a10 a11 a12 a13 a14 a15 a16 a17 a18 a19 a20 (ix2 v c)
      = GGNN.mlp3 (fun v k => val_main_v134 (F := Ideal) a0 a2 a3 a4 a5 a6 a7 a8 a9 a10 a11 a12 a13 a14 (ix2 v k))
          (fun j k => a15 (ix2 j k)) (fun j => a16 (ix1 j)) (fun j k => a17 (ix2 j k)) (fun j => a18 (ix1 j))
          (fun j k => a19 (ix2 j k)) (fun j => a20 (ix1 j)) v c := by
  have h : val_main_v148 (F := Ideal) a0 a2 a3 a4 a5 a6 a7 a8 a9 a10 a11 a12 a13 a14 a15 a16 a17 a18 a19 a20
      = HostNet.hostMlp3 bcast_S128_S1x128_1 bcast_S1x128_S8192x128_0_1 bcast_S_S8192x128
          bcast_S128_S1x128_1 bcast_S1x128_S8192x128_0_1 bcast_S_S8192x128
          bcast_S2_S1x2_1 bcast_S1x2_S8192x2_0_1
          (val_main_v134 (F := Ideal) a0 a2 a3 a4 a5 a6 a7 a8 a9 a10 a11 a12 a13 a14) a15 a16 a17 a18 a19 a20 := rfl
  rw [h, HostNet.hostMlp3_apply]

/-- The row softmax of the readout's two columns. -/
theorem probs_apply (v : Fin 8192) (c : Fin 2) :
    val_main_v159 (F := Ideal) a0 a2 a3 a4 a5 a6 a7 a8 a9 a10 a11 a12 a13 a14 a15 a16 a17 a18 a19 a20 (ix2 v c)
      = GGNN.softmaxRow (fun v c => val_main_v148 (F := Ideal) a0 a2 a3 a4 a5 a6 a7 a8 a9 a10 a11 a12 a13 a14 a15 a16 a17 a18 a19 a20 (ix2 v c)) v c := by
  have hR : (⟨2, ![8192, 2]⟩ : Shape).Reduces [1] ⟨1, ![8192]⟩ := by decide
  have h : val_main_v159 (F := Ideal) a0 a2 a3 a4 a5 a6 a7 a8 a9 a10 a11 a12 a13 a14 a15 a16 a17 a18 a19 a20
      = HostNet.hostSoftmax reducesTo_S8192x2_S8192_d1 h_S_ bcast_S_S8192 bcast_S8192_S8192x1_0 bcast_S8192x1_S8192x2_0_1
          (val_main_v148 (F := Ideal) a0 a2 a3 a4 a5 a6 a7 a8 a9 a10 a11 a12 a13 a14 a15 a16 a17 a18 a19 a20) := rfl
  rw [h, HostNet.hostSoftmax_apply reducesTo_S8192x2_S8192_d1 h_S_ bcast_S_S8192 bcast_S8192_S8192x1_0
    bcast_S8192x1_S8192x2_0_1 hR]

/-- THE TAIL: the program's result, entry by entry, is `GGNN.tail` of the second layer's states, the edge words
    `a2` being the rows `rowF`. -/
theorem tail_apply (rowF : Fin 131072 → Fin 8192) (hrow : ∀ e, (a2 (ix1 e)).toInt = ((rowF e).val : Int))
    (v : Fin 8192) (c : Fin 2) :
    val_main_v159 (F := Ideal) a0 a2 a3 a4 a5 a6 a7 a8 a9 a10 a11 a12 a13 a14 a15 a16 a17 a18 a19 a20 (ix2 v c)
      = GGNN.tail rowF (fun j k => a9 (ix2 j k)) (fun j => a10 (ix1 j)) (fun j k => a11 (ix2 j k)) (fun j => a12 (ix1 j))
          (fun j k => a13 (ix2 j k)) (fun j => a14 (ix1 j))
          (fun j k => a15 (ix2 j k)) (fun j => a16 (ix1 j)) (fun j k => a17 (ix2 j k)) (fun j => a18 (ix1 j))
          (fun j k => a19 (ix2 j k)) (fun j => a20 (ix1 j))
          (fun r k => val_main_v116 (F := Ideal) a0 a2 a3 a4 a5 a6 a7 a8 (ix2 r k)) v c := by
  have e1 : (fun (v : Fin 8192) (c : Fin 2) => val_main_v148 (F := Ideal) a0 a2 a3 a4 a5 a6 a7 a8 a9 a10 a11 a12 a13 a14 a15 a16 a17 a18 a19 a20 (ix2 v c))
      = GGNN.mlp3 (fun v k => val_main_v134 (F := Ideal) a0 a2 a3 a4 a5 a6 a7 a8 a9 a10 a11 a12 a13 a14 (ix2 v k))
          (fun j k => a15 (ix2 j k)) (fun j => a16 (ix1 j)) (fun j k => a17 (ix2 j k)) (fun j => a18 (ix1 j))
          (fun j k => a19 (ix2 j k)) (fun j => a20 (ix1 j)) :=
    funext fun v => funext fun c => logits_apply a0 a2 a3 a4 a5 a6 a7 a8 a9 a10 a11 a12 a13 a14 a15 a16 a17 a18 a19 a20 v c
  have e2 : (fun (v : Fin 8192) (k : Fin 64) => val_main_v134 (F := Ideal) a0 a2 a3 a4 a5 a6 a7 a8 a9 a10 a11 a12 a13 a14 (ix2 v k))
      = GGNN.segRow rowF (fun e k => val_main_v131 (F := Ideal) a0 a2 a3 a4 a5 a6 a7 a8 a9 a10 a11 a12 a13 a14 (ix2 e k)) :=
    funext fun v => funext fun k => nodeMsgs_apply a0 a2 a3 a4 a5 a6 a7 a8 a9 a10 a11 a12 a13 a14 rowF hrow v k
  have e3 : (fun (e : Fin 131072) (k : Fin 64) => val_main_v131 (F := Ideal) a0 a2 a3 a4 a5 a6 a7 a8 a9 a10 a11 a12 a13 a14 (ix2 e k))
      = GGNN.mlp3 (GGNN.facRows (nV := 8192) (nE := 131072) (fun r k => val_main_v116 (F := Ideal) a0 a2 a3 a4 a5 a6 a7 a8 (ix2 r k)))
          (fun j k => a9 (ix2 j k)) (fun j => a10 (ix1 j)) (fun j k => a11 (ix2 j k)) (fun j => a12 (ix1 j))
          (fun j k => a13 (ix2 j k)) (fun j => a14 (ix1 j)) :=
    funext fun e => funext fun k => msgs_apply a0 a2 a3 a4 a5 a6 a7 a8 a9 a10 a11 a12 a13 a14 e k
  rw [probs_apply, e1, e2, e3]
  rfl

end Tail

end Cert.ReferenceIdeal.RefValue

end
-- ==== Proof.RefValue.lean ====
/-
  The reference program's result is the specification's network.

  The program's last stage, entry by entry, is the tail of the second layer's states; each layer's states are the
  recurrent cell of the aggregate over all edges of the states going in; the states going into the first layer are
  the initial states. Substituting one into the next gives `GGNN.netRef`.
-/
import proofs.«136422_j72232759984373_2_alg».proof.Proof.Spec
import proofs.«136422_j72232759984373_2_alg».proof.Proof.RefReadP
import proofs.«136422_j72232759984373_2_alg».proof.Proof.Ref.X0
import proofs.«136422_j72232759984373_2_alg».proof.Proof.Ref.Layers
import proofs.«136422_j72232759984373_2_alg».proof.Proof.Ref.Tail

noncomputable section

namespace Cert.ReferenceIdeal.RefValue

open Cert.ReferenceIdeal Cert.ReferenceIdeal.Read Idealize.ShloMosaic Idealize.ShloMosaic.ValueIdx

/-- THE REFERENCE IS THE NETWORK: under the reading of the edge words `a2`, `a3` as the variables `rowF`, `colF`. -/
theorem ref_eq (a0 : (⟨S131072, .f32⟩ : BufTy).Contents (Elt Ideal)) (a2 a3 : (⟨S131072, .i32⟩ : BufTy).Contents (Elt Ideal))
    (a4 : (⟨S2x128x128, .f32⟩ : BufTy).Contents (Elt Ideal)) (a5 a6 : (⟨S384x128, .f32⟩ : BufTy).Contents (Elt Ideal))
    (a7 a8 : (⟨S384, .f32⟩ : BufTy).Contents (Elt Ideal))
    (a9 : (⟨S128x128, .f32⟩ : BufTy).Contents (Elt Ideal)) (a10 : (⟨S128, .f32⟩ : BufTy).Contents (Elt Ideal))
    (a11 : (⟨S128x128, .f32⟩ : BufTy).Contents (Elt Ideal)) (a12 : (⟨S128, .f32⟩ : BufTy).Contents (Elt Ideal))
    (a13 : (⟨S128x64, .f32⟩ : BufTy).Contents (Elt Ideal)) (a14 : (⟨S64, .f32⟩ : BufTy).Contents (Elt Ideal))
    (a15 : (⟨S64x128, .f32⟩ : BufTy).Contents (Elt Ideal)) (a16 : (⟨S128, .f32⟩ : BufTy).Contents (Elt Ideal))
    (a17 : (⟨S128x128, .f32⟩ : BufTy).Contents (Elt Ideal)) (a18 : (⟨S128, .f32⟩ : BufTy).Contents (Elt Ideal))
    (a19 : (⟨S128x2, .f32⟩ : BufTy).Contents (Elt Ideal)) (a20 : (⟨S2, .f32⟩ : BufTy).Contents (Elt Ideal))
    (rowF colF : Fin 131072 → Fin 8192)
    (hrow : ∀ e : Fin 131072, (a2 (ix1 e)).toInt = ((rowF e).val : Int))
    (hcol : ∀ e : Fin 131072, (a3 (ix1 e)).toInt = ((colF e).val : Int)) (v : Fin 8192) (c : Fin 2) :
    val_main_v159 (F := Ideal) a0 a2 a3 a4 a5 a6 a7 a8 a9 a10 a11 a12 a13 a14 a15 a16 a17 a18 a19 a20 (ix2 v c)
      = GGNN.netRef (nV := 8192) (nE := 131072) (fun e => a0 (ix1 e)) rowF colF
          (fun j k => a4 (ix3 0 j k)) (fun j k => a4 (ix3 1 j k))
          (fun k j => a5 (ix2 j k)) (fun k j => a6 (ix2 j k)) (fun j => a7 (ix1 j)) (fun j => a8 (ix1 j))
          (fun j k => a9 (ix2 j k)) (fun j => a10 (ix1 j)) (fun j k => a11 (ix2 j k)) (fun j => a12 (ix1 j))
          (fun j k => a13 (ix2 j k)) (fun j => a14 (ix1 j))
          (fun j k => a15 (ix2 j k)) (fun j => a16 (ix1 j)) (fun j k => a17 (ix2 j k)) (fun j => a18 (ix1 j))
          (fun j k => a19 (ix2 j k)) (fun j => a20 (ix1 j)) v c := by
  have h0 : (fun (r : Fin (8192 + 131072)) (k : Fin 128) => val_main_v9 (F := Ideal) a0 (ix2 r k))
      = GGNN.x0 (nV := 8192) (nE := 131072) (fun e => a0 (ix1 e)) :=
    funext fun r => funext fun k => x0_apply a0 r k
  have h1 : (fun (r : Fin (8192 + 131072)) (k : Fin 128) => val_main_v65 (F := Ideal) a0 a2 a3 a4 a5 a6 a7 a8 (ix2 r k))
      = GGNN.gru (GGNN.aggAll (nV := 8192) (nE := 131072) rowF colF
            (GGNN.mm (fun r k => val_main_v9 (F := Ideal) a0 (ix2 r k)) (fun j k => a4 (ix3 0 j k))))
          (fun r k => val_main_v9 (F := Ideal) a0 (ix2 r k)) (fun k j => a5 (ix2 j k)) (fun k j => a6 (ix2 j k)) (fun j => a7 (ix1 j)) (fun j => a8 (ix1 j)) :=
    funext fun r => funext fun k => layer1 a0 a2 a3 a4 a5 a6 a7 a8 rowF colF hrow hcol r k
  have h2 : (fun (r : Fin (8192 + 131072)) (k : Fin 128) => val_main_v116 (F := Ideal) a0 a2 a3 a4 a5 a6 a7 a8 (ix2 r k))
      = GGNN.gru (GGNN.aggAll (nV := 8192) (nE := 131072) rowF colF
            (GGNN.mm (fun r k => val_main_v65 (F := Ideal) a0 a2 a3 a4 a5 a6 a7 a8 (ix2 r k)) (fun j k => a4 (ix3 1 j k))))
          (fun r k => val_main_v65 (F := Ideal) a0 a2 a3 a4 a5 a6 a7 a8 (ix2 r k)) (fun k j => a5 (ix2 j k)) (fun k j => a6 (ix2 j k)) (fun j => a7 (ix1 j)) (fun j => a8 (ix1 j)) :=
    funext fun r => funext fun k => layer2 a0 a2 a3 a4 a5 a6 a7 a8 rowF colF hrow hcol r k
  rw [tail_apply a0 a2 a3 a4 a5 a6 a7 a8 a9 a10 a11 a12 a13 a14 a15 a16 a17 a18 a19 a20 rowF hrow v c, h2, h1, h0]
  rfl

end Cert.ReferenceIdeal.RefValue

end
-- ==== Proof.PreRange.lean ====
/-
  The integer part of the precondition, read back: the two index arrays of the claim's precondition
  (arguments 2 and 3, 131072 signed 32-bit words each) hold node numbers, every word in [0, 8192).
  The precondition is one chain of conjunctions of one all-elements test per argument; only its last two
  factors are read here. Nothing depends on the float instance.
-/
import proofs.«136422_j72232759984373_2_alg».proof.Pre_finite_inputs
import Idealize.ShloMosaic.Lib.ReduceAll
import Idealize.ShloMosaic.Lib.ValueIdx

noncomputable section

namespace Cert.Proof.PreRange

open Idealize.ShloMosaic Idealize.ShloMosaic.ValueIdx
open Cert.Pre_finite_inputs

/-- The scalar shape has one index. -/
instance subsingleton_scalar_idx : Subsingleton S_.Idx := ⟨fun a b => funext fun d => d.elim0⟩

/-- One word that tests "at least 0" and "below 8192", both signed, is an integer in [0, 8192). -/
theorem word_range {x : BitVec 32} (h0 : IntOp.cmpi .sge x 0#32 = 1#1) (h1 : IntOp.cmpi .slt x 8192#32 = 1#1) :
    0 ≤ x.toInt ∧ x.toInt < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  exact ⟨h0, h1⟩

/-- An all-elements test of "(x ≥ z) and (x < k)" against the constant arrays z = 0 and k = 8192 that came out
    one: every word of x is an integer in [0, 8192). -/
theorem all_range {ax : List (Fin S131072.rank)} (x z k : IVec S131072 32) (hz : ∀ i, z i = 0#32)
    (hk : ∀ i, k i = 8192#32) (init : IVec S_ 1) (hr : S131072.ReducesTo ax S_) (hu : 0 < S_.numel)
    (h : Host.reduce IntOp.andi (andi (cmpi .sge x z) (cmpi .slt x k)) init hr hu ix0 = 1#1) :
    ∀ e : Fin 131072, 0 ≤ (x (ix1 e)).toInt ∧ (x (ix1 e)).toInt < 8192 := by
  intro e
  have h1 : IntOp.andi (IntOp.cmpi .sge (x (ix1 e)) (z (ix1 e))) (IntOp.cmpi .slt (x (ix1 e)) (k (ix1 e))) = 1#1 :=
    Host.reduce_andi_all _ init hr hu ix0 h (ix1 e)
  obtain ⟨ha, hb⟩ := IntOp.andi_eq_one.1 h1
  rw [hz] at ha
  rw [hk] at hb
  exact word_range ha hb

variable [Cert.Pre_finite_inputs.Facts]
variable {F : FTy → Type} [FloatOps F]

/-- THE INTEGER PART OF THE PRECONDITION: when the precondition's function of the argument arrays is the all-ones
    scalar, every word of argument 2 and every word of argument 3 is an integer in [0, 8192). -/
theorem range_of_pre
    (a0 : FVec F S131072 .f32) (a1 : FVec F S8192 .f32) (a2 : IVec S131072 32) (a3 : IVec S131072 32)
    (a4 : FVec F S2x128x128 .f32) (a5 : FVec F S384x128 .f32) (a6 : FVec F S384x128 .f32) (a7 : FVec F S384 .f32)
    (a8 : FVec F S384 .f32) (a9 : FVec F S128x128 .f32) (a10 : FVec F S128 .f32) (a11 : FVec F S128x128 .f32)
    (a12 : FVec F S128 .f32) (a13 : FVec F S128x64 .f32) (a14 : FVec F S64 .f32) (a15 : FVec F S64x128 .f32)
    (a16 : FVec F S128 .f32) (a17 : FVec F S128x128 .f32) (a18 : FVec F S128 .f32) (a19 : FVec F S128x2 .f32)
    (a20 : FVec F S2 .f32)
    (h : Cert.Pre_finite_inputs.fn (F := F) a0 a1 a2 a3 a4 a5 a6 a7 a8 a9 a10 a11 a12 a13 a14 a15 a16 a17 a18 a19 a20
      = (fun _ => 1#1)) :
    (∀ e : Fin 131072, 0 ≤ (a2 (ValueIdx.ix1 e)).toInt ∧ (a2 (ValueIdx.ix1 e)).toInt < 8192)
    ∧ (∀ e : Fin 131072, 0 ≤ (a3 (ValueIdx.ix1 e)).toInt ∧ (a3 (ValueIdx.ix1 e)).toInt < 8192) := by
  have h0 := congrFun h ix0
  dsimp only [fn, fn_part1, fn_part2, fn_part3, fn_part4, fn_part5, fn_part6] at h0
  -- the outermost conjunction: everything before, and the test of argument 3
  obtain ⟨h100, h106⟩ := IntOp.andi_eq_one.1 h0
  -- the next one: everything before, and the test of argument 2
  obtain ⟨-, h99⟩ := IntOp.andi_eq_one.1 h100
  exact ⟨all_range a2 _ _ (fun _ => rfl) (fun _ => rfl) _ _ _ h99,
    all_range a3 _ _ (fun _ => rfl) (fun _ => rfl) _ _ _ h106⟩

/-- The node number a word of an index array names, as an element of Fin 8192, given that every word is in range. -/
def rowOf (a : IVec S131072 32)
    (h : ∀ e : Fin 131072, 0 ≤ (a (ix1 e)).toInt ∧ (a (ix1 e)).toInt < 8192) : Fin 131072 → Fin 8192 :=
  fun e => ⟨(a (ix1 e)).toInt.toNat, by have := h e; omega⟩

/-- The word, read signed, is that node number. -/
theorem rowOf_spec (a : IVec S131072 32)
    (h : ∀ e : Fin 131072, 0 ≤ (a (ix1 e)).toInt ∧ (a (ix1 e)).toInt < 8192) (e : Fin 131072) :
    (a (ValueIdx.ix1 e)).toInt = ((rowOf a h e).val : Int) := by
  have := h e
  show (a (ix1 e)).toInt = (((a (ix1 e)).toInt.toNat : Nat) : Int)
  omega

end Cert.Proof.PreRange

end
-- ==== Proof.GraphLaw.lean ====
/-
  The graph law: the aggregate over the four concatenated edge lists is the aggregate computed by node kind, and
  the first layer's messages are a closed form.

  Position `e + nE·q` of the concatenated lists is entry `e` of list `q` (factor→row, row→factor, factor→col,
  col→factor), so the sum over the positions whose destination is a node splits into four sums over the edges. A
  variable node is the destination only in lists 0 and 2 (from the factors whose `row`, resp. `col`, it is); a
  factor node only in lists 1 and 3, once each (from its two variables). Sums of extended reals are commutative
  and associative, so nothing here needs finiteness. The initial states are zero on the variable rows and
  `1, jv e, 0, …` on factor row `e`, so their product with a matrix is zero, resp. row 0 plus `jv e` times row 1.
-/
import proofs.«136422_j72232759984373_2_alg».proof.Proof.Spec
import Mathlib.Algebra.BigOperators.Fin
import Mathlib.Logic.Equiv.Fin.Basic

open scoped BigOperators

noncomputable section

namespace GGNN

open Idealize.ShloMosaic

variable {nV nE : ℕ}

/-! ## Rows of the node table -/

theorem varRow_eq_iff (v : Fin nV) (r : Fin (nV + nE)) (h : r.val < nV) :
    varRow (nE := nE) v = r ↔ v = ⟨r.val, h⟩ := by
  constructor
  · intro e
    have hv : v.val = r.val := congrArg Fin.val e
    exact Fin.ext hv
  · intro e
    subst e
    exact Fin.ext rfl

theorem varRow_ne (v : Fin nV) (r : Fin (nV + nE)) (h : ¬ r.val < nV) : varRow (nE := nE) v ≠ r := by
  intro e
  have hv : v.val = r.val := congrArg Fin.val e
  have := v.isLt
  omega

theorem facRow_ne (e : Fin nE) (r : Fin (nV + nE)) (h : r.val < nV) : facRow (nV := nV) e ≠ r := by
  intro e'
  have hv : nV + e.val = r.val := congrArg Fin.val e'
  omega

theorem facRow_eq_iff (e : Fin nE) (r : Fin (nV + nE)) (h : ¬ r.val < nV) :
    facRow (nV := nV) e = r ↔ e = ⟨r.val - nV, by have := r.isLt; omega⟩ := by
  constructor
  · intro e'
    have hv : nV + e.val = r.val := congrArg Fin.val e'
    exact Fin.ext (by show e.val = r.val - nV; omega)
  · intro e'
    subst e'
    exact Fin.ext (by show nV + (r.val - nV) = r.val; omega)

/-! ## The four edge lists, block by block: position `e + nE · q` is entry `e` of list `q` -/

section Blocks

variable (row col : Fin nE → Fin nV)

theorem fpe_val0 (e : Fin nE) : ((finProdFinEquiv ((0 : Fin 4), e) : Fin (4 * nE)) : ℕ) = e.val + nE * 0 := rfl
theorem fpe_val1 (e : Fin nE) : ((finProdFinEquiv ((1 : Fin 4), e) : Fin (4 * nE)) : ℕ) = e.val + nE * 1 := rfl
theorem fpe_val2 (e : Fin nE) : ((finProdFinEquiv ((2 : Fin 4), e) : Fin (4 * nE)) : ℕ) = e.val + nE * 2 := rfl
theorem fpe_val3 (e : Fin nE) : ((finProdFinEquiv ((3 : Fin 4), e) : Fin (4 * nE)) : ℕ) = e.val + nE * 3 := rfl

theorem src_b0 (e : Fin nE) : src row col (finProdFinEquiv ((0 : Fin 4), e)) = facRow e := by
  have hv := fpe_val0 e
  have he := e.isLt
  unfold src
  rw [dif_pos (by omega)]
  exact congrArg facRow (Fin.ext (by show _ = e.val; omega))

theorem dst_b0 (e : Fin nE) : dst row col (finProdFinEquiv ((0 : Fin 4), e)) = varRow (row e) := by
  have hv := fpe_val0 e
  have he := e.isLt
  unfold dst
  rw [dif_pos (by omega)]
  exact congrArg (fun x => varRow (row x)) (Fin.ext (by show _ = e.val; omega))

theorem src_b1 (e : Fin nE) : src row col (finProdFinEquiv ((1 : Fin 4), e)) = varRow (row e) := by
  have hv := fpe_val1 e
  have he := e.isLt
  unfold src
  rw [dif_neg (by omega), dif_pos (by omega)]
  exact congrArg (fun x => varRow (row x)) (Fin.ext (by show _ - nE = e.val; omega))

theorem dst_b1 (e : Fin nE) : dst row col (finProdFinEquiv ((1 : Fin 4), e)) = facRow e := by
  have hv := fpe_val1 e
  have he := e.isLt
  unfold dst
  rw [dif_neg (by omega), dif_pos (by omega)]
  exact congrArg facRow (Fin.ext (by show _ - nE = e.val; omega))

theorem src_b2 (e : Fin nE) : src row col (finProdFinEquiv ((2 : Fin 4), e)) = facRow e := by
  have hv := fpe_val2 e
  have he := e.isLt
  unfold src
  rw [dif_neg (by omega), dif_neg (by omega), dif_pos (by omega)]
  exact congrArg facRow (Fin.ext (by show _ - 2 * nE = e.val; omega))

theorem dst_b2 (e : Fin nE) : dst row col (finProdFinEquiv ((2 : Fin 4), e)) = varRow (col e) := by
  have hv := fpe_val2 e
  have he := e.isLt
  unfold dst
  rw [dif_neg (by omega), dif_neg (by omega), dif_pos (by omega)]
  exact congrArg (fun x => varRow (col x)) (Fin.ext (by show _ - 2 * nE = e.val; omega))

theorem src_b3 (e : Fin nE) : src row col (finProdFinEquiv ((3 : Fin 4), e)) = varRow (col e) := by
  have hv := fpe_val3 e
  have he := e.isLt
  unfold src
  rw [dif_neg (by omega), dif_neg (by omega), dif_neg (by omega)]
  exact congrArg (fun x => varRow (col x)) (Fin.ext (by show _ - 3 * nE = e.val; omega))

theorem dst_b3 (e : Fin nE) : dst row col (finProdFinEquiv ((3 : Fin 4), e)) = facRow e := by
  have hv := fpe_val3 e
  have he := e.isLt
  unfold dst
  rw [dif_neg (by omega), dif_neg (by omega), dif_neg (by omega)]
  exact congrArg facRow (Fin.ext (by show _ - 3 * nE = e.val; omega))

end Blocks

/-! ## The aggregate over all edges is the aggregate computed by node kind -/

/-- Summing over the concatenated edge lists is summing over each list: a variable node receives from the factors
    whose `row` or `col` it is, a factor node from its two variables. (Addition of extended reals is commutative
    and associative, so no finiteness is needed; `zero` is the float word of 0.) -/
theorem aggAll_eq_aggSplit (hz : (zero : EReal) = 0) (row col : Fin nE → Fin nV) (msg : Mat (nV + nE) 128) :
    aggAll row col msg = aggSplit row col msg := by
  funext r k
  have hsum : (∑ p ∈ Finset.univ.filter (fun p : Fin (4 * nE) => dst row col p = r), msg (src row col p) k)
      = (∑ e : Fin nE, if varRow (row e) = r then msg (facRow e) k else 0)
        + (∑ e : Fin nE, if facRow e = r then msg (varRow (row e)) k else 0)
        + (∑ e : Fin nE, if varRow (col e) = r then msg (facRow e) k else 0)
        + (∑ e : Fin nE, if facRow e = r then msg (varRow (col e)) k else 0) := by
    rw [Finset.sum_filter, ← Equiv.sum_comp finProdFinEquiv, Fintype.sum_prod_type, Fin.sum_univ_four]
    simp only [src_b0, src_b1, src_b2, src_b3, dst_b0, dst_b1, dst_b2, dst_b3]
  unfold aggAll aggSplit
  rw [hsum, hz]
  by_cases h : r.val < nV
  · rw [dif_pos h]
    simp only [varRow_eq_iff _ r h, facRow_ne _ r h, if_false, Finset.sum_const_zero, add_zero, zero_add,
      Finset.sum_filter]
  · rw [dif_neg h]
    simp only [varRow_ne _ r h, facRow_eq_iff _ r h, if_false, Finset.sum_const_zero, add_zero, zero_add,
      Finset.sum_ite_eq', Finset.mem_univ, if_true]

/-! ## The first layer's messages in closed form -/

/-- A factor row of the initial states times a matrix: only columns 0 and 1 are non-zero. -/
theorem mm_x0_facRow (ho : (one : EReal) = 1) (hz : (zero : EReal) = 0) (jv : Fin nE → EReal) (W : Mat 128 128)
    (e : Fin nE) (k : Fin 128) :
    mm (x0 (nV := nV) jv) W (facRow e) k = msg0 jv W e k := by
  have hnot : ¬ (facRow (nV := nV) e).val < nV := by show ¬ nV + e.val < nV; omega
  have hje : (⟨(facRow (nV := nV) e).val - nV, by have := (facRow (nV := nV) e).isLt; omega⟩ : Fin nE) = e :=
    Fin.ext (by show nV + e.val - nV = e.val; omega)
  unfold mm msg0 x0
  simp only [dif_neg hnot, hje]
  rw [Fin.sum_univ_succ, Fin.sum_univ_succ]
  have htail : ∀ j : Fin 126, (if (j.succ.succ : Fin 128).val = 0 then one else
      if (j.succ.succ : Fin 128).val = 1 then jv e else zero) * W j.succ.succ k = 0 := by
    intro j
    have h0 : ¬ (j.succ.succ : Fin 128).val = 0 := by simp
    have h1 : ¬ (j.succ.succ : Fin 128).val = 1 := by simp
    rw [if_neg h0, if_neg h1, hz, zero_mul]
  rw [Finset.sum_congr rfl (fun j _ => htail j), Finset.sum_const_zero, add_zero]
  simp [ho]

/-- A variable row of the initial states times a matrix is zero. -/
theorem mm_x0_varRow (hz : (zero : EReal) = 0) (jv : Fin nE → EReal) (W : Mat 128 128) (v : Fin nV) (k : Fin 128) :
    mm (x0 (nV := nV) jv) W (varRow v) k = 0 := by
  have hlt : (varRow (nE := nE) v).val < nV := v.isLt
  unfold mm x0
  simp only [dif_pos hlt, hz, zero_mul, Finset.sum_const_zero]

/-- The first aggregate: over all edges of the initial messages it is the closed form. -/
theorem aggAll_x0 (ho : (one : EReal) = 1) (hz : (zero : EReal) = 0) (jv : Fin nE → EReal) (row col : Fin nE → Fin nV)
    (W : Mat 128 128) : aggAll row col (mm (x0 jv) W) = agg0 jv row col W := by
  rw [aggAll_eq_aggSplit hz]
  funext r k
  unfold aggSplit agg0
  by_cases h : r.val < nV
  · rw [dif_pos h, dif_pos h]
    simp only [mm_x0_facRow ho hz]
  · rw [dif_neg h, dif_neg h]
    simp only [mm_x0_varRow hz, add_zero, hz]

/-! ## The two networks agree -/

theorem netKer_eq_netRef (ho : (one : EReal) = 1) (hz : (zero : EReal) = 0)
    (jv : Fin nE → EReal) (row col : Fin nE → Fin nV)
    (W0 W1 : Mat 128 128) (wi wh : Mat 128 384) (bi bh : Fin 384 → EReal)
    (mW1 : Mat 128 128) (mb1 : Fin 128 → EReal) (mW2 : Mat 128 128) (mb2 : Fin 128 → EReal) (mW3 : Mat 128 64) (mb3 : Fin 64 → EReal)
    (rW1 : Mat 64 128) (rb1 : Fin 128 → EReal) (rW2 : Mat 128 128) (rb2 : Fin 128 → EReal) (rW3 : Mat 128 2) (rb3 : Fin 2 → EReal) :
    netKer jv row col W0 W1 wi wh bi bh mW1 mb1 mW2 mb2 mW3 mb3 rW1 rb1 rW2 rb2 rW3 rb3
      = netRef jv row col W0 W1 wi wh bi bh mW1 mb1 mW2 mb2 mW3 mb3 rW1 rb1 rW2 rb2 rW3 rb3 := by
  unfold netKer netRef
  simp only [aggAll_x0 ho hz, aggAll_eq_aggSplit hz]

end GGNN

end
-- ==== Proof.Algebraic.lean ====
/-
  The value claim. At the extended reals the kernel program ends with its result array at the network `GGNN.netKer`
  of the argument arrays (the five kernels' values and the host stretches between them, composed along the run), the
  reference program with its result at `GGNN.netRef` of arguments that agree, and the two networks are one function
  (the graph law: the aggregate over the four concatenated edge lists is the aggregate computed by node kind, and the
  first layer's messages are a closed form). The precondition is used for one thing only: every entry of `row` and
  `col` is the number of a variable node, `0 ≤ · < 8192`; no step needs the float inputs to be finite.
-/
import proofs.«136422_j72232759984373_2_alg».proof.Defs
import proofs.«136422_j72232759984373_2_alg».proof.Proof.KI.Assemble
import proofs.«136422_j72232759984373_2_alg».proof.Proof.KI.KernelValue
import proofs.«136422_j72232759984373_2_alg».proof.Proof.RefRunP
import proofs.«136422_j72232759984373_2_alg».proof.Proof.RefReadP
import proofs.«136422_j72232759984373_2_alg».proof.Proof.Ref.RunVal
import proofs.«136422_j72232759984373_2_alg».proof.Proof.RefValue
import proofs.«136422_j72232759984373_2_alg».proof.Proof.PreRange
import proofs.«136422_j72232759984373_2_alg».proof.Proof.GraphLaw
import proofs.«136422_j72232759984373_2_alg».proof.Proof.Gen.Pre_finite_inputs
import Idealize.ShloMosaic.Lib.IdealHost
import Idealize.ShloMosaic.PureOps.Ideal.Laws

noncomputable section

open Idealize.ShloMosaic Idealize.ShloMosaic.TcCoe Idealize.SL.Sem Idealize.ShloMosaic.ValueIdx

namespace Cert.Proof.Alg

/-- The float words of one and zero are the reals one and zero. -/
theorem one_eq : (GGNN.one : EReal) = 1 := by unfold GGNN.one; exact Ideal.ofBits_one_f32
theorem zero_eq : (GGNN.zero : EReal) = 0 := by unfold GGNN.zero; exact Ideal.ofBits_zero_f32

theorem algebraic : Cert.algebraic_KernelIdeal_ReferenceIdeal := by
  intro m ρ m' ρ' hpre hagree
  refine ⟨fun c => Cert.KernelIdeal.Hand.Asm.W10 m c (Proc.devRef .tc Cert.KernelIdeal.main_v72), ?_, ?_⟩
  · exact Cert.KernelIdeal.Hand.Asm.run_result m ρ
  · refine (θ_run Cert.ReferenceIdeal.defs _ _).mono (fun r h c => ⟨(h c).1.trans ?_, (h c).2⟩)
      (Cert.ReferenceIdeal.Value.run (F := Ideal) m' ρ')
    obtain ⟨hrow, hcol⟩ := Cert.Proof.PreRange.range_of_pre _ _ _ _ _ _ _ _ _ _ _ _ _ _ _ _ _ _ _ _ _ (hpre c)
    obtain ⟨e0, e1, e2, e3, e4, e5, e6, e7, e8, e9, e10, e11, e12, e13, e14, e15, e16, e17, e18, e19, e20⟩ := hagree c
    show (Cert.ReferenceIdeal.Value.res_main_v159 m' c : Cert.ReferenceIdeal.S8192x2.Idx → EReal)
      = (Cert.KernelIdeal.Hand.Asm.W10 m c (Proc.devRef .tc Cert.KernelIdeal.main_v72) : Cert.ReferenceIdeal.S8192x2.Idx → EReal)
    funext i
    obtain ⟨v, cc, rfl⟩ : ∃ (v : Fin 8192) (cc : Fin 2), i = ix2 v cc := ⟨i 0, i 1, eq_ix2 i⟩
    rw [Cert.ReferenceIdeal.RunVal.res_eq_val, e0, e2, e3, e4, e5, e6, e7, e8, e9, e10, e11, e12, e13, e14, e15, e16,
      e17, e18, e19, e20]
    rw [Cert.ReferenceIdeal.RefValue.ref_eq _ _ _ _ _ _ _ _ _ _ _ _ _ _ _ _ _ _ _ _
      (Cert.Proof.PreRange.rowOf _ hrow) (Cert.Proof.PreRange.rowOf _ hcol)
      (Cert.Proof.PreRange.rowOf_spec _ hrow) (Cert.Proof.PreRange.rowOf_spec _ hcol) v cc]
    rw [← GGNN.netKer_eq_netRef one_eq zero_eq]
    exact (Cert.KernelIdeal.KernelValue.kernel_eq m c _ _ (Cert.Proof.PreRange.rowOf_spec _ hrow)
      (Cert.Proof.PreRange.rowOf_spec _ hcol) v cc).symm

end Cert.Proof.Alg

end
-- ==== Proof.lean ====
/-
  The certificate's claim: the three frames, the idealization's sanction and the value claim.

  The kernel program is five pallas kernels (the first layer's closed-form messages, two gated recurrent updates, the
  message network, the readout with its softmax) among five stretches of host operations. Its frame, at the word
  level and at the extended reals, is the run over those ten segments: each kernel's body at every grid point loads
  whole blocks, computes, and stores whole blocks, so its pipeline's invariant is the plain one, and no argument array
  is written by any segment. The reference program is host operations only; its frame is its run with the result
  dropped. The ideal pass rewrote nothing, so the sanction is trivial. The value claim is `Alg.algebraic`.
-/
import proofs.«136422_j72232759984373_2_alg».proof.Defs
import proofs.«136422_j72232759984373_2_alg».proof.Proof.Gen.Kernel
import proofs.«136422_j72232759984373_2_alg».proof.Proof.Gen.Kernel.Skeleton
import proofs.«136422_j72232759984373_2_alg».proof.Proof.Gen.Kernel.Launch
import proofs.«136422_j72232759984373_2_alg».proof.Proof.Gen.Kernel.Regions
import proofs.«136422_j72232759984373_2_alg».proof.Proof.Gen.Kernel.Points
import proofs.«136422_j72232759984373_2_alg».proof.Proof.Gen.KernelIdeal
import proofs.«136422_j72232759984373_2_alg».proof.Proof.Gen.KernelIdeal.Skeleton
import proofs.«136422_j72232759984373_2_alg».proof.Proof.Gen.KernelIdeal.Launch
import proofs.«136422_j72232759984373_2_alg».proof.Proof.Gen.KernelIdeal.Regions
import proofs.«136422_j72232759984373_2_alg».proof.Proof.Gen.KernelIdeal.Points
import proofs.«136422_j72232759984373_2_alg».proof.Proof.Gen.ReferenceIdeal
import proofs.«136422_j72232759984373_2_alg».proof.Proof.Gen.Pre_finite_inputs
import proofs.«136422_j72232759984373_2_alg».proof.Proof.K.Assemble
import proofs.«136422_j72232759984373_2_alg».proof.Proof.KI.Assemble
import proofs.«136422_j72232759984373_2_alg».proof.Proof.RefFrame
import proofs.«136422_j72232759984373_2_alg».proof.Proof.Algebraic
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Hand.Asm.frame m ρ
theorem frame_ki : Cert.frame_KernelIdeal := fun m ρ _ => Cert.KernelIdeal.Hand.Asm.frame m ρ

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, Cert.Proof.Alg.algebraic⟩

end Cert.Proof

end
